-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  IdealRules.truncf_extf.Statement Cert.KernelIdeal.S4096x512 .f32 .bf16
  ∧ IdealRules.truncf_extf.Statement Cert.KernelIdeal.S4096x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x5000 : Shape := ⟨2, ![16384, 5000]⟩
abbrev S16384x16384 : Shape := ⟨2, ![16384, 16384]⟩
abbrev S2000x256 : Shape := ⟨2, ![2000, 256]⟩
abbrev S256 : Shape := ⟨1, ![256]⟩
abbrev S1000x256 : Shape := ⟨2, ![1000, 256]⟩
abbrev S768x256 : Shape := ⟨2, ![768, 256]⟩
abbrev S256x32 : Shape := ⟨2, ![256, 32]⟩
abbrev S32 : Shape := ⟨1, ![32]⟩
abbrev S_ : Shape := ⟨0, ![]⟩

class Facts : Prop where
  bcast_S_S16384x5000 : S_.BroadcastsInDim S16384x5000 (![] : Fin 0 → Fin S16384x5000.rank)
  reducesTo_S16384x5000_S_d0_1 : S16384x5000.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S2000x256 : S_.BroadcastsInDim S2000x256 (![] : Fin 0 → Fin S2000x256.rank)
  reducesTo_S2000x256_S_d0_1 : S2000x256.ReducesTo [0, 1] S_
  bcast_S_S256 : S_.BroadcastsInDim S256 (![] : Fin 0 → Fin S256.rank)
  reducesTo_S256_S_d0 : S256.ReducesTo [0] S_
  bcast_S_S1000x256 : S_.BroadcastsInDim S1000x256 (![] : Fin 0 → Fin S1000x256.rank)
  reducesTo_S1000x256_S_d0_1 : S1000x256.ReducesTo [0, 1] S_
  bcast_S_S768x256 : S_.BroadcastsInDim S768x256 (![] : Fin 0 → Fin S768x256.rank)
  reducesTo_S768x256_S_d0_1 : S768x256.ReducesTo [0, 1] S_
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_arg11 : FVec F S32 .f32) (main_v48 : IVec S_ 1) (main_v49 : FVec F S256x32 .f32) (main_v50 : FVec F S256x32 .f32) : IVec S_ 1 :=
  let main_v51 : IVec S256x32 1 := cmpf .olt main_v49 main_v50
  let main_c_19 : IVec S_ 1 := constantI S_ 1 1#1
  let main_v52 : IVec S_ 1 := (fun x v => Host.reduce IntOp.andi x v reducesTo_S256x32_S_d0_1 h_S_) main_v51 main_c_19
  let main_v53 : IVec S_ 1 := andi main_v48 main_v52
  let main_v54 : FVec F S32 .f32 := Host.absf main_arg11
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  main_v58

def fn_part2 {F : FTy → Type} [FloatOps F] (main_arg7 : FVec F S256 .f32) (main_arg8 : FVec F S768x256 .f32) (main_arg9 : FVec F S256 .f32) (main_arg10 : FVec F S256x32 .f32) (main_arg11 : FVec F S32 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S768x256 .f32 := Host.absf main_arg8
  let main_cst_14 : FVec F S_ .f32 := constant S_ .f32 0x7F800000#32
  let main_v40 : FVec F S768x256 .f32 := broadcastInDim S768x256 ![] bcast_S_S768x256 main_cst_14
  let main_v41 : IVec S768x256 1 := cmpf .olt main_v39 main_v40
  let main_c_15 : IVec S_ 1 := constantI S_ 1 1#1
  let main_v42 : IVec S_ 1 := (fun x v => Host.reduce IntOp.andi x v reducesTo_S768x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x32 .f32 := Host.absf main_arg10
  let main_cst_18 : FVec F S_ .f32 := constant S_ .f32 0x7F800000#32
  let main_v50 : FVec F S256x32 .f32 := broadcastInDim S256x32 ![] bcast_S_S256x32 main_cst_18
  fn_part3 (F := F) main_arg11 main_v48 main_v49 main_v50

def fn_part1 {F : FTy → Type} [FloatOps F] (main_arg4 : FVec F S2000x256 .f32) (main_arg5 : FVec F S256 .f32) (main_arg6 : FVec F S1000x256 .f32) (main_arg7 : FVec F S256 .f32) (main_arg8 : FVec F S768x256 .f32) (main_arg9 : FVec F S256 .f32) (main_arg10 : FVec F S256x32 .f32) (main_arg11 : FVec F S32 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S2000x256 .f32 := Host.absf main_arg4
  let main_cst_6 : FVec F S_ .f32 := constant S_ .f32 0x7F800000#32
  let main_v20 : FVec F S2000x256 .f32 := broadcastInDim S2000x256 ![] bcast_S_S2000x256 main_cst_6
  let main_v21 : IVec S2000x256 1 := cmpf .olt main_v19 main_v20
  let main_c_7 : IVec S_ 1 := constantI S_ 1 1#1
  let main_v22 : IVec S_ 1 := (fun x v => Host.reduce IntOp.andi x v reducesTo_S2000x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S1000x256 .f32 := Host.absf main_arg6
  let main_cst_10 : FVec F S_ .f32 := constant S_ .f32 0x7F800000#32
  let main_v30 : FVec F S1000x256 .f32 := broadcastInDim S1000x256 ![] bcast_S_S1000x256 main_cst_10
  let main_v31 : IVec S1000x256 1 := cmpf .olt main_v29 main_v30
  let main_c_11 : IVec S_ 1 := constantI S_ 1 1#1
  let main_v32 : IVec S_ 1 := (fun x v => Host.reduce IntOp.andi x v reducesTo_S1000x256_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S16384x5000 .f32) (main_arg1 : FVec F S16384x16384 .f32) (main_arg2 : FVec F S2000x256 .f32) (main_arg3 : FVec F S256 .f32) (main_arg4 : FVec F S2000x256 .f32) (main_arg5 : FVec F S256 .f32) (main_arg6 : FVec F S1000x256 .f32) (main_arg7 : FVec F S256 .f32) (main_arg8 : FVec F S768x256 .f32) (main_arg9 : FVec F S256 .f32) (main_arg10 : FVec F S256x32 .f32) (main_arg11 : FVec F S32 .f32) : IVec S_ 1 :=
  let main_v0 : FVec F S16384x5000 .f32 := Host.absf main_arg0
  let main_cst : FVec F S_ .f32 := constant S_ .f32 0x7F800000#32
  let main_v1 : FVec F S16384x5000 .f32 := broadcastInDim S16384x5000 ![] bcast_S_S16384x5000 main_cst
  let main_v2 : IVec S16384x5000 1 := cmpf .olt main_v0 main_v1
  let main_c : IVec S_ 1 := constantI S_ 1 1#1
  let main_v3 : IVec S_ 1 := (fun x v => Host.reduce IntOp.andi x v reducesTo_S16384x5000_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S2000x256 .f32 := Host.absf main_arg2
  let main_cst_2 : FVec F S_ .f32 := constant S_ .f32 0x7F800000#32
  let main_v10 : FVec F S2000x256 .f32 := broadcastInDim S2000x256 ![] bcast_S_S2000x256 main_cst_2
  let main_v11 : IVec S2000x256 1 := cmpf .olt main_v9 main_v10
  let main_c_3 : IVec S_ 1 := constantI S_ 1 1#1
  let main_v12 : IVec S_ 1 := (fun x v => Host.reduce IntOp.andi x v reducesTo_S2000x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_v13 main_v16
-- ==== Kernel.lean ====
abbrev S16384x5000 : Shape := ⟨2, ![16384, 5000]⟩
abbrev S16384x16384 : Shape := ⟨2, ![16384, 16384]⟩
abbrev S2000x256 : Shape := ⟨2, ![2000, 256]⟩
abbrev S256 : Shape := ⟨1, ![256]⟩
abbrev S1000x256 : Shape := ⟨2, ![1000, 256]⟩
abbrev S768x256 : Shape := ⟨2, ![768, 256]⟩
abbrev S256x32 : Shape := ⟨2, ![256, 32]⟩
abbrev S32 : Shape := ⟨1, ![32]⟩
abbrev S_ : Shape := ⟨0, ![]⟩
abbrev S5000x768 : Shape := ⟨2, ![5000, 768]⟩
abbrev S1 : Shape := ⟨1, ![1]⟩
abbrev S2 : Shape := ⟨1, ![2]⟩
abbrev S768 : Shape := ⟨1, ![768]⟩
abbrev S16384x256 : Shape := ⟨2, ![16384, 256]⟩
abbrev S512x5000 : Shape := ⟨2, ![512, 5000]⟩
abbrev S512x256 : Shape := ⟨2, ![512, 256]⟩
abbrev S512x768 : Shape := ⟨2, ![512, 768]⟩
abbrev S1x768 : Shape := ⟨2, ![1, 768]⟩
abbrev S16384x32 : Shape := ⟨2, ![16384, 32]⟩
abbrev S4096x512 : Shape := ⟨2, ![4096, 512]⟩
abbrev S4096x32 : Shape := ⟨2, ![4096, 32]⟩
abbrev S4096x256 : Shape := ⟨2, ![4096, 256]⟩
abbrev S1x256 : Shape := ⟨2, ![1, 256]⟩
abbrev S512x32 : Shape := ⟨2, ![512, 32]⟩
abbrev S1x32 : Shape := ⟨2, ![1, 32]⟩
abbrev S4096 : Shape := ⟨1, ![4096]⟩
abbrev S4096x1 : Shape := ⟨2, ![4096, 1]⟩

abbrev nBuf : Space → Nat
  | .hbm => 39
  | .vmem => 24
  | .smem => 0
  | _ => 0

abbrev bufTy : (tb : Table) → Fin (tcTables nBuf tb) → BufTy
  | .hbm, ⟨0, _⟩ => ⟨S16384x5000, .f32⟩
  | .hbm, ⟨1, _⟩ => ⟨S16384x16384, .f32⟩
  | .hbm, ⟨2, _⟩ => ⟨S2000x256, .f32⟩
  | .hbm, ⟨3, _⟩ => ⟨S256, .f32⟩
  | .hbm, ⟨4, _⟩ => ⟨S2000x256, .f32⟩
  | .hbm, ⟨5, _⟩ => ⟨S256, .f32⟩
  | .hbm, ⟨6, _⟩ => ⟨S1000x256, .f32⟩
  | .hbm, ⟨7, _⟩ => ⟨S256, .f32⟩
  | .hbm, ⟨8, _⟩ => ⟨S768x256, .f32⟩
  | .hbm, ⟨9, _⟩ => ⟨S256, .f32⟩
  | .hbm, ⟨10, _⟩ => ⟨S256x32, .f32⟩
  | .hbm, ⟨11, _⟩ => ⟨S32, .f32⟩
  | .hbm, ⟨12, _⟩ => ⟨S_, .f32⟩
  | .hbm, ⟨13, _⟩ => ⟨S5000x768, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S5000x768, .f32⟩
  | .hbm, ⟨20, _⟩ => ⟨S_, .i32⟩
  | .hbm, ⟨21, _⟩ => ⟨S1, .i32⟩
  | .hbm, ⟨22, _⟩ => ⟨S_, .i32⟩
  | .hbm, ⟨23, _⟩ => ⟨S1, .i32⟩
  | .hbm, ⟨24, _⟩ => ⟨S2, .i32⟩
  | .hbm, ⟨25, _⟩ => ⟨S5000x768, .f32⟩
  | .hbm, ⟨26, _⟩ => ⟨S_, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S2, .i32⟩
  | .hbm, ⟨31, _⟩ => ⟨S5000x768, .f32⟩
  | .hbm, ⟨32, _⟩ => ⟨S768, .f32⟩
  | .hbm, ⟨33, _⟩ => ⟨S5000x768, .bf16⟩
  | .hbm, ⟨34, _⟩ => ⟨S768x256, .bf16⟩
  | .hbm, ⟨35, _⟩ => ⟨S256x32, .bf16⟩
  | .hbm, ⟨36, _⟩ => ⟨S16384x256, .bf16⟩
  | .hbm, ⟨37, _⟩ => ⟨S16384x32, .bf16⟩
  | .hbm, ⟨38, _⟩ => ⟨S16384x32, .f32⟩
  | .local _ .vmem, ⟨0, _⟩ => ⟨S512x5000, .f32⟩
  | .local _ .vmem, ⟨1, _⟩ => ⟨S512x5000, .f32⟩
  | .local _ .vmem, ⟨2, _⟩ => ⟨S5000x768, .bf16⟩
  | .local _ .vmem, ⟨3, _⟩ => ⟨S768, .f32⟩
  | .local _ .vmem, ⟨4, _⟩ => ⟨S768x256, .bf16⟩
  | .local _ .vmem, ⟨5, _⟩ => ⟨S512x256, .bf16⟩
  | .local _ .vmem, ⟨6, _⟩ => ⟨S512x256, .bf16⟩
  | .local _ .vmem, ⟨7, _⟩ => ⟨S4096x512, .f32⟩
  | .local _ .vmem, ⟨8, _⟩ => ⟨S4096x512, .f32⟩
  | .local _ .vmem, ⟨9, _⟩ => ⟨S512x256, .bf16⟩
  | .local _ .vmem, ⟨10, _⟩ => ⟨S512x256, .bf16⟩
  | .local _ .vmem, ⟨11, _⟩ => ⟨S256, .f32⟩
  | .local _ .vmem, ⟨12, _⟩ => ⟨S256x32, .bf16⟩
  | .local _ .vmem, ⟨13, _⟩ => ⟨S4096x32, .bf16⟩
  | .local _ .vmem, ⟨14, _⟩ => ⟨S4096x32, .bf16⟩
  | .local _ .vmem, ⟨15, _⟩ => ⟨S4096x256, .f32⟩
  | .local _ .vmem, ⟨16, _⟩ => ⟨S4096x512, .f32⟩
  | .local _ .vmem, ⟨17, _⟩ => ⟨S4096x512, .f32⟩
  | .local _ .vmem, ⟨18, _⟩ => ⟨S512x32, .bf16⟩
  | .local _ .vmem, ⟨19, _⟩ => ⟨S512x32, .bf16⟩
  | .local _ .vmem, ⟨20, _⟩ => ⟨S32, .f32⟩
  | .local _ .vmem, ⟨21, _⟩ => ⟨S4096x32, .f32⟩
  | .local _ .vmem, ⟨22, _⟩ => ⟨S4096x32, .f32⟩
  | .local _ .vmem, ⟨23, _⟩ => ⟨S4096x32, .f32⟩
  | _, _ => ⟨S16384x5000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c_1 : Ref sig .tc := ⟨.hbm, 20, rfl⟩
abbrev main_v5 : Ref sig .tc := ⟨.hbm, 21, rfl⟩
abbrev main_c_2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c_3 : Ref sig .tc := ⟨.hbm, 26, rfl⟩
abbrev main_v9 : Ref sig .tc := ⟨.hbm, 27, rfl⟩
abbrev main_c_4 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc2_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5000x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![4, 32], ![false, false]⟩

def k1_cond2 (i : grid1.Coords) : BitVec 1 :=
  let arg1 : BitVec 32 := BitVec.ofNat 32 (i 1).val
  let c31_i32 : BitVec 32 := 31#32
  let v22 : BitVec 1 := Scalar.cmpi .eq arg1 c31_i32
  let v23 : BitVec 32 := Scalar.extui v22
  let c0_i32_13 : BitVec 32 := 0#32
  let v24 : BitVec 1 := Scalar.cmpi .ne v23 c0_i32_13
  v24

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S4096x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S256x32 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S4096x32 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![4, 32], ![false, false]⟩

def k2_cond2 (i : grid2.Coords) : BitVec 1 :=
  let arg1 : BitVec 32 := BitVec.ofNat 32 (i 1).val
  let c31_i32 : BitVec 32 := 31#32
  let v22 : BitVec 1 := Scalar.cmpi .eq arg1 c31_i32
  let v23 : BitVec 32 := Scalar.extui v22
  let c0_i32_13 : BitVec 32 := 0#32
  let v24 : BitVec 1 := Scalar.cmpi .ne v23 c0_i32_13
  v24

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S4096x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S512x32 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S4096x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  bcast_S_S5000x768 : S_.BroadcastsInDim S5000x768 (![] : Fin 0 → Fin S5000x768.rank)
  bcast_S_S1 : S_.BroadcastsInDim S1 (![] : Fin 0 → Fin S1.rank)
  concatenates_S1_S1_S2_d0 : Shape.Concatenates [S1, S1] S2 0
  concatenates_S256_S256_S256_S768_d0 : Shape.Concatenates [S256, S256, S256] S768 0
  bitsLt_bf16_f32 : FTy.bits .bf16 < FTy.bits .f32
  inb_S512x5000_S512x5000_0_0 : ∀ a, (![0, 0] : Fin 2 → Nat) a + S512x5000.size a ≤ S512x5000.size a
  h_S512x5000 : 0 < S512x5000.numel
  inb_S5000x768_S5000x768_0_0 : ∀ a, (![0, 0] : Fin 2 → Nat) a + S5000x768.size a ≤ S5000x768.size a
  h_S5000x768 : 0 < S5000x768.numel
  shapeCasts_S5000x768_S5000x768 : S5000x768.ShapeCasts S5000x768
  inb_S768_S768_0 : ∀ a, (![0] : Fin 1 → Nat) a + S768.size a ≤ S768.size a
  h_S768 : 0 < S768.numel
  shapeCasts_S768_S768 : S768.ShapeCasts S768
  shapeCasts_S768_S1x768 : S768.ShapeCasts S1x768
  broadcasts_S1x768_S512x768 : S1x768.Broadcasts S512x768
  inb_S768x256_S768x256_0_0 : ∀ a, (![0, 0] : Fin 2 → Nat) a + S768x256.size a ≤ S768x256.size a
  h_S768x256 : 0 < S768x256.numel
  shapeCasts_S768x256_S768x256 : S768x256.ShapeCasts S768x256
  inb_S512x256_S512x256_0_0 : ∀ a, (![0, 0] : Fin 2 → Nat) a + S512x256.size a ≤ S512x256.size a
  h_S512x256 : 0 < S512x256.numel
  packedbf16_S512x256_S512x256_0_0 : (Rect.unit (s := S512x256) ![0, 0] S512x256.size inb_S512x256_S512x256_0_0).PackedRows (EltTy.packing .bf16)
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S4096x512_S4096x512_0_0 : ∀ a, (![0, 0] : Fin 2 → Nat) a + S4096x512.size a ≤ S4096x512.size a
  h_S4096x512 : 0 < S4096x512.numel
  shapeCasts_S512x256_S512x256 : S512x256.ShapeCasts S512x256
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S4096x32_S4096x32_0_0 : ∀ a, (![0, 0] : Fin 2 → Nat) a + S4096x32.size a ≤ S4096x32.size a
  h_S4096x32 : 0 < S4096x32.numel
  packedbf16_S4096x32_S4096x32_0_0 : (Rect.unit (s := S4096x32) ![0, 0] S4096x32.size inb_S4096x32_S4096x32_0_0).PackedRows (EltTy.packing .bf16)
  shapeCasts_S4096x32_S4096x32 : S4096x32.ShapeCasts S4096x32
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S32_S32_0 : ∀ a, (![0] : Fin 1 → Nat) a + S32.size a ≤ S32.size a
  h_S32 : 0 < S32.numel
  shapeCasts_S32_S1x32 : S32.ShapeCasts S1x32
  broadcasts_S1x32_S4096x32 : S1x32.Broadcasts S4096x32
  reduces_S4096x32_S4096 : S4096x32.Reduces [1] S4096
  shapeCasts_S4096_S4096x1 : S4096.ShapeCasts S4096x1
  broadcasts_S4096x1_S4096x32 : S4096x1.Broadcasts S4096x32
  scatter_S5000x768_S2_S2000x256_01_n_01_0_wf : ScatterDims.WF S5000x768 S2 S2000x256 [0, 1] [] [0, 1] 0
  scatter_S5000x768_S2_S1000x256_01_n_01_0_wf : ScatterDims.WF S5000x768 S2 S1000x256 [0, 1] [] [0, 1] 0
  dot_S512x5000_S5000x768_S512x768_1_0_0_1_n_n_wf : DotDims.WF S512x5000 S5000x768 S512x768 [1] [0] [0] [1] [] []
  dot_S512x768_S768x256_S512x256_1_0_0_1_n_n_wf : DotDims.WF S512x768 S768x256 S512x256 [1] [0] [0] [1] [] []
  dot_S4096x512_S512x256_S4096x256_1_0_0_1_n_n_wf : DotDims.WF S4096x512 S512x256 S4096x256 [1] [0] [0] [1] [] []
  dot_S4096x256_S256x32_S4096x32_1_0_0_1_n_n_wf : DotDims.WF S4096x256 S256x32 S4096x32 [1] [0] [0] [1] [] []
  dot_S4096x512_S512x32_S4096x32_1_0_0_1_n_n_wf : DotDims.WF S4096x512 S512x32 S4096x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x5000.size a ≤ S16384x5000.size a
  hwx0_0 : ∀ i : grid0.Coords, EltTy.bits .f32 = 32 ∨ (Rect.block (s := S16384x5000) S512x5000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5000x768.size a ≤ S5000x768.size a
  hwx0_1 : ∀ i : grid0.Coords, EltTy.bits .bf16 = 32 ∨ (Rect.block (s := S5000x768) S5000x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x256.size a ≤ S768x256.size a
  hwx0_3 : ∀ i : grid0.Coords, EltTy.bits .bf16 = 32 ∨ (Rect.block (s := S768x256) S768x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S16384x256.size a
  hwx0_4 : ∀ i : grid0.Coords, EltTy.bits .bf16 = 32 ∨ (Rect.block (s := S16384x256) S512x256.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x512.size a ≤ S16384x16384.size a
  hwx1_0 : ∀ i : grid1.Coords, EltTy.bits .f32 = 32 ∨ (Rect.block (s := S16384x16384) S4096x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S16384x256.size a
  hwx1_1 : ∀ i : grid1.Coords, EltTy.bits .bf16 = 32 ∨ (Rect.block (s := S16384x256) S512x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x32.size a ≤ S256x32.size a
  hwx1_3 : ∀ i : grid1.Coords, EltTy.bits .bf16 = 32 ∨ (Rect.block (s := S256x32) S256x32.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4096x32.size a ≤ S16384x32.size a
  hwx1_4 : ∀ i : grid1.Coords, EltTy.bits .bf16 = 32 ∨ (Rect.block (s := S16384x32) S4096x32.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x512.size a ≤ S16384x16384.size a
  hwx2_0 : ∀ i : grid2.Coords, EltTy.bits .f32 = 32 ∨ (Rect.block (s := S16384x16384) S4096x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x32.size a ≤ S16384x32.size a
  hwx2_1 : ∀ i : grid2.Coords, EltTy.bits .bf16 = 32 ∨ (Rect.block (s := S16384x32) S512x32.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32.size a ≤ S32.size a
  hwx2_2 : ∀ i : grid2.Coords, EltTy.bits .f32 = 32 ∨ (Rect.block (s := S32) S32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4096x32.size a ≤ S16384x32.size a
  hwx2_3 : ∀ i : grid2.Coords, EltTy.bits .f32 = 32 ∨ (Rect.block (s := S16384x32) S4096x32.size (cc2_transform_3 i) (hinb2_3 i)).WholeWords (EltTy.packing .f32)

variable [Facts₀]

def scatter_S5000x768_S2_S2000x256_01_n_01_0 : ScatterDims S5000x768 S2 S2000x256 where
  updateWindowDims := [0, 1]
  insertedWindowDims := []
  scatterDimsToOperandDims := [0, 1]
  indexVectorDim := 0
  wf := scatter_S5000x768_S2_S2000x256_01_n_01_0_wf
def scatter_S5000x768_S2_S1000x256_01_n_01_0 : ScatterDims S5000x768 S2 S1000x256 where
  updateWindowDims := [0, 1]
  insertedWindowDims := []
  scatterDimsToOperandDims := [0, 1]
  indexVectorDim := 0
  wf := scatter_S5000x768_S2_S1000x256_01_n_01_0_wf
def dot_S512x5000_S5000x768_S512x768_1_0_0_1_n_n : DotDims S512x5000 S5000x768 S512x768 where
  lhsContracting := [1]
  rhsContracting := [0]
  lhsNonContracting := [0]
  rhsNonContracting := [1]
  lhsBatch := []
  rhsBatch := []
  wf := dot_S512x5000_S5000x768_S512x768_1_0_0_1_n_n_wf
def dot_S512x768_S768x256_S512x256_1_0_0_1_n_n : DotDims S512x768 S768x256 S512x256 where
  lhsContracting := [1]
  rhsContracting := [0]
  lhsNonContracting := [0]
  rhsNonContracting := [1]
  lhsBatch := []
  rhsBatch := []
  wf := dot_S512x768_S768x256_S512x256_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x256_S256x32_S4096x32_1_0_0_1_n_n : DotDims S4096x256 S256x32 S4096x32 where
  lhsContracting := [1]
  rhsContracting := [0]
  lhsNonContracting := [0]
  rhsNonContracting := [1]
  lhsBatch := []
  rhsBatch := []
  wf := dot_S4096x256_S256x32_S4096x32_1_0_0_1_n_n_wf
def dot_S4096x512_S512x32_S4096x32_1_0_0_1_n_n : DotDims S4096x512 S512x32 S4096x32 where
  lhsContracting := [1]
  rhsContracting := [0]
  lhsNonContracting := [0]
  rhsNonContracting := [1]
  lhsBatch := []
  rhsBatch := []
  wf := dot_S4096x512_S512x32_S4096x32_1_0_0_1_n_n_wf

abbrev win0_0 : Pipeline.Window sig grid0 :=
  Pipeline.Window.ofSpec (Memref.whole main_arg0) S512x5000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S768x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S4096x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S256x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S4096x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_arg1) S4096x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S512x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S4096x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S16384x5000 : Shape := ⟨2, ![16384, 5000]⟩
abbrev S16384x16384 : Shape := ⟨2, ![16384, 16384]⟩
abbrev S2000x256 : Shape := ⟨2, ![2000, 256]⟩
abbrev S256 : Shape := ⟨1, ![256]⟩
abbrev S1000x256 : Shape := ⟨2, ![1000, 256]⟩
abbrev S768x256 : Shape := ⟨2, ![768, 256]⟩
abbrev S256x32 : Shape := ⟨2, ![256, 32]⟩
abbrev S32 : Shape := ⟨1, ![32]⟩
abbrev S16384x2000 : Shape := ⟨2, ![16384, 2000]⟩
abbrev S16384x256 : Shape := ⟨2, ![16384, 256]⟩
abbrev S1x256 : Shape := ⟨2, ![1, 256]⟩
abbrev S_ : Shape := ⟨0, ![]⟩
abbrev S16384x1000 : Shape := ⟨2, ![16384, 1000]⟩
abbrev S16384x768 : Shape := ⟨2, ![16384, 768]⟩
abbrev S16384x32 : Shape := ⟨2, ![16384, 32]⟩
abbrev S1x32 : Shape := ⟨2, ![1, 32]⟩
abbrev S16384 : Shape := ⟨1, ![16384]⟩
abbrev S16384x1 : Shape := ⟨2, ![16384, 1]⟩

abbrev nBuf : Space → Nat
  | .hbm => 65
  | .vmem => 0
  | .smem => 0
  | _ => 0

abbrev bufTy : (tb : Table) → Fin (tcTables nBuf tb) → BufTy
  | .hbm, ⟨0, _⟩ => ⟨S16384x5000, .f32⟩
  | .hbm, ⟨1, _⟩ => ⟨S16384x16384, .f32⟩
  | .hbm, ⟨2, _⟩ => ⟨S2000x256, .f32⟩
  | .hbm, ⟨3, _⟩ => ⟨S256, .f32⟩
  | .hbm, ⟨4, _⟩ => ⟨S2000x256, .f32⟩
  | .hbm, ⟨5, _⟩ => ⟨S256, .f32⟩
  | .hbm, ⟨6, _⟩ => ⟨S1000x256, .f32⟩
  | .hbm, ⟨7, _⟩ => ⟨S256, .f32⟩
  | .hbm, ⟨8, _⟩ => ⟨S768x256, .f32⟩
  | .hbm, ⟨9, _⟩ => ⟨S256, .f32⟩
  | .hbm, ⟨10, _⟩ => ⟨S256x32, .f32⟩
  | .hbm, ⟨11, _⟩ => ⟨S32, .f32⟩
  | .hbm, ⟨12, _⟩ => ⟨S16384x2000, .f32⟩
  | .hbm, ⟨13, _⟩ => ⟨S16384x256, .f32⟩
  | .hbm, ⟨14, _⟩ => ⟨S1x256, .f32⟩
  | .hbm, ⟨15, _⟩ => ⟨S16384x256, .f32⟩
  | .hbm, ⟨16, _⟩ => ⟨S16384x256, .f32⟩
  | .hbm, ⟨17, _⟩ => ⟨S_, .f32⟩
  | .hbm, ⟨18, _⟩ => ⟨S16384x256, .f32⟩
  | .hbm, ⟨19, _⟩ => ⟨S16384x256, .f32⟩
  | .hbm, ⟨20, _⟩ => ⟨S16384x2000, .f32⟩
  | .hbm, ⟨21, _⟩ => ⟨S16384x256, .f32⟩
  | .hbm, ⟨22, _⟩ => ⟨S1x256, .f32⟩
  | .hbm, ⟨23, _⟩ => ⟨S16384x256, .f32⟩
  | .hbm, ⟨24, _⟩ => ⟨S16384x256, .f32⟩
  | .hbm, ⟨25, _⟩ => ⟨S_, .f32⟩
  | .hbm, ⟨26, _⟩ => ⟨S16384x256, .f32⟩
  | .hbm, ⟨27, _⟩ => ⟨S16384x256, .f32⟩
  | .hbm, ⟨28, _⟩ => ⟨S16384x1000, .f32⟩
  | .hbm, ⟨29, _⟩ => ⟨S16384x256, .f32⟩
  | .hbm, ⟨30, _⟩ => ⟨S1x256, .f32⟩
  | .hbm, ⟨31, _⟩ => ⟨S16384x256, .f32⟩
  | .hbm, ⟨32, _⟩ => ⟨S16384x256, .f32⟩
  | .hbm, ⟨33, _⟩ => ⟨S_, .f32⟩
  | .hbm, ⟨34, _⟩ => ⟨S16384x256, .f32⟩
  | .hbm, ⟨35, _⟩ => ⟨S16384x256, .f32⟩
  | .hbm, ⟨36, _⟩ => ⟨S16384x768, .f32⟩
  | .hbm, ⟨37, _⟩ => ⟨S16384x256, .f32⟩
  | .hbm, ⟨38, _⟩ => ⟨S16384x256, .f32⟩
  | .hbm, ⟨39, _⟩ => ⟨S1x256, .f32⟩
  | .hbm, ⟨40, _⟩ => ⟨S16384x256, .f32⟩
  | .hbm, ⟨41, _⟩ => ⟨S16384x256, .f32⟩
  | .hbm, ⟨42, _⟩ => ⟨S_, .f32⟩
  | .hbm, ⟨43, _⟩ => ⟨S16384x256, .f32⟩
  | .hbm, ⟨44, _⟩ => ⟨S16384x256, .f32⟩
  | .hbm, ⟨45, _⟩ => ⟨S16384x32, .f32⟩
  | .hbm, ⟨46, _⟩ => ⟨S16384x32, .f32⟩
  | .hbm, ⟨47, _⟩ => ⟨S1x32, .f32⟩
  | .hbm, ⟨48, _⟩ => ⟨S16384x32, .f32⟩
  | .hbm, ⟨49, _⟩ => ⟨S16384x32, .f32⟩
  | .hbm, ⟨50, _⟩ => ⟨S_, .f32⟩
  | .hbm, ⟨51, _⟩ => ⟨S16384, .f32⟩
  | .hbm, ⟨52, _⟩ => ⟨S_, .f32⟩
  | .hbm, ⟨53, _⟩ => ⟨S16384, .f32⟩
  | .hbm, ⟨54, _⟩ => ⟨S16384, .f32⟩
  | .hbm, ⟨55, _⟩ => ⟨S16384x1, .f32⟩
  | .hbm, ⟨56, _⟩ => ⟨S16384x32, .f32⟩
  | .hbm, ⟨57, _⟩ => ⟨S16384x32, .f32⟩
  | .hbm, ⟨58, _⟩ => ⟨S16384x32, .f32⟩
  | .hbm, ⟨59, _⟩ => ⟨S_, .f32⟩
  | .hbm, ⟨60, _⟩ => ⟨S16384, .f32⟩
  | .hbm, ⟨61, _⟩ => ⟨S16384x1, .f32⟩
  | .hbm, ⟨62, _⟩ => ⟨S16384x1, .f32⟩
  | .hbm, ⟨63, _⟩ => ⟨S16384x32, .f32⟩
  | .hbm, ⟨64, _⟩ => ⟨S16384x32, .f32⟩
  | _, _ => ⟨S16384x5000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_cst : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_call1_cst : Ref sig .tc := ⟨.hbm, 25, rfl⟩
abbrev main_call1_v0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call2_cst : Ref sig .tc := ⟨.hbm, 33, rfl⟩
abbrev main_call2_v0 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_call3_cst : Ref sig .tc := ⟨.hbm, 42, rfl⟩
abbrev main_call3_v0 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call4_cst : Ref sig .tc := ⟨.hbm, 50, rfl⟩
abbrev main_call4_v0 : Ref sig .tc := ⟨.hbm, 51, rfl⟩
abbrev main_call4_cst_0 : Ref sig .tc := ⟨.hbm, 52, rfl⟩
abbrev main_call4_v1 : Ref sig .tc := ⟨.hbm, 53, rfl⟩
abbrev main_call4_v2 : Ref sig .tc := ⟨.hbm, 54, rfl⟩
abbrev main_call4_v3 : Ref sig .tc := ⟨.hbm, 55, rfl⟩
abbrev main_call4_v4 : Ref sig .tc := ⟨.hbm, 56, rfl⟩
abbrev main_call4_v5 : Ref sig .tc := ⟨.hbm, 57, rfl⟩
abbrev main_call4_v6 : Ref sig .tc := ⟨.hbm, 58, rfl⟩
abbrev main_call4_cst_1 : Ref sig .tc := ⟨.hbm, 59, rfl⟩
abbrev main_call4_v7 : Ref sig .tc := ⟨.hbm, 60, rfl⟩
abbrev main_call4_v8 : Ref sig .tc := ⟨.hbm, 61, rfl⟩
abbrev main_call4_v9 : Ref sig .tc := ⟨.hbm, 62, rfl⟩
abbrev main_call4_v10 : Ref sig .tc := ⟨.hbm, 63, rfl⟩
abbrev main_v30 : Ref sig .tc := ⟨.hbm, 64, rfl⟩

abbrev nD : Nat := 1
abbrev τ : Topo := Topo.v7x

variable {F : FTy → Type} [FloatOps F]

class Facts₀ : Prop where
  slices_S16384x5000_S16384x2000_0_0 : S16384x5000.Slices ![0, 0] S16384x2000
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  slices_S16384x5000_S16384x2000_0_2000 : S16384x5000.Slices ![0, 2000] S16384x2000
  slices_S16384x5000_S16384x1000_0_4000 : S16384x5000.Slices ![0, 4000] S16384x1000
  concatenates_S16384x256_S16384x256_S16384x256_S16384x768_d1 : Shape.Concatenates [S16384x256, S16384x256, S16384x256] S16384x768 1
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  reducesTo_S16384x32_S16384_d1 : S16384x32.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x32_0_1 : S16384x1.BroadcastsInDim S16384x32 (![0, 1] : Fin 2 → Fin S16384x32.rank)
  dot_S16384x2000_S2000x256_S16384x256_1_0_0_1_n_n_wf : DotDims.WF S16384x2000 S2000x256 S16384x256 [1] [0] [0] [1] [] []
  dot_S16384x1000_S1000x256_S16384x256_1_0_0_1_n_n_wf : DotDims.WF S16384x1000 S1000x256 S16384x256 [1] [0] [0] [1] [] []
  dot_S16384x768_S768x256_S16384x256_1_0_0_1_n_n_wf : DotDims.WF S16384x768 S768x256 S16384x256 [1] [0] [0] [1] [] []
  dot_S16384x16384_S16384x256_S16384x256_1_0_0_1_n_n_wf : DotDims.WF S16384x16384 S16384x256 S16384x256 [1] [0] [0] [1] [] []
  dot_S16384x256_S256x32_S16384x32_1_0_0_1_n_n_wf : DotDims.WF S16384x256 S256x32 S16384x32 [1] [0] [0] [1] [] []
  dot_S16384x16384_S16384x32_S16384x32_1_0_0_1_n_n_wf : DotDims.WF S16384x16384 S16384x32 S16384x32 [1] [0] [0] [1] [] []

variable [Facts₀]

def dot_S16384x2000_S2000x256_S16384x256_1_0_0_1_n_n : DotDims S16384x2000 S2000x256 S16384x256 where
  lhsContracting := [1]
  rhsContracting := [0]
  lhsNonContracting := [0]
  rhsNonContracting := [1]
  lhsBatch := []
  rhsBatch := []
  wf := dot_S16384x2000_S2000x256_S16384x256_1_0_0_1_n_n_wf
def dot_S16384x1000_S1000x256_S16384x256_1_0_0_1_n_n : DotDims S16384x1000 S1000x256 S16384x256 where
  lhsContracting := [1]
  rhsContracting := [0]
  lhsNonContracting := [0]
  rhsNonContracting := [1]
  lhsBatch := []
  rhsBatch := []
  wf := dot_S16384x1000_S1000x256_S16384x256_1_0_0_1_n_n_wf
def dot_S16384x768_S768x256_S16384x256_1_0_0_1_n_n : DotDims S16384x768 S768x256 S16384x256 where
  lhsContracting := [1]
  rhsContracting := [0]
  lhsNonContracting := [0]
  rhsNonContracting := [1]
  lhsBatch := []
  rhsBatch := []
  wf := dot_S16384x768_S768x256_S16384x256_1_0_0_1_n_n_wf
def dot_S16384x16384_S16384x256_S16384x256_1_0_0_1_n_n : DotDims S16384x16384 S16384x256 S16384x256 where
  lhsContracting := [1]
  rhsContracting := [0]
  lhsNonContracting := [0]
  rhsNonContracting := [1]
  lhsBatch := []
  rhsBatch := []
  wf := dot_S16384x16384_S16384x256_S16384x256_1_0_0_1_n_n_wf
def dot_S16384x256_S256x32_S16384x32_1_0_0_1_n_n : DotDims S16384x256 S256x32 S16384x32 where
  lhsContracting := [1]
  rhsContracting := [0]
  lhsNonContracting := [0]
  rhsNonContracting := [1]
  lhsBatch := []
  rhsBatch := []
  wf := dot_S16384x256_S256x32_S16384x32_1_0_0_1_n_n_wf
def dot_S16384x16384_S16384x32_S16384x32_1_0_0_1_n_n : DotDims S16384x16384 S16384x32 S16384x32 where
  lhsContracting := [1]
  rhsContracting := [0]
  lhsNonContracting := [0]
  rhsNonContracting := [1]
  lhsBatch := []
  rhsBatch := []
  wf := dot_S16384x16384_S16384x32_S16384x32_1_0_0_1_n_n_wf

class Facts : Prop extends Facts₀ where

variable [Facts]
-- ==== Proof.BranchW.lean ====
/-
  The first layer as a pipeline of 32 row blocks. Block t of x (512 rows, all 5000 columns) meets the whole
  block-diagonal weight matrix, the joined bias and the whole projection matrix; the body leaves in the output block
  max(x·W + b, 0)·G, a function of the four input blocks alone. Stated at any contents V of the buffers at the
  region's entry.
-/
import proofs.«138483_j40407052320948_2_alg».proof.Proof.Gen.Kernel.Launch
import proofs.«138483_j40407052320948_2_alg».proof.Proof.Gen.Kernel.Skeleton
import proofs.«138483_j40407052320948_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Branch

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block t of window w, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 holds its block whenever the body runs, fetched at that point or not. -/
theorem before_in_0 {c : Dev nD} (dat : Dat τ (Elt F) Unit ℕ (UR sig nD τ) ℕ cfg0 c)
    (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1 holds its block whenever the body runs, fetched at that point or not. -/
theorem before_in_1 {c : Dev nD} (dat : Dat τ (Elt F) Unit ℕ (UR sig nD τ) ℕ cfg0 c)
    (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2 holds its block whenever the body runs, fetched at that point or not. -/
theorem before_in_2 {c : Dev nD} (dat : Dat τ (Elt F) Unit ℕ (UR sig nD τ) ℕ cfg0 c)
    (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3 holds its block whenever the body runs, fetched at that point or not. -/
theorem before_in_3 {c : Dev nD} (dat : Dat τ (Elt F) Unit ℕ (UR sig nD τ) ℕ cfg0 c)
    (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

abbrev rX : Rect S512x5000 := Rect.unit (s := S512x5000) ![0, 0] S512x5000.size inb_S512x5000_S512x5000_0_0
abbrev rW : Rect S5000x768 := Rect.unit (s := S5000x768) ![0, 0] S5000x768.size inb_S5000x768_S5000x768_0_0
abbrev rB : Rect S768 := Rect.unit (s := S768) ![0] S768.size inb_S768_S768_0
abbrev rG : Rect S768x256 := Rect.unit (s := S768x256) ![0, 0] S768x256.size inb_S768x256_S768x256_0_0
abbrev rO : Rect S512x256 := Rect.unit (s := S512x256) ![0, 0] S512x256.size inb_S512x256_S512x256_0_0

/-- What the body leaves in the output block, from the four input blocks: its one store. -/
def out (x0 : Vec F S512x5000 .f32) (x1 : Vec F S5000x768 .bf16) (x2 : Vec F S768 .f32) (x3 : Vec F S768x256 .bf16) : Vec F S512x256 .bf16 :=
  View.canon [⟨rO, k0_pay1 (View.ld x0 rX) (View.ld x1 rW) (View.ld x2 rB) (View.ld x3 rG)⟩]

theorem cover (p0 : Vec F S512x256 .bf16) (y : S512x256.Idx) :
    ∃ pc ∈ ([⟨rO, p0⟩] : List (View.Piece (Elt F) S512x256 .bf16)), y ∈ pc.1.set :=
  View.cover_of_tiled [⟨rO, p0⟩] S512x256.size (by rfl) y

set_option maxHeartbeats 1000000 in
/-- The body on whole staging memrefs: the inputs stay, the output block ends at `out` of them. -/
theorem sound_kernel (c : Dev nD) (E : Set ℕ) (i : grid0.Coords)
    (arg1 : Memref sig .tc .vmem S512x5000 .f32) (harg1 : arg1.IsWhole) (arg2 : Memref sig .tc .vmem S5000x768 .bf16) (harg2 : arg2.IsWhole)
    (arg3 : Memref sig .tc .vmem S768 .f32) (harg3 : arg3.IsWhole) (arg4 : Memref sig .tc .vmem S768x256 .bf16) (harg4 : arg4.IsWhole)
    (arg5 : Memref sig .tc .vmem S512x256 .bf16) (harg5 : arg5.IsWhole)
    (x0 : Vec F S512x5000 .f32) (x1 : Vec F S5000x768 .bf16) (x2 : Vec F S768 .f32) (x3 : Vec F S768x256 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out x0 x1 x2 x3)) -∗ K ⟨⟩))
      ⊢ wp frame (wpE (defs₀ (F := F)) Variants.none c none) E (cc0__branch_kernel i arg1 harg1 arg2 harg2 arg3 harg3 arg4 harg4 arg5 harg5) K := by
  simp only [cc0__branch_kernel_eq_skeleton]; unfold cc0__branch_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover _)

/-- The proof data: arrays as found; each input block stays; the output block at `out` of the inputs. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => out (blk V c 0 t) (blk V c 1 t) (blk V c 2 t) (blk V c 3 t)
  Φ _ := Pipeline.ΦA spec0 c
  q _ := fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) :
    (dat V c).after 4 t = out (blk V c 0 t) (blk V c 1 t) (blk V c 2 t) (blk V c 3 t) := by dsimp only [dat]

theorem before_0 (c : Dev nD) (t : Fin cfg0.N) (d) : (dat V c).before 0 t d = blk V c 0 t :=
  before_in_0 V (dat V c) (A_eq V c 0) (after_0 V c) t d
theorem before_1 (c : Dev nD) (t : Fin cfg0.N) (d) : (dat V c).before 1 t d = blk V c 1 t :=
  before_in_1 V (dat V c) (A_eq V c 1) (after_1 V c) t d
theorem before_2 (c : Dev nD) (t : Fin cfg0.N) (d) : (dat V c).before 2 t d = blk V c 2 t :=
  before_in_2 V (dat V c) (A_eq V c 2) (after_2 V c) t d
theorem before_3 (c : Dev nD) (t : Fin cfg0.N) (d) : (dat V c).before 3 t d = blk V c 3 t :=
  before_in_3 V (dat V c) (A_eq V c 3) (after_3 V c) t d

/-- The body at any point of the grid. -/
theorem body_obligation (c : Dev nD) : BodyObligation (dat (F := F) V c) (defs₀ (F := F)) Variants.none () Set.univ := fun t => by
  rw [bigSep_W0, bigSep_W0]
  show _ ⊢ wp frame (wpE (defs₀ (F := F)) Variants.none c none) Set.univ (bodyAt0 t) _
  unfold bodyAt0
  simp only [before_0, before_1, before_2, before_3]
  rw [show (dat V c).Φ t.succ = (dat V c).Φ t.castSucc from rfl,
    show (dat V c).owesAt () t.succ = (dat V c).owesAt () t.castSucc from rfl]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (blk V c 0 t) (blk V c 1 t) (blk V c 2 t) (blk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · rw [after_0]; iexact H0
  isplitl [H1]; · rw [after_1]; iexact H1
  isplitl [H2]; · rw [after_2]; iexact H2
  isplitl [H3]; · rw [after_3]; iexact H3
  rw [after_4]; iexact H4

end Cert.Kernel.Branch

end
-- ==== Proof.Conv1W.lean ====
/-
  The first graph convolution as a pipeline over 4 row blocks × 32 steps. At step k of row block i the body adds to an
  accumulator [4096, 256] the product of block (i, k) of adj with block k of the projected features, in two parts
  (the part of adj kept by the narrow format, and the remainder); the first step of a row block zeroes the accumulator
  first, the last one stores max(acc + b, 0)·G into the output block. What the accumulator and the output block hold
  after each step is stated by recursion on the step.
-/
import proofs.«138483_j40407052320948_2_alg».proof.Proof.Gen.Kernel.Launch
import proofs.«138483_j40407052320948_2_alg».proof.Proof.Gen.Kernel.Skeleton
import proofs.«138483_j40407052320948_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Conv1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block t of window w, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 holds its block whenever the body runs, fetched at that point or not. -/
theorem before_in_0 {c : Dev nD} (dat : Dat τ (Elt F) Unit ℕ (UR sig nD τ) ℕ cfg1 c)
    (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1 holds its block whenever the body runs, fetched at that point or not. -/
theorem before_in_1 {c : Dev nD} (dat : Dat τ (Elt F) Unit ℕ (UR sig nD τ) ℕ cfg1 c)
    (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2 holds its block whenever the body runs, fetched at that point or not. -/
theorem before_in_2 {c : Dev nD} (dat : Dat τ (Elt F) Unit ℕ (UR sig nD τ) ℕ cfg1 c)
    (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3 holds its block whenever the body runs, fetched at that point or not. -/
theorem before_in_3 {c : Dev nD} (dat : Dat τ (Elt F) Unit ℕ (UR sig nD τ) ℕ cfg1 c)
    (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-! ## The two conditions of the body, over the grid: the first and the last step of a row block's reduction -/

abbrev first (i : grid1.Coords) : Prop := (Scalar.cmpi .ne (Scalar.extui (Scalar.cmpi .eq (BitVec.ofNat 32 (i 1).val) 0#32)) 0#32) = 1#1
theorem first_iff : ∀ t : Fin cfg1.N, first (grid1.coords t) ↔ t.val % 32 = 0 :=
  (by decide +kernel : ∀ t : Fin grid1.N, first (grid1.coords t) ↔ t.val % 32 = 0)
abbrev last (i : grid1.Coords) : Prop := k1_cond2 i = 1#1
theorem last_iff : ∀ t : Fin cfg1.N, last (grid1.coords t) ↔ t.val % 32 = 31 :=
  (by decide +kernel : ∀ t : Fin grid1.N, last (grid1.coords t) ↔ t.val % 32 = 31)

/-- The output window is idle, and not written back, except at a last step. -/
theorem idle_out : ∀ t : Fin cfg1.N, ¬last (grid1.coords t) → cfg1.idle 4 (grid1.coords t) = true := by decide +kernel
theorem noflush_out : ∀ t : Fin cfg1.N, ¬last (grid1.coords t) → (cfg1.win 4).flush t = false := by decide +kernel
theorem live_out : ∀ t : Fin cfg1.N, last (grid1.coords t) → cfg1.idle 4 (grid1.coords t) = false := by decide +kernel

abbrev ms0 (t : Fin cfg1.N) : Memref sig .tc .vmem S4096x512 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S512x256 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S256 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S256x32 .bf16 := win1_3.stage (cfg1.slots t 3)
abbrev hs3 (t : Fin cfg1.N) : (ms3 t).IsWhole := hstage1_3 ((cfg1.slots t 3).cast nbuf1_3)
abbrev ms4 (t : Fin cfg1.N) : Memref sig .tc .vmem S4096x32 .bf16 := win1_4.stage (cfg1.slots t 4)
abbrev hs4 (t : Fin cfg1.N) : (ms4 t).IsWhole := hstage1_4 ((cfg1.slots t 4).cast nbuf1_4)
/-- The accumulator: a whole scoped buffer of the kernel's own. -/
abbrev scM : Memref sig .tc .vmem S4096x256 .f32 := Memref.whole cc1_scratch0
abbrev VS : View sig .tc .vmem S4096x256 .f32 := scM.view
abbrev VO : View sig .tc .vmem S4096x32 .bf16 := (Memref.whole cc1_stg4_0 : Memref sig .tc .vmem S4096x32 .bf16).view

/-! ## The body, once per case: first step, middle step, last step -/

set_option maxHeartbeats 4000000 in
/-- FIRST step of a row block: the accumulator, whatever it held, is zeroed and takes the two products. The pieces it
    ends with are found by the run. -/
noncomputable def runA (c : Dev nD) (i : grid1.Coords) (m0 : Memref sig .tc .vmem S4096x512 .f32) (h0 : m0.IsWhole) (m1 : Memref sig .tc .vmem S512x256 .bf16) (h1 : m1.IsWhole) (m2 : Memref sig .tc .vmem S256 .f32) (h2 : m2.IsWhole) (m3 : Memref sig .tc .vmem S256x32 .bf16) (h3 : m3.IsWhole) (m4 : Memref sig .tc .vmem S4096x32 .bf16) (h4 : m4.IsWhole) (mS : Memref sig .tc .vmem S4096x256 .f32) (hS : mS.IsWhole) (hc0 : first i) (hc1 : ¬last i) (x0 : Vec F S4096x512 .f32) (x1 : Vec F S512x256 .bf16) :
    { LS : List (View.Piece (Elt F) S4096x256 .f32) //
      ∀ (E : Set ℕ) (K : PUnit → sProp 𝕄),
        iprop(owns (c : Thread nD τ) m0 fullShare x0 ∗ owns (c : Thread nD τ) m1 fullShare x1 ∗ (∃ d, owns (c : Thread nD τ) mS fullShare d)
            ∗ (iprop(owns (c : Thread nD τ) m0 fullShare x0 ∗ owns (c : Thread nD τ) m1 fullShare x1 ∗ (∃ f, mS.view.loc (c : Thread nD τ) ↦[mS.view.set]{fullShare} mS.view.writes (Elt F) f LS)) -∗ K ⟨⟩))
          ⊢ wp frame (wpE (defs₀ (F := F)) Variants.none c none) E (cc1__gc1_kernel i m0 h0 m1 h1 m2 h2 m3 h3 m4 h4 mS hS) K } := by
  refine ⟨?_, fun E K => ?run⟩
  case run =>
    simp only [cc1__gc1_kernel_eq_skeleton]; unfold cc1__gc1_kernel_skel
    unfold owns
    iintro ⟨⟨%f0, %hf0, H0⟩, ⟨%f1, %hf1, H1⟩, ⟨%ds, %fs, -, HS⟩, Hk⟩
    obtain rfl := h0.eq_unread hf0; obtain rfl := h1.eq_unread hf1
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    iexists _; iexact HS

set_option maxHeartbeats 4000000 in
/-- MIDDLE step: the accumulator, at what the step before left, takes the two products. -/
noncomputable def runB (c : Dev nD) (i : grid1.Coords) (m0 : Memref sig .tc .vmem S4096x512 .f32) (h0 : m0.IsWhole) (m1 : Memref sig .tc .vmem S512x256 .bf16) (h1 : m1.IsWhole) (m2 : Memref sig .tc .vmem S256 .f32) (h2 : m2.IsWhole) (m3 : Memref sig .tc .vmem S256x32 .bf16) (h3 : m3.IsWhole) (m4 : Memref sig .tc .vmem S4096x32 .bf16) (h4 : m4.IsWhole) (mS : Memref sig .tc .vmem S4096x256 .f32) (hS : mS.IsWhole) (hc0 : ¬first i) (hc1 : ¬last i) (x0 : Vec F S4096x512 .f32) (x1 : Vec F S512x256 .bf16) (xs : Vec F S4096x256 .f32) :
    { LS : List (View.Piece (Elt F) S4096x256 .f32) //
      ∀ (E : Set ℕ) (K : PUnit → sProp 𝕄),
        iprop(owns (c : Thread nD τ) m0 fullShare x0 ∗ owns (c : Thread nD τ) m1 fullShare x1 ∗ owns (c : Thread nD τ) mS fullShare xs
            ∗ (iprop(owns (c : Thread nD τ) m0 fullShare x0 ∗ owns (c : Thread nD τ) m1 fullShare x1 ∗ (∃ f, mS.view.loc (c : Thread nD τ) ↦[mS.view.set]{fullShare} mS.view.writes (Elt F) f LS)) -∗ K ⟨⟩))
          ⊢ wp frame (wpE (defs₀ (F := F)) Variants.none c none) E (cc1__gc1_kernel i m0 h0 m1 h1 m2 h2 m3 h3 m4 h4 mS hS) K } := by
  refine ⟨?_, fun E K => ?run⟩
  case run =>
    simp only [cc1__gc1_kernel_eq_skeleton]; unfold cc1__gc1_kernel_skel
    unfold owns
    iintro ⟨⟨%f0, %hf0, H0⟩, ⟨%f1, %hf1, H1⟩, ⟨%fs, %hfs, HS⟩, Hk⟩
    obtain rfl := h0.eq_unread hf0; obtain rfl := h1.eq_unread hf1; obtain rfl := hS.eq_unread hfs
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    iexists _; iexact HS

set_option maxHeartbeats 4000000 in
/-- LAST step: as a middle step, then the output block is stored from the finished accumulator. -/
noncomputable def runC (c : Dev nD) (i : grid1.Coords) (m0 : Memref sig .tc .vmem S4096x512 .f32) (h0 : m0.IsWhole) (m1 : Memref sig .tc .vmem S512x256 .bf16) (h1 : m1.IsWhole) (m2 : Memref sig .tc .vmem S256 .f32) (h2 : m2.IsWhole) (m3 : Memref sig .tc .vmem S256x32 .bf16) (h3 : m3.IsWhole) (m4 : Memref sig .tc .vmem S4096x32 .bf16) (h4 : m4.IsWhole) (mS : Memref sig .tc .vmem S4096x256 .f32) (hS : mS.IsWhole) (hc0 : ¬first i) (hc1 : last i) (x0 : Vec F S4096x512 .f32) (x1 : Vec F S512x256 .bf16) (x2 : Vec F S256 .f32) (x3 : Vec F S256x32 .bf16) (xs : Vec F S4096x256 .f32) :
    Σ' (LO : List (View.Piece (Elt F) S4096x32 .bf16)), { LS : List (View.Piece (Elt F) S4096x256 .f32) //
      ∀ (E : Set ℕ) (K : PUnit → sProp 𝕄),
        iprop(owns (c : Thread nD τ) m0 fullShare x0 ∗ owns (c : Thread nD τ) m1 fullShare x1 ∗ owns (c : Thread nD τ) m2 fullShare x2 ∗ owns (c : Thread nD τ) m3 fullShare x3 ∗ (∃ d, owns (c : Thread nD τ) m4 fullShare d) ∗ owns (c : Thread nD τ) mS fullShare xs
            ∗ (iprop(owns (c : Thread nD τ) m0 fullShare x0 ∗ owns (c : Thread nD τ) m1 fullShare x1 ∗ owns (c : Thread nD τ) m2 fullShare x2 ∗ owns (c : Thread nD τ) m3 fullShare x3 ∗ (∃ f, m4.view.loc (c : Thread nD τ) ↦[m4.view.set]{fullShare} m4.view.writes (Elt F) f LO) ∗ (∃ f, mS.view.loc (c : Thread nD τ) ↦[mS.view.set]{fullShare} mS.view.writes (Elt F) f LS)) -∗ K ⟨⟩))
          ⊢ wp frame (wpE (defs₀ (F := F)) Variants.none c none) E (cc1__gc1_kernel i m0 h0 m1 h1 m2 h2 m3 h3 m4 h4 mS hS) K } := by
  refine ⟨?_, ?_, fun E K => ?run⟩
  case run =>
    simp only [cc1__gc1_kernel_eq_skeleton]; unfold cc1__gc1_kernel_skel
    unfold owns
    iintro ⟨⟨%f0, %hf0, H0⟩, ⟨%f1, %hf1, H1⟩, ⟨%f2, %hf2, H2⟩, ⟨%f3, %hf3, H3⟩, ⟨%dO, %fO, -, HO⟩, ⟨%fs, %hfs, HS⟩, Hk⟩
    obtain rfl := h0.eq_unread hf0; obtain rfl := h1.eq_unread hf1; obtain rfl := h2.eq_unread hf2; obtain rfl := h3.eq_unread hf3; obtain rfl := hS.eq_unread hfs
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [HO]
    · iexists _; iexact HO
    iexists _; iexact HS

/-! ## What each case leaves: the pieces read back -/

def soutA (c : Dev nD) (i : grid1.Coords) (m0 : Memref sig .tc .vmem S4096x512 .f32) (h0 : m0.IsWhole) (m1 : Memref sig .tc .vmem S512x256 .bf16) (h1 : m1.IsWhole) (m2 : Memref sig .tc .vmem S256 .f32) (h2 : m2.IsWhole) (m3 : Memref sig .tc .vmem S256x32 .bf16) (h3 : m3.IsWhole) (m4 : Memref sig .tc .vmem S4096x32 .bf16) (h4 : m4.IsWhole) (mS : Memref sig .tc .vmem S4096x256 .f32) (hS : mS.IsWhole) (hc0 : first i) (hc1 : ¬last i) (x0 : Vec F S4096x512 .f32) (x1 : Vec F S512x256 .bf16) : Vec F S4096x256 .f32 :=
  VS.read (Elt F) (VS.writes (Elt F) VS.junk (runA c i m0 h0 m1 h1 m2 h2 m3 h3 m4 h4 mS hS hc0 hc1 x0 x1).1)
theorem scoverA (c : Dev nD) (i : grid1.Coords) (m0 : Memref sig .tc .vmem S4096x512 .f32) (h0 : m0.IsWhole) (m1 : Memref sig .tc .vmem S512x256 .bf16) (h1 : m1.IsWhole) (m2 : Memref sig .tc .vmem S256 .f32) (h2 : m2.IsWhole) (m3 : Memref sig .tc .vmem S256x32 .bf16) (h3 : m3.IsWhole) (m4 : Memref sig .tc .vmem S4096x32 .bf16) (h4 : m4.IsWhole) (mS : Memref sig .tc .vmem S4096x256 .f32) (hS : mS.IsWhole) (hc0 : first i) (hc1 : ¬last i) (x0 : Vec F S4096x512 .f32) (x1 : Vec F S512x256 .bf16) (y : S4096x256.Idx) :
    ∃ pc ∈ (runA c i m0 h0 m1 h1 m2 h2 m3 h3 m4 h4 mS hS hc0 hc1 x0 x1).1, y ∈ pc.1.set :=
  View.cover_of_tiledL (runA c i m0 h0 m1 h1 m2 h2 m3 h3 m4 h4 mS hS hc0 hc1 x0 x1).1 S4096x256.size (by sl_kernel_rfl) y

def soutB (c : Dev nD) (i : grid1.Coords) (m0 : Memref sig .tc .vmem S4096x512 .f32) (h0 : m0.IsWhole) (m1 : Memref sig .tc .vmem S512x256 .bf16) (h1 : m1.IsWhole) (m2 : Memref sig .tc .vmem S256 .f32) (h2 : m2.IsWhole) (m3 : Memref sig .tc .vmem S256x32 .bf16) (h3 : m3.IsWhole) (m4 : Memref sig .tc .vmem S4096x32 .bf16) (h4 : m4.IsWhole) (mS : Memref sig .tc .vmem S4096x256 .f32) (hS : mS.IsWhole) (hc0 : ¬first i) (hc1 : ¬last i) (x0 : Vec F S4096x512 .f32) (x1 : Vec F S512x256 .bf16) (xs : Vec F S4096x256 .f32) : Vec F S4096x256 .f32 :=
  VS.read (Elt F) (VS.writes (Elt F) VS.junk (runB c i m0 h0 m1 h1 m2 h2 m3 h3 m4 h4 mS hS hc0 hc1 x0 x1 xs).1)
theorem scoverB (c : Dev nD) (i : grid1.Coords) (m0 : Memref sig .tc .vmem S4096x512 .f32) (h0 : m0.IsWhole) (m1 : Memref sig .tc .vmem S512x256 .bf16) (h1 : m1.IsWhole) (m2 : Memref sig .tc .vmem S256 .f32) (h2 : m2.IsWhole) (m3 : Memref sig .tc .vmem S256x32 .bf16) (h3 : m3.IsWhole) (m4 : Memref sig .tc .vmem S4096x32 .bf16) (h4 : m4.IsWhole) (mS : Memref sig .tc .vmem S4096x256 .f32) (hS : mS.IsWhole) (hc0 : ¬first i) (hc1 : ¬last i) (x0 : Vec F S4096x512 .f32) (x1 : Vec F S512x256 .bf16) (xs : Vec F S4096x256 .f32) (y : S4096x256.Idx) :
    ∃ pc ∈ (runB c i m0 h0 m1 h1 m2 h2 m3 h3 m4 h4 mS hS hc0 hc1 x0 x1 xs).1, y ∈ pc.1.set :=
  View.cover_of_tiledL (runB c i m0 h0 m1 h1 m2 h2 m3 h3 m4 h4 mS hS hc0 hc1 x0 x1 xs).1 S4096x256.size (by sl_kernel_rfl) y

def soutC (c : Dev nD) (i : grid1.Coords) (m0 : Memref sig .tc .vmem S4096x512 .f32) (h0 : m0.IsWhole) (m1 : Memref sig .tc .vmem S512x256 .bf16) (h1 : m1.IsWhole) (m2 : Memref sig .tc .vmem S256 .f32) (h2 : m2.IsWhole) (m3 : Memref sig .tc .vmem S256x32 .bf16) (h3 : m3.IsWhole) (m4 : Memref sig .tc .vmem S4096x32 .bf16) (h4 : m4.IsWhole) (mS : Memref sig .tc .vmem S4096x256 .f32) (hS : mS.IsWhole) (hc0 : ¬first i) (hc1 : last i) (x0 : Vec F S4096x512 .f32) (x1 : Vec F S512x256 .bf16) (x2 : Vec F S256 .f32) (x3 : Vec F S256x32 .bf16) (xs : Vec F S4096x256 .f32) : Vec F S4096x256 .f32 :=
  VS.read (Elt F) (VS.writes (Elt F) VS.junk (runC c i m0 h0 m1 h1 m2 h2 m3 h3 m4 h4 mS hS hc0 hc1 x0 x1 x2 x3 xs).2.1)
theorem scoverC (c : Dev nD) (i : grid1.Coords) (m0 : Memref sig .tc .vmem S4096x512 .f32) (h0 : m0.IsWhole) (m1 : Memref sig .tc .vmem S512x256 .bf16) (h1 : m1.IsWhole) (m2 : Memref sig .tc .vmem S256 .f32) (h2 : m2.IsWhole) (m3 : Memref sig .tc .vmem S256x32 .bf16) (h3 : m3.IsWhole) (m4 : Memref sig .tc .vmem S4096x32 .bf16) (h4 : m4.IsWhole) (mS : Memref sig .tc .vmem S4096x256 .f32) (hS : mS.IsWhole) (hc0 : ¬first i) (hc1 : last i) (x0 : Vec F S4096x512 .f32) (x1 : Vec F S512x256 .bf16) (x2 : Vec F S256 .f32) (x3 : Vec F S256x32 .bf16) (xs : Vec F S4096x256 .f32) (y : S4096x256.Idx) :
    ∃ pc ∈ (runC c i m0 h0 m1 h1 m2 h2 m3 h3 m4 h4 mS hS hc0 hc1 x0 x1 x2 x3 xs).2.1, y ∈ pc.1.set :=
  View.cover_of_tiledL (runC c i m0 h0 m1 h1 m2 h2 m3 h3 m4 h4 mS hS hc0 hc1 x0 x1 x2 x3 xs).2.1 S4096x256.size (by sl_kernel_rfl) y
def outC (c : Dev nD) (i : grid1.Coords) (m0 : Memref sig .tc .vmem S4096x512 .f32) (h0 : m0.IsWhole) (m1 : Memref sig .tc .vmem S512x256 .bf16) (h1 : m1.IsWhole) (m2 : Memref sig .tc .vmem S256 .f32) (h2 : m2.IsWhole) (m3 : Memref sig .tc .vmem S256x32 .bf16) (h3 : m3.IsWhole) (m4 : Memref sig .tc .vmem S4096x32 .bf16) (h4 : m4.IsWhole) (mS : Memref sig .tc .vmem S4096x256 .f32) (hS : mS.IsWhole) (hc0 : ¬first i) (hc1 : last i) (x0 : Vec F S4096x512 .f32) (x1 : Vec F S512x256 .bf16) (x2 : Vec F S256 .f32) (x3 : Vec F S256x32 .bf16) (xs : Vec F S4096x256 .f32) : Vec F S4096x32 .bf16 :=
  VO.read (Elt F) (VO.writes (Elt F) VO.junk (runC c i m0 h0 m1 h1 m2 h2 m3 h3 m4 h4 mS hS hc0 hc1 x0 x1 x2 x3 xs).1)
theorem coverC (c : Dev nD) (i : grid1.Coords) (m0 : Memref sig .tc .vmem S4096x512 .f32) (h0 : m0.IsWhole) (m1 : Memref sig .tc .vmem S512x256 .bf16) (h1 : m1.IsWhole) (m2 : Memref sig .tc .vmem S256 .f32) (h2 : m2.IsWhole) (m3 : Memref sig .tc .vmem S256x32 .bf16) (h3 : m3.IsWhole) (m4 : Memref sig .tc .vmem S4096x32 .bf16) (h4 : m4.IsWhole) (mS : Memref sig .tc .vmem S4096x256 .f32) (hS : mS.IsWhole) (hc0 : ¬first i) (hc1 : last i) (x0 : Vec F S4096x512 .f32) (x1 : Vec F S512x256 .bf16) (x2 : Vec F S256 .f32) (x3 : Vec F S256x32 .bf16) (xs : Vec F S4096x256 .f32) (y : S4096x32.Idx) :
    ∃ pc ∈ (runC c i m0 h0 m1 h1 m2 h2 m3 h3 m4 h4 mS hS hc0 hc1 x0 x1 x2 x3 xs).1, y ∈ pc.1.set :=
  View.cover_of_tiledL (runC c i m0 h0 m1 h1 m2 h2 m3 h3 m4 h4 mS hS hc0 hc1 x0 x1 x2 x3 xs).1 S4096x32.size (by sl_kernel_rfl) y

/-- A placeholder for the output block at the steps that store nothing into it: nothing reads it. -/
def idleOut : Vec F S4096x32 .bf16 := VO.read (Elt F) (VO.writes (Elt F) VO.junk [])

/-! ## The accumulation over the grid -/

/-- After step n: the output block (a placeholder unless n is a last step) and the accumulator. A first step starts
    afresh, the others continue from what step n - 1 left. -/
def accAt (c : Dev nD) : (n : ℕ) → n < cfg1.N → Vec F S4096x32 .bf16 × Vec F S4096x256 .f32
  | 0, hn => (idleOut, soutA c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((first_iff ⟨0, hn⟩).mpr (Nat.zero_mod _)) (fun h => (fun h => by (try dsimp only at h); omega) ((last_iff ⟨0, hn⟩).mp h)) (blk V c 0 ⟨0, hn⟩) (blk V c 1 ⟨0, hn⟩))
  | n + 1, hn =>
    if h0 : (n + 1) % 32 = 0 then
      (idleOut, soutA c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((first_iff ⟨n + 1, hn⟩).mpr h0) (fun h => (fun h => by (try dsimp only at h); omega) ((last_iff ⟨n + 1, hn⟩).mp h)) (blk V c 0 ⟨n + 1, hn⟩) (blk V c 1 ⟨n + 1, hn⟩))
    else
      if h1 : (n + 1) % 32 = 31 then
        (outC c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((first_iff ⟨n + 1, hn⟩).mp h)) ((last_iff ⟨n + 1, hn⟩).mpr h1) (blk V c 0 ⟨n + 1, hn⟩) (blk V c 1 ⟨n + 1, hn⟩) (blk V c 2 ⟨n + 1, hn⟩) (blk V c 3 ⟨n + 1, hn⟩) (accAt c n (Nat.lt_of_succ_lt hn)).2,
         soutC c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((first_iff ⟨n + 1, hn⟩).mp h)) ((last_iff ⟨n + 1, hn⟩).mpr h1) (blk V c 0 ⟨n + 1, hn⟩) (blk V c 1 ⟨n + 1, hn⟩) (blk V c 2 ⟨n + 1, hn⟩) (blk V c 3 ⟨n + 1, hn⟩) (accAt c n (Nat.lt_of_succ_lt hn)).2)
      else
        (idleOut, soutB c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((first_iff ⟨n + 1, hn⟩).mp h)) (fun h => h1 ((last_iff ⟨n + 1, hn⟩).mp h)) (blk V c 0 ⟨n + 1, hn⟩) (blk V c 1 ⟨n + 1, hn⟩) (accAt c n (Nat.lt_of_succ_lt hn)).2)

theorem accAt_A (c : Dev nD) (t : Fin cfg1.N) (h0 : t.val % 32 = 0) (h1 : ¬t.val % 32 = 31) :
    accAt V c t.val t.isLt = (idleOut, soutA c (grid1.coords t) (ms0 t) (hs0 t) (ms1 t) (hs1 t) (ms2 t) (hs2 t) (ms3 t) (hs3 t) (ms4 t) (hs4 t) scM (Memref.isWhole_whole _) ((first_iff t).mpr h0) (fun h => h1 ((last_iff t).mp h)) (blk V c 0 t) (blk V c 1 t)) := by
  obtain ⟨n, hn⟩ := t
  cases n with
  | zero => exact rfl
  | succ n => exact (dif_pos h0).trans rfl

theorem accAt_B (c : Dev nD) (t : Fin cfg1.N) (h0 : ¬t.val % 32 = 0) (h1 : ¬t.val % 32 = 31) :
    accAt V c t.val t.isLt = (idleOut, soutB c (grid1.coords t) (ms0 t) (hs0 t) (ms1 t) (hs1 t) (ms2 t) (hs2 t) (ms3 t) (hs3 t) (ms4 t) (hs4 t) scM (Memref.isWhole_whole _) (fun h => h0 ((first_iff t).mp h)) (fun h => h1 ((last_iff t).mp h)) (blk V c 0 t) (blk V c 1 t) (accAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem accAt_C (c : Dev nD) (t : Fin cfg1.N) (h0 : ¬t.val % 32 = 0) (h1 : t.val % 32 = 31) :
    accAt V c t.val t.isLt = (outC c (grid1.coords t) (ms0 t) (hs0 t) (ms1 t) (hs1 t) (ms2 t) (hs2 t) (ms3 t) (hs3 t) (ms4 t) (hs4 t) scM (Memref.isWhole_whole _) (fun h => h0 ((first_iff t).mp h)) ((last_iff t).mpr h1) (blk V c 0 t) (blk V c 1 t) (blk V c 2 t) (blk V c 3 t) (accAt V c (t.val - 1) (Nat.lt_of_le_of_lt (Nat.sub_le _ _) t.isLt)).2,
      soutC c (grid1.coords t) (ms0 t) (hs0 t) (ms1 t) (hs1 t) (ms2 t) (hs2 t) (ms3 t) (hs3 t) (ms4 t) (hs4 t) scM (Memref.isWhole_whole _) (fun h => h0 ((first_iff t).mp h)) ((last_iff t).mpr h1) (blk V c 0 t) (blk V c 1 t) (blk V c 2 t) (blk V c 3 t) (accAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between steps: the accumulator at what the last step left -/

/-- The scoped buffers other than the accumulator, at anything, and the generator register. -/
def Rest (c : Dev nD) : sProp 𝕄 :=
  iprop(Pipeline.scopedRestBut (Ix := Unit) (Name := ℕ) (U := UR sig nD τ) (Lvl := ℕ) (Val := Elt F) spec1 c [cc1_scratch0] ∗ ∃ r, prngReg c r)

theorem scoped_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

theorem PhiA_open (c : Dev nD) :
    (Pipeline.ΦA spec1 c : sProp 𝕄) ⊢ iprop((∃ d, owns (c : Thread nD τ) scM fullShare d) ∗ Rest (F := F) c) := by
  unfold Pipeline.ΦA Rest
  rw [scoped_split]
  simp only [scM, owns_whole]
  iintro ⟨⟨⟨%f, Hs⟩, Hb⟩, Hg⟩
  isplitl [Hs]; · iexists f; iexact Hs
  isplitl [Hb]; · iexact Hb
  iexact Hg

theorem PhiA_close (c : Dev nD) :
    iprop((∃ d, owns (c : Thread nD τ) scM fullShare d) ∗ Rest (F := F) c) ⊢ (Pipeline.ΦA spec1 c : sProp 𝕄) := by
  unfold Pipeline.ΦA Rest
  rw [scoped_split]
  simp only [scM, owns_whole]
  iintro ⟨⟨%f, Hs⟩, Hb, Hg⟩
  isplitr [Hg]
  · isplitl [Hs]; · iexists f; iexact Hs
    iexact Hb
  iexact Hg

def PhiS (c : Dev nD) : (n : ℕ) → n ≤ cfg1.N → sProp 𝕄
  | 0, _ => Pipeline.ΦA spec1 c
  | n + 1, hn => iprop(owns (c : Thread nD τ) scM fullShare ((accAt V c n hn).2) ∗ Rest (F := F) c)

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(owns (c : Thread nD τ) scM fullShare ((accAt V c n hn).2) ∗ Rest (F := F) c) := rfl
theorem PhiS_pos (c : Dev nD) (n : ℕ) (h : n ≤ cfg1.N) (hz : n ≠ 0) :
    PhiS V c n h = iprop(owns (c : Thread nD τ) scM fullShare ((accAt V c (n - 1) (by omega)).2) ∗ Rest (F := F) c) := by
  cases n with
  | zero => exact absurd rfl hz
  | succ n => rfl

/-! ## The proof data -/

def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => (accAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by dsimp only [dat]
theorem PhiS_castSucc (c : Dev nD) (t : Fin cfg1.N) : (dat V c).Φ t.castSucc = PhiS V c t.val (Nat.le_of_lt t.isLt) := by
  dsimp only [dat]; simp only [Fin.coe_castSucc]
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = (accAt V c t.val t.isLt).1 := by dsimp only [dat]
theorem before_0 (c : Dev nD) (t : Fin cfg1.N) (d) : (dat V c).before 0 t d = blk V c 0 t :=
  before_in_0 V (dat V c) (A_eq V c 0) (after_0 V c) t d
theorem before_1 (c : Dev nD) (t : Fin cfg1.N) (d) : (dat V c).before 1 t d = blk V c 1 t :=
  before_in_1 V (dat V c) (A_eq V c 1) (after_1 V c) t d
theorem before_2 (c : Dev nD) (t : Fin cfg1.N) (d) : (dat V c).before 2 t d = blk V c 2 t :=
  before_in_2 V (dat V c) (A_eq V c 2) (after_2 V c) t d
theorem before_3 (c : Dev nD) (t : Fin cfg1.N) (d) : (dat V c).before 3 t d = blk V c 3 t :=
  before_in_3 V (dat V c) (A_eq V c 3) (after_3 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).owesAt () t.succ = (dat V c).owesAt () t.castSucc from rfl]
  rw [show (dat V c).Φ t.succ = PhiS V c (t.val + 1) t.isLt from rfl, PhiS_succ]
  rw [    show (dat V c).leavesExact 0 t = owns (c : Thread nD τ) (ms0 t) fullShare ((dat V c).after 0 t) from by
      unfold Dat.leavesExact; rfl,
    after_0,
    show (dat V c).leavesExact 1 t = owns (c : Thread nD τ) (ms1 t) fullShare ((dat V c).after 1 t) from by
      unfold Dat.leavesExact; rfl,
    after_1,
    show (dat V c).leavesExact 2 t = owns (c : Thread nD τ) (ms2 t) fullShare ((dat V c).after 2 t) from by
      unfold Dat.leavesExact; rfl,
    after_2,
    show (dat V c).leavesExact 3 t = owns (c : Thread nD τ) (ms3 t) fullShare ((dat V c).after 3 t) from by
      unfold Dat.leavesExact; rfl,
    after_3]
  have hN : t.val < 128 := lt_of_lt_of_eq t.isLt (show cfg1.N = 128 from N_1)
  by_cases h0 : t.val % 32 = 0
  · have h1 : ¬t.val % 32 = 31 := by omega
    rw [Dat.leavesExact_idle (dat V c) 4 t (idle_out t (fun h => h1 ((last_iff t).mp h))) (noflush_out t (fun h => h1 ((last_iff t).mp h)))]
    rw [accAt_A V c t h0 h1]
    unfold soutA; (try dsimp only)
    by_cases hz : t.val = 0
    · rw [PhiS_castSucc V c t, PhiS_zero V c _ _ hz]
      iintro ⟨HΦ, Ho, ⟨%d0, H0⟩, ⟨%d1, H1⟩, ⟨%d2, H2⟩, ⟨%d3, H3⟩, ⟨%d4, H4⟩⟩
      ihave HΦ' := (PhiA_open (F := F) c) $$ HΦ
      icases HΦ' with ⟨HS, HR⟩
      iapply ((runA c (grid1.coords t) (ms0 t) (hs0 t) (ms1 t) (hs1 t) (ms2 t) (hs2 t) (ms3 t) (hs3 t) (ms4 t) (hs4 t) scM (Memref.isWhole_whole _) ((first_iff t).mpr h0) (fun h => h1 ((last_iff t).mp h)) (blk V c 0 t) (blk V c 1 t)).2 Set.univ _)
      isplitl [H0]; · iexact H0
      isplitl [H1]; · iexact H1
      isplitl [HS]; · iexact HS
      iintro ⟨H0, H1, ⟨%es, HS⟩⟩
      isplitl [HS HR]
      · isplitl [HS]
        · unfold owns; iexists _; isplitr
          swap; · iexact HS
          ipureintro; exact View.read_writes_of_cover _ _ _ _ _ (scoverA c _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨HΦ, Ho, ⟨%d0, H0⟩, ⟨%d1, H1⟩, ⟨%d2, H2⟩, ⟨%d3, H3⟩, ⟨%d4, H4⟩⟩
      icases HΦ with ⟨HS, HR⟩
      iapply ((runA c (grid1.coords t) (ms0 t) (hs0 t) (ms1 t) (hs1 t) (ms2 t) (hs2 t) (ms3 t) (hs3 t) (ms4 t) (hs4 t) scM (Memref.isWhole_whole _) ((first_iff t).mpr h0) (fun h => h1 ((last_iff t).mp h)) (blk V c 0 t) (blk V c 1 t)).2 Set.univ _)
      isplitl [H0]; · iexact H0
      isplitl [H1]; · iexact H1
      isplitl [HS]; · iexists _; iexact HS
      iintro ⟨H0, H1, ⟨%es, HS⟩⟩
      isplitl [HS HR]
      · isplitl [HS]
        · unfold owns; iexists _; isplitr
          swap; · iexact HS
          ipureintro; exact View.read_writes_of_cover _ _ _ _ _ (scoverA c _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 32 = 31
    · rw [show (dat V c).leavesExact 4 t = owns (c : Thread nD τ) (ms4 t) fullShare ((dat V c).after 4 t) from by
        unfold Dat.leavesExact; rw [live_out t ((last_iff t).mpr h1)], after_4]
      rw [accAt_C V c t h0 h1]
      unfold outC soutC; (try dsimp only)
      rw [PhiS_castSucc V c t, PhiS_pos V c _ _ hz]
      iintro ⟨HΦ, Ho, ⟨%d0, H0⟩, ⟨%d1, H1⟩, ⟨%d2, H2⟩, ⟨%d3, H3⟩, ⟨%d4, H4⟩⟩
      icases HΦ with ⟨HS, HR⟩
      iapply ((runC c (grid1.coords t) (ms0 t) (hs0 t) (ms1 t) (hs1 t) (ms2 t) (hs2 t) (ms3 t) (hs3 t) (ms4 t) (hs4 t) scM (Memref.isWhole_whole _) (fun h => h0 ((first_iff t).mp h)) ((last_iff t).mpr h1) (blk V c 0 t) (blk V c 1 t) (blk V c 2 t) (blk V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%eo, H4⟩, ⟨%es, HS⟩⟩
      isplitl [HS HR]
      · isplitl [HS]
        · unfold owns; iexists _; isplitr
          swap; · iexact HS
          ipureintro; exact View.read_writes_of_cover _ _ _ _ _ (scoverC c _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC c _ _ _ _ _ _ _ _ _ _ _ _ _ _ _ _ _ _ _ _)
    · rw [Dat.leavesExact_idle (dat V c) 4 t (idle_out t (fun h => h1 ((last_iff t).mp h))) (noflush_out t (fun h => h1 ((last_iff t).mp h)))]
      rw [accAt_B V c t h0 h1]
      unfold soutB; (try dsimp only)
      rw [PhiS_castSucc V c t, PhiS_pos V c _ _ hz]
      iintro ⟨HΦ, Ho, ⟨%d0, H0⟩, ⟨%d1, H1⟩, ⟨%d2, H2⟩, ⟨%d3, H3⟩, ⟨%d4, H4⟩⟩
      icases HΦ with ⟨HS, HR⟩
      iapply ((runB c (grid1.coords t) (ms0 t) (hs0 t) (ms1 t) (hs1 t) (ms2 t) (hs2 t) (ms3 t) (hs3 t) (ms4 t) (hs4 t) scM (Memref.isWhole_whole _) (fun h => h0 ((first_iff t).mp h)) (fun h => h1 ((last_iff t).mp h)) (blk V c 0 t) (blk V c 1 t) _).2 Set.univ _)
      isplitl [H0]; · iexact H0
      isplitl [H1]; · iexact H1
      isplitl [HS]; · iexact HS
      iintro ⟨H0, H1, ⟨%es, HS⟩⟩
      isplitl [HS HR]
      · isplitl [HS]
        · unfold owns; iexists _; isplitr
          swap; · iexact HS
          ipureintro; exact View.read_writes_of_cover _ _ _ _ _ (scoverB c _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      iexists _; iexact H4

theorem body_obligation (c : Dev nD) : BodyObligation (dat (F := F) V c) (defs₀ (F := F)) Variants.none () Set.univ := fun t => by
  rw [bigSep_W1, bigSep_W1]
  exact sound_body V c t

theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 128 := N_1; omega)]
  iintro ⟨HS, HR⟩
  iapply (PhiA_close (F := F) c)
  isplitl [HS]
  · iexists _; iexact HS
  iexact HR

end Cert.Kernel.Conv1

end
-- ==== Proof.Conv2W.lean ====
/-
  The second graph convolution as a pipeline over 4 row blocks × 32 steps: the same accumulation as the first, into an
  accumulator [4096, 32]; the last step of a row block adds the bias and stores the row-wise log-softmax,
  (z - max z) - log Σ exp (z - max z), into the output block.
-/
import proofs.«138483_j40407052320948_2_alg».proof.Proof.Gen.Kernel.Launch
import proofs.«138483_j40407052320948_2_alg».proof.Proof.Gen.Kernel.Skeleton
import proofs.«138483_j40407052320948_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Conv2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block t of window w, read off its array as the region finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 holds its block whenever the body runs, fetched at that point or not. -/
theorem before_in_0 {c : Dev nD} (dat : Dat τ (Elt F) Unit ℕ (UR sig nD τ) ℕ cfg2 c)
    (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1 holds its block whenever the body runs, fetched at that point or not. -/
theorem before_in_1 {c : Dev nD} (dat : Dat τ (Elt F) Unit ℕ (UR sig nD τ) ℕ cfg2 c)
    (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2 holds its block whenever the body runs, fetched at that point or not. -/
theorem before_in_2 {c : Dev nD} (dat : Dat τ (Elt F) Unit ℕ (UR sig nD τ) ℕ cfg2 c)
    (hA : dat.A 2 = V c (Pipeline.arrRef spec2 2))
    (hafter : ∀ t, dat.after 2 t = blk V c 2 t) (t : Fin cfg2.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The two conditions of the body, over the grid: the first and the last step of a row block's reduction -/

abbrev first (i : grid2.Coords) : Prop := (Scalar.cmpi .ne (Scalar.extui (Scalar.cmpi .eq (BitVec.ofNat 32 (i 1).val) 0#32)) 0#32) = 1#1
theorem first_iff : ∀ t : Fin cfg2.N, first (grid2.coords t) ↔ t.val % 32 = 0 :=
  (by decide +kernel : ∀ t : Fin grid2.N, first (grid2.coords t) ↔ t.val % 32 = 0)
abbrev last (i : grid2.Coords) : Prop := k2_cond2 i = 1#1
theorem last_iff : ∀ t : Fin cfg2.N, last (grid2.coords t) ↔ t.val % 32 = 31 :=
  (by decide +kernel : ∀ t : Fin grid2.N, last (grid2.coords t) ↔ t.val % 32 = 31)

/-- The output window is idle, and not written back, except at a last step. -/
theorem idle_out : ∀ t : Fin cfg2.N, ¬last (grid2.coords t) → cfg2.idle 3 (grid2.coords t) = true := by decide +kernel
theorem noflush_out : ∀ t : Fin cfg2.N, ¬last (grid2.coords t) → (cfg2.win 3).flush t = false := by decide +kernel
theorem live_out : ∀ t : Fin cfg2.N, last (grid2.coords t) → cfg2.idle 3 (grid2.coords t) = false := by decide +kernel

abbrev ms0 (t : Fin cfg2.N) : Memref sig .tc .vmem S4096x512 .f32 := win2_0.stage (cfg2.slots t 0)
abbrev hs0 (t : Fin cfg2.N) : (ms0 t).IsWhole := hstage2_0 ((cfg2.slots t 0).cast nbuf2_0)
abbrev ms1 (t : Fin cfg2.N) : Memref sig .tc .vmem S512x32 .bf16 := win2_1.stage (cfg2.slots t 1)
abbrev hs1 (t : Fin cfg2.N) : (ms1 t).IsWhole := hstage2_1 ((cfg2.slots t 1).cast nbuf2_1)
abbrev ms2 (t : Fin cfg2.N) : Memref sig .tc .vmem S32 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S4096x32 .f32 := win2_3.stage (cfg2.slots t 3)
abbrev hs3 (t : Fin cfg2.N) : (ms3 t).IsWhole := hstage2_3 ((cfg2.slots t 3).cast nbuf2_3)
/-- The accumulator: a whole scoped buffer of the kernel's own. -/
abbrev scM : Memref sig .tc .vmem S4096x32 .f32 := Memref.whole cc2_scratch0
abbrev VS : View sig .tc .vmem S4096x32 .f32 := scM.view
abbrev VO : View sig .tc .vmem S4096x32 .f32 := (Memref.whole cc2_stg3_0 : Memref sig .tc .vmem S4096x32 .f32).view

/-! ## The body, once per case: first step, middle step, last step -/

set_option maxHeartbeats 4000000 in
/-- FIRST step of a row block: the accumulator, whatever it held, is zeroed and takes the two products. The pieces it
    ends with are found by the run. -/
noncomputable def runA (c : Dev nD) (i : grid2.Coords) (m0 : Memref sig .tc .vmem S4096x512 .f32) (h0 : m0.IsWhole) (m1 : Memref sig .tc .vmem S512x32 .bf16) (h1 : m1.IsWhole) (m2 : Memref sig .tc .vmem S32 .f32) (h2 : m2.IsWhole) (m3 : Memref sig .tc .vmem S4096x32 .f32) (h3 : m3.IsWhole) (mS : Memref sig .tc .vmem S4096x32 .f32) (hS : mS.IsWhole) (hc0 : first i) (hc1 : ¬last i) (x0 : Vec F S4096x512 .f32) (x1 : Vec F S512x32 .bf16) :
    { LS : List (View.Piece (Elt F) S4096x32 .f32) //
      ∀ (E : Set ℕ) (K : PUnit → sProp 𝕄),
        iprop(owns (c : Thread nD τ) m0 fullShare x0 ∗ owns (c : Thread nD τ) m1 fullShare x1 ∗ (∃ d, owns (c : Thread nD τ) mS fullShare d)
            ∗ (iprop(owns (c : Thread nD τ) m0 fullShare x0 ∗ owns (c : Thread nD τ) m1 fullShare x1 ∗ (∃ f, mS.view.loc (c : Thread nD τ) ↦[mS.view.set]{fullShare} mS.view.writes (Elt F) f LS)) -∗ K ⟨⟩))
          ⊢ wp frame (wpE (defs₀ (F := F)) Variants.none c none) E (cc2__gc2_kernel i m0 h0 m1 h1 m2 h2 m3 h3 mS hS) K } := by
  refine ⟨?_, fun E K => ?run⟩
  case run =>
    simp only [cc2__gc2_kernel_eq_skeleton]; unfold cc2__gc2_kernel_skel
    unfold owns
    iintro ⟨⟨%f0, %hf0, H0⟩, ⟨%f1, %hf1, H1⟩, ⟨%ds, %fs, -, HS⟩, Hk⟩
    obtain rfl := h0.eq_unread hf0; obtain rfl := h1.eq_unread hf1
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    iexists _; iexact HS

set_option maxHeartbeats 4000000 in
/-- MIDDLE step: the accumulator, at what the step before left, takes the two products. -/
noncomputable def runB (c : Dev nD) (i : grid2.Coords) (m0 : Memref sig .tc .vmem S4096x512 .f32) (h0 : m0.IsWhole) (m1 : Memref sig .tc .vmem S512x32 .bf16) (h1 : m1.IsWhole) (m2 : Memref sig .tc .vmem S32 .f32) (h2 : m2.IsWhole) (m3 : Memref sig .tc .vmem S4096x32 .f32) (h3 : m3.IsWhole) (mS : Memref sig .tc .vmem S4096x32 .f32) (hS : mS.IsWhole) (hc0 : ¬first i) (hc1 : ¬last i) (x0 : Vec F S4096x512 .f32) (x1 : Vec F S512x32 .bf16) (xs : Vec F S4096x32 .f32) :
    { LS : List (View.Piece (Elt F) S4096x32 .f32) //
      ∀ (E : Set ℕ) (K : PUnit → sProp 𝕄),
        iprop(owns (c : Thread nD τ) m0 fullShare x0 ∗ owns (c : Thread nD τ) m1 fullShare x1 ∗ owns (c : Thread nD τ) mS fullShare xs
            ∗ (iprop(owns (c : Thread nD τ) m0 fullShare x0 ∗ owns (c : Thread nD τ) m1 fullShare x1 ∗ (∃ f, mS.view.loc (c : Thread nD τ) ↦[mS.view.set]{fullShare} mS.view.writes (Elt F) f LS)) -∗ K ⟨⟩))
          ⊢ wp frame (wpE (defs₀ (F := F)) Variants.none c none) E (cc2__gc2_kernel i m0 h0 m1 h1 m2 h2 m3 h3 mS hS) K } := by
  refine ⟨?_, fun E K => ?run⟩
  case run =>
    simp only [cc2__gc2_kernel_eq_skeleton]; unfold cc2__gc2_kernel_skel
    unfold owns
    iintro ⟨⟨%f0, %hf0, H0⟩, ⟨%f1, %hf1, H1⟩, ⟨%fs, %hfs, HS⟩, Hk⟩
    obtain rfl := h0.eq_unread hf0; obtain rfl := h1.eq_unread hf1; obtain rfl := hS.eq_unread hfs
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    iexists _; iexact HS

set_option maxHeartbeats 4000000 in
/-- LAST step: as a middle step, then the output block is stored from the finished accumulator. -/
noncomputable def runC (c : Dev nD) (i : grid2.Coords) (m0 : Memref sig .tc .vmem S4096x512 .f32) (h0 : m0.IsWhole) (m1 : Memref sig .tc .vmem S512x32 .bf16) (h1 : m1.IsWhole) (m2 : Memref sig .tc .vmem S32 .f32) (h2 : m2.IsWhole) (m3 : Memref sig .tc .vmem S4096x32 .f32) (h3 : m3.IsWhole) (mS : Memref sig .tc .vmem S4096x32 .f32) (hS : mS.IsWhole) (hc0 : ¬first i) (hc1 : last i) (x0 : Vec F S4096x512 .f32) (x1 : Vec F S512x32 .bf16) (x2 : Vec F S32 .f32) (xs : Vec F S4096x32 .f32) :
    Σ' (LO : List (View.Piece (Elt F) S4096x32 .f32)), { LS : List (View.Piece (Elt F) S4096x32 .f32) //
      ∀ (E : Set ℕ) (K : PUnit → sProp 𝕄),
        iprop(owns (c : Thread nD τ) m0 fullShare x0 ∗ owns (c : Thread nD τ) m1 fullShare x1 ∗ owns (c : Thread nD τ) m2 fullShare x2 ∗ (∃ d, owns (c : Thread nD τ) m3 fullShare d) ∗ owns (c : Thread nD τ) mS fullShare xs
            ∗ (iprop(owns (c : Thread nD τ) m0 fullShare x0 ∗ owns (c : Thread nD τ) m1 fullShare x1 ∗ owns (c : Thread nD τ) m2 fullShare x2 ∗ (∃ f, m3.view.loc (c : Thread nD τ) ↦[m3.view.set]{fullShare} m3.view.writes (Elt F) f LO) ∗ (∃ f, mS.view.loc (c : Thread nD τ) ↦[mS.view.set]{fullShare} mS.view.writes (Elt F) f LS)) -∗ K ⟨⟩))
          ⊢ wp frame (wpE (defs₀ (F := F)) Variants.none c none) E (cc2__gc2_kernel i m0 h0 m1 h1 m2 h2 m3 h3 mS hS) K } := by
  refine ⟨?_, ?_, fun E K => ?run⟩
  case run =>
    simp only [cc2__gc2_kernel_eq_skeleton]; unfold cc2__gc2_kernel_skel
    unfold owns
    iintro ⟨⟨%f0, %hf0, H0⟩, ⟨%f1, %hf1, H1⟩, ⟨%f2, %hf2, H2⟩, ⟨%dO, %fO, -, HO⟩, ⟨%fs, %hfs, HS⟩, Hk⟩
    obtain rfl := h0.eq_unread hf0; obtain rfl := h1.eq_unread hf1; obtain rfl := h2.eq_unread hf2; obtain rfl := hS.eq_unread hfs
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [HO]
    · iexists _; iexact HO
    iexists _; iexact HS

/-! ## What each case leaves: the pieces read back -/

def soutA (c : Dev nD) (i : grid2.Coords) (m0 : Memref sig .tc .vmem S4096x512 .f32) (h0 : m0.IsWhole) (m1 : Memref sig .tc .vmem S512x32 .bf16) (h1 : m1.IsWhole) (m2 : Memref sig .tc .vmem S32 .f32) (h2 : m2.IsWhole) (m3 : Memref sig .tc .vmem S4096x32 .f32) (h3 : m3.IsWhole) (mS : Memref sig .tc .vmem S4096x32 .f32) (hS : mS.IsWhole) (hc0 : first i) (hc1 : ¬last i) (x0 : Vec F S4096x512 .f32) (x1 : Vec F S512x32 .bf16) : Vec F S4096x32 .f32 :=
  VS.read (Elt F) (VS.writes (Elt F) VS.junk (runA c i m0 h0 m1 h1 m2 h2 m3 h3 mS hS hc0 hc1 x0 x1).1)
theorem scoverA (c : Dev nD) (i : grid2.Coords) (m0 : Memref sig .tc .vmem S4096x512 .f32) (h0 : m0.IsWhole) (m1 : Memref sig .tc .vmem S512x32 .bf16) (h1 : m1.IsWhole) (m2 : Memref sig .tc .vmem S32 .f32) (h2 : m2.IsWhole) (m3 : Memref sig .tc .vmem S4096x32 .f32) (h3 : m3.IsWhole) (mS : Memref sig .tc .vmem S4096x32 .f32) (hS : mS.IsWhole) (hc0 : first i) (hc1 : ¬last i) (x0 : Vec F S4096x512 .f32) (x1 : Vec F S512x32 .bf16) (y : S4096x32.Idx) :
    ∃ pc ∈ (runA c i m0 h0 m1 h1 m2 h2 m3 h3 mS hS hc0 hc1 x0 x1).1, y ∈ pc.1.set :=
  View.cover_of_tiledL (runA c i m0 h0 m1 h1 m2 h2 m3 h3 mS hS hc0 hc1 x0 x1).1 S4096x32.size (by sl_kernel_rfl) y

def soutB (c : Dev nD) (i : grid2.Coords) (m0 : Memref sig .tc .vmem S4096x512 .f32) (h0 : m0.IsWhole) (m1 : Memref sig .tc .vmem S512x32 .bf16) (h1 : m1.IsWhole) (m2 : Memref sig .tc .vmem S32 .f32) (h2 : m2.IsWhole) (m3 : Memref sig .tc .vmem S4096x32 .f32) (h3 : m3.IsWhole) (mS : Memref sig .tc .vmem S4096x32 .f32) (hS : mS.IsWhole) (hc0 : ¬first i) (hc1 : ¬last i) (x0 : Vec F S4096x512 .f32) (x1 : Vec F S512x32 .bf16) (xs : Vec F S4096x32 .f32) : Vec F S4096x32 .f32 :=
  VS.read (Elt F) (VS.writes (Elt F) VS.junk (runB c i m0 h0 m1 h1 m2 h2 m3 h3 mS hS hc0 hc1 x0 x1 xs).1)
theorem scoverB (c : Dev nD) (i : grid2.Coords) (m0 : Memref sig .tc .vmem S4096x512 .f32) (h0 : m0.IsWhole) (m1 : Memref sig .tc .vmem S512x32 .bf16) (h1 : m1.IsWhole) (m2 : Memref sig .tc .vmem S32 .f32) (h2 : m2.IsWhole) (m3 : Memref sig .tc .vmem S4096x32 .f32) (h3 : m3.IsWhole) (mS : Memref sig .tc .vmem S4096x32 .f32) (hS : mS.IsWhole) (hc0 : ¬first i) (hc1 : ¬last i) (x0 : Vec F S4096x512 .f32) (x1 : Vec F S512x32 .bf16) (xs : Vec F S4096x32 .f32) (y : S4096x32.Idx) :
    ∃ pc ∈ (runB c i m0 h0 m1 h1 m2 h2 m3 h3 mS hS hc0 hc1 x0 x1 xs).1, y ∈ pc.1.set :=
  View.cover_of_tiledL (runB c i m0 h0 m1 h1 m2 h2 m3 h3 mS hS hc0 hc1 x0 x1 xs).1 S4096x32.size (by sl_kernel_rfl) y

def soutC (c : Dev nD) (i : grid2.Coords) (m0 : Memref sig .tc .vmem S4096x512 .f32) (h0 : m0.IsWhole) (m1 : Memref sig .tc .vmem S512x32 .bf16) (h1 : m1.IsWhole) (m2 : Memref sig .tc .vmem S32 .f32) (h2 : m2.IsWhole) (m3 : Memref sig .tc .vmem S4096x32 .f32) (h3 : m3.IsWhole) (mS : Memref sig .tc .vmem S4096x32 .f32) (hS : mS.IsWhole) (hc0 : ¬first i) (hc1 : last i) (x0 : Vec F S4096x512 .f32) (x1 : Vec F S512x32 .bf16) (x2 : Vec F S32 .f32) (xs : Vec F S4096x32 .f32) : Vec F S4096x32 .f32 :=
  VS.read (Elt F) (VS.writes (Elt F) VS.junk (runC c i m0 h0 m1 h1 m2 h2 m3 h3 mS hS hc0 hc1 x0 x1 x2 xs).2.1)
theorem scoverC (c : Dev nD) (i : grid2.Coords) (m0 : Memref sig .tc .vmem S4096x512 .f32) (h0 : m0.IsWhole) (m1 : Memref sig .tc .vmem S512x32 .bf16) (h1 : m1.IsWhole) (m2 : Memref sig .tc .vmem S32 .f32) (h2 : m2.IsWhole) (m3 : Memref sig .tc .vmem S4096x32 .f32) (h3 : m3.IsWhole) (mS : Memref sig .tc .vmem S4096x32 .f32) (hS : mS.IsWhole) (hc0 : ¬first i) (hc1 : last i) (x0 : Vec F S4096x512 .f32) (x1 : Vec F S512x32 .bf16) (x2 : Vec F S32 .f32) (xs : Vec F S4096x32 .f32) (y : S4096x32.Idx) :
    ∃ pc ∈ (runC c i m0 h0 m1 h1 m2 h2 m3 h3 mS hS hc0 hc1 x0 x1 x2 xs).2.1, y ∈ pc.1.set :=
  View.cover_of_tiledL (runC c i m0 h0 m1 h1 m2 h2 m3 h3 mS hS hc0 hc1 x0 x1 x2 xs).2.1 S4096x32.size (by sl_kernel_rfl) y
def outC (c : Dev nD) (i : grid2.Coords) (m0 : Memref sig .tc .vmem S4096x512 .f32) (h0 : m0.IsWhole) (m1 : Memref sig .tc .vmem S512x32 .bf16) (h1 : m1.IsWhole) (m2 : Memref sig .tc .vmem S32 .f32) (h2 : m2.IsWhole) (m3 : Memref sig .tc .vmem S4096x32 .f32) (h3 : m3.IsWhole) (mS : Memref sig .tc .vmem S4096x32 .f32) (hS : mS.IsWhole) (hc0 : ¬first i) (hc1 : last i) (x0 : Vec F S4096x512 .f32) (x1 : Vec F S512x32 .bf16) (x2 : Vec F S32 .f32) (xs : Vec F S4096x32 .f32) : Vec F S4096x32 .f32 :=
  VO.read (Elt F) (VO.writes (Elt F) VO.junk (runC c i m0 h0 m1 h1 m2 h2 m3 h3 mS hS hc0 hc1 x0 x1 x2 xs).1)
theorem coverC (c : Dev nD) (i : grid2.Coords) (m0 : Memref sig .tc .vmem S4096x512 .f32) (h0 : m0.IsWhole) (m1 : Memref sig .tc .vmem S512x32 .bf16) (h1 : m1.IsWhole) (m2 : Memref sig .tc .vmem S32 .f32) (h2 : m2.IsWhole) (m3 : Memref sig .tc .vmem S4096x32 .f32) (h3 : m3.IsWhole) (mS : Memref sig .tc .vmem S4096x32 .f32) (hS : mS.IsWhole) (hc0 : ¬first i) (hc1 : last i) (x0 : Vec F S4096x512 .f32) (x1 : Vec F S512x32 .bf16) (x2 : Vec F S32 .f32) (xs : Vec F S4096x32 .f32) (y : S4096x32.Idx) :
    ∃ pc ∈ (runC c i m0 h0 m1 h1 m2 h2 m3 h3 mS hS hc0 hc1 x0 x1 x2 xs).1, y ∈ pc.1.set :=
  View.cover_of_tiledL (runC c i m0 h0 m1 h1 m2 h2 m3 h3 mS hS hc0 hc1 x0 x1 x2 xs).1 S4096x32.size (by sl_kernel_rfl) y

/-- A placeholder for the output block at the steps that store nothing into it: nothing reads it. -/
def idleOut : Vec F S4096x32 .f32 := VO.read (Elt F) (VO.writes (Elt F) VO.junk [])

/-! ## The accumulation over the grid -/

/-- After step n: the output block (a placeholder unless n is a last step) and the accumulator. A first step starts
    afresh, the others continue from what step n - 1 left. -/
def accAt (c : Dev nD) : (n : ℕ) → n < cfg2.N → Vec F S4096x32 .f32 × Vec F S4096x32 .f32
  | 0, hn => (idleOut, soutA c (grid2.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) ((first_iff ⟨0, hn⟩).mpr (Nat.zero_mod _)) (fun h => (fun h => by (try dsimp only at h); omega) ((last_iff ⟨0, hn⟩).mp h)) (blk V c 0 ⟨0, hn⟩) (blk V c 1 ⟨0, hn⟩))
  | n + 1, hn =>
    if h0 : (n + 1) % 32 = 0 then
      (idleOut, soutA c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) ((first_iff ⟨n + 1, hn⟩).mpr h0) (fun h => (fun h => by (try dsimp only at h); omega) ((last_iff ⟨n + 1, hn⟩).mp h)) (blk V c 0 ⟨n + 1, hn⟩) (blk V c 1 ⟨n + 1, hn⟩))
    else
      if h1 : (n + 1) % 32 = 31 then
        (outC c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((first_iff ⟨n + 1, hn⟩).mp h)) ((last_iff ⟨n + 1, hn⟩).mpr h1) (blk V c 0 ⟨n + 1, hn⟩) (blk V c 1 ⟨n + 1, hn⟩) (blk V c 2 ⟨n + 1, hn⟩) (accAt c n (Nat.lt_of_succ_lt hn)).2,
         soutC c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((first_iff ⟨n + 1, hn⟩).mp h)) ((last_iff ⟨n + 1, hn⟩).mpr h1) (blk V c 0 ⟨n + 1, hn⟩) (blk V c 1 ⟨n + 1, hn⟩) (blk V c 2 ⟨n + 1, hn⟩) (accAt c n (Nat.lt_of_succ_lt hn)).2)
      else
        (idleOut, soutB c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((first_iff ⟨n + 1, hn⟩).mp h)) (fun h => h1 ((last_iff ⟨n + 1, hn⟩).mp h)) (blk V c 0 ⟨n + 1, hn⟩) (blk V c 1 ⟨n + 1, hn⟩) (accAt c n (Nat.lt_of_succ_lt hn)).2)

theorem accAt_A (c : Dev nD) (t : Fin cfg2.N) (h0 : t.val % 32 = 0) (h1 : ¬t.val % 32 = 31) :
    accAt V c t.val t.isLt = (idleOut, soutA c (grid2.coords t) (ms0 t) (hs0 t) (ms1 t) (hs1 t) (ms2 t) (hs2 t) (ms3 t) (hs3 t) scM (Memref.isWhole_whole _) ((first_iff t).mpr h0) (fun h => h1 ((last_iff t).mp h)) (blk V c 0 t) (blk V c 1 t)) := by
  obtain ⟨n, hn⟩ := t
  cases n with
  | zero => exact rfl
  | succ n => exact (dif_pos h0).trans rfl

theorem accAt_B (c : Dev nD) (t : Fin cfg2.N) (h0 : ¬t.val % 32 = 0) (h1 : ¬t.val % 32 = 31) :
    accAt V c t.val t.isLt = (idleOut, soutB c (grid2.coords t) (ms0 t) (hs0 t) (ms1 t) (hs1 t) (ms2 t) (hs2 t) (ms3 t) (hs3 t) scM (Memref.isWhole_whole _) (fun h => h0 ((first_iff t).mp h)) (fun h => h1 ((last_iff t).mp h)) (blk V c 0 t) (blk V c 1 t) (accAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem accAt_C (c : Dev nD) (t : Fin cfg2.N) (h0 : ¬t.val % 32 = 0) (h1 : t.val % 32 = 31) :
    accAt V c t.val t.isLt = (outC c (grid2.coords t) (ms0 t) (hs0 t) (ms1 t) (hs1 t) (ms2 t) (hs2 t) (ms3 t) (hs3 t) scM (Memref.isWhole_whole _) (fun h => h0 ((first_iff t).mp h)) ((last_iff t).mpr h1) (blk V c 0 t) (blk V c 1 t) (blk V c 2 t) (accAt V c (t.val - 1) (Nat.lt_of_le_of_lt (Nat.sub_le _ _) t.isLt)).2,
      soutC c (grid2.coords t) (ms0 t) (hs0 t) (ms1 t) (hs1 t) (ms2 t) (hs2 t) (ms3 t) (hs3 t) scM (Memref.isWhole_whole _) (fun h => h0 ((first_iff t).mp h)) ((last_iff t).mpr h1) (blk V c 0 t) (blk V c 1 t) (blk V c 2 t) (accAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between steps: the accumulator at what the last step left -/

/-- The scoped buffers other than the accumulator, at anything, and the generator register. -/
def Rest (c : Dev nD) : sProp 𝕄 :=
  iprop(Pipeline.scopedRestBut (Ix := Unit) (Name := ℕ) (U := UR sig nD τ) (Lvl := ℕ) (Val := Elt F) spec2 c [cc2_scratch0] ∗ ∃ r, prngReg c r)

theorem scoped_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

theorem PhiA_open (c : Dev nD) :
    (Pipeline.ΦA spec2 c : sProp 𝕄) ⊢ iprop((∃ d, owns (c : Thread nD τ) scM fullShare d) ∗ Rest (F := F) c) := by
  unfold Pipeline.ΦA Rest
  rw [scoped_split]
  simp only [scM, owns_whole]
  iintro ⟨⟨⟨%f, Hs⟩, Hb⟩, Hg⟩
  isplitl [Hs]; · iexists f; iexact Hs
  isplitl [Hb]; · iexact Hb
  iexact Hg

theorem PhiA_close (c : Dev nD) :
    iprop((∃ d, owns (c : Thread nD τ) scM fullShare d) ∗ Rest (F := F) c) ⊢ (Pipeline.ΦA spec2 c : sProp 𝕄) := by
  unfold Pipeline.ΦA Rest
  rw [scoped_split]
  simp only [scM, owns_whole]
  iintro ⟨⟨%f, Hs⟩, Hb, Hg⟩
  isplitr [Hg]
  · isplitl [Hs]; · iexists f; iexact Hs
    iexact Hb
  iexact Hg

def PhiS (c : Dev nD) : (n : ℕ) → n ≤ cfg2.N → sProp 𝕄
  | 0, _ => Pipeline.ΦA spec2 c
  | n + 1, hn => iprop(owns (c : Thread nD τ) scM fullShare ((accAt V c n hn).2) ∗ Rest (F := F) c)

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(owns (c : Thread nD τ) scM fullShare ((accAt V c n hn).2) ∗ Rest (F := F) c) := rfl
theorem PhiS_pos (c : Dev nD) (n : ℕ) (h : n ≤ cfg2.N) (hz : n ≠ 0) :
    PhiS V c n h = iprop(owns (c : Thread nD τ) scM fullShare ((accAt V c (n - 1) (by omega)).2) ∗ Rest (F := F) c) := by
  cases n with
  | zero => exact absurd rfl hz
  | succ n => rfl

/-! ## The proof data -/

def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => (accAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by dsimp only [dat]
theorem PhiS_castSucc (c : Dev nD) (t : Fin cfg2.N) : (dat V c).Φ t.castSucc = PhiS V c t.val (Nat.le_of_lt t.isLt) := by
  dsimp only [dat]; simp only [Fin.coe_castSucc]
theorem after_0 (c : Dev nD) (t : Fin cfg2.N) : (dat V c).after 0 t = blk V c 0 t := by dsimp only [dat]
theorem after_1 (c : Dev nD) (t : Fin cfg2.N) : (dat V c).after 1 t = blk V c 1 t := by dsimp only [dat]
theorem after_2 (c : Dev nD) (t : Fin cfg2.N) : (dat V c).after 2 t = blk V c 2 t := by dsimp only [dat]
theorem after_3 (c : Dev nD) (t : Fin cfg2.N) : (dat V c).after 3 t = (accAt V c t.val t.isLt).1 := by dsimp only [dat]
theorem before_0 (c : Dev nD) (t : Fin cfg2.N) (d) : (dat V c).before 0 t d = blk V c 0 t :=
  before_in_0 V (dat V c) (A_eq V c 0) (after_0 V c) t d
theorem before_1 (c : Dev nD) (t : Fin cfg2.N) (d) : (dat V c).before 1 t d = blk V c 1 t :=
  before_in_1 V (dat V c) (A_eq V c 1) (after_1 V c) t d
theorem before_2 (c : Dev nD) (t : Fin cfg2.N) (d) : (dat V c).before 2 t d = blk V c 2 t :=
  before_in_2 V (dat V c) (A_eq V c 2) (after_2 V c) t d

/-! ## The body obligation -/

def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).owesAt () t.succ = (dat V c).owesAt () t.castSucc from rfl]
  rw [show (dat V c).Φ t.succ = PhiS V c (t.val + 1) t.isLt from rfl, PhiS_succ]
  rw [    show (dat V c).leavesExact 0 t = owns (c : Thread nD τ) (ms0 t) fullShare ((dat V c).after 0 t) from by
      unfold Dat.leavesExact; rfl,
    after_0,
    show (dat V c).leavesExact 1 t = owns (c : Thread nD τ) (ms1 t) fullShare ((dat V c).after 1 t) from by
      unfold Dat.leavesExact; rfl,
    after_1,
    show (dat V c).leavesExact 2 t = owns (c : Thread nD τ) (ms2 t) fullShare ((dat V c).after 2 t) from by
      unfold Dat.leavesExact; rfl,
    after_2]
  have hN : t.val < 128 := lt_of_lt_of_eq t.isLt (show cfg2.N = 128 from N_2)
  by_cases h0 : t.val % 32 = 0
  · have h1 : ¬t.val % 32 = 31 := by omega
    rw [Dat.leavesExact_idle (dat V c) 3 t (idle_out t (fun h => h1 ((last_iff t).mp h))) (noflush_out t (fun h => h1 ((last_iff t).mp h)))]
    rw [accAt_A V c t h0 h1]
    unfold soutA; (try dsimp only)
    by_cases hz : t.val = 0
    · rw [PhiS_castSucc V c t, PhiS_zero V c _ _ hz]
      iintro ⟨HΦ, Ho, ⟨%d0, H0⟩, ⟨%d1, H1⟩, ⟨%d2, H2⟩, ⟨%d3, H3⟩⟩
      ihave HΦ' := (PhiA_open (F := F) c) $$ HΦ
      icases HΦ' with ⟨HS, HR⟩
      iapply ((runA c (grid2.coords t) (ms0 t) (hs0 t) (ms1 t) (hs1 t) (ms2 t) (hs2 t) (ms3 t) (hs3 t) scM (Memref.isWhole_whole _) ((first_iff t).mpr h0) (fun h => h1 ((last_iff t).mp h)) (blk V c 0 t) (blk V c 1 t)).2 Set.univ _)
      isplitl [H0]; · iexact H0
      isplitl [H1]; · iexact H1
      isplitl [HS]; · iexact HS
      iintro ⟨H0, H1, ⟨%es, HS⟩⟩
      isplitl [HS HR]
      · isplitl [HS]
        · unfold owns; iexists _; isplitr
          swap; · iexact HS
          ipureintro; exact View.read_writes_of_cover _ _ _ _ _ (scoverA c _ _ _ _ _ _ _ _ _ _ _ _ _ _ _)
        iexact HR
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨HΦ, Ho, ⟨%d0, H0⟩, ⟨%d1, H1⟩, ⟨%d2, H2⟩, ⟨%d3, H3⟩⟩
      icases HΦ with ⟨HS, HR⟩
      iapply ((runA c (grid2.coords t) (ms0 t) (hs0 t) (ms1 t) (hs1 t) (ms2 t) (hs2 t) (ms3 t) (hs3 t) scM (Memref.isWhole_whole _) ((first_iff t).mpr h0) (fun h => h1 ((last_iff t).mp h)) (blk V c 0 t) (blk V c 1 t)).2 Set.univ _)
      isplitl [H0]; · iexact H0
      isplitl [H1]; · iexact H1
      isplitl [HS]; · iexists _; iexact HS
      iintro ⟨H0, H1, ⟨%es, HS⟩⟩
      isplitl [HS HR]
      · isplitl [HS]
        · unfold owns; iexists _; isplitr
          swap; · iexact HS
          ipureintro; exact View.read_writes_of_cover _ _ _ _ _ (scoverA c _ _ _ _ _ _ _ _ _ _ _ _ _ _ _)
        iexact HR
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 32 = 31
    · rw [show (dat V c).leavesExact 3 t = owns (c : Thread nD τ) (ms3 t) fullShare ((dat V c).after 3 t) from by
        unfold Dat.leavesExact; rw [live_out t ((last_iff t).mpr h1)], after_3]
      rw [accAt_C V c t h0 h1]
      unfold outC soutC; (try dsimp only)
      rw [PhiS_castSucc V c t, PhiS_pos V c _ _ hz]
      iintro ⟨HΦ, Ho, ⟨%d0, H0⟩, ⟨%d1, H1⟩, ⟨%d2, H2⟩, ⟨%d3, H3⟩⟩
      icases HΦ with ⟨HS, HR⟩
      iapply ((runC c (grid2.coords t) (ms0 t) (hs0 t) (ms1 t) (hs1 t) (ms2 t) (hs2 t) (ms3 t) (hs3 t) scM (Memref.isWhole_whole _) (fun h => h0 ((first_iff t).mp h)) ((last_iff t).mpr h1) (blk V c 0 t) (blk V c 1 t) (blk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%eo, H3⟩, ⟨%es, HS⟩⟩
      isplitl [HS HR]
      · isplitl [HS]
        · unfold owns; iexists _; isplitr
          swap; · iexact HS
          ipureintro; exact View.read_writes_of_cover _ _ _ _ _ (scoverC c _ _ _ _ _ _ _ _ _ _ _ _ _ _ _ _ _)
        iexact HR
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC c _ _ _ _ _ _ _ _ _ _ _ _ _ _ _ _ _)
    · rw [Dat.leavesExact_idle (dat V c) 3 t (idle_out t (fun h => h1 ((last_iff t).mp h))) (noflush_out t (fun h => h1 ((last_iff t).mp h)))]
      rw [accAt_B V c t h0 h1]
      unfold soutB; (try dsimp only)
      rw [PhiS_castSucc V c t, PhiS_pos V c _ _ hz]
      iintro ⟨HΦ, Ho, ⟨%d0, H0⟩, ⟨%d1, H1⟩, ⟨%d2, H2⟩, ⟨%d3, H3⟩⟩
      icases HΦ with ⟨HS, HR⟩
      iapply ((runB c (grid2.coords t) (ms0 t) (hs0 t) (ms1 t) (hs1 t) (ms2 t) (hs2 t) (ms3 t) (hs3 t) scM (Memref.isWhole_whole _) (fun h => h0 ((first_iff t).mp h)) (fun h => h1 ((last_iff t).mp h)) (blk V c 0 t) (blk V c 1 t) _).2 Set.univ _)
      isplitl [H0]; · iexact H0
      isplitl [H1]; · iexact H1
      isplitl [HS]; · iexact HS
      iintro ⟨H0, H1, ⟨%es, HS⟩⟩
      isplitl [HS HR]
      · isplitl [HS]
        · unfold owns; iexists _; isplitr
          swap; · iexact HS
          ipureintro; exact View.read_writes_of_cover _ _ _ _ _ (scoverB c _ _ _ _ _ _ _ _ _ _ _ _ _ _ _ _)
        iexact HR
      isplitl [Ho]; · iexact Ho
      isplitl [H0]; · iexact H0
      isplitl [H1]; · iexact H1
      isplitl [H2]; · iexact H2
      iexists _; iexact H3

theorem body_obligation (c : Dev nD) : BodyObligation (dat (F := F) V c) (defs₀ (F := F)) Variants.none () Set.univ := fun t => by
  rw [bigSep_W2, bigSep_W2]
  exact sound_body V c t

theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

theorem hout (c : Dev nD) : (dat V c).Φ (Fin.last cfg2.N) ⊢ Pipeline.ΦA spec2 c := by
  rw [show (dat V c).Φ (Fin.last cfg2.N) = PhiS V c (Fin.last cfg2.N).val (Nat.le_of_lt_succ (Fin.last cfg2.N).isLt) from rfl,
    PhiS_pos V c _ _ (by rw [Fin.val_last]; have : cfg2.N = 128 := N_2; omega)]
  iintro ⟨HS, HR⟩
  iapply (PhiA_close (F := F) c)
  isplitl [HS]
  · iexists _; iexact HS
  iexact HR

end Cert.Kernel.Conv2

end
-- ==== Proof.WholeW.lean ====
/-
  The whole program: the host operations that build the block-diagonal weight matrix, the joined bias and the narrow
  copies of the weights, then the three pipelines in turn. The contents of every buffer outside the kernels' own are
  followed from the launch through each stage: after a pipeline its arrays hold what its write-backs leave, every
  other buffer what it held before. Every weakly fair run ends with those buffers at the last stage's contents.
-/
import proofs.«138483_j40407052320948_2_alg».proof.Proof.Gen.Kernel.Launch
import proofs.«138483_j40407052320948_2_alg».proof.Proof.Gen.Kernel.Skeleton
import proofs.«138483_j40407052320948_2_alg».proof.Proof.Gen.Kernel.Points
import proofs.«138483_j40407052320948_2_alg».proof.Proof.Gen.Kernel.Regions
import proofs.«138483_j40407052320948_2_alg».proof.Proof.BranchW
import proofs.«138483_j40407052320948_2_alg».proof.Proof.Conv1W
import proofs.«138483_j40407052320948_2_alg».proof.Proof.Conv2W
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents of the buffers at each stage -/

/-- At launch. -/
abbrev W0 : Dev nD → Valuation τ sig (Elt F) := fun c b => (s₀ m ρ).mem ((c : Dev nD), b)
/-- After the host operations: the first pipeline's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After pipeline 0: its arrays at what it leaves, every other buffer as before. -/
def W2 (c : Dev nD) : Valuation τ sig (Elt F) :=
  Pipeline.withArrays spec0 c (W1 m ρ c) fun w => (Branch.dat (V1 m ρ) c).arrAt w cfg0.N
theorem W2_arr (c : Dev nD) (w : Fin cfg0.W) :
    W2 m ρ c (Proc.devRef .tc (Pipeline.arrRef spec0 w)) = (Branch.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Branch.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After pipeline 1: its arrays at what it leaves, every other buffer as before. -/
def W3 (c : Dev nD) : Valuation τ sig (Elt F) :=
  Pipeline.withArrays spec1 c (W2 m ρ c) fun w => (Conv1.dat (V2 m ρ) c).arrAt w cfg1.N
theorem W3_arr (c : Dev nD) (w : Fin cfg1.W) :
    W3 m ρ c (Proc.devRef .tc (Pipeline.arrRef spec1 w)) = (Conv1.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (Conv1.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After pipeline 2: its arrays at what it leaves, every other buffer as before. -/
def W4 (c : Dev nD) : Valuation τ sig (Elt F) :=
  Pipeline.withArrays spec2 c (W3 m ρ c) fun w => (Conv2.dat (V3 m ρ) c).arrAt w cfg2.N
theorem W4_arr (c : Dev nD) (w : Fin cfg2.W) :
    W4 m ρ c (Proc.devRef .tc (Pipeline.arrRef spec2 w)) = (Conv2.dat (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (Conv2.dat (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## No stage writes an argument: each ends as launched -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 0).trans (((Branch.dat (V1 m ρ) c).arrAt_in 0 rfl _).trans (Branch.A_eq (V1 m ρ) c 0))
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 0).trans (((Conv2.dat (V3 m ρ) c).arrAt_in 0 rfl _).trans (Conv2.A_eq (V3 m ρ) c 0))
    _ = W2 m ρ c (Proc.devRef .tc main_arg1) := (W3_arr m ρ c 0).trans (((Conv1.dat (V2 m ρ) c).arrAt_in 0 rfl _).trans (Conv1.A_eq (V2 m ρ) c 0))
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := (W3_arr m ρ c 2).trans (((Conv1.dat (V2 m ρ) c).arrAt_in 2 rfl _).trans (Conv1.A_eq (V2 m ρ) c 2))
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl
theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := (W4_arr m ρ c 2).trans (((Conv2.dat (V3 m ρ) c).arrAt_in 2 rfl _).trans (Conv2.A_eq (V3 m ρ) c 2))
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

/-! ## The proof data of the three pipelines and what rides beside the buffers -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => Branch.dat (V1 m ρ) c
  | ⟨1, _⟩ => fun c => Conv1.dat (V2 m ρ) c
  | ⟨2, _⟩ => fun c => Conv2.dat (V3 m ρ) c
abbrev 𝒱₀ : Variants := Variants.none
abbrev L : GSem nD τ sig → Finset Unit := fun _ => ∅
abbrev lv : GSem nD τ sig → Unit → ℕ := fun _ _ => 0
/-- The generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The pipelines as segments of the program -/

set_option backward.isDefEq.respectTransparency.types false in
/-- Pipeline 0: entered with every buffer at stage 1's contents, left at stage 2's. Its arrays are split out of the
    buffers at entry and put back at exit; the kernel keeps nothing between steps. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Branch.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem in1 (c : Dev nD) : (iprop(Pipeline.scopedRest (Ix := Unit) (Name := ℕ) (U := UR sig nD τ) (Lvl := ℕ) (Val := Elt F) spec1 c ∗ ∃ r, prngReg c r) : sProp 𝕄)
    ⊢ (Conv1.dat (V2 m ρ) c).Φ 0 := by
  have h := Conv1.hin (V2 m ρ) c; unfold Pipeline.ΦA at h; exact h
theorem out1 (c : Dev nD) : (Conv1.dat (V2 m ρ) c).Φ (Fin.last cfg1.N)
    ⊢ (iprop(Pipeline.scopedRest (Ix := Unit) (Name := ℕ) (U := UR sig nD τ) (Lvl := ℕ) (Val := Elt F) spec1 c ∗ ∃ r, prngReg c r) : sProp 𝕄) := by
  have h := Conv1.hout (V2 m ρ) c; unfold Pipeline.ΦA at h; exact h

set_option backward.isDefEq.respectTransparency.types false in
/-- Pipeline 1: entered with every buffer at stage 2's contents, left at stage 3's. Its arrays are split out of the
    buffers at entry and put back at exit; the accumulator enters at anything and is forgotten at the end. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Conv1.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (Conv1.dat (V2 m ρ) c).Φ 0 from rfl]
    iintro ⟨Hp, -, Hr⟩
    iapply (in1 m ρ c)
    isplitl [Hr]; · iexact Hr
    iexact Hp
  hout c := by
    rw [Pipeline.ownSems0_none, show (pdats m ρ 1 c).Φ (Fin.last _) = (Conv1.dat (V2 m ρ) c).Φ (Fin.last cfg1.N) from rfl]
    refine (out1 m ρ c).trans ?_
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem in2 (c : Dev nD) : (iprop(Pipeline.scopedRest (Ix := Unit) (Name := ℕ) (U := UR sig nD τ) (Lvl := ℕ) (Val := Elt F) spec2 c ∗ ∃ r, prngReg c r) : sProp 𝕄)
    ⊢ (Conv2.dat (V3 m ρ) c).Φ 0 := by
  have h := Conv2.hin (V3 m ρ) c; unfold Pipeline.ΦA at h; exact h
theorem out2 (c : Dev nD) : (Conv2.dat (V3 m ρ) c).Φ (Fin.last cfg2.N)
    ⊢ (iprop(Pipeline.scopedRest (Ix := Unit) (Name := ℕ) (U := UR sig nD τ) (Lvl := ℕ) (Val := Elt F) spec2 c ∗ ∃ r, prngReg c r) : sProp 𝕄) := by
  have h := Conv2.hout (V3 m ρ) c; unfold Pipeline.ΦA at h; exact h

set_option backward.isDefEq.respectTransparency.types false in
/-- Pipeline 2: entered with every buffer at stage 3's contents, left at stage 4's. Its arrays are split out of the
    buffers at entry and put back at exit; the accumulator enters at anything and is forgotten at the end. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Conv2.body_obligation (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (Conv2.dat (V3 m ρ) c).Φ 0 from rfl]
    iintro ⟨Hp, -, Hr⟩
    iapply (in2 m ρ c)
    isplitl [Hr]; · iexact Hr
    iexact Hp
  hout c := by
    rw [Pipeline.ownSems0_none, show (pdats m ρ 2 c).Φ (Fin.last _) = (Conv2.dat (V3 m ρ) c).Φ (Fin.last cfg2.N) from rfl]
    refine (out2 m ρ c).trans ?_
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ) ]
theorem main_run (c : Dev nD) : main (F := F) c = Pipeline.Seg.run (segs m ρ) := (main_chain c).trans (by chain_rfl)

set_option backward.isDefEq.respectTransparency.types false in
/-- Every weakly fair run of the program from memory `m` with zero counters terminates, faults nowhere, and ends with
    every buffer outside the kernels' own at the last stage's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c)⟩) (run_all m ρ)

end Cert.Kernel.Whole

end
-- ==== Proof.Branch.lean ====
/-
  The first layer as a pipeline of 32 row blocks. Block t of x (512 rows, all 5000 columns) meets the whole
  block-diagonal weight matrix, the joined bias and the whole projection matrix; the body leaves in the output block
  max(x·W + b, 0)·G, a function of the four input blocks alone. Stated at any contents V of the buffers at the
  region's entry.
-/
import proofs.«138483_j40407052320948_2_alg».proof.Proof.Gen.KernelIdeal.Launch
import proofs.«138483_j40407052320948_2_alg».proof.Proof.Gen.KernelIdeal.Skeleton
import proofs.«138483_j40407052320948_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Branch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block t of window w, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 holds its block whenever the body runs, fetched at that point or not. -/
theorem before_in_0 {c : Dev nD} (dat : Dat τ (Elt F) Unit ℕ (UR sig nD τ) ℕ cfg0 c)
    (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1 holds its block whenever the body runs, fetched at that point or not. -/
theorem before_in_1 {c : Dev nD} (dat : Dat τ (Elt F) Unit ℕ (UR sig nD τ) ℕ cfg0 c)
    (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2 holds its block whenever the body runs, fetched at that point or not. -/
theorem before_in_2 {c : Dev nD} (dat : Dat τ (Elt F) Unit ℕ (UR sig nD τ) ℕ cfg0 c)
    (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3 holds its block whenever the body runs, fetched at that point or not. -/
theorem before_in_3 {c : Dev nD} (dat : Dat τ (Elt F) Unit ℕ (UR sig nD τ) ℕ cfg0 c)
    (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

abbrev rX : Rect S512x5000 := Rect.unit (s := S512x5000) ![0, 0] S512x5000.size inb_S512x5000_S512x5000_0_0
abbrev rW : Rect S5000x768 := Rect.unit (s := S5000x768) ![0, 0] S5000x768.size inb_S5000x768_S5000x768_0_0
abbrev rB : Rect S768 := Rect.unit (s := S768) ![0] S768.size inb_S768_S768_0
abbrev rG : Rect S768x256 := Rect.unit (s := S768x256) ![0, 0] S768x256.size inb_S768x256_S768x256_0_0
abbrev rO : Rect S512x256 := Rect.unit (s := S512x256) ![0, 0] S512x256.size inb_S512x256_S512x256_0_0

/-- What the body leaves in the output block, from the four input blocks: its one store. -/
def out (x0 : Vec F S512x5000 .f32) (x1 : Vec F S5000x768 .bf16) (x2 : Vec F S768 .f32) (x3 : Vec F S768x256 .bf16) : Vec F S512x256 .bf16 :=
  View.canon [⟨rO, k0_pay1 (View.ld x0 rX) (View.ld x1 rW) (View.ld x2 rB) (View.ld x3 rG)⟩]

theorem cover (p0 : Vec F S512x256 .bf16) (y : S512x256.Idx) :
    ∃ pc ∈ ([⟨rO, p0⟩] : List (View.Piece (Elt F) S512x256 .bf16)), y ∈ pc.1.set :=
  View.cover_of_tiled [⟨rO, p0⟩] S512x256.size (by rfl) y

set_option maxHeartbeats 1000000 in
/-- The body on whole staging memrefs: the inputs stay, the output block ends at `out` of them. -/
theorem sound_kernel (c : Dev nD) (E : Set ℕ) (i : grid0.Coords)
    (arg1 : Memref sig .tc .vmem S512x5000 .f32) (harg1 : arg1.IsWhole) (arg2 : Memref sig .tc .vmem S5000x768 .bf16) (harg2 : arg2.IsWhole)
    (arg3 : Memref sig .tc .vmem S768 .f32) (harg3 : arg3.IsWhole) (arg4 : Memref sig .tc .vmem S768x256 .bf16) (harg4 : arg4.IsWhole)
    (arg5 : Memref sig .tc .vmem S512x256 .bf16) (harg5 : arg5.IsWhole)
    (x0 : Vec F S512x5000 .f32) (x1 : Vec F S5000x768 .bf16) (x2 : Vec F S768 .f32) (x3 : Vec F S768x256 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out x0 x1 x2 x3)) -∗ K ⟨⟩))
      ⊢ wp frame (wpE (defs₀ (F := F)) Variants.none c none) E (cc0__branch_kernel i arg1 harg1 arg2 harg2 arg3 harg3 arg4 harg4 arg5 harg5) K := by
  simp only [cc0__branch_kernel_eq_skeleton]; unfold cc0__branch_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover _)

/-- The proof data: arrays as found; each input block stays; the output block at `out` of the inputs. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => out (blk V c 0 t) (blk V c 1 t) (blk V c 2 t) (blk V c 3 t)
  Φ _ := Pipeline.ΦA spec0 c
  q _ := fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) :
    (dat V c).after 4 t = out (blk V c 0 t) (blk V c 1 t) (blk V c 2 t) (blk V c 3 t) := by dsimp only [dat]

theorem before_0 (c : Dev nD) (t : Fin cfg0.N) (d) : (dat V c).before 0 t d = blk V c 0 t :=
  before_in_0 V (dat V c) (A_eq V c 0) (after_0 V c) t d
theorem before_1 (c : Dev nD) (t : Fin cfg0.N) (d) : (dat V c).before 1 t d = blk V c 1 t :=
  before_in_1 V (dat V c) (A_eq V c 1) (after_1 V c) t d
theorem before_2 (c : Dev nD) (t : Fin cfg0.N) (d) : (dat V c).before 2 t d = blk V c 2 t :=
  before_in_2 V (dat V c) (A_eq V c 2) (after_2 V c) t d
theorem before_3 (c : Dev nD) (t : Fin cfg0.N) (d) : (dat V c).before 3 t d = blk V c 3 t :=
  before_in_3 V (dat V c) (A_eq V c 3) (after_3 V c) t d

/-- The body at any point of the grid. -/
theorem body_obligation (c : Dev nD) : BodyObligation (dat (F := F) V c) (defs₀ (F := F)) Variants.none () Set.univ := fun t => by
  rw [bigSep_W0, bigSep_W0]
  show _ ⊢ wp frame (wpE (defs₀ (F := F)) Variants.none c none) Set.univ (bodyAt0 t) _
  unfold bodyAt0
  simp only [before_0, before_1, before_2, before_3]
  rw [show (dat V c).Φ t.succ = (dat V c).Φ t.castSucc from rfl,
    show (dat V c).owesAt () t.succ = (dat V c).owesAt () t.castSucc from rfl]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (blk V c 0 t) (blk V c 1 t) (blk V c 2 t) (blk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · rw [after_0]; iexact H0
  isplitl [H1]; · rw [after_1]; iexact H1
  isplitl [H2]; · rw [after_2]; iexact H2
  isplitl [H3]; · rw [after_3]; iexact H3
  rw [after_4]; iexact H4

end Cert.KernelIdeal.Branch

end
-- ==== Proof.Conv1.lean ====
/-
  The first graph convolution as a pipeline over 4 row blocks × 32 steps. At step k of row block i the body adds to an
  accumulator [4096, 256] the product of block (i, k) of adj with block k of the projected features, in two parts
  (the part of adj kept by the narrow format, and the remainder); the first step of a row block zeroes the accumulator
  first, the last one stores max(acc + b, 0)·G into the output block. What the accumulator and the output block hold
  after each step is stated by recursion on the step.
-/
import proofs.«138483_j40407052320948_2_alg».proof.Proof.Gen.KernelIdeal.Launch
import proofs.«138483_j40407052320948_2_alg».proof.Proof.Gen.KernelIdeal.Skeleton
import proofs.«138483_j40407052320948_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Conv1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block t of window w, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 holds its block whenever the body runs, fetched at that point or not. -/
theorem before_in_0 {c : Dev nD} (dat : Dat τ (Elt F) Unit ℕ (UR sig nD τ) ℕ cfg1 c)
    (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1 holds its block whenever the body runs, fetched at that point or not. -/
theorem before_in_1 {c : Dev nD} (dat : Dat τ (Elt F) Unit ℕ (UR sig nD τ) ℕ cfg1 c)
    (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2 holds its block whenever the body runs, fetched at that point or not. -/
theorem before_in_2 {c : Dev nD} (dat : Dat τ (Elt F) Unit ℕ (UR sig nD τ) ℕ cfg1 c)
    (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3 holds its block whenever the body runs, fetched at that point or not. -/
theorem before_in_3 {c : Dev nD} (dat : Dat τ (Elt F) Unit ℕ (UR sig nD τ) ℕ cfg1 c)
    (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-! ## The two conditions of the body, over the grid: the first and the last step of a row block's reduction -/

abbrev first (i : grid1.Coords) : Prop := (Scalar.cmpi .ne (Scalar.extui (Scalar.cmpi .eq (BitVec.ofNat 32 (i 1).val) 0#32)) 0#32) = 1#1
theorem first_iff : ∀ t : Fin cfg1.N, first (grid1.coords t) ↔ t.val % 32 = 0 :=
  (by decide +kernel : ∀ t : Fin grid1.N, first (grid1.coords t) ↔ t.val % 32 = 0)
abbrev last (i : grid1.Coords) : Prop := k1_cond2 i = 1#1
theorem last_iff : ∀ t : Fin cfg1.N, last (grid1.coords t) ↔ t.val % 32 = 31 :=
  (by decide +kernel : ∀ t : Fin grid1.N, last (grid1.coords t) ↔ t.val % 32 = 31)

/-- The output window is idle, and not written back, except at a last step. -/
theorem idle_out : ∀ t : Fin cfg1.N, ¬last (grid1.coords t) → cfg1.idle 4 (grid1.coords t) = true := by decide +kernel
theorem noflush_out : ∀ t : Fin cfg1.N, ¬last (grid1.coords t) → (cfg1.win 4).flush t = false := by decide +kernel
theorem live_out : ∀ t : Fin cfg1.N, last (grid1.coords t) → cfg1.idle 4 (grid1.coords t) = false := by decide +kernel

abbrev ms0 (t : Fin cfg1.N) : Memref sig .tc .vmem S4096x512 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S512x256 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S256 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S256x32 .bf16 := win1_3.stage (cfg1.slots t 3)
abbrev hs3 (t : Fin cfg1.N) : (ms3 t).IsWhole := hstage1_3 ((cfg1.slots t 3).cast nbuf1_3)
abbrev ms4 (t : Fin cfg1.N) : Memref sig .tc .vmem S4096x32 .bf16 := win1_4.stage (cfg1.slots t 4)
abbrev hs4 (t : Fin cfg1.N) : (ms4 t).IsWhole := hstage1_4 ((cfg1.slots t 4).cast nbuf1_4)
/-- The accumulator: a whole scoped buffer of the kernel's own. -/
abbrev scM : Memref sig .tc .vmem S4096x256 .f32 := Memref.whole cc1_scratch0
abbrev VS : View sig .tc .vmem S4096x256 .f32 := scM.view
abbrev VO : View sig .tc .vmem S4096x32 .bf16 := (Memref.whole cc1_stg4_0 : Memref sig .tc .vmem S4096x32 .bf16).view

/-! ## The body, once per case: first step, middle step, last step -/

set_option maxHeartbeats 4000000 in
/-- FIRST step of a row block: the accumulator, whatever it held, is zeroed and takes the two products. The pieces it
    ends with are found by the run. -/
noncomputable def runA (c : Dev nD) (i : grid1.Coords) (m0 : Memref sig .tc .vmem S4096x512 .f32) (h0 : m0.IsWhole) (m1 : Memref sig .tc .vmem S512x256 .bf16) (h1 : m1.IsWhole) (m2 : Memref sig .tc .vmem S256 .f32) (h2 : m2.IsWhole) (m3 : Memref sig .tc .vmem S256x32 .bf16) (h3 : m3.IsWhole) (m4 : Memref sig .tc .vmem S4096x32 .bf16) (h4 : m4.IsWhole) (mS : Memref sig .tc .vmem S4096x256 .f32) (hS : mS.IsWhole) (hc0 : first i) (hc1 : ¬last i) (x0 : Vec F S4096x512 .f32) (x1 : Vec F S512x256 .bf16) :
    { LS : List (View.Piece (Elt F) S4096x256 .f32) //
      ∀ (E : Set ℕ) (K : PUnit → sProp 𝕄),
        iprop(owns (c : Thread nD τ) m0 fullShare x0 ∗ owns (c : Thread nD τ) m1 fullShare x1 ∗ (∃ d, owns (c : Thread nD τ) mS fullShare d)
            ∗ (iprop(owns (c : Thread nD τ) m0 fullShare x0 ∗ owns (c : Thread nD τ) m1 fullShare x1 ∗ (∃ f, mS.view.loc (c : Thread nD τ) ↦[mS.view.set]{fullShare} mS.view.writes (Elt F) f LS)) -∗ K ⟨⟩))
          ⊢ wp frame (wpE (defs₀ (F := F)) Variants.none c none) E (cc1__gc1_kernel i m0 h0 m1 h1 m2 h2 m3 h3 m4 h4 mS hS) K } := by
  refine ⟨?_, fun E K => ?run⟩
  case run =>
    simp only [cc1__gc1_kernel_eq_skeleton]; unfold cc1__gc1_kernel_skel
    unfold owns
    iintro ⟨⟨%f0, %hf0, H0⟩, ⟨%f1, %hf1, H1⟩, ⟨%ds, %fs, -, HS⟩, Hk⟩
    obtain rfl := h0.eq_unread hf0; obtain rfl := h1.eq_unread hf1
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    iexists _; iexact HS

set_option maxHeartbeats 4000000 in
/-- MIDDLE step: the accumulator, at what the step before left, takes the two products. -/
noncomputable def runB (c : Dev nD) (i : grid1.Coords) (m0 : Memref sig .tc .vmem S4096x512 .f32) (h0 : m0.IsWhole) (m1 : Memref sig .tc .vmem S512x256 .bf16) (h1 : m1.IsWhole) (m2 : Memref sig .tc .vmem S256 .f32) (h2 : m2.IsWhole) (m3 : Memref sig .tc .vmem S256x32 .bf16) (h3 : m3.IsWhole) (m4 : Memref sig .tc .vmem S4096x32 .bf16) (h4 : m4.IsWhole) (mS : Memref sig .tc .vmem S4096x256 .f32) (hS : mS.IsWhole) (hc0 : ¬first i) (hc1 : ¬last i) (x0 : Vec F S4096x512 .f32) (x1 : Vec F S512x256 .bf16) (xs : Vec F S4096x256 .f32) :
    { LS : List (View.Piece (Elt F) S4096x256 .f32) //
      ∀ (E : Set ℕ) (K : PUnit → sProp 𝕄),
        iprop(owns (c : Thread nD τ) m0 fullShare x0 ∗ owns (c : Thread nD τ) m1 fullShare x1 ∗ owns (c : Thread nD τ) mS fullShare xs
            ∗ (iprop(owns (c : Thread nD τ) m0 fullShare x0 ∗ owns (c : Thread nD τ) m1 fullShare x1 ∗ (∃ f, mS.view.loc (c : Thread nD τ) ↦[mS.view.set]{fullShare} mS.view.writes (Elt F) f LS)) -∗ K ⟨⟩))
          ⊢ wp frame (wpE (defs₀ (F := F)) Variants.none c none) E (cc1__gc1_kernel i m0 h0 m1 h1 m2 h2 m3 h3 m4 h4 mS hS) K } := by
  refine ⟨?_, fun E K => ?run⟩
  case run =>
    simp only [cc1__gc1_kernel_eq_skeleton]; unfold cc1__gc1_kernel_skel
    unfold owns
    iintro ⟨⟨%f0, %hf0, H0⟩, ⟨%f1, %hf1, H1⟩, ⟨%fs, %hfs, HS⟩, Hk⟩
    obtain rfl := h0.eq_unread hf0; obtain rfl := h1.eq_unread hf1; obtain rfl := hS.eq_unread hfs
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    iexists _; iexact HS

set_option maxHeartbeats 4000000 in
/-- LAST step: as a middle step, then the output block is stored from the finished accumulator. -/
noncomputable def runC (c : Dev nD) (i : grid1.Coords) (m0 : Memref sig .tc .vmem S4096x512 .f32) (h0 : m0.IsWhole) (m1 : Memref sig .tc .vmem S512x256 .bf16) (h1 : m1.IsWhole) (m2 : Memref sig .tc .vmem S256 .f32) (h2 : m2.IsWhole) (m3 : Memref sig .tc .vmem S256x32 .bf16) (h3 : m3.IsWhole) (m4 : Memref sig .tc .vmem S4096x32 .bf16) (h4 : m4.IsWhole) (mS : Memref sig .tc .vmem S4096x256 .f32) (hS : mS.IsWhole) (hc0 : ¬first i) (hc1 : last i) (x0 : Vec F S4096x512 .f32) (x1 : Vec F S512x256 .bf16) (x2 : Vec F S256 .f32) (x3 : Vec F S256x32 .bf16) (xs : Vec F S4096x256 .f32) :
    Σ' (LO : List (View.Piece (Elt F) S4096x32 .bf16)), { LS : List (View.Piece (Elt F) S4096x256 .f32) //
      ∀ (E : Set ℕ) (K : PUnit → sProp 𝕄),
        iprop(owns (c : Thread nD τ) m0 fullShare x0 ∗ owns (c : Thread nD τ) m1 fullShare x1 ∗ owns (c : Thread nD τ) m2 fullShare x2 ∗ owns (c : Thread nD τ) m3 fullShare x3 ∗ (∃ d, owns (c : Thread nD τ) m4 fullShare d) ∗ owns (c : Thread nD τ) mS fullShare xs
            ∗ (iprop(owns (c : Thread nD τ) m0 fullShare x0 ∗ owns (c : Thread nD τ) m1 fullShare x1 ∗ owns (c : Thread nD τ) m2 fullShare x2 ∗ owns (c : Thread nD τ) m3 fullShare x3 ∗ (∃ f, m4.view.loc (c : Thread nD τ) ↦[m4.view.set]{fullShare} m4.view.writes (Elt F) f LO) ∗ (∃ f, mS.view.loc (c : Thread nD τ) ↦[mS.view.set]{fullShare} mS.view.writes (Elt F) f LS)) -∗ K ⟨⟩))
          ⊢ wp frame (wpE (defs₀ (F := F)) Variants.none c none) E (cc1__gc1_kernel i m0 h0 m1 h1 m2 h2 m3 h3 m4 h4 mS hS) K } := by
  refine ⟨?_, ?_, fun E K => ?run⟩
  case run =>
    simp only [cc1__gc1_kernel_eq_skeleton]; unfold cc1__gc1_kernel_skel
    unfold owns
    iintro ⟨⟨%f0, %hf0, H0⟩, ⟨%f1, %hf1, H1⟩, ⟨%f2, %hf2, H2⟩, ⟨%f3, %hf3, H3⟩, ⟨%dO, %fO, -, HO⟩, ⟨%fs, %hfs, HS⟩, Hk⟩
    obtain rfl := h0.eq_unread hf0; obtain rfl := h1.eq_unread hf1; obtain rfl := h2.eq_unread hf2; obtain rfl := h3.eq_unread hf3; obtain rfl := hS.eq_unread hfs
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [HO]
    · iexists _; iexact HO
    iexists _; iexact HS

/-! ## What each case leaves: the pieces read back -/

def soutA (c : Dev nD) (i : grid1.Coords) (m0 : Memref sig .tc .vmem S4096x512 .f32) (h0 : m0.IsWhole) (m1 : Memref sig .tc .vmem S512x256 .bf16) (h1 : m1.IsWhole) (m2 : Memref sig .tc .vmem S256 .f32) (h2 : m2.IsWhole) (m3 : Memref sig .tc .vmem S256x32 .bf16) (h3 : m3.IsWhole) (m4 : Memref sig .tc .vmem S4096x32 .bf16) (h4 : m4.IsWhole) (mS : Memref sig .tc .vmem S4096x256 .f32) (hS : mS.IsWhole) (hc0 : first i) (hc1 : ¬last i) (x0 : Vec F S4096x512 .f32) (x1 : Vec F S512x256 .bf16) : Vec F S4096x256 .f32 :=
  VS.read (Elt F) (VS.writes (Elt F) VS.junk (runA c i m0 h0 m1 h1 m2 h2 m3 h3 m4 h4 mS hS hc0 hc1 x0 x1).1)
theorem scoverA (c : Dev nD) (i : grid1.Coords) (m0 : Memref sig .tc .vmem S4096x512 .f32) (h0 : m0.IsWhole) (m1 : Memref sig .tc .vmem S512x256 .bf16) (h1 : m1.IsWhole) (m2 : Memref sig .tc .vmem S256 .f32) (h2 : m2.IsWhole) (m3 : Memref sig .tc .vmem S256x32 .bf16) (h3 : m3.IsWhole) (m4 : Memref sig .tc .vmem S4096x32 .bf16) (h4 : m4.IsWhole) (mS : Memref sig .tc .vmem S4096x256 .f32) (hS : mS.IsWhole) (hc0 : first i) (hc1 : ¬last i) (x0 : Vec F S4096x512 .f32) (x1 : Vec F S512x256 .bf16) (y : S4096x256.Idx) :
    ∃ pc ∈ (runA c i m0 h0 m1 h1 m2 h2 m3 h3 m4 h4 mS hS hc0 hc1 x0 x1).1, y ∈ pc.1.set :=
  View.cover_of_tiledL (runA c i m0 h0 m1 h1 m2 h2 m3 h3 m4 h4 mS hS hc0 hc1 x0 x1).1 S4096x256.size (by sl_kernel_rfl) y

def soutB (c : Dev nD) (i : grid1.Coords) (m0 : Memref sig .tc .vmem S4096x512 .f32) (h0 : m0.IsWhole) (m1 : Memref sig .tc .vmem S512x256 .bf16) (h1 : m1.IsWhole) (m2 : Memref sig .tc .vmem S256 .f32) (h2 : m2.IsWhole) (m3 : Memref sig .tc .vmem S256x32 .bf16) (h3 : m3.IsWhole) (m4 : Memref sig .tc .vmem S4096x32 .bf16) (h4 : m4.IsWhole) (mS : Memref sig .tc .vmem S4096x256 .f32) (hS : mS.IsWhole) (hc0 : ¬first i) (hc1 : ¬last i) (x0 : Vec F S4096x512 .f32) (x1 : Vec F S512x256 .bf16) (xs : Vec F S4096x256 .f32) : Vec F S4096x256 .f32 :=
  VS.read (Elt F) (VS.writes (Elt F) VS.junk (runB c i m0 h0 m1 h1 m2 h2 m3 h3 m4 h4 mS hS hc0 hc1 x0 x1 xs).1)
theorem scoverB (c : Dev nD) (i : grid1.Coords) (m0 : Memref sig .tc .vmem S4096x512 .f32) (h0 : m0.IsWhole) (m1 : Memref sig .tc .vmem S512x256 .bf16) (h1 : m1.IsWhole) (m2 : Memref sig .tc .vmem S256 .f32) (h2 : m2.IsWhole) (m3 : Memref sig .tc .vmem S256x32 .bf16) (h3 : m3.IsWhole) (m4 : Memref sig .tc .vmem S4096x32 .bf16) (h4 : m4.IsWhole) (mS : Memref sig .tc .vmem S4096x256 .f32) (hS : mS.IsWhole) (hc0 : ¬first i) (hc1 : ¬last i) (x0 : Vec F S4096x512 .f32) (x1 : Vec F S512x256 .bf16) (xs : Vec F S4096x256 .f32) (y : S4096x256.Idx) :
    ∃ pc ∈ (runB c i m0 h0 m1 h1 m2 h2 m3 h3 m4 h4 mS hS hc0 hc1 x0 x1 xs).1, y ∈ pc.1.set :=
  View.cover_of_tiledL (runB c i m0 h0 m1 h1 m2 h2 m3 h3 m4 h4 mS hS hc0 hc1 x0 x1 xs).1 S4096x256.size (by sl_kernel_rfl) y

def soutC (c : Dev nD) (i : grid1.Coords) (m0 : Memref sig .tc .vmem S4096x512 .f32) (h0 : m0.IsWhole) (m1 : Memref sig .tc .vmem S512x256 .bf16) (h1 : m1.IsWhole) (m2 : Memref sig .tc .vmem S256 .f32) (h2 : m2.IsWhole) (m3 : Memref sig .tc .vmem S256x32 .bf16) (h3 : m3.IsWhole) (m4 : Memref sig .tc .vmem S4096x32 .bf16) (h4 : m4.IsWhole) (mS : Memref sig .tc .vmem S4096x256 .f32) (hS : mS.IsWhole) (hc0 : ¬first i) (hc1 : last i) (x0 : Vec F S4096x512 .f32) (x1 : Vec F S512x256 .bf16) (x2 : Vec F S256 .f32) (x3 : Vec F S256x32 .bf16) (xs : Vec F S4096x256 .f32) : Vec F S4096x256 .f32 :=
  VS.read (Elt F) (VS.writes (Elt F) VS.junk (runC c i m0 h0 m1 h1 m2 h2 m3 h3 m4 h4 mS hS hc0 hc1 x0 x1 x2 x3 xs).2.1)
theorem scoverC (c : Dev nD) (i : grid1.Coords) (m0 : Memref sig .tc .vmem S4096x512 .f32) (h0 : m0.IsWhole) (m1 : Memref sig .tc .vmem S512x256 .bf16) (h1 : m1.IsWhole) (m2 : Memref sig .tc .vmem S256 .f32) (h2 : m2.IsWhole) (m3 : Memref sig .tc .vmem S256x32 .bf16) (h3 : m3.IsWhole) (m4 : Memref sig .tc .vmem S4096x32 .bf16) (h4 : m4.IsWhole) (mS : Memref sig .tc .vmem S4096x256 .f32) (hS : mS.IsWhole) (hc0 : ¬first i) (hc1 : last i) (x0 : Vec F S4096x512 .f32) (x1 : Vec F S512x256 .bf16) (x2 : Vec F S256 .f32) (x3 : Vec F S256x32 .bf16) (xs : Vec F S4096x256 .f32) (y : S4096x256.Idx) :
    ∃ pc ∈ (runC c i m0 h0 m1 h1 m2 h2 m3 h3 m4 h4 mS hS hc0 hc1 x0 x1 x2 x3 xs).2.1, y ∈ pc.1.set :=
  View.cover_of_tiledL (runC c i m0 h0 m1 h1 m2 h2 m3 h3 m4 h4 mS hS hc0 hc1 x0 x1 x2 x3 xs).2.1 S4096x256.size (by sl_kernel_rfl) y
def outC (c : Dev nD) (i : grid1.Coords) (m0 : Memref sig .tc .vmem S4096x512 .f32) (h0 : m0.IsWhole) (m1 : Memref sig .tc .vmem S512x256 .bf16) (h1 : m1.IsWhole) (m2 : Memref sig .tc .vmem S256 .f32) (h2 : m2.IsWhole) (m3 : Memref sig .tc .vmem S256x32 .bf16) (h3 : m3.IsWhole) (m4 : Memref sig .tc .vmem S4096x32 .bf16) (h4 : m4.IsWhole) (mS : Memref sig .tc .vmem S4096x256 .f32) (hS : mS.IsWhole) (hc0 : ¬first i) (hc1 : last i) (x0 : Vec F S4096x512 .f32) (x1 : Vec F S512x256 .bf16) (x2 : Vec F S256 .f32) (x3 : Vec F S256x32 .bf16) (xs : Vec F S4096x256 .f32) : Vec F S4096x32 .bf16 :=
  VO.read (Elt F) (VO.writes (Elt F) VO.junk (runC c i m0 h0 m1 h1 m2 h2 m3 h3 m4 h4 mS hS hc0 hc1 x0 x1 x2 x3 xs).1)
theorem coverC (c : Dev nD) (i : grid1.Coords) (m0 : Memref sig .tc .vmem S4096x512 .f32) (h0 : m0.IsWhole) (m1 : Memref sig .tc .vmem S512x256 .bf16) (h1 : m1.IsWhole) (m2 : Memref sig .tc .vmem S256 .f32) (h2 : m2.IsWhole) (m3 : Memref sig .tc .vmem S256x32 .bf16) (h3 : m3.IsWhole) (m4 : Memref sig .tc .vmem S4096x32 .bf16) (h4 : m4.IsWhole) (mS : Memref sig .tc .vmem S4096x256 .f32) (hS : mS.IsWhole) (hc0 : ¬first i) (hc1 : last i) (x0 : Vec F S4096x512 .f32) (x1 : Vec F S512x256 .bf16) (x2 : Vec F S256 .f32) (x3 : Vec F S256x32 .bf16) (xs : Vec F S4096x256 .f32) (y : S4096x32.Idx) :
    ∃ pc ∈ (runC c i m0 h0 m1 h1 m2 h2 m3 h3 m4 h4 mS hS hc0 hc1 x0 x1 x2 x3 xs).1, y ∈ pc.1.set :=
  View.cover_of_tiledL (runC c i m0 h0 m1 h1 m2 h2 m3 h3 m4 h4 mS hS hc0 hc1 x0 x1 x2 x3 xs).1 S4096x32.size (by sl_kernel_rfl) y

/-- A placeholder for the output block at the steps that store nothing into it: nothing reads it. -/
def idleOut : Vec F S4096x32 .bf16 := VO.read (Elt F) (VO.writes (Elt F) VO.junk [])

/-! ## The accumulation over the grid -/

/-- After step n: the output block (a placeholder unless n is a last step) and the accumulator. A first step starts
    afresh, the others continue from what step n - 1 left. -/
def accAt (c : Dev nD) : (n : ℕ) → n < cfg1.N → Vec F S4096x32 .bf16 × Vec F S4096x256 .f32
  | 0, hn => (idleOut, soutA c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((first_iff ⟨0, hn⟩).mpr (Nat.zero_mod _)) (fun h => (fun h => by (try dsimp only at h); omega) ((last_iff ⟨0, hn⟩).mp h)) (blk V c 0 ⟨0, hn⟩) (blk V c 1 ⟨0, hn⟩))
  | n + 1, hn =>
    if h0 : (n + 1) % 32 = 0 then
      (idleOut, soutA c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((first_iff ⟨n + 1, hn⟩).mpr h0) (fun h => (fun h => by (try dsimp only at h); omega) ((last_iff ⟨n + 1, hn⟩).mp h)) (blk V c 0 ⟨n + 1, hn⟩) (blk V c 1 ⟨n + 1, hn⟩))
    else
      if h1 : (n + 1) % 32 = 31 then
        (outC c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((first_iff ⟨n + 1, hn⟩).mp h)) ((last_iff ⟨n + 1, hn⟩).mpr h1) (blk V c 0 ⟨n + 1, hn⟩) (blk V c 1 ⟨n + 1, hn⟩) (blk V c 2 ⟨n + 1, hn⟩) (blk V c 3 ⟨n + 1, hn⟩) (accAt c n (Nat.lt_of_succ_lt hn)).2,
         soutC c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((first_iff ⟨n + 1, hn⟩).mp h)) ((last_iff ⟨n + 1, hn⟩).mpr h1) (blk V c 0 ⟨n + 1, hn⟩) (blk V c 1 ⟨n + 1, hn⟩) (blk V c 2 ⟨n + 1, hn⟩) (blk V c 3 ⟨n + 1, hn⟩) (accAt c n (Nat.lt_of_succ_lt hn)).2)
      else
        (idleOut, soutB c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((first_iff ⟨n + 1, hn⟩).mp h)) (fun h => h1 ((last_iff ⟨n + 1, hn⟩).mp h)) (blk V c 0 ⟨n + 1, hn⟩) (blk V c 1 ⟨n + 1, hn⟩) (accAt c n (Nat.lt_of_succ_lt hn)).2)

theorem accAt_A (c : Dev nD) (t : Fin cfg1.N) (h0 : t.val % 32 = 0) (h1 : ¬t.val % 32 = 31) :
    accAt V c t.val t.isLt = (idleOut, soutA c (grid1.coords t) (ms0 t) (hs0 t) (ms1 t) (hs1 t) (ms2 t) (hs2 t) (ms3 t) (hs3 t) (ms4 t) (hs4 t) scM (Memref.isWhole_whole _) ((first_iff t).mpr h0) (fun h => h1 ((last_iff t).mp h)) (blk V c 0 t) (blk V c 1 t)) := by
  obtain ⟨n, hn⟩ := t
  cases n with
  | zero => exact rfl
  | succ n => exact (dif_pos h0).trans rfl

theorem accAt_B (c : Dev nD) (t : Fin cfg1.N) (h0 : ¬t.val % 32 = 0) (h1 : ¬t.val % 32 = 31) :
    accAt V c t.val t.isLt = (idleOut, soutB c (grid1.coords t) (ms0 t) (hs0 t) (ms1 t) (hs1 t) (ms2 t) (hs2 t) (ms3 t) (hs3 t) (ms4 t) (hs4 t) scM (Memref.isWhole_whole _) (fun h => h0 ((first_iff t).mp h)) (fun h => h1 ((last_iff t).mp h)) (blk V c 0 t) (blk V c 1 t) (accAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem accAt_C (c : Dev nD) (t : Fin cfg1.N) (h0 : ¬t.val % 32 = 0) (h1 : t.val % 32 = 31) :
    accAt V c t.val t.isLt = (outC c (grid1.coords t) (ms0 t) (hs0 t) (ms1 t) (hs1 t) (ms2 t) (hs2 t) (ms3 t) (hs3 t) (ms4 t) (hs4 t) scM (Memref.isWhole_whole _) (fun h => h0 ((first_iff t).mp h)) ((last_iff t).mpr h1) (blk V c 0 t) (blk V c 1 t) (blk V c 2 t) (blk V c 3 t) (accAt V c (t.val - 1) (Nat.lt_of_le_of_lt (Nat.sub_le _ _) t.isLt)).2,
      soutC c (grid1.coords t) (ms0 t) (hs0 t) (ms1 t) (hs1 t) (ms2 t) (hs2 t) (ms3 t) (hs3 t) (ms4 t) (hs4 t) scM (Memref.isWhole_whole _) (fun h => h0 ((first_iff t).mp h)) ((last_iff t).mpr h1) (blk V c 0 t) (blk V c 1 t) (blk V c 2 t) (blk V c 3 t) (accAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between steps: the accumulator at what the last step left -/

/-- The scoped buffers other than the accumulator, at anything, and the generator register. -/
def Rest (c : Dev nD) : sProp 𝕄 :=
  iprop(Pipeline.scopedRestBut (Ix := Unit) (Name := ℕ) (U := UR sig nD τ) (Lvl := ℕ) (Val := Elt F) spec1 c [cc1_scratch0] ∗ ∃ r, prngReg c r)

theorem scoped_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

theorem PhiA_open (c : Dev nD) :
    (Pipeline.ΦA spec1 c : sProp 𝕄) ⊢ iprop((∃ d, owns (c : Thread nD τ) scM fullShare d) ∗ Rest (F := F) c) := by
  unfold Pipeline.ΦA Rest
  rw [scoped_split]
  simp only [scM, owns_whole]
  iintro ⟨⟨⟨%f, Hs⟩, Hb⟩, Hg⟩
  isplitl [Hs]; · iexists f; iexact Hs
  isplitl [Hb]; · iexact Hb
  iexact Hg

theorem PhiA_close (c : Dev nD) :
    iprop((∃ d, owns (c : Thread nD τ) scM fullShare d) ∗ Rest (F := F) c) ⊢ (Pipeline.ΦA spec1 c : sProp 𝕄) := by
  unfold Pipeline.ΦA Rest
  rw [scoped_split]
  simp only [scM, owns_whole]
  iintro ⟨⟨%f, Hs⟩, Hb, Hg⟩
  isplitr [Hg]
  · isplitl [Hs]; · iexists f; iexact Hs
    iexact Hb
  iexact Hg

def PhiS (c : Dev nD) : (n : ℕ) → n ≤ cfg1.N → sProp 𝕄
  | 0, _ => Pipeline.ΦA spec1 c
  | n + 1, hn => iprop(owns (c : Thread nD τ) scM fullShare ((accAt V c n hn).2) ∗ Rest (F := F) c)

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(owns (c : Thread nD τ) scM fullShare ((accAt V c n hn).2) ∗ Rest (F := F) c) := rfl
theorem PhiS_pos (c : Dev nD) (n : ℕ) (h : n ≤ cfg1.N) (hz : n ≠ 0) :
    PhiS V c n h = iprop(owns (c : Thread nD τ) scM fullShare ((accAt V c (n - 1) (by omega)).2) ∗ Rest (F := F) c) := by
  cases n with
  | zero => exact absurd rfl hz
  | succ n => rfl

/-! ## The proof data -/

def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => (accAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by dsimp only [dat]
theorem PhiS_castSucc (c : Dev nD) (t : Fin cfg1.N) : (dat V c).Φ t.castSucc = PhiS V c t.val (Nat.le_of_lt t.isLt) := by
  dsimp only [dat]; simp only [Fin.coe_castSucc]
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = (accAt V c t.val t.isLt).1 := by dsimp only [dat]
theorem before_0 (c : Dev nD) (t : Fin cfg1.N) (d) : (dat V c).before 0 t d = blk V c 0 t :=
  before_in_0 V (dat V c) (A_eq V c 0) (after_0 V c) t d
theorem before_1 (c : Dev nD) (t : Fin cfg1.N) (d) : (dat V c).before 1 t d = blk V c 1 t :=
  before_in_1 V (dat V c) (A_eq V c 1) (after_1 V c) t d
theorem before_2 (c : Dev nD) (t : Fin cfg1.N) (d) : (dat V c).before 2 t d = blk V c 2 t :=
  before_in_2 V (dat V c) (A_eq V c 2) (after_2 V c) t d
theorem before_3 (c : Dev nD) (t : Fin cfg1.N) (d) : (dat V c).before 3 t d = blk V c 3 t :=
  before_in_3 V (dat V c) (A_eq V c 3) (after_3 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).owesAt () t.succ = (dat V c).owesAt () t.castSucc from rfl]
  rw [show (dat V c).Φ t.succ = PhiS V c (t.val + 1) t.isLt from rfl, PhiS_succ]
  rw [    show (dat V c).leavesExact 0 t = owns (c : Thread nD τ) (ms0 t) fullShare ((dat V c).after 0 t) from by
      unfold Dat.leavesExact; rfl,
    after_0,
    show (dat V c).leavesExact 1 t = owns (c : Thread nD τ) (ms1 t) fullShare ((dat V c).after 1 t) from by
      unfold Dat.leavesExact; rfl,
    after_1,
    show (dat V c).leavesExact 2 t = owns (c : Thread nD τ) (ms2 t) fullShare ((dat V c).after 2 t) from by
      unfold Dat.leavesExact; rfl,
    after_2,
    show (dat V c).leavesExact 3 t = owns (c : Thread nD τ) (ms3 t) fullShare ((dat V c).after 3 t) from by
      unfold Dat.leavesExact; rfl,
    after_3]
  have hN : t.val < 128 := lt_of_lt_of_eq t.isLt (show cfg1.N = 128 from N_1)
  by_cases h0 : t.val % 32 = 0
  · have h1 : ¬t.val % 32 = 31 := by omega
    rw [Dat.leavesExact_idle (dat V c) 4 t (idle_out t (fun h => h1 ((last_iff t).mp h))) (noflush_out t (fun h => h1 ((last_iff t).mp h)))]
    rw [accAt_A V c t h0 h1]
    unfold soutA; (try dsimp only)
    by_cases hz : t.val = 0
    · rw [PhiS_castSucc V c t, PhiS_zero V c _ _ hz]
      iintro ⟨HΦ, Ho, ⟨%d0, H0⟩, ⟨%d1, H1⟩, ⟨%d2, H2⟩, ⟨%d3, H3⟩, ⟨%d4, H4⟩⟩
      ihave HΦ' := (PhiA_open (F := F) c) $$ HΦ
      icases HΦ' with ⟨HS, HR⟩
      iapply ((runA c (grid1.coords t) (ms0 t) (hs0 t) (ms1 t) (hs1 t) (ms2 t) (hs2 t) (ms3 t) (hs3 t) (ms4 t) (hs4 t) scM (Memref.isWhole_whole _) ((first_iff t).mpr h0) (fun h => h1 ((last_iff t).mp h)) (blk V c 0 t) (blk V c 1 t)).2 Set.univ _)
      isplitl [H0]; · iexact H0
      isplitl [H1]; · iexact H1
      isplitl [HS]; · iexact HS
      iintro ⟨H0, H1, ⟨%es, HS⟩⟩
      isplitl [HS HR]
      · isplitl [HS]
        · unfold owns; iexists _; isplitr
          swap; · iexact HS
          ipureintro; exact View.read_writes_of_cover _ _ _ _ _ (scoverA c _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨HΦ, Ho, ⟨%d0, H0⟩, ⟨%d1, H1⟩, ⟨%d2, H2⟩, ⟨%d3, H3⟩, ⟨%d4, H4⟩⟩
      icases HΦ with ⟨HS, HR⟩
      iapply ((runA c (grid1.coords t) (ms0 t) (hs0 t) (ms1 t) (hs1 t) (ms2 t) (hs2 t) (ms3 t) (hs3 t) (ms4 t) (hs4 t) scM (Memref.isWhole_whole _) ((first_iff t).mpr h0) (fun h => h1 ((last_iff t).mp h)) (blk V c 0 t) (blk V c 1 t)).2 Set.univ _)
      isplitl [H0]; · iexact H0
      isplitl [H1]; · iexact H1
      isplitl [HS]; · iexists _; iexact HS
      iintro ⟨H0, H1, ⟨%es, HS⟩⟩
      isplitl [HS HR]
      · isplitl [HS]
        · unfold owns; iexists _; isplitr
          swap; · iexact HS
          ipureintro; exact View.read_writes_of_cover _ _ _ _ _ (scoverA c _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 32 = 31
    · rw [show (dat V c).leavesExact 4 t = owns (c : Thread nD τ) (ms4 t) fullShare ((dat V c).after 4 t) from by
        unfold Dat.leavesExact; rw [live_out t ((last_iff t).mpr h1)], after_4]
      rw [accAt_C V c t h0 h1]
      unfold outC soutC; (try dsimp only)
      rw [PhiS_castSucc V c t, PhiS_pos V c _ _ hz]
      iintro ⟨HΦ, Ho, ⟨%d0, H0⟩, ⟨%d1, H1⟩, ⟨%d2, H2⟩, ⟨%d3, H3⟩, ⟨%d4, H4⟩⟩
      icases HΦ with ⟨HS, HR⟩
      iapply ((runC c (grid1.coords t) (ms0 t) (hs0 t) (ms1 t) (hs1 t) (ms2 t) (hs2 t) (ms3 t) (hs3 t) (ms4 t) (hs4 t) scM (Memref.isWhole_whole _) (fun h => h0 ((first_iff t).mp h)) ((last_iff t).mpr h1) (blk V c 0 t) (blk V c 1 t) (blk V c 2 t) (blk V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%eo, H4⟩, ⟨%es, HS⟩⟩
      isplitl [HS HR]
      · isplitl [HS]
        · unfold owns; iexists _; isplitr
          swap; · iexact HS
          ipureintro; exact View.read_writes_of_cover _ _ _ _ _ (scoverC c _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC c _ _ _ _ _ _ _ _ _ _ _ _ _ _ _ _ _ _ _ _)
    · rw [Dat.leavesExact_idle (dat V c) 4 t (idle_out t (fun h => h1 ((last_iff t).mp h))) (noflush_out t (fun h => h1 ((last_iff t).mp h)))]
      rw [accAt_B V c t h0 h1]
      unfold soutB; (try dsimp only)
      rw [PhiS_castSucc V c t, PhiS_pos V c _ _ hz]
      iintro ⟨HΦ, Ho, ⟨%d0, H0⟩, ⟨%d1, H1⟩, ⟨%d2, H2⟩, ⟨%d3, H3⟩, ⟨%d4, H4⟩⟩
      icases HΦ with ⟨HS, HR⟩
      iapply ((runB c (grid1.coords t) (ms0 t) (hs0 t) (ms1 t) (hs1 t) (ms2 t) (hs2 t) (ms3 t) (hs3 t) (ms4 t) (hs4 t) scM (Memref.isWhole_whole _) (fun h => h0 ((first_iff t).mp h)) (fun h => h1 ((last_iff t).mp h)) (blk V c 0 t) (blk V c 1 t) _).2 Set.univ _)
      isplitl [H0]; · iexact H0
      isplitl [H1]; · iexact H1
      isplitl [HS]; · iexact HS
      iintro ⟨H0, H1, ⟨%es, HS⟩⟩
      isplitl [HS HR]
      · isplitl [HS]
        · unfold owns; iexists _; isplitr
          swap; · iexact HS
          ipureintro; exact View.read_writes_of_cover _ _ _ _ _ (scoverB c _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      iexists _; iexact H4

theorem body_obligation (c : Dev nD) : BodyObligation (dat (F := F) V c) (defs₀ (F := F)) Variants.none () Set.univ := fun t => by
  rw [bigSep_W1, bigSep_W1]
  exact sound_body V c t

theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 128 := N_1; omega)]
  iintro ⟨HS, HR⟩
  iapply (PhiA_close (F := F) c)
  isplitl [HS]
  · iexists _; iexact HS
  iexact HR

end Cert.KernelIdeal.Conv1

end
-- ==== Proof.Conv2.lean ====
/-
  The second graph convolution as a pipeline over 4 row blocks × 32 steps: the same accumulation as the first, into an
  accumulator [4096, 32]; the last step of a row block adds the bias and stores the row-wise log-softmax,
  (z - max z) - log Σ exp (z - max z), into the output block.
-/
import proofs.«138483_j40407052320948_2_alg».proof.Proof.Gen.KernelIdeal.Launch
import proofs.«138483_j40407052320948_2_alg».proof.Proof.Gen.KernelIdeal.Skeleton
import proofs.«138483_j40407052320948_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Conv2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block t of window w, read off its array as the region finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 holds its block whenever the body runs, fetched at that point or not. -/
theorem before_in_0 {c : Dev nD} (dat : Dat τ (Elt F) Unit ℕ (UR sig nD τ) ℕ cfg2 c)
    (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1 holds its block whenever the body runs, fetched at that point or not. -/
theorem before_in_1 {c : Dev nD} (dat : Dat τ (Elt F) Unit ℕ (UR sig nD τ) ℕ cfg2 c)
    (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2 holds its block whenever the body runs, fetched at that point or not. -/
theorem before_in_2 {c : Dev nD} (dat : Dat τ (Elt F) Unit ℕ (UR sig nD τ) ℕ cfg2 c)
    (hA : dat.A 2 = V c (Pipeline.arrRef spec2 2))
    (hafter : ∀ t, dat.after 2 t = blk V c 2 t) (t : Fin cfg2.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The two conditions of the body, over the grid: the first and the last step of a row block's reduction -/

abbrev first (i : grid2.Coords) : Prop := (Scalar.cmpi .ne (Scalar.extui (Scalar.cmpi .eq (BitVec.ofNat 32 (i 1).val) 0#32)) 0#32) = 1#1
theorem first_iff : ∀ t : Fin cfg2.N, first (grid2.coords t) ↔ t.val % 32 = 0 :=
  (by decide +kernel : ∀ t : Fin grid2.N, first (grid2.coords t) ↔ t.val % 32 = 0)
abbrev last (i : grid2.Coords) : Prop := k2_cond2 i = 1#1
theorem last_iff : ∀ t : Fin cfg2.N, last (grid2.coords t) ↔ t.val % 32 = 31 :=
  (by decide +kernel : ∀ t : Fin grid2.N, last (grid2.coords t) ↔ t.val % 32 = 31)

/-- The output window is idle, and not written back, except at a last step. -/
theorem idle_out : ∀ t : Fin cfg2.N, ¬last (grid2.coords t) → cfg2.idle 3 (grid2.coords t) = true := by decide +kernel
theorem noflush_out : ∀ t : Fin cfg2.N, ¬last (grid2.coords t) → (cfg2.win 3).flush t = false := by decide +kernel
theorem live_out : ∀ t : Fin cfg2.N, last (grid2.coords t) → cfg2.idle 3 (grid2.coords t) = false := by decide +kernel

abbrev ms0 (t : Fin cfg2.N) : Memref sig .tc .vmem S4096x512 .f32 := win2_0.stage (cfg2.slots t 0)
abbrev hs0 (t : Fin cfg2.N) : (ms0 t).IsWhole := hstage2_0 ((cfg2.slots t 0).cast nbuf2_0)
abbrev ms1 (t : Fin cfg2.N) : Memref sig .tc .vmem S512x32 .bf16 := win2_1.stage (cfg2.slots t 1)
abbrev hs1 (t : Fin cfg2.N) : (ms1 t).IsWhole := hstage2_1 ((cfg2.slots t 1).cast nbuf2_1)
abbrev ms2 (t : Fin cfg2.N) : Memref sig .tc .vmem S32 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S4096x32 .f32 := win2_3.stage (cfg2.slots t 3)
abbrev hs3 (t : Fin cfg2.N) : (ms3 t).IsWhole := hstage2_3 ((cfg2.slots t 3).cast nbuf2_3)
/-- The accumulator: a whole scoped buffer of the kernel's own. -/
abbrev scM : Memref sig .tc .vmem S4096x32 .f32 := Memref.whole cc2_scratch0
abbrev VS : View sig .tc .vmem S4096x32 .f32 := scM.view
abbrev VO : View sig .tc .vmem S4096x32 .f32 := (Memref.whole cc2_stg3_0 : Memref sig .tc .vmem S4096x32 .f32).view

/-! ## The body, once per case: first step, middle step, last step -/

set_option maxHeartbeats 4000000 in
/-- FIRST step of a row block: the accumulator, whatever it held, is zeroed and takes the two products. The pieces it
    ends with are found by the run. -/
noncomputable def runA (c : Dev nD) (i : grid2.Coords) (m0 : Memref sig .tc .vmem S4096x512 .f32) (h0 : m0.IsWhole) (m1 : Memref sig .tc .vmem S512x32 .bf16) (h1 : m1.IsWhole) (m2 : Memref sig .tc .vmem S32 .f32) (h2 : m2.IsWhole) (m3 : Memref sig .tc .vmem S4096x32 .f32) (h3 : m3.IsWhole) (mS : Memref sig .tc .vmem S4096x32 .f32) (hS : mS.IsWhole) (hc0 : first i) (hc1 : ¬last i) (x0 : Vec F S4096x512 .f32) (x1 : Vec F S512x32 .bf16) :
    { LS : List (View.Piece (Elt F) S4096x32 .f32) //
      ∀ (E : Set ℕ) (K : PUnit → sProp 𝕄),
        iprop(owns (c : Thread nD τ) m0 fullShare x0 ∗ owns (c : Thread nD τ) m1 fullShare x1 ∗ (∃ d, owns (c : Thread nD τ) mS fullShare d)
            ∗ (iprop(owns (c : Thread nD τ) m0 fullShare x0 ∗ owns (c : Thread nD τ) m1 fullShare x1 ∗ (∃ f, mS.view.loc (c : Thread nD τ) ↦[mS.view.set]{fullShare} mS.view.writes (Elt F) f LS)) -∗ K ⟨⟩))
          ⊢ wp frame (wpE (defs₀ (F := F)) Variants.none c none) E (cc2__gc2_kernel i m0 h0 m1 h1 m2 h2 m3 h3 mS hS) K } := by
  refine ⟨?_, fun E K => ?run⟩
  case run =>
    simp only [cc2__gc2_kernel_eq_skeleton]; unfold cc2__gc2_kernel_skel
    unfold owns
    iintro ⟨⟨%f0, %hf0, H0⟩, ⟨%f1, %hf1, H1⟩, ⟨%ds, %fs, -, HS⟩, Hk⟩
    obtain rfl := h0.eq_unread hf0; obtain rfl := h1.eq_unread hf1
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    iexists _; iexact HS

set_option maxHeartbeats 4000000 in
/-- MIDDLE step: the accumulator, at what the step before left, takes the two products. -/
noncomputable def runB (c : Dev nD) (i : grid2.Coords) (m0 : Memref sig .tc .vmem S4096x512 .f32) (h0 : m0.IsWhole) (m1 : Memref sig .tc .vmem S512x32 .bf16) (h1 : m1.IsWhole) (m2 : Memref sig .tc .vmem S32 .f32) (h2 : m2.IsWhole) (m3 : Memref sig .tc .vmem S4096x32 .f32) (h3 : m3.IsWhole) (mS : Memref sig .tc .vmem S4096x32 .f32) (hS : mS.IsWhole) (hc0 : ¬first i) (hc1 : ¬last i) (x0 : Vec F S4096x512 .f32) (x1 : Vec F S512x32 .bf16) (xs : Vec F S4096x32 .f32) :
    { LS : List (View.Piece (Elt F) S4096x32 .f32) //
      ∀ (E : Set ℕ) (K : PUnit → sProp 𝕄),
        iprop(owns (c : Thread nD τ) m0 fullShare x0 ∗ owns (c : Thread nD τ) m1 fullShare x1 ∗ owns (c : Thread nD τ) mS fullShare xs
            ∗ (iprop(owns (c : Thread nD τ) m0 fullShare x0 ∗ owns (c : Thread nD τ) m1 fullShare x1 ∗ (∃ f, mS.view.loc (c : Thread nD τ) ↦[mS.view.set]{fullShare} mS.view.writes (Elt F) f LS)) -∗ K ⟨⟩))
          ⊢ wp frame (wpE (defs₀ (F := F)) Variants.none c none) E (cc2__gc2_kernel i m0 h0 m1 h1 m2 h2 m3 h3 mS hS) K } := by
  refine ⟨?_, fun E K => ?run⟩
  case run =>
    simp only [cc2__gc2_kernel_eq_skeleton]; unfold cc2__gc2_kernel_skel
    unfold owns
    iintro ⟨⟨%f0, %hf0, H0⟩, ⟨%f1, %hf1, H1⟩, ⟨%fs, %hfs, HS⟩, Hk⟩
    obtain rfl := h0.eq_unread hf0; obtain rfl := h1.eq_unread hf1; obtain rfl := hS.eq_unread hfs
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    iexists _; iexact HS

set_option maxHeartbeats 4000000 in
/-- LAST step: as a middle step, then the output block is stored from the finished accumulator. -/
noncomputable def runC (c : Dev nD) (i : grid2.Coords) (m0 : Memref sig .tc .vmem S4096x512 .f32) (h0 : m0.IsWhole) (m1 : Memref sig .tc .vmem S512x32 .bf16) (h1 : m1.IsWhole) (m2 : Memref sig .tc .vmem S32 .f32) (h2 : m2.IsWhole) (m3 : Memref sig .tc .vmem S4096x32 .f32) (h3 : m3.IsWhole) (mS : Memref sig .tc .vmem S4096x32 .f32) (hS : mS.IsWhole) (hc0 : ¬first i) (hc1 : last i) (x0 : Vec F S4096x512 .f32) (x1 : Vec F S512x32 .bf16) (x2 : Vec F S32 .f32) (xs : Vec F S4096x32 .f32) :
    Σ' (LO : List (View.Piece (Elt F) S4096x32 .f32)), { LS : List (View.Piece (Elt F) S4096x32 .f32) //
      ∀ (E : Set ℕ) (K : PUnit → sProp 𝕄),
        iprop(owns (c : Thread nD τ) m0 fullShare x0 ∗ owns (c : Thread nD τ) m1 fullShare x1 ∗ owns (c : Thread nD τ) m2 fullShare x2 ∗ (∃ d, owns (c : Thread nD τ) m3 fullShare d) ∗ owns (c : Thread nD τ) mS fullShare xs
            ∗ (iprop(owns (c : Thread nD τ) m0 fullShare x0 ∗ owns (c : Thread nD τ) m1 fullShare x1 ∗ owns (c : Thread nD τ) m2 fullShare x2 ∗ (∃ f, m3.view.loc (c : Thread nD τ) ↦[m3.view.set]{fullShare} m3.view.writes (Elt F) f LO) ∗ (∃ f, mS.view.loc (c : Thread nD τ) ↦[mS.view.set]{fullShare} mS.view.writes (Elt F) f LS)) -∗ K ⟨⟩))
          ⊢ wp frame (wpE (defs₀ (F := F)) Variants.none c none) E (cc2__gc2_kernel i m0 h0 m1 h1 m2 h2 m3 h3 mS hS) K } := by
  refine ⟨?_, ?_, fun E K => ?run⟩
  case run =>
    simp only [cc2__gc2_kernel_eq_skeleton]; unfold cc2__gc2_kernel_skel
    unfold owns
    iintro ⟨⟨%f0, %hf0, H0⟩, ⟨%f1, %hf1, H1⟩, ⟨%f2, %hf2, H2⟩, ⟨%dO, %fO, -, HO⟩, ⟨%fs, %hfs, HS⟩, Hk⟩
    obtain rfl := h0.eq_unread hf0; obtain rfl := h1.eq_unread hf1; obtain rfl := h2.eq_unread hf2; obtain rfl := hS.eq_unread hfs
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [HO]
    · iexists _; iexact HO
    iexists _; iexact HS

/-! ## What each case leaves: the pieces read back -/

def soutA (c : Dev nD) (i : grid2.Coords) (m0 : Memref sig .tc .vmem S4096x512 .f32) (h0 : m0.IsWhole) (m1 : Memref sig .tc .vmem S512x32 .bf16) (h1 : m1.IsWhole) (m2 : Memref sig .tc .vmem S32 .f32) (h2 : m2.IsWhole) (m3 : Memref sig .tc .vmem S4096x32 .f32) (h3 : m3.IsWhole) (mS : Memref sig .tc .vmem S4096x32 .f32) (hS : mS.IsWhole) (hc0 : first i) (hc1 : ¬last i) (x0 : Vec F S4096x512 .f32) (x1 : Vec F S512x32 .bf16) : Vec F S4096x32 .f32 :=
  VS.read (Elt F) (VS.writes (Elt F) VS.junk (runA c i m0 h0 m1 h1 m2 h2 m3 h3 mS hS hc0 hc1 x0 x1).1)
theorem scoverA (c : Dev nD) (i : grid2.Coords) (m0 : Memref sig .tc .vmem S4096x512 .f32) (h0 : m0.IsWhole) (m1 : Memref sig .tc .vmem S512x32 .bf16) (h1 : m1.IsWhole) (m2 : Memref sig .tc .vmem S32 .f32) (h2 : m2.IsWhole) (m3 : Memref sig .tc .vmem S4096x32 .f32) (h3 : m3.IsWhole) (mS : Memref sig .tc .vmem S4096x32 .f32) (hS : mS.IsWhole) (hc0 : first i) (hc1 : ¬last i) (x0 : Vec F S4096x512 .f32) (x1 : Vec F S512x32 .bf16) (y : S4096x32.Idx) :
    ∃ pc ∈ (runA c i m0 h0 m1 h1 m2 h2 m3 h3 mS hS hc0 hc1 x0 x1).1, y ∈ pc.1.set :=
  View.cover_of_tiledL (runA c i m0 h0 m1 h1 m2 h2 m3 h3 mS hS hc0 hc1 x0 x1).1 S4096x32.size (by sl_kernel_rfl) y

def soutB (c : Dev nD) (i : grid2.Coords) (m0 : Memref sig .tc .vmem S4096x512 .f32) (h0 : m0.IsWhole) (m1 : Memref sig .tc .vmem S512x32 .bf16) (h1 : m1.IsWhole) (m2 : Memref sig .tc .vmem S32 .f32) (h2 : m2.IsWhole) (m3 : Memref sig .tc .vmem S4096x32 .f32) (h3 : m3.IsWhole) (mS : Memref sig .tc .vmem S4096x32 .f32) (hS : mS.IsWhole) (hc0 : ¬first i) (hc1 : ¬last i) (x0 : Vec F S4096x512 .f32) (x1 : Vec F S512x32 .bf16) (xs : Vec F S4096x32 .f32) : Vec F S4096x32 .f32 :=
  VS.read (Elt F) (VS.writes (Elt F) VS.junk (runB c i m0 h0 m1 h1 m2 h2 m3 h3 mS hS hc0 hc1 x0 x1 xs).1)
theorem scoverB (c : Dev nD) (i : grid2.Coords) (m0 : Memref sig .tc .vmem S4096x512 .f32) (h0 : m0.IsWhole) (m1 : Memref sig .tc .vmem S512x32 .bf16) (h1 : m1.IsWhole) (m2 : Memref sig .tc .vmem S32 .f32) (h2 : m2.IsWhole) (m3 : Memref sig .tc .vmem S4096x32 .f32) (h3 : m3.IsWhole) (mS : Memref sig .tc .vmem S4096x32 .f32) (hS : mS.IsWhole) (hc0 : ¬first i) (hc1 : ¬last i) (x0 : Vec F S4096x512 .f32) (x1 : Vec F S512x32 .bf16) (xs : Vec F S4096x32 .f32) (y : S4096x32.Idx) :
    ∃ pc ∈ (runB c i m0 h0 m1 h1 m2 h2 m3 h3 mS hS hc0 hc1 x0 x1 xs).1, y ∈ pc.1.set :=
  View.cover_of_tiledL (runB c i m0 h0 m1 h1 m2 h2 m3 h3 mS hS hc0 hc1 x0 x1 xs).1 S4096x32.size (by sl_kernel_rfl) y

def soutC (c : Dev nD) (i : grid2.Coords) (m0 : Memref sig .tc .vmem S4096x512 .f32) (h0 : m0.IsWhole) (m1 : Memref sig .tc .vmem S512x32 .bf16) (h1 : m1.IsWhole) (m2 : Memref sig .tc .vmem S32 .f32) (h2 : m2.IsWhole) (m3 : Memref sig .tc .vmem S4096x32 .f32) (h3 : m3.IsWhole) (mS : Memref sig .tc .vmem S4096x32 .f32) (hS : mS.IsWhole) (hc0 : ¬first i) (hc1 : last i) (x0 : Vec F S4096x512 .f32) (x1 : Vec F S512x32 .bf16) (x2 : Vec F S32 .f32) (xs : Vec F S4096x32 .f32) : Vec F S4096x32 .f32 :=
  VS.read (Elt F) (VS.writes (Elt F) VS.junk (runC c i m0 h0 m1 h1 m2 h2 m3 h3 mS hS hc0 hc1 x0 x1 x2 xs).2.1)
theorem scoverC (c : Dev nD) (i : grid2.Coords) (m0 : Memref sig .tc .vmem S4096x512 .f32) (h0 : m0.IsWhole) (m1 : Memref sig .tc .vmem S512x32 .bf16) (h1 : m1.IsWhole) (m2 : Memref sig .tc .vmem S32 .f32) (h2 : m2.IsWhole) (m3 : Memref sig .tc .vmem S4096x32 .f32) (h3 : m3.IsWhole) (mS : Memref sig .tc .vmem S4096x32 .f32) (hS : mS.IsWhole) (hc0 : ¬first i) (hc1 : last i) (x0 : Vec F S4096x512 .f32) (x1 : Vec F S512x32 .bf16) (x2 : Vec F S32 .f32) (xs : Vec F S4096x32 .f32) (y : S4096x32.Idx) :
    ∃ pc ∈ (runC c i m0 h0 m1 h1 m2 h2 m3 h3 mS hS hc0 hc1 x0 x1 x2 xs).2.1, y ∈ pc.1.set :=
  View.cover_of_tiledL (runC c i m0 h0 m1 h1 m2 h2 m3 h3 mS hS hc0 hc1 x0 x1 x2 xs).2.1 S4096x32.size (by sl_kernel_rfl) y
def outC (c : Dev nD) (i : grid2.Coords) (m0 : Memref sig .tc .vmem S4096x512 .f32) (h0 : m0.IsWhole) (m1 : Memref sig .tc .vmem S512x32 .bf16) (h1 : m1.IsWhole) (m2 : Memref sig .tc .vmem S32 .f32) (h2 : m2.IsWhole) (m3 : Memref sig .tc .vmem S4096x32 .f32) (h3 : m3.IsWhole) (mS : Memref sig .tc .vmem S4096x32 .f32) (hS : mS.IsWhole) (hc0 : ¬first i) (hc1 : last i) (x0 : Vec F S4096x512 .f32) (x1 : Vec F S512x32 .bf16) (x2 : Vec F S32 .f32) (xs : Vec F S4096x32 .f32) : Vec F S4096x32 .f32 :=
  VO.read (Elt F) (VO.writes (Elt F) VO.junk (runC c i m0 h0 m1 h1 m2 h2 m3 h3 mS hS hc0 hc1 x0 x1 x2 xs).1)
theorem coverC (c : Dev nD) (i : grid2.Coords) (m0 : Memref sig .tc .vmem S4096x512 .f32) (h0 : m0.IsWhole) (m1 : Memref sig .tc .vmem S512x32 .bf16) (h1 : m1.IsWhole) (m2 : Memref sig .tc .vmem S32 .f32) (h2 : m2.IsWhole) (m3 : Memref sig .tc .vmem S4096x32 .f32) (h3 : m3.IsWhole) (mS : Memref sig .tc .vmem S4096x32 .f32) (hS : mS.IsWhole) (hc0 : ¬first i) (hc1 : last i) (x0 : Vec F S4096x512 .f32) (x1 : Vec F S512x32 .bf16) (x2 : Vec F S32 .f32) (xs : Vec F S4096x32 .f32) (y : S4096x32.Idx) :
    ∃ pc ∈ (runC c i m0 h0 m1 h1 m2 h2 m3 h3 mS hS hc0 hc1 x0 x1 x2 xs).1, y ∈ pc.1.set :=
  View.cover_of_tiledL (runC c i m0 h0 m1 h1 m2 h2 m3 h3 mS hS hc0 hc1 x0 x1 x2 xs).1 S4096x32.size (by sl_kernel_rfl) y

/-- A placeholder for the output block at the steps that store nothing into it: nothing reads it. -/
def idleOut : Vec F S4096x32 .f32 := VO.read (Elt F) (VO.writes (Elt F) VO.junk [])

/-! ## The accumulation over the grid -/

/-- After step n: the output block (a placeholder unless n is a last step) and the accumulator. A first step starts
    afresh, the others continue from what step n - 1 left. -/
def accAt (c : Dev nD) : (n : ℕ) → n < cfg2.N → Vec F S4096x32 .f32 × Vec F S4096x32 .f32
  | 0, hn => (idleOut, soutA c (grid2.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) ((first_iff ⟨0, hn⟩).mpr (Nat.zero_mod _)) (fun h => (fun h => by (try dsimp only at h); omega) ((last_iff ⟨0, hn⟩).mp h)) (blk V c 0 ⟨0, hn⟩) (blk V c 1 ⟨0, hn⟩))
  | n + 1, hn =>
    if h0 : (n + 1) % 32 = 0 then
      (idleOut, soutA c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) ((first_iff ⟨n + 1, hn⟩).mpr h0) (fun h => (fun h => by (try dsimp only at h); omega) ((last_iff ⟨n + 1, hn⟩).mp h)) (blk V c 0 ⟨n + 1, hn⟩) (blk V c 1 ⟨n + 1, hn⟩))
    else
      if h1 : (n + 1) % 32 = 31 then
        (outC c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((first_iff ⟨n + 1, hn⟩).mp h)) ((last_iff ⟨n + 1, hn⟩).mpr h1) (blk V c 0 ⟨n + 1, hn⟩) (blk V c 1 ⟨n + 1, hn⟩) (blk V c 2 ⟨n + 1, hn⟩) (accAt c n (Nat.lt_of_succ_lt hn)).2,
         soutC c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((first_iff ⟨n + 1, hn⟩).mp h)) ((last_iff ⟨n + 1, hn⟩).mpr h1) (blk V c 0 ⟨n + 1, hn⟩) (blk V c 1 ⟨n + 1, hn⟩) (blk V c 2 ⟨n + 1, hn⟩) (accAt c n (Nat.lt_of_succ_lt hn)).2)
      else
        (idleOut, soutB c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((first_iff ⟨n + 1, hn⟩).mp h)) (fun h => h1 ((last_iff ⟨n + 1, hn⟩).mp h)) (blk V c 0 ⟨n + 1, hn⟩) (blk V c 1 ⟨n + 1, hn⟩) (accAt c n (Nat.lt_of_succ_lt hn)).2)

theorem accAt_A (c : Dev nD) (t : Fin cfg2.N) (h0 : t.val % 32 = 0) (h1 : ¬t.val % 32 = 31) :
    accAt V c t.val t.isLt = (idleOut, soutA c (grid2.coords t) (ms0 t) (hs0 t) (ms1 t) (hs1 t) (ms2 t) (hs2 t) (ms3 t) (hs3 t) scM (Memref.isWhole_whole _) ((first_iff t).mpr h0) (fun h => h1 ((last_iff t).mp h)) (blk V c 0 t) (blk V c 1 t)) := by
  obtain ⟨n, hn⟩ := t
  cases n with
  | zero => exact rfl
  | succ n => exact (dif_pos h0).trans rfl

theorem accAt_B (c : Dev nD) (t : Fin cfg2.N) (h0 : ¬t.val % 32 = 0) (h1 : ¬t.val % 32 = 31) :
    accAt V c t.val t.isLt = (idleOut, soutB c (grid2.coords t) (ms0 t) (hs0 t) (ms1 t) (hs1 t) (ms2 t) (hs2 t) (ms3 t) (hs3 t) scM (Memref.isWhole_whole _) (fun h => h0 ((first_iff t).mp h)) (fun h => h1 ((last_iff t).mp h)) (blk V c 0 t) (blk V c 1 t) (accAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem accAt_C (c : Dev nD) (t : Fin cfg2.N) (h0 : ¬t.val % 32 = 0) (h1 : t.val % 32 = 31) :
    accAt V c t.val t.isLt = (outC c (grid2.coords t) (ms0 t) (hs0 t) (ms1 t) (hs1 t) (ms2 t) (hs2 t) (ms3 t) (hs3 t) scM (Memref.isWhole_whole _) (fun h => h0 ((first_iff t).mp h)) ((last_iff t).mpr h1) (blk V c 0 t) (blk V c 1 t) (blk V c 2 t) (accAt V c (t.val - 1) (Nat.lt_of_le_of_lt (Nat.sub_le _ _) t.isLt)).2,
      soutC c (grid2.coords t) (ms0 t) (hs0 t) (ms1 t) (hs1 t) (ms2 t) (hs2 t) (ms3 t) (hs3 t) scM (Memref.isWhole_whole _) (fun h => h0 ((first_iff t).mp h)) ((last_iff t).mpr h1) (blk V c 0 t) (blk V c 1 t) (blk V c 2 t) (accAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between steps: the accumulator at what the last step left -/

/-- The scoped buffers other than the accumulator, at anything, and the generator register. -/
def Rest (c : Dev nD) : sProp 𝕄 :=
  iprop(Pipeline.scopedRestBut (Ix := Unit) (Name := ℕ) (U := UR sig nD τ) (Lvl := ℕ) (Val := Elt F) spec2 c [cc2_scratch0] ∗ ∃ r, prngReg c r)

theorem scoped_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

theorem PhiA_open (c : Dev nD) :
    (Pipeline.ΦA spec2 c : sProp 𝕄) ⊢ iprop((∃ d, owns (c : Thread nD τ) scM fullShare d) ∗ Rest (F := F) c) := by
  unfold Pipeline.ΦA Rest
  rw [scoped_split]
  simp only [scM, owns_whole]
  iintro ⟨⟨⟨%f, Hs⟩, Hb⟩, Hg⟩
  isplitl [Hs]; · iexists f; iexact Hs
  isplitl [Hb]; · iexact Hb
  iexact Hg

theorem PhiA_close (c : Dev nD) :
    iprop((∃ d, owns (c : Thread nD τ) scM fullShare d) ∗ Rest (F := F) c) ⊢ (Pipeline.ΦA spec2 c : sProp 𝕄) := by
  unfold Pipeline.ΦA Rest
  rw [scoped_split]
  simp only [scM, owns_whole]
  iintro ⟨⟨%f, Hs⟩, Hb, Hg⟩
  isplitr [Hg]
  · isplitl [Hs]; · iexists f; iexact Hs
    iexact Hb
  iexact Hg

def PhiS (c : Dev nD) : (n : ℕ) → n ≤ cfg2.N → sProp 𝕄
  | 0, _ => Pipeline.ΦA spec2 c
  | n + 1, hn => iprop(owns (c : Thread nD τ) scM fullShare ((accAt V c n hn).2) ∗ Rest (F := F) c)

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(owns (c : Thread nD τ) scM fullShare ((accAt V c n hn).2) ∗ Rest (F := F) c) := rfl
theorem PhiS_pos (c : Dev nD) (n : ℕ) (h : n ≤ cfg2.N) (hz : n ≠ 0) :
    PhiS V c n h = iprop(owns (c : Thread nD τ) scM fullShare ((accAt V c (n - 1) (by omega)).2) ∗ Rest (F := F) c) := by
  cases n with
  | zero => exact absurd rfl hz
  | succ n => rfl

/-! ## The proof data -/

def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => (accAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by dsimp only [dat]
theorem PhiS_castSucc (c : Dev nD) (t : Fin cfg2.N) : (dat V c).Φ t.castSucc = PhiS V c t.val (Nat.le_of_lt t.isLt) := by
  dsimp only [dat]; simp only [Fin.coe_castSucc]
theorem after_0 (c : Dev nD) (t : Fin cfg2.N) : (dat V c).after 0 t = blk V c 0 t := by dsimp only [dat]
theorem after_1 (c : Dev nD) (t : Fin cfg2.N) : (dat V c).after 1 t = blk V c 1 t := by dsimp only [dat]
theorem after_2 (c : Dev nD) (t : Fin cfg2.N) : (dat V c).after 2 t = blk V c 2 t := by dsimp only [dat]
theorem after_3 (c : Dev nD) (t : Fin cfg2.N) : (dat V c).after 3 t = (accAt V c t.val t.isLt).1 := by dsimp only [dat]
theorem before_0 (c : Dev nD) (t : Fin cfg2.N) (d) : (dat V c).before 0 t d = blk V c 0 t :=
  before_in_0 V (dat V c) (A_eq V c 0) (after_0 V c) t d
theorem before_1 (c : Dev nD) (t : Fin cfg2.N) (d) : (dat V c).before 1 t d = blk V c 1 t :=
  before_in_1 V (dat V c) (A_eq V c 1) (after_1 V c) t d
theorem before_2 (c : Dev nD) (t : Fin cfg2.N) (d) : (dat V c).before 2 t d = blk V c 2 t :=
  before_in_2 V (dat V c) (A_eq V c 2) (after_2 V c) t d

/-! ## The body obligation -/

def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).owesAt () t.succ = (dat V c).owesAt () t.castSucc from rfl]
  rw [show (dat V c).Φ t.succ = PhiS V c (t.val + 1) t.isLt from rfl, PhiS_succ]
  rw [    show (dat V c).leavesExact 0 t = owns (c : Thread nD τ) (ms0 t) fullShare ((dat V c).after 0 t) from by
      unfold Dat.leavesExact; rfl,
    after_0,
    show (dat V c).leavesExact 1 t = owns (c : Thread nD τ) (ms1 t) fullShare ((dat V c).after 1 t) from by
      unfold Dat.leavesExact; rfl,
    after_1,
    show (dat V c).leavesExact 2 t = owns (c : Thread nD τ) (ms2 t) fullShare ((dat V c).after 2 t) from by
      unfold Dat.leavesExact; rfl,
    after_2]
  have hN : t.val < 128 := lt_of_lt_of_eq t.isLt (show cfg2.N = 128 from N_2)
  by_cases h0 : t.val % 32 = 0
  · have h1 : ¬t.val % 32 = 31 := by omega
    rw [Dat.leavesExact_idle (dat V c) 3 t (idle_out t (fun h => h1 ((last_iff t).mp h))) (noflush_out t (fun h => h1 ((last_iff t).mp h)))]
    rw [accAt_A V c t h0 h1]
    unfold soutA; (try dsimp only)
    by_cases hz : t.val = 0
    · rw [PhiS_castSucc V c t, PhiS_zero V c _ _ hz]
      iintro ⟨HΦ, Ho, ⟨%d0, H0⟩, ⟨%d1, H1⟩, ⟨%d2, H2⟩, ⟨%d3, H3⟩⟩
      ihave HΦ' := (PhiA_open (F := F) c) $$ HΦ
      icases HΦ' with ⟨HS, HR⟩
      iapply ((runA c (grid2.coords t) (ms0 t) (hs0 t) (ms1 t) (hs1 t) (ms2 t) (hs2 t) (ms3 t) (hs3 t) scM (Memref.isWhole_whole _) ((first_iff t).mpr h0) (fun h => h1 ((last_iff t).mp h)) (blk V c 0 t) (blk V c 1 t)).2 Set.univ _)
      isplitl [H0]; · iexact H0
      isplitl [H1]; · iexact H1
      isplitl [HS]; · iexact HS
      iintro ⟨H0, H1, ⟨%es, HS⟩⟩
      isplitl [HS HR]
      · isplitl [HS]
        · unfold owns; iexists _; isplitr
          swap; · iexact HS
          ipureintro; exact View.read_writes_of_cover _ _ _ _ _ (scoverA c _ _ _ _ _ _ _ _ _ _ _ _ _ _ _)
        iexact HR
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨HΦ, Ho, ⟨%d0, H0⟩, ⟨%d1, H1⟩, ⟨%d2, H2⟩, ⟨%d3, H3⟩⟩
      icases HΦ with ⟨HS, HR⟩
      iapply ((runA c (grid2.coords t) (ms0 t) (hs0 t) (ms1 t) (hs1 t) (ms2 t) (hs2 t) (ms3 t) (hs3 t) scM (Memref.isWhole_whole _) ((first_iff t).mpr h0) (fun h => h1 ((last_iff t).mp h)) (blk V c 0 t) (blk V c 1 t)).2 Set.univ _)
      isplitl [H0]; · iexact H0
      isplitl [H1]; · iexact H1
      isplitl [HS]; · iexists _; iexact HS
      iintro ⟨H0, H1, ⟨%es, HS⟩⟩
      isplitl [HS HR]
      · isplitl [HS]
        · unfold owns; iexists _; isplitr
          swap; · iexact HS
          ipureintro; exact View.read_writes_of_cover _ _ _ _ _ (scoverA c _ _ _ _ _ _ _ _ _ _ _ _ _ _ _)
        iexact HR
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 32 = 31
    · rw [show (dat V c).leavesExact 3 t = owns (c : Thread nD τ) (ms3 t) fullShare ((dat V c).after 3 t) from by
        unfold Dat.leavesExact; rw [live_out t ((last_iff t).mpr h1)], after_3]
      rw [accAt_C V c t h0 h1]
      unfold outC soutC; (try dsimp only)
      rw [PhiS_castSucc V c t, PhiS_pos V c _ _ hz]
      iintro ⟨HΦ, Ho, ⟨%d0, H0⟩, ⟨%d1, H1⟩, ⟨%d2, H2⟩, ⟨%d3, H3⟩⟩
      icases HΦ with ⟨HS, HR⟩
      iapply ((runC c (grid2.coords t) (ms0 t) (hs0 t) (ms1 t) (hs1 t) (ms2 t) (hs2 t) (ms3 t) (hs3 t) scM (Memref.isWhole_whole _) (fun h => h0 ((first_iff t).mp h)) ((last_iff t).mpr h1) (blk V c 0 t) (blk V c 1 t) (blk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%eo, H3⟩, ⟨%es, HS⟩⟩
      isplitl [HS HR]
      · isplitl [HS]
        · unfold owns; iexists _; isplitr
          swap; · iexact HS
          ipureintro; exact View.read_writes_of_cover _ _ _ _ _ (scoverC c _ _ _ _ _ _ _ _ _ _ _ _ _ _ _ _ _)
        iexact HR
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC c _ _ _ _ _ _ _ _ _ _ _ _ _ _ _ _ _)
    · rw [Dat.leavesExact_idle (dat V c) 3 t (idle_out t (fun h => h1 ((last_iff t).mp h))) (noflush_out t (fun h => h1 ((last_iff t).mp h)))]
      rw [accAt_B V c t h0 h1]
      unfold soutB; (try dsimp only)
      rw [PhiS_castSucc V c t, PhiS_pos V c _ _ hz]
      iintro ⟨HΦ, Ho, ⟨%d0, H0⟩, ⟨%d1, H1⟩, ⟨%d2, H2⟩, ⟨%d3, H3⟩⟩
      icases HΦ with ⟨HS, HR⟩
      iapply ((runB c (grid2.coords t) (ms0 t) (hs0 t) (ms1 t) (hs1 t) (ms2 t) (hs2 t) (ms3 t) (hs3 t) scM (Memref.isWhole_whole _) (fun h => h0 ((first_iff t).mp h)) (fun h => h1 ((last_iff t).mp h)) (blk V c 0 t) (blk V c 1 t) _).2 Set.univ _)
      isplitl [H0]; · iexact H0
      isplitl [H1]; · iexact H1
      isplitl [HS]; · iexact HS
      iintro ⟨H0, H1, ⟨%es, HS⟩⟩
      isplitl [HS HR]
      · isplitl [HS]
        · unfold owns; iexists _; isplitr
          swap; · iexact HS
          ipureintro; exact View.read_writes_of_cover _ _ _ _ _ (scoverB c _ _ _ _ _ _ _ _ _ _ _ _ _ _ _ _)
        iexact HR
      isplitl [Ho]; · iexact Ho
      isplitl [H0]; · iexact H0
      isplitl [H1]; · iexact H1
      isplitl [H2]; · iexact H2
      iexists _; iexact H3

theorem body_obligation (c : Dev nD) : BodyObligation (dat (F := F) V c) (defs₀ (F := F)) Variants.none () Set.univ := fun t => by
  rw [bigSep_W2, bigSep_W2]
  exact sound_body V c t

theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

theorem hout (c : Dev nD) : (dat V c).Φ (Fin.last cfg2.N) ⊢ Pipeline.ΦA spec2 c := by
  rw [show (dat V c).Φ (Fin.last cfg2.N) = PhiS V c (Fin.last cfg2.N).val (Nat.le_of_lt_succ (Fin.last cfg2.N).isLt) from rfl,
    PhiS_pos V c _ _ (by rw [Fin.val_last]; have : cfg2.N = 128 := N_2; omega)]
  iintro ⟨HS, HR⟩
  iapply (PhiA_close (F := F) c)
  isplitl [HS]
  · iexists _; iexact HS
  iexact HR

end Cert.KernelIdeal.Conv2

end
-- ==== Proof.Whole.lean ====
/-
  The whole program: the host operations that build the block-diagonal weight matrix, the joined bias and the narrow
  copies of the weights, then the three pipelines in turn. The contents of every buffer outside the kernels' own are
  followed from the launch through each stage: after a pipeline its arrays hold what its write-backs leave, every
  other buffer what it held before. Every weakly fair run ends with those buffers at the last stage's contents.
-/
import proofs.«138483_j40407052320948_2_alg».proof.Proof.Gen.KernelIdeal.Launch
import proofs.«138483_j40407052320948_2_alg».proof.Proof.Gen.KernelIdeal.Skeleton
import proofs.«138483_j40407052320948_2_alg».proof.Proof.Gen.KernelIdeal.Points
import proofs.«138483_j40407052320948_2_alg».proof.Proof.Gen.KernelIdeal.Regions
import proofs.«138483_j40407052320948_2_alg».proof.Proof.Branch
import proofs.«138483_j40407052320948_2_alg».proof.Proof.Conv1
import proofs.«138483_j40407052320948_2_alg».proof.Proof.Conv2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents of the buffers at each stage -/

/-- At launch. -/
abbrev W0 : Dev nD → Valuation τ sig (Elt F) := fun c b => (s₀ m ρ).mem ((c : Dev nD), b)
/-- After the host operations: the first pipeline's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After pipeline 0: its arrays at what it leaves, every other buffer as before. -/
def W2 (c : Dev nD) : Valuation τ sig (Elt F) :=
  Pipeline.withArrays spec0 c (W1 m ρ c) fun w => (Branch.dat (V1 m ρ) c).arrAt w cfg0.N
theorem W2_arr (c : Dev nD) (w : Fin cfg0.W) :
    W2 m ρ c (Proc.devRef .tc (Pipeline.arrRef spec0 w)) = (Branch.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Branch.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After pipeline 1: its arrays at what it leaves, every other buffer as before. -/
def W3 (c : Dev nD) : Valuation τ sig (Elt F) :=
  Pipeline.withArrays spec1 c (W2 m ρ c) fun w => (Conv1.dat (V2 m ρ) c).arrAt w cfg1.N
theorem W3_arr (c : Dev nD) (w : Fin cfg1.W) :
    W3 m ρ c (Proc.devRef .tc (Pipeline.arrRef spec1 w)) = (Conv1.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (Conv1.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After pipeline 2: its arrays at what it leaves, every other buffer as before. -/
def W4 (c : Dev nD) : Valuation τ sig (Elt F) :=
  Pipeline.withArrays spec2 c (W3 m ρ c) fun w => (Conv2.dat (V3 m ρ) c).arrAt w cfg2.N
theorem W4_arr (c : Dev nD) (w : Fin cfg2.W) :
    W4 m ρ c (Proc.devRef .tc (Pipeline.arrRef spec2 w)) = (Conv2.dat (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (Conv2.dat (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## No stage writes an argument: each ends as launched -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 0).trans (((Branch.dat (V1 m ρ) c).arrAt_in 0 rfl _).trans (Branch.A_eq (V1 m ρ) c 0))
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 0).trans (((Conv2.dat (V3 m ρ) c).arrAt_in 0 rfl _).trans (Conv2.A_eq (V3 m ρ) c 0))
    _ = W2 m ρ c (Proc.devRef .tc main_arg1) := (W3_arr m ρ c 0).trans (((Conv1.dat (V2 m ρ) c).arrAt_in 0 rfl _).trans (Conv1.A_eq (V2 m ρ) c 0))
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := (W3_arr m ρ c 2).trans (((Conv1.dat (V2 m ρ) c).arrAt_in 2 rfl _).trans (Conv1.A_eq (V2 m ρ) c 2))
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl
theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := (W4_arr m ρ c 2).trans (((Conv2.dat (V3 m ρ) c).arrAt_in 2 rfl _).trans (Conv2.A_eq (V3 m ρ) c 2))
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

/-! ## The proof data of the three pipelines and what rides beside the buffers -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => Branch.dat (V1 m ρ) c
  | ⟨1, _⟩ => fun c => Conv1.dat (V2 m ρ) c
  | ⟨2, _⟩ => fun c => Conv2.dat (V3 m ρ) c
abbrev 𝒱₀ : Variants := Variants.none
abbrev L : GSem nD τ sig → Finset Unit := fun _ => ∅
abbrev lv : GSem nD τ sig → Unit → ℕ := fun _ _ => 0
/-- The generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The pipelines as segments of the program -/

set_option backward.isDefEq.respectTransparency.types false in
/-- Pipeline 0: entered with every buffer at stage 1's contents, left at stage 2's. Its arrays are split out of the
    buffers at entry and put back at exit; the kernel keeps nothing between steps. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Branch.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem in1 (c : Dev nD) : (iprop(Pipeline.scopedRest (Ix := Unit) (Name := ℕ) (U := UR sig nD τ) (Lvl := ℕ) (Val := Elt F) spec1 c ∗ ∃ r, prngReg c r) : sProp 𝕄)
    ⊢ (Conv1.dat (V2 m ρ) c).Φ 0 := by
  have h := Conv1.hin (V2 m ρ) c; unfold Pipeline.ΦA at h; exact h
theorem out1 (c : Dev nD) : (Conv1.dat (V2 m ρ) c).Φ (Fin.last cfg1.N)
    ⊢ (iprop(Pipeline.scopedRest (Ix := Unit) (Name := ℕ) (U := UR sig nD τ) (Lvl := ℕ) (Val := Elt F) spec1 c ∗ ∃ r, prngReg c r) : sProp 𝕄) := by
  have h := Conv1.hout (V2 m ρ) c; unfold Pipeline.ΦA at h; exact h

set_option backward.isDefEq.respectTransparency.types false in
/-- Pipeline 1: entered with every buffer at stage 2's contents, left at stage 3's. Its arrays are split out of the
    buffers at entry and put back at exit; the accumulator enters at anything and is forgotten at the end. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Conv1.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (Conv1.dat (V2 m ρ) c).Φ 0 from rfl]
    iintro ⟨Hp, -, Hr⟩
    iapply (in1 m ρ c)
    isplitl [Hr]; · iexact Hr
    iexact Hp
  hout c := by
    rw [Pipeline.ownSems0_none, show (pdats m ρ 1 c).Φ (Fin.last _) = (Conv1.dat (V2 m ρ) c).Φ (Fin.last cfg1.N) from rfl]
    refine (out1 m ρ c).trans ?_
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem in2 (c : Dev nD) : (iprop(Pipeline.scopedRest (Ix := Unit) (Name := ℕ) (U := UR sig nD τ) (Lvl := ℕ) (Val := Elt F) spec2 c ∗ ∃ r, prngReg c r) : sProp 𝕄)
    ⊢ (Conv2.dat (V3 m ρ) c).Φ 0 := by
  have h := Conv2.hin (V3 m ρ) c; unfold Pipeline.ΦA at h; exact h
theorem out2 (c : Dev nD) : (Conv2.dat (V3 m ρ) c).Φ (Fin.last cfg2.N)
    ⊢ (iprop(Pipeline.scopedRest (Ix := Unit) (Name := ℕ) (U := UR sig nD τ) (Lvl := ℕ) (Val := Elt F) spec2 c ∗ ∃ r, prngReg c r) : sProp 𝕄) := by
  have h := Conv2.hout (V3 m ρ) c; unfold Pipeline.ΦA at h; exact h

set_option backward.isDefEq.respectTransparency.types false in
/-- Pipeline 2: entered with every buffer at stage 3's contents, left at stage 4's. Its arrays are split out of the
    buffers at entry and put back at exit; the accumulator enters at anything and is forgotten at the end. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Conv2.body_obligation (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (Conv2.dat (V3 m ρ) c).Φ 0 from rfl]
    iintro ⟨Hp, -, Hr⟩
    iapply (in2 m ρ c)
    isplitl [Hr]; · iexact Hr
    iexact Hp
  hout c := by
    rw [Pipeline.ownSems0_none, show (pdats m ρ 2 c).Φ (Fin.last _) = (Conv2.dat (V3 m ρ) c).Φ (Fin.last cfg2.N) from rfl]
    refine (out2 m ρ c).trans ?_
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ) ]
theorem main_run (c : Dev nD) : main (F := F) c = Pipeline.Seg.run (segs m ρ) := (main_chain c).trans (by chain_rfl)

set_option backward.isDefEq.respectTransparency.types false in
/-- Every weakly fair run of the program from memory `m` with zero counters terminates, faults nowhere, and ends with
    every buffer outside the kernels' own at the last stage's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c)⟩) (run_all m ρ)

end Cert.KernelIdeal.Whole

end
-- ==== Proof.LibDotRows.lean ====
/-
  A plain matrix product read entry by entry, and cut into row blocks.

  For the dimension numbers "contract axis 1 of an [M, K] left operand with axis 0 of a [K, N] right operand"
  (`DotDims.plain M K N`), over the extended reals:
    * entry (p, q) of the host's product is the sum over k of x[p, k] · w[k, q]          (`dotGeneral_plain_apply`);
    * a kernel's product accumulated into the zero splat is the same sum                  (`matmul_plain_apply`);
    * hence the product of a block of B rows of x (rows r0 … r0 + B − 1) with the whole of w is the
      corresponding block of rows of the whole product                                    (`matmul_rows`).
  Only `0 + s = s` and a re-indexing of the sum are used, so nothing here needs finiteness.
-/
import Idealize.ShloMosaic.Lib.ValueIdx
import Idealize.ShloMosaic.PureOps.Ideal.Laws

noncomputable section

namespace Cert.Lib.DotRows

open Idealize.ShloMosaic Idealize.ShloMosaic.ValueIdx

variable {M K N : Nat} {φ₁ φ₂ : FTy}

/-- The left operand's index at output entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => rfl
  | ⟨1, _⟩ => exact ((DotDims.plain M K N).lhsIdx_val_of_single rfl _ _).trans hk

/-- The right operand's index at output entry (p, q) and contraction position k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single rfl _ _).trans hk
  | ⟨1, _⟩ => rfl

/-- Entry (p, q) of the host's product x · w is the sum over k of x[p, k] · w[k, q]. -/
theorem dotGeneral_plain_apply (x : FVec Ideal ⟨2, ![M, K]⟩ φ₁) (w : FVec Ideal ⟨2, ![K, N]⟩ φ₂) (p : Fin M) (q : Fin N) :
    Host.dotGeneral (F := Ideal) (DotDims.plain M K N) none x w (ix2 p q) = ∑ k : Fin K, x (ix2 p k) * w (ix2 k q) := by
  simp only [Host.dotGeneral]
  rw [Ideal.dotGeneral_apply, ← Equiv.sum_comp (contrEquiv1 (DotDims.plain M K N) K rfl rfl).symm]
  exact Finset.sum_congr rfl fun k _ => by rw [plain_lhsIdx, plain_rhsIdx]

/-- Entry (p, q) of a kernel's product x · w accumulated into the zero splat is the same sum. -/
theorem matmul_plain_apply (x : FVec Ideal ⟨2, ![M, K]⟩ φ₁) (w : FVec Ideal ⟨2, ![K, N]⟩ φ₂) (p : Fin M) (q : Fin N) :
    matmul (F := Ideal) (DotDims.plain M K N) none x w (constant ⟨2, ![M, N]⟩ .f32 0x00000000#32) (ix2 p q)
      = ∑ k : Fin K, x (ix2 p k) * w (ix2 k q) := by
  simp only [matmul]
  rw [Ideal.matmul_constant_zero_apply, ← Equiv.sum_comp (contrEquiv1 (DotDims.plain M K N) K rfl rfl).symm]
  exact Finset.sum_congr rfl fun k _ => by rw [plain_lhsIdx, plain_rhsIdx]

/-- ROW BLOCKS. If `xb` is the block of `B` rows of `x` that starts at row `r0` (`hx`), then entry (p, q) of the kernel's
    product `xb · w` into the zero splat is entry (r0 + p, q) of the host's product `x · w`. -/
theorem matmul_rows {B : Nat} (x : FVec Ideal ⟨2, ![M, K]⟩ φ₁) (w : FVec Ideal ⟨2, ![K, N]⟩ φ₂)
    (xb : FVec Ideal ⟨2, ![B, K]⟩ φ₁) (r0 : Nat) (p : Fin B) (q : Fin N) (hp : r0 + p.val < M)
    (hx : ∀ k : Fin K, xb (ix2 p k) = x (ix2 ⟨r0 + p.val, hp⟩ k)) :
    matmul (F := Ideal) (DotDims.plain B K N) none xb w (constant ⟨2, ![B, N]⟩ .f32 0x00000000#32) (ix2 p q)
      = Host.dotGeneral (F := Ideal) (DotDims.plain M K N) none x w (ix2 ⟨r0 + p.val, hp⟩ q) := by
  rw [matmul_plain_apply, dotGeneral_plain_apply]
  exact Finset.sum_congr rfl fun k _ => by rw [hx k]

end Cert.Lib.DotRows

end
-- ==== Proof.LibColBroadcast.lean ====
/-
  One column broadcast over many: a `[a, 1]` array broadcast to `[a, b]` reads, at `(p, c)`, the operand's row `p`.
-/
import Idealize.ShloMosaic.Lib.ValueIdx
import Idealize.ShloMosaic.Lib.Pipeline.Value

noncomputable section

namespace Cert.LibColBroadcast

open Idealize.ShloMosaic Idealize.ShloMosaic.ValueIdx

variable {α : Type}

/-- A `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast

end
-- ==== Proof.LibRowReduce.lean ====
/-
  A row's maximum and a row's sum, as a kernel and as the host compute them.

  For an array `v : [R, C]` reduced along its second axis, over the extended reals: the kernel's lane maximum from the
  word of `-∞` and the host's reduce with a maximum body from the same word are both the fold of `max` over the row's
  `C` entries; the kernel's lane sum and the host's sum from zero are both the plain sum of the row's entries. Also the
  two small facts that go with them: `max (-∞) y = y`, and a vector `[R]` recast as a column `[R, 1]` reads its row.
-/
import Mathlib
import Idealize.ShloMosaic.PureOps.Ideal
import Idealize.ShloMosaic.PureOps.Ideal.Laws
import Idealize.ShloMosaic.Lib.Pipeline.Value
import Idealize.ShloMosaic.Lib.ValueIdx

noncomputable section

open scoped BigOperators

namespace Cert.LibRowReduce

open Idealize.ShloMosaic Idealize.ShloMosaic.ValueIdx

variable {R C : Nat}

/-- The maximum of `C` extended reals, folded from the f32 word of `-∞`. -/
def rowMax (f : Fin C → EReal) : EReal :=
  (Finset.univ : Finset (Fin C)).fold max (Ideal.ofBits .f32 0xFF800000#32) f

/-- The f32 word `0xFF800000` is `-∞`, the identity of `max`. -/
theorem max_negInf (y : EReal) : max (Ideal.ofBits .f32 0xFF800000#32) y = y := by
  simp [Ideal.ofBits, Ideal.ieee]

/-- The reduced index `r` with lane `k` put back is `(r, k)`. -/
theorem lift_row (h : (⟨2, ![R, C]⟩ : Shape).Reduces [1] (⟨1, ![R]⟩ : Shape)) (r : Fin R)
    (k : Fin ((⟨2, ![R, C]⟩ : Shape).size 1)) : h.lift (ix1 r) k = ix2 r (⟨k.val, k.isLt⟩ : Fin C) := by
  funext c; apply Fin.ext
  fin_cases c <;> rfl

/-- The kernel's lane maximum of row `r`. -/
theorem multiReduction_max_row (src : FVec Ideal ⟨2, ![R, C]⟩ .f32)
    (h : (⟨2, ![R, C]⟩ : Shape).Reduces [1] (⟨1, ![R]⟩ : Shape)) (hφ : FKind.Formats .f32)
    (hacc : (0xFF800000#32 : BitVec 32) = FKind.maximumf.neutral .f32 hφ) (r : Fin R) :
    multiReduction .maximumf [1] (⟨1, ![R]⟩ : Shape) src 0xFF800000#32 h hφ hacc (ix1 r) = rowMax fun k => src (ix2 r k) := by
  rw [Ideal.multiReduction_maximumf_single src _ h hφ hacc (ix1 r)]
  have hf : (src ∘ h.lift (ix1 r)) = fun k : Fin C => src (ix2 r k) :=
    funext fun k => congrArg src (lift_row h r k)
  unfold rowMax
  exact congrArg (fun f => Finset.fold max (Ideal.ofBits .f32 0xFF800000#32) f (Finset.univ : Finset (Fin C))) hf

/-- The host's reduce with a maximum body along axis 1, from the word of `-∞`, at row `r`. -/
theorem hostReduce_max_row (x : FVec Ideal ⟨2, ![R, C]⟩ .f32) (init : (⟨0, ![]⟩ : Shape).Idx → Ideal .f32)
    (hinit : ∀ i, init i = Ideal.ofBits .f32 0xFF800000#32)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduce FloatOps.maximumf x init h' hu (ix1 r) = rowMax fun k => x (ix2 r k) := by
  rw [Host.reduce_eq_fold_single FloatOps.maximumf x _ h' h hu, hinit]
  have hf : (x ∘ h.lift (ix1 r)) = fun k : Fin C => x (ix2 r k) :=
    funext fun k => congrArg x (lift_row h r k)
  unfold rowMax
  exact congrArg (fun f => Finset.fold max (Ideal.ofBits .f32 0xFF800000#32) f (Finset.univ : Finset (Fin C))) hf

/-- The kernel's lane sum of row `r`. -/
theorem multiReduction_add_row (src : FVec Ideal ⟨2, ![R, C]⟩ .f32)
    (h : (⟨2, ![R, C]⟩ : Shape).Reduces [1] (⟨1, ![R]⟩ : Shape)) (hφ : FKind.Formats .f32)
    (hacc : (0x00000000#32 : BitVec 32) = FKind.add.neutral .f32 hφ) (r : Fin R) :
    multiReduction .add [1] (⟨1, ![R]⟩ : Shape) src 0x00000000#32 h hφ hacc (ix1 r) = ∑ k : Fin C, src (ix2 r k) := by
  rw [Ideal.multiReduction_add_single src _ h hφ hacc (ix1 r)]
  refine Finset.sum_congr rfl fun k _ => ?_
  exact congrArg src (lift_row h r k)

/-- The host's sum along axis 1 from zero, at row `r`. -/
theorem hostReduceAdd_row (x : FVec Ideal ⟨2, ![R, C]⟩ .f32) (init : (⟨0, ![]⟩ : Shape).Idx → Ideal .f32)
    (hinit : ∀ i, init i = 0)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduceAdd (F := Ideal) x init h' hu (ix1 r) = ∑ k : Fin C, x (ix2 r k) := by
  show Ideal.hostReduceAdd h' x (init (Shape.Idx.first hu)) (ix1 r) = _
  rw [Ideal.hostReduceAdd_single h' h, hinit, zero_add]
  refine Finset.sum_congr rfl fun k _ => ?_
  exact congrArg x (lift_row h r k)

/-- A vector `[R]` recast as a column `[R, 1]` reads its row. -/
theorem shapeCast_col_apply {α : Type} (v : (⟨1, ![R]⟩ : Shape).Idx → α) (h : (⟨1, ![R]⟩ : Shape).ShapeCasts ⟨2, ![R, 1]⟩)
    (r : Fin R) : shapeCast ⟨2, ![R, 1]⟩ v h (ix2 r (0 : Fin 1)) = v (ix1 r) := by
  refine shapeCast_apply v h _ _ ?_
  rw [Shape.rowMajor_val_two, Shape.rowMajor_val_one]
  show r.val = r.val * 1 + 0
  omega

end Cert.LibRowReduce

end
-- ==== Proof.LibRowOps.lean ====
/-
  A block of rows through the operations of a dense layer, read at an entry over the extended reals.

  For a block x of B rows and K lanes, a weight w of K rows and N lanes, and a bias b of N entries:
    * entry (r, k) of a kernel's product x · w accumulated into the zero splat, and of the host's product, is
      Σ_j x[r, j] · w[j, k]                                                         (matmul_entry, dot_entry);
    * the bias recast as a row and broadcast down the rows (the kernel's form), or broadcast to a row and then down the
      rows (the host's form), reads b[k] at (r, k)                                   (bias_rows, bias_rows_host);
    * a scalar constant broadcast to any shape reads the constant                    (scalar_bcast_host);
    * the logistic function, and the host's spelling of y · σ(y) and of σ(y) through negate, exponential, add and divide,
      read entry by entry                                                           (logistic_apply, host_silu_apply, host_sigmoid_apply);
    * the kernel's lane sum of a block, recast as a column, reads Σ_k v[r, k] at (r, 0)   (lane_sum_col);
    * a one-entry vector recast [1, 1] and broadcast to a column reads its entry      (unit_col).
  Each reading re-indexes; none needs finiteness.
-/
import Mathlib
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«138483_j40407052320948_2_alg».proof.Proof.LibDotRows
import proofs.«138483_j40407052320948_2_alg».proof.Proof.LibColBroadcast
import proofs.«138483_j40407052320948_2_alg».proof.Proof.LibRowReduce

noncomputable section

open scoped BigOperators

namespace Cert.LibRowOps

open Idealize.ShloMosaic Idealize.ShloMosaic.ValueIdx

variable {α : Type} {B K N C : Nat} {φ₁ φ₂ : FTy}

/-- The logistic function of an array reads, at an index, the logistic function of the entry. -/
theorem logistic_apply {s : Shape} {φ : FTy} (v : FVec Ideal s φ) (i : s.Idx) : logistic v i = Ideal.logistic (v i) := rfl

/-- The host's spelling of y · 1 / (1 + e^(-y)) on an array, with the two ones given as arrays that read 1, reads at an
    index y · σ(y) of the entry. -/
theorem host_silu_apply {s : Shape} (y one one' : FVec Ideal s .f32) (i : s.Idx) (h1 : one i = 1) (h1' : one' i = 1) :
    mulf y (Host.divf one' (addf one (Host.exp (Host.negf y)))) i = y i * Ideal.logistic (y i) := by
  show y i * Ideal.div (one' i) (one i + Ideal.exp (-(y i))) = y i * Ideal.div 1 (1 + Ideal.exp (-(y i)))
  rw [h1, h1']

/-- The host's spelling of 1 / (1 + e^(-y)) on an array reads at an index σ of the entry. -/
theorem host_sigmoid_apply {s : Shape} (y one one' : FVec Ideal s .f32) (i : s.Idx) (h1 : one i = 1) (h1' : one' i = 1) :
    Host.divf one' (addf one (Host.exp (Host.negf y))) i = Ideal.logistic (y i) := by
  show Ideal.div (one' i) (one i + Ideal.exp (-(y i))) = Ideal.div 1 (1 + Ideal.exp (-(y i)))
  rw [h1, h1']

/-- Entry (r, k) of a kernel's product into the zero splat, for any record of the plain dimension numbers. -/
theorem matmul_entry (d : DotDims ⟨2, ![B, K]⟩ ⟨2, ![K, N]⟩ ⟨2, ![B, N]⟩) (hd : d = DotDims.plain B K N)
    (x : FVec Ideal ⟨2, ![B, K]⟩ φ₁) (w : FVec Ideal ⟨2, ![K, N]⟩ φ₂) (r : Fin B) (k : Fin N) :
    matmul (F := Ideal) d none x w (constant ⟨2, ![B, N]⟩ .f32 0x00000000#32) (ix2 r k)
      = ∑ j : Fin K, x (ix2 r j) * w (ix2 j k) := by
  subst hd
  exact Cert.Lib.DotRows.matmul_plain_apply x w r k

/-- Entry (r, k) of the host's product, for any record of the plain dimension numbers. -/
theorem dot_entry (d : DotDims ⟨2, ![B, K]⟩ ⟨2, ![K, N]⟩ ⟨2, ![B, N]⟩) (hd : d = DotDims.plain B K N)
    (x : FVec Ideal ⟨2, ![B, K]⟩ φ₁) (w : FVec Ideal ⟨2, ![K, N]⟩ φ₂) (r : Fin B) (k : Fin N) :
    Host.dotGeneral (F := Ideal) d none x w (ix2 r k) = ∑ j : Fin K, x (ix2 r j) * w (ix2 j k) := by
  subst hd
  exact Cert.Lib.DotRows.dotGeneral_plain_apply x w r k

/-- A bias vector recast as a row and broadcast down B rows reads its entry k at (r, k). -/
theorem bias_rows (v : (⟨1, ![C]⟩ : Shape).Idx → α) (hc : (⟨1, ![C]⟩ : Shape).ShapeCasts ⟨2, ![1, C]⟩)
    (hb : (⟨2, ![1, C]⟩ : Shape).Broadcasts ⟨2, ![B, C]⟩) (r : Fin B) (k : Fin C) :
    broadcastTo ⟨2, ![B, C]⟩ (shapeCast ⟨2, ![1, C]⟩ v hc) hb (ix2 r k) = v (ix1 k) :=
  (broadcastTo_1b_ab_apply _ hb r k).trans (shapeCast_a_1a_apply v hc 0 k)

/-- A bias vector broadcast to a row and then down B rows (the host's two broadcasts) reads its entry k at (r, k). -/
theorem bias_rows_host (v : (⟨1, ![C]⟩ : Shape).Idx → α)
    (h0 : (⟨1, ![C]⟩ : Shape).BroadcastsInDim ⟨2, ![1, C]⟩ (![1] : Fin 1 → Fin 2))
    (h1 : (⟨2, ![1, C]⟩ : Shape).BroadcastsInDim ⟨2, ![B, C]⟩ (![0, 1] : Fin 2 → Fin 2)) (r : Fin B) (k : Fin C) :
    broadcastInDim ⟨2, ![B, C]⟩ ![0, 1] h1 (broadcastInDim ⟨2, ![1, C]⟩ ![1] h0 v) (ix2 r k) = v (ix1 k) := by
  have e1 : broadcastInDim ⟨2, ![B, C]⟩ ![0, 1] h1 (broadcastInDim ⟨2, ![1, C]⟩ ![1] h0 v) (ix2 r k)
      = broadcastInDim ⟨2, ![1, C]⟩ ![1] h0 v (ix2 (0 : Fin 1) k) :=
    broadcastInDim_apply _ h1 _ (ix2 r k) (ix2 (0 : Fin 1) k) fun a => by
      match a with
      | ⟨0, _⟩ => rfl
      | ⟨1, _⟩ =>
        show k.val = if C = 1 then 0 else k.val
        split
        · have := k.isLt; omega
        · rfl
  have e2 : broadcastInDim ⟨2, ![1, C]⟩ ![1] h0 v (ix2 (0 : Fin 1) k) = v (ix1 k) :=
    broadcastInDim_apply _ h0 v (ix2 (0 : Fin 1) k) (ix1 k) fun a => by
      match a with
      | ⟨0, _⟩ =>
        show k.val = if C = 1 then 0 else k.val
        split
        · have := k.isLt; omega
        · rfl
  exact e1.trans e2

/-- A scalar broadcast to any shape (the host's form) reads the scalar. -/
theorem scalar_bcast_host {s : Shape} (v : (⟨0, ![]⟩ : Shape).Idx → α)
    (h : (⟨0, ![]⟩ : Shape).BroadcastsInDim s (![] : Fin 0 → Fin s.rank)) (i : s.Idx) :
    broadcastInDim s ![] h v i = v ix0 :=
  broadcastInDim_apply _ h v i ix0 fun a => a.elim0

/-- The kernel's lane sum of a block, recast as a column, reads the row's sum at (r, 0). -/
theorem lane_sum_col (v : FVec Ideal ⟨2, ![B, C]⟩ .f32)
    (h : (⟨2, ![B, C]⟩ : Shape).Reduces [1] (⟨1, ![B]⟩ : Shape)) (hφ : FKind.Formats .f32)
    (hacc : (0x00000000#32 : BitVec 32) = FKind.add.neutral .f32 hφ)
    (hc : (⟨1, ![B]⟩ : Shape).ShapeCasts ⟨2, ![B, 1]⟩) (r : Fin B) :
    shapeCast ⟨2, ![B, 1]⟩ (multiReduction .add [1] (⟨1, ![B]⟩ : Shape) v 0x00000000#32 h hφ hacc) hc (ix2 r (0 : Fin 1))
      = ∑ k : Fin C, v (ix2 r k) :=
  (Cert.LibRowReduce.shapeCast_col_apply _ hc r).trans (Cert.LibRowReduce.multiReduction_add_row v h hφ hacc r)

/-- The same with the accumulator's neutrality stated on the words themselves (zero is zero), whatever proof of the
    format's admissibility the reduction carries. -/
theorem lane_sum_col_zero (v : FVec Ideal ⟨2, ![B, C]⟩ .f32)
    (h : (⟨2, ![B, C]⟩ : Shape).Reduces [1] (⟨1, ![B]⟩ : Shape)) (hφ : FKind.Formats .f32)
    (hacc : (0x00000000#32 : BitVec 32) = 0x00000000#32)
    (hc : (⟨1, ![B]⟩ : Shape).ShapeCasts ⟨2, ![B, 1]⟩) (r : Fin B) :
    shapeCast ⟨2, ![B, 1]⟩ (multiReduction .add [1] (⟨1, ![B]⟩ : Shape) v 0x00000000#32 h hφ hacc) hc (ix2 r (0 : Fin 1))
      = ∑ k : Fin C, v (ix2 r k) :=
  lane_sum_col v h hφ hacc hc r

/-- A one-entry vector recast [1, 1] and broadcast to a column of B rows reads its entry at (r, 0). -/
theorem unit_col (v : (⟨1, ![1]⟩ : Shape).Idx → α) (hc : (⟨1, ![1]⟩ : Shape).ShapeCasts ⟨2, ![1, 1]⟩)
    (hb : (⟨2, ![1, 1]⟩ : Shape).Broadcasts ⟨2, ![B, 1]⟩) (r : Fin B) :
    broadcastTo ⟨2, ![B, 1]⟩ (shapeCast ⟨2, ![1, 1]⟩ v hc) hb (ix2 r (0 : Fin 1)) = v (ix1 (0 : Fin 1)) :=
  (broadcastTo_1b_ab_apply _ hb r (0 : Fin 1)).trans (shapeCast_a_1a_apply v hc 0 0)

/-- A one-entry vector broadcast to [1, 1] and then to a column of B rows (the host's form) reads its entry. -/
theorem unit_col_host (v : (⟨1, ![1]⟩ : Shape).Idx → α)
    (h0 : (⟨1, ![1]⟩ : Shape).BroadcastsInDim ⟨2, ![1, 1]⟩ (![1] : Fin 1 → Fin 2))
    (h1 : (⟨2, ![1, 1]⟩ : Shape).BroadcastsInDim ⟨2, ![B, 1]⟩ (![0, 1] : Fin 2 → Fin 2)) (r : Fin B) :
    broadcastInDim ⟨2, ![B, 1]⟩ ![0, 1] h1 (broadcastInDim ⟨2, ![1, 1]⟩ ![1] h0 v) (ix2 r (0 : Fin 1)) = v (ix1 (0 : Fin 1)) :=
  bias_rows_host v h0 h1 r 0

/-- A column broadcast across C lanes (the host's form) reads the column's entry of the row. -/
theorem col_bcast_host (v : (⟨2, ![B, 1]⟩ : Shape).Idx → α)
    (h : (⟨2, ![B, 1]⟩ : Shape).BroadcastsInDim ⟨2, ![B, C]⟩ (![0, 1] : Fin 2 → Fin 2)) (r : Fin B) (k : Fin C) :
    broadcastInDim ⟨2, ![B, C]⟩ ![0, 1] h v (ix2 r k) = v (ix2 r (0 : Fin 1)) :=
  broadcastInDim_apply _ h v (ix2 r k) (ix2 r (0 : Fin 1)) fun a => by
    match a with
    | ⟨0, _⟩ =>
      show r.val = if B = 1 then 0 else r.val
      split
      · have := r.isLt; omega
      · rfl
    | ⟨1, _⟩ => rfl

end Cert.LibRowOps

end
-- ==== Proof.BranchValue.lean ====
/-
  The first layer's pipeline, read as values over the extended reals. At an entry (p, q) the body's arithmetic on its
  four input blocks is Σ_j max(Σ_k x[p, k] · w[k, j] + b[j], 0) · g[j, q]. Block t of x is rows 512 t … 512 t + 511 of
  the array, the other three inputs are whole arrays, and output block t is rows 512 t … of the result: so after the 32
  write-backs the result array holds that function of the argument arrays, row by row.
-/
import proofs.«138483_j40407052320948_2_alg».proof.Proof.Branch
import proofs.«138483_j40407052320948_2_alg».proof.Proof.LibRowOps
import Idealize.ShloMosaic.Lib.Pipeline.Value
import Idealize.ShloMosaic.Lib.ValueIdx
import Idealize.ShloMosaic.PureOps.Ideal.Laws

set_option maxRecDepth 16384

noncomputable section

namespace Cert.KernelIdeal.Branch

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

/-- The layer at an entry, from whole arrays: Σ_j max(Σ_k x[r, k] · w[k, j] + b[j], 0) · g[j, q]. -/
def layer {R : ℕ} (x : (⟨2, ![R, 5000]⟩ : Shape).Idx → EReal) (w : S5000x768.Idx → EReal) (b : S768.Idx → EReal) (g : S768x256.Idx → EReal)
    (r : Fin R) (q : Fin 256) : EReal :=
  ∑ j : Fin 768, max (∑ k : Fin 5000, x (ix2 r k) * w (ix2 k j) + b (ix1 j)) 0 * g (ix2 j q)

/-- The body's arithmetic at an entry of the output block. -/
theorem pay_apply (x0 : Vec Ideal S512x5000 .f32) (x1 : Vec Ideal S5000x768 .bf16) (x2 : Vec Ideal S768 .f32) (x3 : Vec Ideal S768x256 .bf16)
    (p : Fin 512) (q : Fin 256) :
    k0_pay1 (F := Ideal) x0 x1 x2 x3 (ix2 p q) = layer x0 x1 x2 x3 p q := by
  unfold k0_pay1 layer
  refine (Cert.LibRowOps.matmul_entry _ rfl _ _ p q).trans ?_
  refine Finset.sum_congr rfl fun j _ => ?_
  refine congrArg₂ (· * ·) ?_ (congrFun (shapeCast_self x3 _) _)
  show max (matmul (F := Ideal) _ none _ _ _ (ix2 p j) + broadcastTo S512x768 _ _ (ix2 p j)) (Ideal.ofBits .f32 0x00000000#32) = _
  refine congrArg₂ max (congrArg₂ (· + ·) ((Cert.LibRowOps.matmul_entry _ rfl _ _ p j).trans ?_) ?_) Ideal.ofBits_zero_f32
  · refine Finset.sum_congr rfl fun k _ => ?_
    exact congrArg (x0 (ix2 p k) * ·) (congrFun (shapeCast_self x1 _) _)
  · refine (Cert.LibRowOps.bias_rows _ _ _ p j).trans ?_
    exact congrFun (shapeCast_self x2 _) _

/-- The layer reads one row of x: two arrays that agree on the rows read, with the same weights, give the same entry. -/
theorem layer_congr {R R' : ℕ} {x : (⟨2, ![R, 5000]⟩ : Shape).Idx → EReal} {x' : (⟨2, ![R', 5000]⟩ : Shape).Idx → EReal}
    {w w' : S5000x768.Idx → EReal} {b b' : S768.Idx → EReal} {g g' : S768x256.Idx → EReal} {r : Fin R} {r' : Fin R'} (q : Fin 256)
    (hx : ∀ k : Fin 5000, x (ix2 r k) = x' (ix2 r' k)) (hw : w = w') (hb : b = b') (hg : g = g') :
    layer x w b g r q = layer x' w' b' g' r' q := by
  subst hw; subst hb; subst hg
  unfold layer
  refine Finset.sum_congr rfl fun j _ => ?_
  rw [Finset.sum_congr rfl fun k _ => congrArg (· * w (ix2 k j)) (hx k)]

section Array

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the block of x and the output block move with the point, the other
    three windows stay at the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What the result array holds after the run, as a function of the arrays the region finds. -/
def G (c : Dev nD) : S16384x256.Idx → EReal := fun i =>
  layer (R := 16384) (V c main_arg0) (V c main_v14) (V c main_v13) (V c main_v15) ⟨(i 0).val, (i 0).isLt⟩ ⟨(i 1).val, (i 1).isLt⟩

/-- The output block's entry from the input blocks. -/
theorem out_apply (x0 : Vec Ideal S512x5000 .f32) (x1 : Vec Ideal S5000x768 .bf16) (x2 : Vec Ideal S768 .f32) (x3 : Vec Ideal S768x256 .bf16)
    (p : Fin 512) (q : Fin 256) : out (F := Ideal) x0 x1 x2 x3 (ix2 p q) = layer x0 x1 x2 x3 p q := by
  unfold out
  rw [View.canon_unit_zero hz2]
  simp only [View.ld_unit_zero (S := S512x5000) hz2, View.ld_unit_zero (S := S5000x768) hz2, View.ld_unit_zero (S := S768) hz1,
    View.ld_unit_zero (S := S768x256) hz2]
  exact pay_apply x0 x1 x2 x3 p q

/-- `G` at an index with known coordinates. -/
theorem G_at (c : Dev nD) (i : S16384x256.Idx) (r : Fin 16384) (q : Fin 256) (h0 : (i 0).val = r.val) (h1 : (i 1).val = q.val) :
    G V c i = layer (R := 16384) (V c main_arg0) (V c main_v14) (V c main_v13) (V c main_v15) r q := by
  unfold G
  congr 1 <;> exact Fin.ext ‹_›

/-- Block t of x is rows 512 t … of the array; the other three input blocks are the whole arrays. -/
theorem blk0_apply (c : Dev nD) (t : Fin cfg0.N) (p : Fin 512) (k : Fin 5000) :
    (blk V c 0 t : S512x5000.Idx → EReal) (ix2 p k)
      = (V c main_arg0 : S16384x5000.Idx → EReal) (ix2 ⟨512 * t.val + p.val, by have := p.isLt; have := lt_of_lt_of_eq t.isLt N_0; omega⟩ k) := by
  obtain ⟨e00, e01, e10, e11, e20, e30, e31, e40, e41⟩ := idx_facts t
  show (V c main_arg0 : S16384x5000.Idx → EReal) (((cfg0.win 0).blk t).view.emb (ix2 p k)) = _
  refine congrArg (V c main_arg0 : S16384x5000.Idx → EReal) (funext fun a => Fin.ext ?_)
  match a with
  | ⟨0, _⟩ => show win0_0.index t (0 : Fin 2) * 512 + 1 * p.val = 512 * t.val + p.val; omega
  | ⟨1, _⟩ => show win0_0.index t (1 : Fin 2) * 5000 + 1 * k.val = k.val; omega
theorem blk1_eq (c : Dev nD) (t : Fin cfg0.N) : (blk V c 1 t : S5000x768.Idx → EReal) = V c main_v14 := by
  obtain ⟨e00, e01, e10, e11, e20, e30, e31, e40, e41⟩ := idx_facts t
  funext y
  show (V c main_v14 : S5000x768.Idx → EReal) (((cfg0.win 1).blk t).view.emb y) = _
  refine congrArg (V c main_v14 : S5000x768.Idx → EReal) (funext fun a => Fin.ext ?_)
  match a with
  | ⟨0, _⟩ => show win0_1.index t (0 : Fin 2) * 5000 + 1 * (y 0).val = (y 0).val; omega
  | ⟨1, _⟩ => show win0_1.index t (1 : Fin 2) * 768 + 1 * (y 1).val = (y 1).val; omega
theorem blk2_eq (c : Dev nD) (t : Fin cfg0.N) : (blk V c 2 t : S768.Idx → EReal) = V c main_v13 := by
  obtain ⟨e00, e01, e10, e11, e20, e30, e31, e40, e41⟩ := idx_facts t
  funext y
  show (V c main_v13 : S768.Idx → EReal) (((cfg0.win 2).blk t).view.emb y) = _
  refine congrArg (V c main_v13 : S768.Idx → EReal) (funext fun a => Fin.ext ?_)
  match a with
  | ⟨0, _⟩ => show win0_2.index t (0 : Fin 1) * 768 + 1 * (y 0).val = (y 0).val; omega
theorem blk3_eq (c : Dev nD) (t : Fin cfg0.N) : (blk V c 3 t : S768x256.Idx → EReal) = V c main_v15 := by
  obtain ⟨e00, e01, e10, e11, e20, e30, e31, e40, e41⟩ := idx_facts t
  funext y
  show (V c main_v15 : S768x256.Idx → EReal) (((cfg0.win 3).blk t).view.emb y) = _
  refine congrArg (V c main_v15 : S768x256.Idx → EReal) (funext fun a => Fin.ext ?_)
  match a with
  | ⟨0, _⟩ => show win0_3.index t (0 : Fin 2) * 768 + 1 * (y 0).val = (y 0).val; omega
  | ⟨1, _⟩ => show win0_3.index t (1 : Fin 2) * 256 + 1 * (y 1).val = (y 1).val; omega

/-- WHAT POINT t WRITES BACK is block t of `G`. -/
theorem flushed_eq (c : Dev nD) (t : Fin cfg0.N) :
    (dat V c).flushed 4 t = ((cfg0.win 4).blk t).view.read (Elt Ideal) (G V c) := by
  show (cfg0.win 4).cut (grid0.coords t) ((dat V c).after 4 t) = _
  rw [after_4]
  obtain ⟨e00, e01, e10, e11, e20, e30, e31, e40, e41⟩ := idx_facts t
  funext j
  obtain ⟨p, q, rfl⟩ : ∃ (p : Fin 512) (q : Fin 256), j = ix2 p q := ⟨j 0, j 1, eq_ix2 j⟩
  have hp : p.val < 512 := p.isLt
  have ht : t.val < 32 := lt_of_lt_of_eq t.isLt N_0
  show out (F := Ideal) (blk V c 0 t) (blk V c 1 t) (blk V c 2 t) (blk V c 3 t) (ix2 p q) = G V c (((cfg0.win 4).blk t).view.emb (ix2 p q))
  rw [G_at V c _ ⟨512 * t.val + p.val, by omega⟩ q
    (by show win0_4.index t (0 : Fin 2) * 512 + 1 * p.val = 512 * t.val + p.val; omega)
    (by show win0_4.index t (1 : Fin 2) * 256 + 1 * q.val = q.val; omega)]
  refine (out_apply _ _ _ _ p q).trans ?_
  exact layer_congr q (fun k => blk0_apply V c t p k) (blk1_eq V c t) (blk2_eq V c t) (blk3_eq V c t)

/-- An index of the result array is in point t's block iff each coordinate is in the block's range. -/
theorem mem_blk (t : Fin cfg0.N) (i : S16384x256.Idx) :
    i ∈ ((cfg0.win 4).blk t).view.set ↔ ∀ a : Fin 2, win0_4.index t a * S512x256.size a ≤ (i a).val ∧ (i a).val < win0_4.index t a * S512x256.size a + S512x256.size a := by
  show i ∈ ((View.whole main_v17).slice (win0_4.rect t)).set ↔ _
  rw [View.set_slice_whole, Rect.mem_set_unit]
  exact Iff.rfl

/-- THE RESULT ARRAY after the 32 write-backs: `G`. -/
theorem final (c : Dev nD) : (dat V c).arrAt 4 cfg0.N = G V c := by
  refine (dat V c).arrAt_eq_of_cover 4 (G V c) (fun t _ => flushed_eq V c t) fun i => ?_
  have hi0 : (i 0).val < 16384 := (i 0).isLt
  have hi1 : (i 1).val < 256 := (i 1).isLt
  have hN : cfg0.N = 32 := N_0
  let t : Fin cfg0.N := ⟨(i 0).val / 512, by rw [hN]; omega⟩
  obtain ⟨e00, e01, e10, e11, e20, e30, e31, e40, e41⟩ := idx_facts t
  have htv : t.val = (i 0).val / 512 := rfl
  refine ⟨t, flush0_4 t, (mem_blk t i).mpr fun a => ?_⟩
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 256 ≤ (i 1).val ∧ (i 1).val < win0_4.index t (1 : Fin 2) * 256 + 256; omega

end Array

end Cert.KernelIdeal.Branch

end
-- ==== Proof.LibGridTiles.lean ====
/-
  A sum over the tiles of a grid of square tiles is the sum over the whole table.
-/
import Mathlib.Algebra.BigOperators.Fin
import Mathlib.Data.Fintype.BigOperators
import Mathlib.Logic.Equiv.Fin.Basic

open scoped BigOperators

namespace Cert

/-- A sum over `Fin (A * n)` is the double sum over the `A` blocks of length `n` and the places inside a block:
    the index `i` is `n * a + r` with `a` its block and `r` its place. -/
theorem sum_fin_blocks {M : Type*} [AddCommMonoid M] (A n : ℕ) (g : ℕ → M) :
    ∑ i : Fin (A * n), g i.val = ∑ a : Fin A, ∑ r : Fin n, g (n * a.val + r.val) := by
  rw [← Equiv.sum_comp (finProdFinEquiv (m := A) (n := n)) (fun i => g i.val), Fintype.sum_prod_type]
  refine Finset.sum_congr rfl fun a _ => Finset.sum_congr rfl fun r _ => ?_
  show g (r.val + n * a.val) = g (n * a.val + r.val)
  rw [Nat.add_comm]

/-- A sum over the tiles of an `A × B` grid of `n × n` tiles, each tile summed over its rows and columns, is the sum
    over the whole `(A * n) × (B * n)` table: tile `t` sits at block row `t / B` and block column `t % B`, and its
    entry `(r, c)` is the table's entry `(n * (t / B) + r, n * (t % B) + c)`. -/
theorem sum_grid_tiles {M : Type*} [AddCommMonoid M] (A B n : ℕ) (f : ℕ → ℕ → M) :
    ∑ t : Fin (A * B), ∑ r : Fin n, ∑ c : Fin n, f (n * (t.val / B) + r.val) (n * (t.val % B) + c.val)
      = ∑ i : Fin (A * n), ∑ j : Fin (B * n), f i.val j.val := by
  rw [sum_fin_blocks A B (fun t => ∑ r : Fin n, ∑ c : Fin n, f (n * (t / B) + r.val) (n * (t % B) + c.val)),
    sum_fin_blocks A n (fun i => ∑ j : Fin (B * n), f i j.val)]
  refine Finset.sum_congr rfl fun a _ => ?_
  rw [Finset.sum_comm]
  refine Finset.sum_congr rfl fun r _ => ?_
  rw [sum_fin_blocks B n (fun j => f (n * a.val + r.val) j)]
  refine Finset.sum_congr rfl fun b _ => ?_
  have hb : 0 < B := Nat.pos_of_ne_zero (by rintro rfl; exact b.elim0)
  rw [Nat.mul_add_div hb, Nat.div_eq_of_lt b.isLt, Nat.add_zero, Nat.mul_add_mod, Nat.mod_eq_of_lt b.isLt]

end Cert
-- ==== Proof.LibRealSum.lean ====
/-
  Sums of real numbers inside the extended reals.

  The coercion of a finite sum of reals is the sum of the coercions. Consequently, when every factor is a real
  number, a weighted double sum may be taken in either order:
      Σ_e (Σ_k x e k · W k) · r e  =  Σ_k (Σ_e x e k · r e) · W k .
  (Over the extended reals in general this fails: multiplication does not distribute over a sum that mixes +∞ and −∞.)
-/
import Mathlib

noncomputable section

open scoped BigOperators

namespace Cert.LibRealSum

/-- An extended real that is (the coercion of) a real number. -/
def IsReal (x : EReal) : Prop := ∃ a : ℝ, x = (a : EReal)

theorem isReal_coe (a : ℝ) : IsReal (a : EReal) := ⟨a, rfl⟩
theorem isReal_zero : IsReal 0 := ⟨0, rfl⟩
theorem isReal_one : IsReal 1 := ⟨1, rfl⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert j s hj ih => rw [Finset.sum_insert hj, Finset.sum_insert hj, EReal.coe_add, ih]

theorem isReal_sum {ι : Type*} (s : Finset ι) (f : ι → EReal) (h : ∀ i ∈ s, IsReal (f i)) : IsReal (∑ i ∈ s, f i) := by
  classical
  induction s using Finset.induction_on with
  | empty => simpa using isReal_zero
  | insert j s hj ih =>
    rw [Finset.sum_insert hj]
    exact (h j (Finset.mem_insert_self j s)).add (ih fun i hi => h i (Finset.mem_insert_of_mem hi))

/-- THE LAW: with real factors, the weighted double sum in either order. -/
theorem sum_mul_sum_swap {ι κ : Type*} [Fintype κ] (s : Finset ι) (x : ι → κ → EReal) (r : ι → EReal) (W : κ → EReal)
    (hx : ∀ e k, IsReal (x e k)) (hr : ∀ e, IsReal (r e)) (hW : ∀ k, IsReal (W k)) :
    ∑ e ∈ s, (∑ k, x e k * W k) * r e = ∑ k, (∑ e ∈ s, x e k * r e) * W k := by
  classical
  choose x' hx' using hx
  choose r' hr' using hr
  choose W' hW' using hW
  simp only [hx', hr', hW', ← EReal.coe_mul, ← coe_finset_sum]
  refine congrArg _ ?_
  simp only [Finset.sum_mul]
  rw [Finset.sum_comm]
  exact Finset.sum_congr rfl fun k _ => Finset.sum_congr rfl fun e _ => by ring

end Cert.LibRealSum

end
-- ==== Proof.Conv1Value.lean ====
/-
  The first graph convolution's pipeline read as values over the extended reals. One step adds to the accumulator, at
  (p, q), Σ_k x[p, k] · s[k, q] over the step's 512 columns of the adjacency block (the second product, with the block
  less itself, adds nothing when the block's entries are real numbers). By induction on the step, after step k of a row
  block the accumulator holds the sum over the first 512 (k + 1) columns; after the last step, over all 16384.
  The output block is then Σ_j max(acc[p, j] + b[j], 0) · g[j, q], and the four row blocks fill the result array.
-/
import proofs.«138483_j40407052320948_2_alg».proof.Proof.Gen.KernelIdeal.Launch
import proofs.«138483_j40407052320948_2_alg».proof.Proof.Gen.KernelIdeal.Skeleton
import proofs.«138483_j40407052320948_2_alg».proof.Proof.Gen.KernelIdeal.Points
import proofs.«138483_j40407052320948_2_alg».proof.Proof.Conv1
import proofs.«138483_j40407052320948_2_alg».proof.Proof.LibRowOps
import proofs.«138483_j40407052320948_2_alg».proof.Proof.LibGridTiles
import proofs.«138483_j40407052320948_2_alg».proof.Proof.LibRealSum
import Idealize.ShloMosaic.Lib.Pipeline.Value
import Idealize.ShloMosaic.Lib.ValueIdx
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Conv1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.LibRealSum (IsReal)
open scoped BigOperators

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz1 : (![0] : Fin 1 → Nat) = fun _ => 0 := funext fun a => by fin_cases a; rfl

/-- A load of the whole buffer after a store of the whole buffer reads what was stored, whatever was stored before. -/
theorem readCov_cons_whole {Val : EltTy → Type} [∀ e, Nonempty (Val e)] {sg : RefSig} {κ : Kind} {sp : Space} {S : Shape} {e : EltTy}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- One step of the accumulation: the product with the block as the narrow format keeps it is added, then the product
    with what the narrow format drops. -/
def step (x0 : Vec F S4096x512 .f32) (x1 : Vec F S512x256 .bf16) (a : Vec F S4096x256 .f32) : Vec F S4096x256 .f32 :=
  k1_pay4 x0 x1 (k1_pay3 x0 x1 a)

theorem soutA_eq (c : Dev nD) (i : grid1.Coords) (m0 : Memref sig .tc .vmem S4096x512 .f32) (h0 : m0.IsWhole) (m1 : Memref sig .tc .vmem S512x256 .bf16) (h1 : m1.IsWhole) (m2 : Memref sig .tc .vmem S256 .f32) (h2 : m2.IsWhole) (m3 : Memref sig .tc .vmem S256x32 .bf16) (h3 : m3.IsWhole) (m4 : Memref sig .tc .vmem S4096x32 .bf16) (h4 : m4.IsWhole) (mS : Memref sig .tc .vmem S4096x256 .f32) (hS : mS.IsWhole) (hc0 : first i) (hc1 : ¬last i) (x0 : Vec F S4096x512 .f32) (x1 : Vec F S512x256 .bf16) :
    soutA c i m0 h0 m1 h1 m2 h2 m3 h3 m4 h4 mS hS hc0 hc1 x0 x1 = step x0 x1 (k1_pay1 (F := F)) := by
  unfold soutA
  rw [View.read_writes_eq_canon _ _ _ (scoverA c i m0 h0 m1 h1 m2 h2 m3 h3 m4 h4 mS hS hc0 hc1 x0 x1)]
  unfold runA
  dsimp only
  rw [View.canon_cons_unit_zero hz2]
  sl_unfold_words
  simp only [View.readAt_eq_ld, h0.read_unread, View.ld_unit_zero (S := S4096x512) hz2, h1.read_unread, View.ld_unit_zero (S := S512x256) hz2]
  rw [readCov_cons_whole _ hz2, View.readCov_unit_zero _ hz2]
  rfl

theorem soutB_eq (c : Dev nD) (i : grid1.Coords) (m0 : Memref sig .tc .vmem S4096x512 .f32) (h0 : m0.IsWhole) (m1 : Memref sig .tc .vmem S512x256 .bf16) (h1 : m1.IsWhole) (m2 : Memref sig .tc .vmem S256 .f32) (h2 : m2.IsWhole) (m3 : Memref sig .tc .vmem S256x32 .bf16) (h3 : m3.IsWhole) (m4 : Memref sig .tc .vmem S4096x32 .bf16) (h4 : m4.IsWhole) (mS : Memref sig .tc .vmem S4096x256 .f32) (hS : mS.IsWhole) (hc0 : ¬first i) (hc1 : ¬last i) (x0 : Vec F S4096x512 .f32) (x1 : Vec F S512x256 .bf16) (xs : Vec F S4096x256 .f32) :
    soutB c i m0 h0 m1 h1 m2 h2 m3 h3 m4 h4 mS hS hc0 hc1 x0 x1 xs = step x0 x1 xs := by
  unfold soutB
  rw [View.read_writes_eq_canon _ _ _ (scoverB c i m0 h0 m1 h1 m2 h2 m3 h3 m4 h4 mS hS hc0 hc1 x0 x1 xs)]
  unfold runB
  dsimp only
  rw [View.canon_cons_unit_zero hz2]
  sl_unfold_words
  simp only [View.readAt_eq_ld, h0.read_unread, View.ld_unit_zero (S := S4096x512) hz2, h1.read_unread, View.ld_unit_zero (S := S512x256) hz2, hS.read_unread, View.ld_unit_zero (S := S4096x256) hz2]
  rw [View.readCov_unit_zero _ hz2]
  rfl

theorem soutC_eq (c : Dev nD) (i : grid1.Coords) (m0 : Memref sig .tc .vmem S4096x512 .f32) (h0 : m0.IsWhole) (m1 : Memref sig .tc .vmem S512x256 .bf16) (h1 : m1.IsWhole) (m2 : Memref sig .tc .vmem S256 .f32) (h2 : m2.IsWhole) (m3 : Memref sig .tc .vmem S256x32 .bf16) (h3 : m3.IsWhole) (m4 : Memref sig .tc .vmem S4096x32 .bf16) (h4 : m4.IsWhole) (mS : Memref sig .tc .vmem S4096x256 .f32) (hS : mS.IsWhole) (hc0 : ¬first i) (hc1 : last i) (x0 : Vec F S4096x512 .f32) (x1 : Vec F S512x256 .bf16) (x2 : Vec F S256 .f32) (x3 : Vec F S256x32 .bf16) (xs : Vec F S4096x256 .f32) :
    soutC c i m0 h0 m1 h1 m2 h2 m3 h3 m4 h4 mS hS hc0 hc1 x0 x1 x2 x3 xs = step x0 x1 xs := by
  unfold soutC
  rw [View.read_writes_eq_canon _ _ _ (scoverC c i m0 h0 m1 h1 m2 h2 m3 h3 m4 h4 mS hS hc0 hc1 x0 x1 x2 x3 xs)]
  unfold runC
  dsimp only
  sl_unfold_words
  rw [View.canon_cons_unit_zero hz2]
  simp only [View.readAt_eq_ld, h0.read_unread, View.ld_unit_zero (S := S4096x512) hz2, h1.read_unread, View.ld_unit_zero (S := S512x256) hz2, hS.read_unread, View.ld_unit_zero (S := S4096x256) hz2]
  rw [View.readCov_unit_zero _ hz2]
  rfl

theorem outC_eq (c : Dev nD) (i : grid1.Coords) (m0 : Memref sig .tc .vmem S4096x512 .f32) (h0 : m0.IsWhole) (m1 : Memref sig .tc .vmem S512x256 .bf16) (h1 : m1.IsWhole) (m2 : Memref sig .tc .vmem S256 .f32) (h2 : m2.IsWhole) (m3 : Memref sig .tc .vmem S256x32 .bf16) (h3 : m3.IsWhole) (m4 : Memref sig .tc .vmem S4096x32 .bf16) (h4 : m4.IsWhole) (mS : Memref sig .tc .vmem S4096x256 .f32) (hS : mS.IsWhole) (hc0 : ¬first i) (hc1 : last i) (x0 : Vec F S4096x512 .f32) (x1 : Vec F S512x256 .bf16) (x2 : Vec F S256 .f32) (x3 : Vec F S256x32 .bf16) (xs : Vec F S4096x256 .f32) :
    outC c i m0 h0 m1 h1 m2 h2 m3 h3 m4 h4 mS hS hc0 hc1 x0 x1 x2 x3 xs = k1_pay5 (step x0 x1 xs) x2 x3 := by
  unfold outC
  rw [View.read_writes_eq_canon _ _ _ (coverC c i m0 h0 m1 h1 m2 h2 m3 h3 m4 h4 mS hS hc0 hc1 x0 x1 x2 x3 xs)]
  unfold runC
  dsimp only
  rw [View.canon_unit_zero hz2]
  sl_unfold_words
  simp only [View.readAt_eq_ld, h0.read_unread, View.ld_unit_zero (S := S4096x512) hz2, h1.read_unread, View.ld_unit_zero (S := S512x256) hz2, h2.read_unread, View.ld_unit_zero (S := S256) hz1, h3.read_unread, View.ld_unit_zero (S := S256x32) hz2, hS.read_unread, View.ld_unit_zero (S := S4096x256) hz2]
  rw [readCov_cons_whole _ hz2, View.readCov_unit_zero _ hz2]
  rfl

/-! ## The arithmetic at an entry, over the extended reals -/

/-- The zero fill reads zero. -/
theorem zero_apply (p : Fin 4096) (q : Fin 256) : k1_pay1 (F := Ideal) (ix2 p q) = 0 := by
  unfold k1_pay1
  exact (congrFun (shapeCast_self _ _) _).trans Ideal.ofBits_zero_f32

/-- The product with the block as kept: a[p, q] + Σ_k x[p, k] · s[k, q]. -/
theorem keep_apply (x0 : Vec Ideal S4096x512 .f32) (x1 : Vec Ideal S512x256 .bf16) (a : Vec Ideal S4096x256 .f32) (p : Fin 4096) (q : Fin 256) :
    k1_pay3 (F := Ideal) x0 x1 a (ix2 p q) = a (ix2 p q) + ∑ k : Fin 512, x0 (ix2 p k) * x1 (ix2 k q) := by
  unfold k1_pay3 k1_pay2
  refine (congrFun (shapeCast_self _ _) _).trans ?_
  show a (ix2 p q) + matmul (F := Ideal) dot_S4096x512_S512x256_S4096x256_1_0_0_1_n_n none _ _ _ (ix2 p q) = _
  refine congrArg (a (ix2 p q) + ·) ((Cert.LibRowOps.matmul_entry _ rfl _ _ p q).trans ?_)
  exact Finset.sum_congr rfl fun k _ => congrArg (x0 (ix2 p k) * ·) (congrFun (shapeCast_self x1 _) _)

/-- The product with what the narrow format drops: over the extended reals a real block less itself is zero, so
    nothing is added. -/
theorem rem_apply (x0 : Vec Ideal S4096x512 .f32) (x1 : Vec Ideal S512x256 .bf16) (b : Vec Ideal S4096x256 .f32)
    (hx : ∀ i, IsReal (x0 i)) (p : Fin 4096) (q : Fin 256) :
    k1_pay4 (F := Ideal) x0 x1 b (ix2 p q) = b (ix2 p q) := by
  unfold k1_pay4 k1_pay2
  refine (congrFun (shapeCast_self _ _) _).trans ?_
  show b (ix2 p q) + matmul (F := Ideal) dot_S4096x512_S512x256_S4096x256_1_0_0_1_n_n none _ _ _ (ix2 p q) = _
  refine (congrArg (b (ix2 p q) + ·) ((Cert.LibRowOps.matmul_entry _ rfl _ _ p q).trans (Finset.sum_eq_zero fun k _ => ?_))).trans (add_zero _)
  show (x0 (ix2 p k) - x0 (ix2 p k)) * _ = 0
  obtain ⟨r, hr⟩ := hx (ix2 p k)
  rw [hr, ← EReal.coe_sub, sub_self, EReal.coe_zero, zero_mul]

theorem step_apply (x0 : Vec Ideal S4096x512 .f32) (x1 : Vec Ideal S512x256 .bf16) (a : Vec Ideal S4096x256 .f32)
    (hx : ∀ i, IsReal (x0 i)) (p : Fin 4096) (q : Fin 256) :
    step (F := Ideal) x0 x1 a (ix2 p q) = a (ix2 p q) + ∑ k : Fin 512, x0 (ix2 p k) * x1 (ix2 k q) :=
  (rem_apply x0 x1 _ hx p q).trans (keep_apply x0 x1 a p q)

/-! ## The blocks, the accumulation and the result array -/

section Values

variable (V : (c : Dev nD) → (b : Ref sig .tc) → Buf (Elt Ideal) ((c : Thread nD τ).loc b))

/-- The adjacency matrix and the features as the region finds them. -/
abbrev Af (c : Dev nD) : S16384x16384.Idx → EReal := V c main_arg1
abbrev Sf (c : Dev nD) : S16384x256.Idx → EReal := V c main_v17

/-- The same as total functions of natural coordinates
    (zero outside the arrays: never read). -/
def An (c : Dev nD) (r k : ℕ) : EReal :=
  if h : r < 16384 ∧ k < 16384 then Af V c (ix2 ⟨r, h.1⟩ ⟨k, h.2⟩) else 0
def Sn (c : Dev nD) (k : ℕ) (q : Fin 256) : EReal :=
  if h : k < 16384 then Sf V c (ix2 ⟨k, h⟩ q) else 0

/-- The printed index maps over the grid: point t is row block t / 32, step t % 32. -/
theorem idx_facts : ∀ t : Fin cfg1.N, win1_0.index t (0 : Fin 2) = t.val / 32 ∧ win1_0.index t (1 : Fin 2) = t.val % 32
    ∧ win1_1.index t (0 : Fin 2) = t.val % 32 ∧ win1_1.index t (1 : Fin 2) = 0
    ∧ win1_2.index t (0 : Fin 1) = 0 ∧ win1_3.index t (0 : Fin 2) = 0 ∧ win1_3.index t (1 : Fin 2) = 0
    ∧ win1_4.index t (0 : Fin 2) = t.val / 32 ∧ win1_4.index t (1 : Fin 2) = 0 :=
  (by decide +kernel : ∀ t : Fin grid1.N, _)

theorem blk0_apply (c : Dev nD) (t : Fin cfg1.N) (p : Fin 4096) (k : Fin 512) :
    (blk V c 0 t : S4096x512.Idx → EReal) (ix2 p k) = An V c (4096 * (t.val / 32) + p.val) (512 * (t.val % 32) + k.val) := by
  obtain ⟨e00, e01, e10, e11, e20, e30, e31, eo0, eo1⟩ := idx_facts t
  have ht : t.val < 128 := lt_of_lt_of_eq t.isLt N_1
  have hp := p.isLt; have hk := k.isLt
  unfold An
  rw [dif_pos ⟨by omega, by omega⟩]
  show (V c main_arg1 : S16384x16384.Idx → EReal) (((cfg1.win 0).blk t).view.emb (ix2 p k)) = _
  refine congrArg (V c main_arg1 : S16384x16384.Idx → EReal) (funext fun a => Fin.ext ?_)
  match a with
  | ⟨0, _⟩ => show win1_0.index t (0 : Fin 2) * 4096 + 1 * p.val = 4096 * (t.val / 32) + p.val; omega
  | ⟨1, _⟩ => show win1_0.index t (1 : Fin 2) * 512 + 1 * k.val = 512 * (t.val % 32) + k.val; omega

theorem blk1_apply (c : Dev nD) (t : Fin cfg1.N) (k : Fin 512) (q : Fin 256) :
    (blk V c 1 t : S512x256.Idx → EReal) (ix2 k q) = Sn V c (512 * (t.val % 32) + k.val) q := by
  obtain ⟨e00, e01, e10, e11, e20, e30, e31, eo0, eo1⟩ := idx_facts t
  have ht : t.val < 128 := lt_of_lt_of_eq t.isLt N_1
  have hk := k.isLt; have hq := q.isLt
  unfold Sn
  rw [dif_pos (by omega)]
  show (V c main_v17 : S16384x256.Idx → EReal) (((cfg1.win 1).blk t).view.emb (ix2 k q)) = _
  refine congrArg (V c main_v17 : S16384x256.Idx → EReal) (funext fun a => Fin.ext ?_)
  match a with
  | ⟨0, _⟩ => show win1_1.index t (0 : Fin 2) * 512 + 1 * k.val = 512 * (t.val % 32) + k.val; omega
  | ⟨1, _⟩ => show win1_1.index t (1 : Fin 2) * 256 + 1 * q.val = q.val; omega

/-- One step, from the point's blocks. -/
theorem step_blocks (c : Dev nD) (hA : ∀ i, IsReal ((V c main_arg1 : S16384x16384.Idx → EReal) i)) (t : Fin cfg1.N)
    (a : Vec Ideal S4096x256 .f32) (p : Fin 4096) (q : Fin 256) :
    step (F := Ideal) (blk V c 0 t) (blk V c 1 t) a (ix2 p q)
      = a (ix2 p q) + ∑ k : Fin 512, An V c (4096 * (t.val / 32) + p.val) (512 * (t.val % 32) + k.val) * Sn V c (512 * (t.val % 32) + k.val) q := by
  refine (step_apply (blk V c 0 t) (blk V c 1 t) a (fun i => hA (((cfg1.win 0).blk t).view.emb i)) p q).trans ?_
  refine congrArg (a (ix2 p q) + ·) (Finset.sum_congr rfl fun k _ => ?_)
  exact congrArg₂ (· * ·) (blk0_apply V c t p k) (blk1_apply V c t k q)

/-- The sum over the first nb blocks of 512 columns, for row 4096 rb + p. -/
def part (c : Dev nD) (rb nb : ℕ) (p : Fin 4096) (q : Fin 256) : EReal :=
  ∑ kb ∈ Finset.range nb, ∑ k : Fin 512, An V c (4096 * rb + p.val) (512 * kb + k.val) * Sn V c (512 * kb + k.val) q

theorem acc_first (c : Dev nD) (hA : ∀ i, IsReal ((V c main_arg1 : S16384x16384.Idx → EReal) i)) (t : Fin cfg1.N)
    (h0 : t.val % 32 = 0) (p : Fin 4096) (q : Fin 256) :
    (accAt V c t.val t.isLt).2 (ix2 p q)
      = ∑ k : Fin 512, An V c (4096 * (t.val / 32) + p.val) (512 * (t.val % 32) + k.val) * Sn V c (512 * (t.val % 32) + k.val) q := by
  have h1 : ¬t.val % 32 = 31 := by omega
  rw [accAt_A V c t h0 h1, soutA_eq]
  refine (step_blocks V c hA t _ p q).trans ?_
  rw [zero_apply, zero_add]

theorem acc_next (c : Dev nD) (hA : ∀ i, IsReal ((V c main_arg1 : S16384x16384.Idx → EReal) i)) (t : Fin cfg1.N)
    (h0 : ¬t.val % 32 = 0) (p : Fin 4096) (q : Fin 256) :
    (accAt V c t.val t.isLt).2 (ix2 p q)
      = (accAt V c (t.val - 1) (Nat.lt_of_le_of_lt (Nat.sub_le _ _) t.isLt)).2 (ix2 p q)
        + ∑ k : Fin 512, An V c (4096 * (t.val / 32) + p.val) (512 * (t.val % 32) + k.val) * Sn V c (512 * (t.val % 32) + k.val) q := by
  by_cases h1 : t.val % 32 = 31
  · rw [accAt_C V c t h0 h1, soutC_eq]
    exact step_blocks V c hA t _ p q
  · rw [accAt_B V c t h0 h1, soutB_eq]
    exact step_blocks V c hA t _ p q

/-- AFTER STEP n the accumulator holds the sum over the first n % 32 + 1 blocks of columns. -/
theorem acc_inv (c : Dev nD) (hA : ∀ i, IsReal ((V c main_arg1 : S16384x16384.Idx → EReal) i)) :
    ∀ (n : ℕ) (hn : n < cfg1.N) (p : Fin 4096) (q : Fin 256),
      (accAt V c n hn).2 (ix2 p q) = part V c (n / 32) (n % 32 + 1) p q := by
  intro n
  induction n with
  | zero =>
    intro hn p q
    refine (acc_first V c hA ⟨0, hn⟩ rfl p q).trans ?_
    show _ = part V c 0 1 p q
    unfold part
    rw [Finset.sum_range_one]
    show ∑ k : Fin 512, An V c (4096 * (0 / 32) + p.val) (512 * (0 % 32) + k.val) * Sn V c (512 * (0 % 32) + k.val) q = _
    rw [Nat.zero_div, Nat.zero_mod]
  | succ n ih =>
    intro hn p q
    by_cases h0 : (n + 1) % 32 = 0
    · refine (acc_first V c hA ⟨n + 1, hn⟩ h0 p q).trans ?_
      have e1 : (n + 1) % 32 + 1 = 1 := by omega
      rw [e1]
      unfold part
      rw [Finset.sum_range_one]
      show ∑ k : Fin 512, An V c (4096 * ((n + 1) / 32) + p.val) (512 * ((n + 1) % 32) + k.val) * Sn V c (512 * ((n + 1) % 32) + k.val) q = _
      rw [h0]
    · refine (acc_next V c hA ⟨n + 1, hn⟩ h0 p q).trans ?_
      have ed : (n + 1) / 32 = n / 32 := by omega
      have em : (n + 1) % 32 = n % 32 + 1 := by omega
      show (accAt V c n _).2 (ix2 p q) + ∑ k : Fin 512, An V c (4096 * ((n + 1) / 32) + p.val) (512 * ((n + 1) % 32) + k.val) * Sn V c (512 * ((n + 1) % 32) + k.val) q = _
      rw [ih (Nat.lt_of_succ_lt hn) p q, ed, em]
      unfold part
      rw [Finset.sum_range_succ (n := n % 32 + 1)]

/-- All 32 blocks of columns are the whole row of the adjacency matrix. -/
theorem part_full (c : Dev nD) (rb : ℕ) (hrb : rb < 4) (p : Fin 4096) (q : Fin 256) :
    part V c rb 32 p q
      = ∑ k : Fin 16384, Af V c (ix2 ⟨4096 * rb + p.val, by have := p.isLt; omega⟩ k) * Sf V c (ix2 k q) := by
  have hp := p.isLt
  unfold part
  rw [Finset.sum_range (fun kb => ∑ k : Fin 512, An V c (4096 * rb + p.val) (512 * kb + k.val) * Sn V c (512 * kb + k.val) q)]
  refine (Cert.sum_fin_blocks 32 512 (fun k => An V c (4096 * rb + p.val) k * Sn V c k q)).symm.trans ?_
  show ∑ i : Fin 16384, An V c (4096 * rb + p.val) i.val * Sn V c i.val q = _
  refine Finset.sum_congr rfl fun k _ => ?_
  unfold An Sn
  rw [dif_pos ⟨by omega, k.isLt⟩, dif_pos k.isLt]

/-- At a last step the output block is the epilogue of the finished accumulator. -/
theorem out_of_acc (c : Dev nD) (t : Fin cfg1.N) (h0 : ¬t.val % 32 = 0) (h1 : t.val % 32 = 31) :
    (accAt V c t.val t.isLt).1 = k1_pay5 (F := Ideal) (accAt V c t.val t.isLt).2 (blk V c 2 t) (blk V c 3 t) := by
  rw [accAt_C V c t h0 h1, outC_eq, soutC_eq]

/-- The bias block and the weight block are the whole arrays. -/
theorem blk2_eq (c : Dev nD) (t : Fin cfg1.N) : (blk V c 2 t : S256.Idx → EReal) = V c main_arg9 := by
  obtain ⟨e00, e01, e10, e11, e20, e30, e31, eo0, eo1⟩ := idx_facts t
  funext y
  show (V c main_arg9 : S256.Idx → EReal) (((cfg1.win 2).blk t).view.emb y) = _
  refine congrArg (V c main_arg9 : S256.Idx → EReal) (funext fun a => Fin.ext ?_)
  match a with
  | ⟨0, _⟩ => show win1_2.index t (0 : Fin 1) * 256 + 1 * (y 0).val = (y 0).val; omega
theorem blk3_eq (c : Dev nD) (t : Fin cfg1.N) : (blk V c 3 t : S256x32.Idx → EReal) = V c main_v16 := by
  obtain ⟨e00, e01, e10, e11, e20, e30, e31, eo0, eo1⟩ := idx_facts t
  funext y
  show (V c main_v16 : S256x32.Idx → EReal) (((cfg1.win 3).blk t).view.emb y) = _
  refine congrArg (V c main_v16 : S256x32.Idx → EReal) (funext fun a => Fin.ext ?_)
  match a with
  | ⟨0, _⟩ => show win1_3.index t (0 : Fin 2) * 256 + 1 * (y 0).val = (y 0).val; omega
  | ⟨1, _⟩ => show win1_3.index t (1 : Fin 2) * 32 + 1 * (y 1).val = (y 1).val; omega

/-- The epilogue at an entry: Σ_j max(a[p, j] + b[j], 0) · g[j, q]. -/
theorem epi_apply (a : Vec Ideal S4096x256 .f32) (b : Vec Ideal S256 .f32) (g : Vec Ideal S256x32 .bf16) (p : Fin 4096) (q : Fin 32) :
    k1_pay5 (F := Ideal) a b g (ix2 p q) = ∑ j : Fin 256, max (a (ix2 p j) + b (ix1 j)) 0 * g (ix2 j q) := by
  unfold k1_pay5
  refine (Cert.LibRowOps.matmul_entry _ rfl _ _ p q).trans ?_
  refine Finset.sum_congr rfl fun j _ => ?_
  refine congrArg₂ (· * ·) ?_ (congrFun (shapeCast_self g _) _)
  show max (a (ix2 p j) + broadcastTo S4096x256 _ _ (ix2 p j)) (Ideal.ofBits .f32 0x00000000#32) = _
  exact congrArg₂ max (congrArg (a (ix2 p j) + ·) (Cert.LibRowOps.bias_rows _ _ _ p j)) Ideal.ofBits_zero_f32

/-- What the result array holds after the run. -/
def G (c : Dev nD) : S16384x32.Idx → EReal := fun i =>
  ∑ j : Fin 256, max (∑ k : Fin 16384, Af V c (ix2 ⟨(i 0).val, (i 0).isLt⟩ k) * Sf V c (ix2 k j) + (V c main_arg9 : S256.Idx → EReal) (ix1 j)) 0
    * (V c main_v16 : S256x32.Idx → EReal) (ix2 j ⟨(i 1).val, (i 1).isLt⟩)

theorem G_at (c : Dev nD) (i : S16384x32.Idx) (r : Fin 16384) (q : Fin 32) (h0 : (i 0).val = r.val) (h1 : (i 1).val = q.val) :
    G V c i = ∑ j : Fin 256, max (∑ k : Fin 16384, Af V c (ix2 r k) * Sf V c (ix2 k j) + (V c main_arg9 : S256.Idx → EReal) (ix1 j)) 0
      * (V c main_v16 : S256x32.Idx → EReal) (ix2 j q) := by
  obtain rfl : (⟨(i 0).val, (i 0).isLt⟩ : Fin 16384) = r := Fin.ext h0
  obtain rfl : (⟨(i 1).val, (i 1).isLt⟩ : Fin 32) = q := Fin.ext h1
  rfl

/-- WHAT A LAST STEP WRITES BACK is its row block of `G`. -/
theorem flushed_eq (c : Dev nD) (hA : ∀ i, IsReal ((V c main_arg1 : S16384x16384.Idx → EReal) i)) (t : Fin cfg1.N)
    (hf : (cfg1.win 4).flush t = true) :
    (dat V c).flushed 4 t = ((cfg1.win 4).blk t).view.read (Elt Ideal) (G V c) := by
  have h1 : t.val % 32 = 31 := (flush1_4 t).mp hf
  have h0 : ¬t.val % 32 = 0 := by omega
  have ht : t.val < 128 := lt_of_lt_of_eq t.isLt N_1
  show (cfg1.win 4).cut (grid1.coords t) ((dat V c).after 4 t) = _
  rw [after_4, out_of_acc V c t h0 h1]
  obtain ⟨e00, e01, e10, e11, e20, e30, e31, eo0, eo1⟩ := idx_facts t
  funext j
  obtain ⟨p, q, rfl⟩ : ∃ (p : Fin 4096) (q : Fin 32), j = ix2 p q := ⟨j 0, j 1, eq_ix2 j⟩
  have hp : p.val < 4096 := p.isLt
  show k1_pay5 (F := Ideal) (accAt V c t.val t.isLt).2 (blk V c 2 t) (blk V c 3 t) (ix2 p q) = G V c (((cfg1.win 4).blk t).view.emb (ix2 p q))
  rw [G_at V c _ ⟨4096 * (t.val / 32) + p.val, by omega⟩ q
    (by show win1_4.index t (0 : Fin 2) * 4096 + 1 * p.val = 4096 * (t.val / 32) + p.val; omega)
    (by show win1_4.index t (1 : Fin 2) * 32 + 1 * q.val = q.val; omega)]
  refine (epi_apply _ _ _ p q).trans ?_
  have hacc : ∀ j : Fin 256, (accAt V c t.val t.isLt).2 (ix2 p j)
      = ∑ k : Fin 16384, Af V c (ix2 ⟨4096 * (t.val / 32) + p.val, by omega⟩ k) * Sf V c (ix2 k j) := fun j => by
    rw [acc_inv V c hA t.val t.isLt p j, h1]
    exact part_full V c (t.val / 32) (by omega) p j
  rw [blk2_eq V c t, blk3_eq V c t]
  simp only [hacc]

/-- An index of the result array is in point t's block iff each coordinate is in the block's range. -/
theorem mem_blk (t : Fin cfg1.N) (i : S16384x32.Idx) :
    i ∈ ((cfg1.win 4).blk t).view.set ↔ ∀ a : Fin 2, win1_4.index t a * S4096x32.size a ≤ (i a).val ∧ (i a).val < win1_4.index t a * S4096x32.size a + S4096x32.size a := by
  show i ∈ ((View.whole main_v18).slice (win1_4.rect t)).set ↔ _
  rw [View.set_slice_whole, Rect.mem_set_unit]
  exact Iff.rfl

/-- THE RESULT ARRAY after the run: `G`. -/
theorem final (c : Dev nD) (hA : ∀ i, IsReal ((V c main_arg1 : S16384x16384.Idx → EReal) i)) :
    (dat V c).arrAt 4 cfg1.N = G V c := by
  refine (dat V c).arrAt_eq_of_cover 4 (G V c) (fun t hf => flushed_eq V c hA t hf) fun i => ?_
  have hi0 : (i 0).val < 16384 := (i 0).isLt
  have hi1 : (i 1).val < 32 := (i 1).isLt
  have hN : cfg1.N = 128 := N_1
  let t : Fin cfg1.N := ⟨32 * ((i 0).val / 4096) + 31, by rw [hN]; omega⟩
  obtain ⟨e00, e01, e10, e11, e20, e30, e31, eo0, eo1⟩ := idx_facts t
  have htv : t.val = 32 * ((i 0).val / 4096) + 31 := rfl
  refine ⟨t, (flush1_4 t).mpr (by omega), (mem_blk t i).mpr fun a => ?_⟩
  match a with
  | ⟨0, _⟩ => show win1_4.index t (0 : Fin 2) * 4096 ≤ (i 0).val ∧ (i 0).val < win1_4.index t (0 : Fin 2) * 4096 + 4096; omega
  | ⟨1, _⟩ => show win1_4.index t (1 : Fin 2) * 32 ≤ (i 1).val ∧ (i 1).val < win1_4.index t (1 : Fin 2) * 32 + 32; omega

end Values

end Cert.KernelIdeal.Conv1

end
-- ==== Proof.LibSoftmaxRow.lean ====
/-
  A softmax-weighted average of one row, in two arrangements.

  For scores `S k` and values `V k` over `n ≥ 1` keys, let `M` be the maximum of the scores (folded from -∞),
  `e k = exp (S k - M)` and `l = Σ_k e k`. One arrangement divides first and sums afterwards,
      Σ_k (e k / l) · V k ,
  the other sums first and divides once,
      (Σ_k e k · V k) / l .
  When every score and every value is a real number the maximum is a real number, every `e k` is a positive real and
  `l > 0`, so the quotient by `l` is the product with the real `1 / l`, which distributes over the finite sum: the two
  arrangements agree. (Over the extended reals in general they do not: the product does not distribute over a sum that
  mixes +∞ and -∞.)
-/
import Mathlib
import Idealize.ShloMosaic.PureOps.Ideal
import proofs.«138483_j40407052320948_2_alg».proof.Proof.LibRealSum

noncomputable section

open scoped BigOperators

namespace Cert.LibSoftmaxRow

open Idealize.ShloMosaic Cert.LibRealSum

variable {n : ℕ}

/-- The f32 word `0xFF800000` denotes -∞. -/
theorem ofBits_negInf : Ideal.ofBits .f32 0xFF800000#32 = ⊥ := by simp [Ideal.ofBits, Ideal.ieee]

/-- -∞ is the identity of `max`. -/
theorem max_negInf (y : EReal) : max (Ideal.ofBits .f32 0xFF800000#32) y = y := by
  rw [ofBits_negInf]; exact max_eq_right bot_le

/-- The maximum of `n` extended reals, folded from the f32 word of -∞. -/
def rowMax (S : Fin n → EReal) : EReal :=
  (Finset.univ : Finset (Fin n)).fold max (Ideal.ofBits .f32 0xFF800000#32) S

/-- The maximum of a nonempty family of reals is a real. -/
theorem isReal_rowMax (hn : 0 < n) (S : Fin n → EReal) (hS : ∀ k, IsReal (S k)) : IsReal (rowMax S) := by
  have htop : rowMax S ≠ ⊤ := by
    unfold rowMax
    rw [← lt_top_iff_ne_top, Finset.fold_max_lt]
    refine ⟨by rw [ofBits_negInf]; exact bot_lt_top, fun k _ => ?_⟩
    obtain ⟨a, ha⟩ := hS k
    rw [ha]; exact EReal.coe_lt_top a
  have hbot : rowMax S ≠ ⊥ := by
    unfold rowMax
    rw [← bot_lt_iff_ne_bot, Finset.lt_fold_max]
    refine Or.inr ⟨⟨0, hn⟩, Finset.mem_univ _, ?_⟩
    obtain ⟨a, ha⟩ := hS ⟨0, hn⟩
    rw [ha]; exact EReal.bot_lt_coe a
  exact ⟨(rowMax S).toReal, (EReal.coe_toReal htop hbot).symm⟩

/-- Divide each weight by the normaliser, then average: `Σ_k (e k / l) · V k`. -/
def softmaxAvg (S V : Fin n → EReal) : EReal :=
  ∑ k, Ideal.div (Ideal.exp (S k - rowMax S)) (∑ i, Ideal.exp (S i - rowMax S)) * V k

/-- Average with the unnormalised weights, then divide once: `(Σ_k e k · V k) / l`. -/
def softmaxQuot (S V : Fin n → EReal) : EReal :=
  Ideal.div (∑ k, Ideal.exp (S k - rowMax S) * V k) (∑ k, Ideal.exp (S k - rowMax S))

/-- With real scores and real values over at least one key the two arrangements agree. -/
theorem softmaxQuot_eq_softmaxAvg (hn : 0 < n) (S V : Fin n → EReal) (hS : ∀ k, IsReal (S k)) (hV : ∀ k, IsReal (V k)) :
    softmaxQuot S V = softmaxAvg S V := by
  obtain ⟨M, hM⟩ := isReal_rowMax hn S hS
  choose s hs using hS
  choose v hv using hV
  unfold softmaxQuot softmaxAvg
  rw [hM]
  have hexp : ∀ k, Ideal.exp (S k - (M : EReal)) = ((Real.exp (s k - M) : ℝ) : EReal) := fun k => by
    rw [hs k, ← EReal.coe_sub, Ideal.exp_coe]
  have hpos : (∑ i, Real.exp (s i - M)) ≠ 0 :=
    (Finset.sum_pos (fun _ _ => Real.exp_pos _) ⟨⟨0, hn⟩, Finset.mem_univ _⟩).ne'
  simp only [hexp, hv, ← EReal.coe_mul, ← coe_finset_sum, Ideal.div_coe hpos]
  refine congrArg _ ?_
  rw [Finset.sum_mul]
  exact Finset.sum_congr rfl fun k _ => by ring

end Cert.LibSoftmaxRow

end
-- ==== Proof.LibRowKL.lean ====
/-
  The Kullback–Leibler sum of one row, with the log-softmax written in two arrangements.

  For a row `f` of `n ≥ 1` scores let `M` be its maximum (folded from -∞), and `L = log (Σ_i exp (f i - M))`.
  The log-softmax of the row at `k` is `f k - (M + L)` in one arrangement (the normaliser `M + L` is formed first and
  subtracted once) and `(f k - M) - L` in the other (the maximum is subtracted first, the logarithm afterwards). For two
  rows `f`, `g` the row's sum is `Σ_k exp (ls g k) · (ls g k - ls f k)`, with `ls` either arrangement.

  When every score is a real number, `M` is real (a maximum of finitely many reals over a nonempty range), every
  `exp (f i - M)` is a positive real, their sum is a positive real, so `L` is real; and for reals `a - (M + L) = (a - M) - L`.
  So the two arrangements agree entry by entry, and so do the two sums. (Over the extended reals in general they do not:
  with `f k = M = +∞` the differences are of the indeterminate form.)
-/
import Mathlib
import Idealize.ShloMosaic.PureOps.Ideal
import proofs.«138483_j40407052320948_2_alg».proof.Proof.LibRealSum
import proofs.«138483_j40407052320948_2_alg».proof.Proof.LibSoftmaxRow

noncomputable section

open scoped BigOperators

namespace Cert.LibRowKL

open Idealize.ShloMosaic Cert.LibRealSum Cert.LibSoftmaxRow

variable {n : ℕ}

/-- `L`: the logarithm of the sum of the exponentials of the scores less their maximum. -/
def logNorm (f : Fin n → EReal) : EReal := Ideal.log (∑ i, Ideal.exp (f i - rowMax f))

/-- The log-softmax with the normaliser `M + L` formed first: `f k - (M + L)`. -/
def logSoftOnce (f : Fin n → EReal) (k : Fin n) : EReal := f k - (rowMax f + logNorm f)

/-- The log-softmax with the maximum subtracted first: `(f k - M) - L`. -/
def logSoftTwice (f : Fin n → EReal) (k : Fin n) : EReal := (f k - rowMax f) - logNorm f

/-- The row's sum `Σ_k exp (ls g k) · (ls g k - ls f k)` in the first arrangement. -/
def rowKLOnce (f g : Fin n → EReal) : EReal :=
  ∑ k, Ideal.exp (logSoftOnce g k) * (logSoftOnce g k - logSoftOnce f k)

/-- The same sum in the second arrangement. -/
def rowKLTwice (f g : Fin n → EReal) : EReal :=
  ∑ k, Ideal.exp (logSoftTwice g k) * (logSoftTwice g k - logSoftTwice f k)

/-- With real scores over a nonempty range, `L` is a real number: the sum of the exponentials is a positive real. -/
theorem isReal_logNorm (hn : 0 < n) (f : Fin n → EReal) (hf : ∀ k, IsReal (f k)) : IsReal (logNorm f) := by
  obtain ⟨M, hM⟩ := isReal_rowMax hn f hf
  choose a ha using hf
  unfold logNorm
  rw [hM]
  have hexp : ∀ i, Ideal.exp (f i - (M : EReal)) = ((Real.exp (a i - M) : ℝ) : EReal) := fun i => by
    rw [ha i, ← EReal.coe_sub, Ideal.exp_coe]
  have hpos : 0 < ∑ i, Real.exp (a i - M) :=
    Finset.sum_pos (fun _ _ => Real.exp_pos _) ⟨⟨0, hn⟩, Finset.mem_univ _⟩
  simp only [hexp, ← coe_finset_sum]
  rw [Ideal.log_coe, if_neg (not_le.mpr hpos)]
  exact ⟨_, rfl⟩

/-- With real scores the two arrangements of the log-softmax agree at every entry. -/
theorem logSoftOnce_eq_logSoftTwice (hn : 0 < n) (f : Fin n → EReal) (hf : ∀ k, IsReal (f k)) (k : Fin n) :
    logSoftOnce f k = logSoftTwice f k := by
  obtain ⟨M, hM⟩ := isReal_rowMax hn f hf
  obtain ⟨L, hL⟩ := isReal_logNorm hn f hf
  obtain ⟨a, ha⟩ := hf k
  unfold logSoftOnce logSoftTwice
  rw [hM, hL, ha, ← EReal.coe_add, ← EReal.coe_sub, ← EReal.coe_sub, ← EReal.coe_sub]
  exact congrArg _ (by ring)

/-- With real scores in both rows the two arrangements of the row's sum agree. -/
theorem rowKLOnce_eq_rowKLTwice (hn : 0 < n) (f g : Fin n → EReal) (hf : ∀ k, IsReal (f k)) (hg : ∀ k, IsReal (g k)) :
    rowKLOnce f g = rowKLTwice f g := by
  unfold rowKLOnce rowKLTwice
  refine Finset.sum_congr rfl fun k _ => ?_
  rw [logSoftOnce_eq_logSoftTwice hn g hg k, logSoftOnce_eq_logSoftTwice hn f hf k]

end Cert.LibRowKL

end
-- ==== Proof.LibLogSoftmaxRows.lean ====
/-
  The row-wise log-softmax of an array [R, C] and the row sums built on it, read at an entry.

  A kernel and the host compute the log-softmax of every row of an array of extended reals with different operations and in
  different arrangements. The kernel reduces each row to its maximum `M` (from the word of -∞) and recasts the maxima as a
  column; it forms `exp (x - M)`, sums it along the row, takes the logarithm `L`, ADDS `M + L` in the column, spreads that
  column over the row and subtracts once: the entry `(p, k)` is `x p k - (M p + L p)`. The host reduces each row to its
  maximum, takes the maximum with -∞ once more (which changes nothing), spreads it over the row, subtracts it, and then
  subtracts the spread logarithm of the row's sum of exponentials: the entry is `(x p k - M p) - L p`.
  On top of either, a row's sum `Σ_k exp (ls x1 p k) · (ls x1 p k - ls x0 p k)`.

  Each of these arrays is read here at an entry as the one-row function of the row's entries (the specification of the two
  arrangements and the law that joins them on real numbers are in the module on the row's sum). No finiteness is needed
  for reading: the arrays ARE these functions of their rows over all extended reals.
-/
import Mathlib
import Idealize.ShloMosaic.PureOps.Ideal
import Idealize.ShloMosaic.PureOps.Ideal.Laws
import Idealize.ShloMosaic.Lib.Pipeline.Value
import Idealize.ShloMosaic.Lib.ValueIdx
import proofs.«138483_j40407052320948_2_alg».proof.Proof.LibRowReduce
import proofs.«138483_j40407052320948_2_alg».proof.Proof.LibColBroadcast
import proofs.«138483_j40407052320948_2_alg».proof.Proof.LibRowKL

noncomputable section

open scoped BigOperators

namespace Cert.LibLogSoftmaxRows

open Idealize.ShloMosaic Idealize.ShloMosaic.ValueIdx
open Cert.LibRowKL

variable {R C : ℕ}

/-- The two spellings of "the maximum of a row folded from -∞" are one definition. -/
theorem rowMax_eq (f : Fin C → EReal) : Cert.LibRowReduce.rowMax f = Cert.LibSoftmaxRow.rowMax f := rfl

/-- A reduction along axis 1 into a vector (at least one axis is left) from the same reduction stated for the host. -/
theorem reduces_of_reducesTo (h' : (⟨2, ![R, C]⟩ : Shape).ReducesTo [1] (⟨1, ![R]⟩ : Shape)) :
    (⟨2, ![R, C]⟩ : Shape).Reduces [1] (⟨1, ![R]⟩ : Shape) :=
  let ⟨e, f⟩ := h'; ⟨e, Nat.one_pos, f⟩

/-! ## Three host broadcasts read at an entry -/

section Broadcasts
variable {α : Type}

/-- A scalar spread over a vector [R] reads the scalar. -/
theorem bcast_scalar_vec_apply (b0 : (⟨0, ![]⟩ : Shape).BroadcastsInDim (⟨1, ![R]⟩ : Shape) ![])
    (v : (⟨0, ![]⟩ : Shape).Idx → α) (p : Fin R) : broadcastInDim (⟨1, ![R]⟩ : Shape) ![] b0 v (ix1 p) = v ix0 :=
  broadcastInDim_apply _ b0 v (ix1 p) ix0 (fun a => a.elim0)

/-- A vector [R] recast as the column [R, 1] along axis 0 reads its entry `p`. -/
theorem bcast_vec_col_apply (b1 : (⟨1, ![R]⟩ : Shape).BroadcastsInDim (⟨2, ![R, 1]⟩ : Shape) ![0])
    (v : (⟨1, ![R]⟩ : Shape).Idx → α) (p : Fin R) :
    broadcastInDim (⟨2, ![R, 1]⟩ : Shape) ![0] b1 v (ix2 p (0 : Fin 1)) = v (ix1 p) := by
  refine broadcastInDim_apply _ b1 v (ix2 p (0 : Fin 1)) (ix1 p) fun a => ?_
  match a with
  | ⟨0, _⟩ =>
    show p.val = if R = 1 then 0 else p.val
    split
    · have := p.isLt; omega
    · rfl

/-- A column [R, 1] spread over [R, C] reads, at `(p, k)`, the column's entry `p`. -/
theorem bcast_col_rows_apply (b2 : (⟨2, ![R, 1]⟩ : Shape).BroadcastsInDim (⟨2, ![R, C]⟩ : Shape) ![0, 1])
    (v : (⟨2, ![R, 1]⟩ : Shape).Idx → α) (p : Fin R) (k : Fin C) :
    broadcastInDim (⟨2, ![R, C]⟩ : Shape) ![0, 1] b2 v (ix2 p k) = v (ix2 p (0 : Fin 1)) := by
  refine broadcastInDim_apply _ b2 v (ix2 p k) (ix2 p (0 : Fin 1)) fun a => ?_
  match a with
  | ⟨0, _⟩ =>
    show p.val = if R = 1 then 0 else p.val
    split
    · have := p.isLt; omega
    · rfl
  | ⟨1, _⟩ => rfl

end Broadcasts

/-! ## The kernel's arrangement -/

section Kernel

variable (x x0 x1 : FVec Ideal ⟨2, ![R, C]⟩ .f32)
  (hr : (⟨2, ![R, C]⟩ : Shape).Reduces [1] (⟨1, ![R]⟩ : Shape)) (hφ : FKind.Formats .f32)
  (hmax : (0xFF800000#32 : BitVec 32) = FKind.maximumf.neutral .f32 hφ)
  (hadd : (0x00000000#32 : BitVec 32) = FKind.add.neutral .f32 hφ)
  (hc : (⟨1, ![R]⟩ : Shape).ShapeCasts ⟨2, ![R, 1]⟩)
  (hb : (⟨2, ![R, 1]⟩ : Shape).Broadcasts ⟨2, ![R, C]⟩)

/-- The rows' maxima as a column. -/
def kMaxCol : FVec Ideal ⟨2, ![R, 1]⟩ .f32 :=
  shapeCast ⟨2, ![R, 1]⟩ (multiReduction (F := Ideal) .maximumf [1] ⟨1, ![R]⟩ x 0xFF800000#32 hr hφ hmax) hc

/-- The rows' normalisers `M + L` as a column. -/
def kNormCol : FVec Ideal ⟨2, ![R, 1]⟩ .f32 :=
  addf (F := Ideal) (kMaxCol x hr hφ hmax hc)
    (log (F := Ideal) (shapeCast ⟨2, ![R, 1]⟩
      (multiReduction (F := Ideal) .add [1] ⟨1, ![R]⟩
        (exp (F := Ideal) (subf (F := Ideal) x (broadcastTo ⟨2, ![R, C]⟩ (kMaxCol x hr hφ hmax hc) hb))) 0x00000000#32 hr hφ hadd) hc))

/-- The kernel's log-softmax: every entry less its row's normaliser. -/
def kLogSoftmax : FVec Ideal ⟨2, ![R, C]⟩ .f32 :=
  subf (F := Ideal) x (broadcastTo ⟨2, ![R, C]⟩ (kNormCol x hr hφ hmax hadd hc hb) hb)

/-- The kernel's row sums as a column. -/
def kRowKL : FVec Ideal ⟨2, ![R, 1]⟩ .f32 :=
  shapeCast ⟨2, ![R, 1]⟩
    (multiReduction (F := Ideal) .add [1] ⟨1, ![R]⟩
      (mulf (F := Ideal) (exp (F := Ideal) (kLogSoftmax x1 hr hφ hmax hadd hc hb))
        (subf (F := Ideal) (kLogSoftmax x1 hr hφ hmax hadd hc hb) (kLogSoftmax x0 hr hφ hmax hadd hc hb)))
      0x00000000#32 hr hφ hadd) hc

theorem kMaxCol_apply (p : Fin R) :
    kMaxCol x hr hφ hmax hc (ix2 p (0 : Fin 1)) = Cert.LibSoftmaxRow.rowMax fun k => x (ix2 p k) :=
  (Cert.LibRowReduce.shapeCast_col_apply _ hc p).trans (Cert.LibRowReduce.multiReduction_max_row x hr hφ hmax p)

theorem kNormCol_apply (p : Fin R) :
    kNormCol x hr hφ hmax hadd hc hb (ix2 p (0 : Fin 1))
      = Cert.LibSoftmaxRow.rowMax (fun k => x (ix2 p k)) + logNorm (fun k => x (ix2 p k)) := by
  refine congrArg₂ (· + ·) (kMaxCol_apply x hr hφ hmax hc p) ?_
  refine congrArg Ideal.log ?_
  refine (Cert.LibRowReduce.shapeCast_col_apply _ hc p).trans ?_
  refine (Cert.LibRowReduce.multiReduction_add_row _ hr hφ hadd p).trans ?_
  refine Finset.sum_congr rfl fun k _ => ?_
  refine congrArg Ideal.exp ?_
  refine congrArg (x (ix2 p k) - ·) ?_
  exact (Cert.LibColBroadcast.broadcastTo_a1_ab_apply _ hb p k).trans (kMaxCol_apply x hr hφ hmax hc p)

/-- The kernel's log-softmax at `(p, k)` is the one-row function with the normaliser formed first. -/
theorem kLogSoftmax_apply (p : Fin R) (k : Fin C) :
    kLogSoftmax x hr hφ hmax hadd hc hb (ix2 p k) = logSoftOnce (fun j => x (ix2 p j)) k := by
  refine congrArg (x (ix2 p k) - ·) ?_
  exact (Cert.LibColBroadcast.broadcastTo_a1_ab_apply _ hb p k).trans (kNormCol_apply x hr hφ hmax hadd hc hb p)

/-- The kernel's row sum of row `p` is the row's sum in the first arrangement. -/
theorem kRowKL_apply (p : Fin R) :
    kRowKL x0 x1 hr hφ hmax hadd hc hb (ix2 p (0 : Fin 1))
      = rowKLOnce (fun k => x0 (ix2 p k)) (fun k => x1 (ix2 p k)) := by
  refine (Cert.LibRowReduce.shapeCast_col_apply _ hc p).trans ?_
  refine (Cert.LibRowReduce.multiReduction_add_row _ hr hφ hadd p).trans ?_
  refine Finset.sum_congr rfl fun k _ => ?_
  show Ideal.exp (kLogSoftmax x1 hr hφ hmax hadd hc hb (ix2 p k))
      * (kLogSoftmax x1 hr hφ hmax hadd hc hb (ix2 p k) - kLogSoftmax x0 hr hφ hmax hadd hc hb (ix2 p k)) = _
  rw [kLogSoftmax_apply x1 hr hφ hmax hadd hc hb p k, kLogSoftmax_apply x0 hr hφ hmax hadd hc hb p k]

end Kernel

/-! ## The host's arrangement -/

section Host

variable (x x0 x1 : FVec Ideal ⟨2, ![R, C]⟩ .f32)
  (h' : (⟨2, ![R, C]⟩ : Shape).ReducesTo [1] (⟨1, ![R]⟩ : Shape)) (hu : 0 < (⟨0, ![]⟩ : Shape).numel)
  (b0 : (⟨0, ![]⟩ : Shape).BroadcastsInDim (⟨1, ![R]⟩ : Shape) ![])
  (b1 : (⟨1, ![R]⟩ : Shape).BroadcastsInDim (⟨2, ![R, 1]⟩ : Shape) ![0])
  (b2 : (⟨2, ![R, 1]⟩ : Shape).BroadcastsInDim (⟨2, ![R, C]⟩ : Shape) ![0, 1])

/-- Every entry replaced by its row's maximum. -/
def hMaxSpread : FVec Ideal ⟨2, ![R, C]⟩ .f32 :=
  broadcastInDim ⟨2, ![R, C]⟩ ![0, 1] b2 (broadcastInDim ⟨2, ![R, 1]⟩ ![0] b1
    (maximumf (F := Ideal) (broadcastInDim ⟨1, ![R]⟩ ![] b0 (constant (F := Ideal) ⟨0, ![]⟩ .f32 0xFF800000#32))
      (Host.reduce FloatOps.maximumf x (constant (F := Ideal) ⟨0, ![]⟩ .f32 0xFF800000#32) h' hu)))

/-- Every entry less its row's maximum. -/
def hShifted : FVec Ideal ⟨2, ![R, C]⟩ .f32 := subf (F := Ideal) x (hMaxSpread x h' hu b0 b1 b2)

/-- The host's log-softmax. -/
def hLogSoftmax : FVec Ideal ⟨2, ![R, C]⟩ .f32 :=
  subf (F := Ideal) (hShifted x h' hu b0 b1 b2)
    (broadcastInDim ⟨2, ![R, C]⟩ ![0, 1] b2 (Host.log (F := Ideal) (broadcastInDim ⟨2, ![R, 1]⟩ ![0] b1
      (Host.reduceAdd (F := Ideal) (Host.exp (F := Ideal) (hShifted x h' hu b0 b1 b2))
        (constant (F := Ideal) ⟨0, ![]⟩ .f32 0x00000000#32) h' hu))))

/-- The host's row sums. -/
def hRowKL : FVec Ideal ⟨1, ![R]⟩ .f32 :=
  Host.reduceAdd (F := Ideal)
    (mulf (F := Ideal) (Host.exp (F := Ideal) (hLogSoftmax x1 h' hu b0 b1 b2))
      (subf (F := Ideal) (hLogSoftmax x1 h' hu b0 b1 b2) (hLogSoftmax x0 h' hu b0 b1 b2)))
    (constant (F := Ideal) ⟨0, ![]⟩ .f32 0x00000000#32) h' hu

theorem hMaxSpread_apply (p : Fin R) (k : Fin C) :
    hMaxSpread x h' hu b0 b1 b2 (ix2 p k) = Cert.LibSoftmaxRow.rowMax fun j => x (ix2 p j) := by
  refine (bcast_col_rows_apply b2 _ p k).trans ((bcast_vec_col_apply b1 _ p).trans ?_)
  show max (broadcastInDim (⟨1, ![R]⟩ : Shape) ![] b0 (constant (F := Ideal) ⟨0, ![]⟩ .f32 0xFF800000#32) (ix1 p))
      (Host.reduce FloatOps.maximumf x (constant (F := Ideal) ⟨0, ![]⟩ .f32 0xFF800000#32) h' hu (ix1 p)) = _
  rw [bcast_scalar_vec_apply b0 _ p]
  refine (Cert.LibRowReduce.max_negInf _).trans ?_
  exact Cert.LibRowReduce.hostReduce_max_row x _ (fun _ => rfl) h' (reduces_of_reducesTo h') hu p

theorem hShifted_apply (p : Fin R) (k : Fin C) :
    hShifted x h' hu b0 b1 b2 (ix2 p k) = x (ix2 p k) - Cert.LibSoftmaxRow.rowMax fun j => x (ix2 p j) :=
  congrArg (x (ix2 p k) - ·) (hMaxSpread_apply x h' hu b0 b1 b2 p k)

/-- The host's log-softmax at `(p, k)` is the one-row function with the maximum subtracted first. -/
theorem hLogSoftmax_apply (p : Fin R) (k : Fin C) :
    hLogSoftmax x h' hu b0 b1 b2 (ix2 p k) = logSoftTwice (fun j => x (ix2 p j)) k := by
  refine congrArg₂ (· - ·) (hShifted_apply x h' hu b0 b1 b2 p k) ?_
  refine (bcast_col_rows_apply b2 _ p k).trans ?_
  refine congrArg Ideal.log ?_
  refine (bcast_vec_col_apply b1 _ p).trans ?_
  refine (Cert.LibRowReduce.hostReduceAdd_row _ _ (fun _ => Ideal.ofBits_zero_f32) h' (reduces_of_reducesTo h') hu p).trans ?_
  refine Finset.sum_congr rfl fun j _ => ?_
  exact congrArg Ideal.exp (hShifted_apply x h' hu b0 b1 b2 p j)

/-- The host's row sum of row `p` is the row's sum in the second arrangement. -/
theorem hRowKL_apply (p : Fin R) :
    hRowKL x0 x1 h' hu b0 b1 b2 (ix1 p) = rowKLTwice (fun k => x0 (ix2 p k)) (fun k => x1 (ix2 p k)) := by
  refine (Cert.LibRowReduce.hostReduceAdd_row _ _ (fun _ => Ideal.ofBits_zero_f32) h' (reduces_of_reducesTo h') hu p).trans ?_
  refine Finset.sum_congr rfl fun k _ => ?_
  show Ideal.exp (hLogSoftmax x1 h' hu b0 b1 b2 (ix2 p k))
      * (hLogSoftmax x1 h' hu b0 b1 b2 (ix2 p k) - hLogSoftmax x0 h' hu b0 b1 b2 (ix2 p k)) = _
  rw [hLogSoftmax_apply x1 h' hu b0 b1 b2 p k, hLogSoftmax_apply x0 h' hu b0 b1 b2 p k]

end Host

/-! ## The two arrangements on real entries -/

/-- With every entry of both arrays a real number and at least one column, the kernel's column of row sums and the host's
    vector of row sums agree row by row. -/
theorem kRowKL_eq_hRowKL (hC : 0 < C) (x0 x1 : FVec Ideal ⟨2, ![R, C]⟩ .f32)
    (hx0 : ∀ i, Cert.LibRealSum.IsReal (x0 i)) (hx1 : ∀ i, Cert.LibRealSum.IsReal (x1 i))
    (hr : (⟨2, ![R, C]⟩ : Shape).Reduces [1] (⟨1, ![R]⟩ : Shape)) (hφ : FKind.Formats .f32)
    (hmax : (0xFF800000#32 : BitVec 32) = FKind.maximumf.neutral .f32 hφ)
    (hadd : (0x00000000#32 : BitVec 32) = FKind.add.neutral .f32 hφ)
    (hc : (⟨1, ![R]⟩ : Shape).ShapeCasts ⟨2, ![R, 1]⟩)
    (hb : (⟨2, ![R, 1]⟩ : Shape).Broadcasts ⟨2, ![R, C]⟩)
    (h' : (⟨2, ![R, C]⟩ : Shape).ReducesTo [1] (⟨1, ![R]⟩ : Shape)) (hu : 0 < (⟨0, ![]⟩ : Shape).numel)
    (b0 : (⟨0, ![]⟩ : Shape).BroadcastsInDim (⟨1, ![R]⟩ : Shape) ![])
    (b1 : (⟨1, ![R]⟩ : Shape).BroadcastsInDim (⟨2, ![R, 1]⟩ : Shape) ![0])
    (b2 : (⟨2, ![R, 1]⟩ : Shape).BroadcastsInDim (⟨2, ![R, C]⟩ : Shape) ![0, 1]) (p : Fin R) :
    kRowKL x0 x1 hr hφ hmax hadd hc hb (ix2 p (0 : Fin 1)) = hRowKL x0 x1 h' hu b0 b1 b2 (ix1 p) := by
  rw [kRowKL_apply, hRowKL_apply]
  exact rowKLOnce_eq_rowKLTwice hC _ _ (fun k => hx0 _) (fun k => hx1 _)

end Cert.LibLogSoftmaxRows

end
-- ==== Proof.LibLogSoftmaxShift.lean ====
/-
  The row-wise log-softmax of an array [R, C] in the arrangement "subtract the maximum, then subtract the logarithm",
  as a kernel computes it with lane reductions, read at an entry.

  The kernel reduces each row to its maximum `M` (from the word of -∞), recasts the maxima as a column, spreads it over
  the row and subtracts: `s = x - M`. It sums `exp s` along the row, recasts the sums as a column, takes the logarithm
  `L`, spreads it over the row and subtracts again: the entry `(p, k)` is `(x p k - M p) - L p`. That is the one-row
  function `logSoftTwice` of the row's entries, over all extended reals: no finiteness is used.
-/
import Mathlib
import Idealize.ShloMosaic.PureOps.Ideal
import Idealize.ShloMosaic.PureOps.Ideal.Laws
import Idealize.ShloMosaic.Lib.Pipeline.Value
import Idealize.ShloMosaic.Lib.ValueIdx
import proofs.«138483_j40407052320948_2_alg».proof.Proof.LibRowReduce
import proofs.«138483_j40407052320948_2_alg».proof.Proof.LibColBroadcast
import proofs.«138483_j40407052320948_2_alg».proof.Proof.LibRowKL
import proofs.«138483_j40407052320948_2_alg».proof.Proof.LibLogSoftmaxRows

noncomputable section

open scoped BigOperators

namespace Cert.LibLogSoftmaxShift

open Idealize.ShloMosaic Idealize.ShloMosaic.ValueIdx
open Cert.LibRowKL Cert.LibLogSoftmaxRows

variable {R C : ℕ}

variable (x : FVec Ideal ⟨2, ![R, C]⟩ .f32)
  (hr : (⟨2, ![R, C]⟩ : Shape).Reduces [1] (⟨1, ![R]⟩ : Shape)) (hφ : FKind.Formats .f32)
  (hmax : (0xFF800000#32 : BitVec 32) = FKind.maximumf.neutral .f32 hφ)
  (hadd : (0x00000000#32 : BitVec 32) = FKind.add.neutral .f32 hφ)
  (hc : (⟨1, ![R]⟩ : Shape).ShapeCasts ⟨2, ![R, 1]⟩)
  (hb : (⟨2, ![R, 1]⟩ : Shape).Broadcasts ⟨2, ![R, C]⟩)

/-- Every entry less its row's maximum. -/
def kShifted : FVec Ideal ⟨2, ![R, C]⟩ .f32 :=
  subf (F := Ideal) x (broadcastTo ⟨2, ![R, C]⟩ (kMaxCol x hr hφ hmax hc) hb)

/-- The logarithms of the rows' sums of exponentials, as a column. -/
def kLogCol : FVec Ideal ⟨2, ![R, 1]⟩ .f32 :=
  log (F := Ideal) (shapeCast ⟨2, ![R, 1]⟩
    (multiReduction (F := Ideal) .add [1] ⟨1, ![R]⟩ (exp (F := Ideal) (kShifted x hr hφ hmax hc hb)) 0x00000000#32 hr hφ hadd) hc)

/-- The kernel's log-softmax with the maximum subtracted first. -/
def kLogSoftmaxShift : FVec Ideal ⟨2, ![R, C]⟩ .f32 :=
  subf (F := Ideal) (kShifted x hr hφ hmax hc hb) (broadcastTo ⟨2, ![R, C]⟩ (kLogCol x hr hφ hmax hadd hc hb) hb)

theorem kShifted_apply (p : Fin R) (k : Fin C) :
    kShifted x hr hφ hmax hc hb (ix2 p k) = x (ix2 p k) - Cert.LibSoftmaxRow.rowMax fun j => x (ix2 p j) := by
  refine congrArg (x (ix2 p k) - ·) ?_
  exact (Cert.LibColBroadcast.broadcastTo_a1_ab_apply _ hb p k).trans (kMaxCol_apply x hr hφ hmax hc p)

theorem kLogCol_apply (p : Fin R) :
    kLogCol x hr hφ hmax hadd hc hb (ix2 p (0 : Fin 1)) = logNorm fun j => x (ix2 p j) := by
  refine congrArg Ideal.log ?_
  refine (Cert.LibRowReduce.shapeCast_col_apply _ hc p).trans ?_
  refine (Cert.LibRowReduce.multiReduction_add_row _ hr hφ hadd p).trans ?_
  refine Finset.sum_congr rfl fun k _ => ?_
  exact congrArg Ideal.exp (kShifted_apply x hr hφ hmax hc hb p k)

/-- The kernel's log-softmax at `(p, k)` is the one-row function with the maximum subtracted first. -/
theorem kLogSoftmaxShift_apply (p : Fin R) (k : Fin C) :
    kLogSoftmaxShift x hr hφ hmax hadd hc hb (ix2 p k) = logSoftTwice (fun j => x (ix2 p j)) k := by
  refine congrArg₂ (· - ·) (kShifted_apply x hr hφ hmax hc hb p k) ?_
  exact (Cert.LibColBroadcast.broadcastTo_a1_ab_apply _ hb p k).trans (kLogCol_apply x hr hφ hmax hadd hc hb p)

end Cert.LibLogSoftmaxShift

end
-- ==== Proof.Conv2Value.lean ====
/-
  The second graph convolution's pipeline read as values over the extended reals: the same accumulation as the first
  into 32 lanes; the last step adds the bias and takes the row-wise log-softmax with the maximum subtracted first.
-/
import proofs.«138483_j40407052320948_2_alg».proof.Proof.Gen.KernelIdeal.Launch
import proofs.«138483_j40407052320948_2_alg».proof.Proof.Gen.KernelIdeal.Skeleton
import proofs.«138483_j40407052320948_2_alg».proof.Proof.Gen.KernelIdeal.Points
import proofs.«138483_j40407052320948_2_alg».proof.Proof.Conv2
import proofs.«138483_j40407052320948_2_alg».proof.Proof.LibRowOps
import proofs.«138483_j40407052320948_2_alg».proof.Proof.LibGridTiles
import proofs.«138483_j40407052320948_2_alg».proof.Proof.LibRealSum
import proofs.«138483_j40407052320948_2_alg».proof.Proof.LibLogSoftmaxShift
import Idealize.ShloMosaic.Lib.Pipeline.Value
import Idealize.ShloMosaic.Lib.ValueIdx
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Conv2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.LibRealSum (IsReal)
open scoped BigOperators

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz1 : (![0] : Fin 1 → Nat) = fun _ => 0 := funext fun a => by fin_cases a; rfl

/-- A load of the whole buffer after a store of the whole buffer reads what was stored, whatever was stored before. -/
theorem readCov_cons_whole {Val : EltTy → Type} [∀ e, Nonempty (Val e)] {sg : RefSig} {κ : Kind} {sp : Space} {S : Shape} {e : EltTy}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- One step of the accumulation: the product with the block as the narrow format keeps it is added, then the product
    with what the narrow format drops. -/
def step (x0 : Vec F S4096x512 .f32) (x1 : Vec F S512x32 .bf16) (a : Vec F S4096x32 .f32) : Vec F S4096x32 .f32 :=
  k2_pay4 x0 x1 (k2_pay3 x0 x1 a)

theorem soutA_eq (c : Dev nD) (i : grid2.Coords) (m0 : Memref sig .tc .vmem S4096x512 .f32) (h0 : m0.IsWhole) (m1 : Memref sig .tc .vmem S512x32 .bf16) (h1 : m1.IsWhole) (m2 : Memref sig .tc .vmem S32 .f32) (h2 : m2.IsWhole) (m3 : Memref sig .tc .vmem S4096x32 .f32) (h3 : m3.IsWhole) (mS : Memref sig .tc .vmem S4096x32 .f32) (hS : mS.IsWhole) (hc0 : first i) (hc1 : ¬last i) (x0 : Vec F S4096x512 .f32) (x1 : Vec F S512x32 .bf16) :
    soutA c i m0 h0 m1 h1 m2 h2 m3 h3 mS hS hc0 hc1 x0 x1 = step x0 x1 (k2_pay1 (F := F)) := by
  unfold soutA
  rw [View.read_writes_eq_canon _ _ _ (scoverA c i m0 h0 m1 h1 m2 h2 m3 h3 mS hS hc0 hc1 x0 x1)]
  unfold runA
  dsimp only
  rw [View.canon_cons_unit_zero hz2]
  sl_unfold_words
  simp only [View.readAt_eq_ld, h0.read_unread, View.ld_unit_zero (S := S4096x512) hz2, h1.read_unread, View.ld_unit_zero (S := S512x32) hz2]
  rw [readCov_cons_whole _ hz2, View.readCov_unit_zero _ hz2]
  rfl

theorem soutB_eq (c : Dev nD) (i : grid2.Coords) (m0 : Memref sig .tc .vmem S4096x512 .f32) (h0 : m0.IsWhole) (m1 : Memref sig .tc .vmem S512x32 .bf16) (h1 : m1.IsWhole) (m2 : Memref sig .tc .vmem S32 .f32) (h2 : m2.IsWhole) (m3 : Memref sig .tc .vmem S4096x32 .f32) (h3 : m3.IsWhole) (mS : Memref sig .tc .vmem S4096x32 .f32) (hS : mS.IsWhole) (hc0 : ¬first i) (hc1 : ¬last i) (x0 : Vec F S4096x512 .f32) (x1 : Vec F S512x32 .bf16) (xs : Vec F S4096x32 .f32) :
    soutB c i m0 h0 m1 h1 m2 h2 m3 h3 mS hS hc0 hc1 x0 x1 xs = step x0 x1 xs := by
  unfold soutB
  rw [View.read_writes_eq_canon _ _ _ (scoverB c i m0 h0 m1 h1 m2 h2 m3 h3 mS hS hc0 hc1 x0 x1 xs)]
  unfold runB
  dsimp only
  rw [View.canon_cons_unit_zero hz2]
  sl_unfold_words
  simp only [View.readAt_eq_ld, h0.read_unread, View.ld_unit_zero (S := S4096x512) hz2, h1.read_unread, View.ld_unit_zero (S := S512x32) hz2, hS.read_unread, View.ld_unit_zero (S := S4096x32) hz2]
  rw [View.readCov_unit_zero _ hz2]
  rfl

theorem soutC_eq (c : Dev nD) (i : grid2.Coords) (m0 : Memref sig .tc .vmem S4096x512 .f32) (h0 : m0.IsWhole) (m1 : Memref sig .tc .vmem S512x32 .bf16) (h1 : m1.IsWhole) (m2 : Memref sig .tc .vmem S32 .f32) (h2 : m2.IsWhole) (m3 : Memref sig .tc .vmem S4096x32 .f32) (h3 : m3.IsWhole) (mS : Memref sig .tc .vmem S4096x32 .f32) (hS : mS.IsWhole) (hc0 : ¬first i) (hc1 : last i) (x0 : Vec F S4096x512 .f32) (x1 : Vec F S512x32 .bf16) (x2 : Vec F S32 .f32) (xs : Vec F S4096x32 .f32) :
    soutC c i m0 h0 m1 h1 m2 h2 m3 h3 mS hS hc0 hc1 x0 x1 x2 xs = step x0 x1 xs := by
  unfold soutC
  rw [View.read_writes_eq_canon _ _ _ (scoverC c i m0 h0 m1 h1 m2 h2 m3 h3 mS hS hc0 hc1 x0 x1 x2 xs)]
  unfold runC
  dsimp only
  sl_unfold_words
  rw [View.canon_cons_unit_zero hz2]
  simp only [View.readAt_eq_ld, h0.read_unread, View.ld_unit_zero (S := S4096x512) hz2, h1.read_unread, View.ld_unit_zero (S := S512x32) hz2, hS.read_unread, View.ld_unit_zero (S := S4096x32) hz2]
  rw [View.readCov_unit_zero _ hz2]
  rfl

theorem outC_eq (c : Dev nD) (i : grid2.Coords) (m0 : Memref sig .tc .vmem S4096x512 .f32) (h0 : m0.IsWhole) (m1 : Memref sig .tc .vmem S512x32 .bf16) (h1 : m1.IsWhole) (m2 : Memref sig .tc .vmem S32 .f32) (h2 : m2.IsWhole) (m3 : Memref sig .tc .vmem S4096x32 .f32) (h3 : m3.IsWhole) (mS : Memref sig .tc .vmem S4096x32 .f32) (hS : mS.IsWhole) (hc0 : ¬first i) (hc1 : last i) (x0 : Vec F S4096x512 .f32) (x1 : Vec F S512x32 .bf16) (x2 : Vec F S32 .f32) (xs : Vec F S4096x32 .f32) :
    outC c i m0 h0 m1 h1 m2 h2 m3 h3 mS hS hc0 hc1 x0 x1 x2 xs = k2_pay5 (step x0 x1 xs) x2 := by
  unfold outC
  rw [View.read_writes_eq_canon _ _ _ (coverC c i m0 h0 m1 h1 m2 h2 m3 h3 mS hS hc0 hc1 x0 x1 x2 xs)]
  unfold runC
  dsimp only
  rw [View.canon_unit_zero hz2]
  sl_unfold_words
  simp only [View.readAt_eq_ld, h0.read_unread, View.ld_unit_zero (S := S4096x512) hz2, h1.read_unread, View.ld_unit_zero (S := S512x32) hz2, h2.read_unread, View.ld_unit_zero (S := S32) hz1, hS.read_unread, View.ld_unit_zero (S := S4096x32) hz2]
  rw [readCov_cons_whole _ hz2, View.readCov_unit_zero _ hz2]
  rfl

/-! ## The arithmetic at an entry, over the extended reals -/

/-- The zero fill reads zero. -/
theorem zero_apply (p : Fin 4096) (q : Fin 32) : k2_pay1 (F := Ideal) (ix2 p q) = 0 := by
  unfold k2_pay1
  exact (congrFun (shapeCast_self _ _) _).trans Ideal.ofBits_zero_f32

/-- The product with the block as kept: a[p, q] + Σ_k x[p, k] · s[k, q]. -/
theorem keep_apply (x0 : Vec Ideal S4096x512 .f32) (x1 : Vec Ideal S512x32 .bf16) (a : Vec Ideal S4096x32 .f32) (p : Fin 4096) (q : Fin 32) :
    k2_pay3 (F := Ideal) x0 x1 a (ix2 p q) = a (ix2 p q) + ∑ k : Fin 512, x0 (ix2 p k) * x1 (ix2 k q) := by
  unfold k2_pay3 k2_pay2
  refine (congrFun (shapeCast_self _ _) _).trans ?_
  show a (ix2 p q) + matmul (F := Ideal) dot_S4096x512_S512x32_S4096x32_1_0_0_1_n_n none _ _ _ (ix2 p q) = _
  refine congrArg (a (ix2 p q) + ·) ((Cert.LibRowOps.matmul_entry _ rfl _ _ p q).trans ?_)
  exact Finset.sum_congr rfl fun k _ => congrArg (x0 (ix2 p k) * ·) (congrFun (shapeCast_self x1 _) _)

/-- The product with what the narrow format drops: over the extended reals a real block less itself is zero, so
    nothing is added. -/
theorem rem_apply (x0 : Vec Ideal S4096x512 .f32) (x1 : Vec Ideal S512x32 .bf16) (b : Vec Ideal S4096x32 .f32)
    (hx : ∀ i, IsReal (x0 i)) (p : Fin 4096) (q : Fin 32) :
    k2_pay4 (F := Ideal) x0 x1 b (ix2 p q) = b (ix2 p q) := by
  unfold k2_pay4 k2_pay2
  refine (congrFun (shapeCast_self _ _) _).trans ?_
  show b (ix2 p q) + matmul (F := Ideal) dot_S4096x512_S512x32_S4096x32_1_0_0_1_n_n none _ _ _ (ix2 p q) = _
  refine (congrArg (b (ix2 p q) + ·) ((Cert.LibRowOps.matmul_entry _ rfl _ _ p q).trans (Finset.sum_eq_zero fun k _ => ?_))).trans (add_zero _)
  show (x0 (ix2 p k) - x0 (ix2 p k)) * _ = 0
  obtain ⟨r, hr⟩ := hx (ix2 p k)
  rw [hr, ← EReal.coe_sub, sub_self, EReal.coe_zero, zero_mul]

theorem step_apply (x0 : Vec Ideal S4096x512 .f32) (x1 : Vec Ideal S512x32 .bf16) (a : Vec Ideal S4096x32 .f32)
    (hx : ∀ i, IsReal (x0 i)) (p : Fin 4096) (q : Fin 32) :
    step (F := Ideal) x0 x1 a (ix2 p q) = a (ix2 p q) + ∑ k : Fin 512, x0 (ix2 p k) * x1 (ix2 k q) :=
  (rem_apply x0 x1 _ hx p q).trans (keep_apply x0 x1 a p q)

/-! ## The blocks, the accumulation and the result array -/

section Values

variable (V : (c : Dev nD) → (b : Ref sig .tc) → Buf (Elt Ideal) ((c : Thread nD τ).loc b))

/-- The adjacency matrix and the features as the region finds them. -/
abbrev Af (c : Dev nD) : S16384x16384.Idx → EReal := V c main_arg1
abbrev Sf (c : Dev nD) : S16384x32.Idx → EReal := V c main_v18

/-- The same as total functions of natural coordinates
    (zero outside the arrays: never read). -/
def An (c : Dev nD) (r k : ℕ) : EReal :=
  if h : r < 16384 ∧ k < 16384 then Af V c (ix2 ⟨r, h.1⟩ ⟨k, h.2⟩) else 0
def Sn (c : Dev nD) (k : ℕ) (q : Fin 32) : EReal :=
  if h : k < 16384 then Sf V c (ix2 ⟨k, h⟩ q) else 0

/-- The printed index maps over the grid: point t is row block t / 32, step t % 32. -/
theorem idx_facts : ∀ t : Fin cfg2.N, win2_0.index t (0 : Fin 2) = t.val / 32 ∧ win2_0.index t (1 : Fin 2) = t.val % 32
    ∧ win2_1.index t (0 : Fin 2) = t.val % 32 ∧ win2_1.index t (1 : Fin 2) = 0
    ∧ win2_2.index t (0 : Fin 1) = 0
    ∧ win2_3.index t (0 : Fin 2) = t.val / 32 ∧ win2_3.index t (1 : Fin 2) = 0 :=
  (by decide +kernel : ∀ t : Fin grid2.N, _)

theorem blk0_apply (c : Dev nD) (t : Fin cfg2.N) (p : Fin 4096) (k : Fin 512) :
    (blk V c 0 t : S4096x512.Idx → EReal) (ix2 p k) = An V c (4096 * (t.val / 32) + p.val) (512 * (t.val % 32) + k.val) := by
  obtain ⟨e00, e01, e10, e11, e20, eo0, eo1⟩ := idx_facts t
  have ht : t.val < 128 := lt_of_lt_of_eq t.isLt N_2
  have hp := p.isLt; have hk := k.isLt
  unfold An
  rw [dif_pos ⟨by omega, by omega⟩]
  show (V c main_arg1 : S16384x16384.Idx → EReal) (((cfg2.win 0).blk t).view.emb (ix2 p k)) = _
  refine congrArg (V c main_arg1 : S16384x16384.Idx → EReal) (funext fun a => Fin.ext ?_)
  match a with
  | ⟨0, _⟩ => show win2_0.index t (0 : Fin 2) * 4096 + 1 * p.val = 4096 * (t.val / 32) + p.val; omega
  | ⟨1, _⟩ => show win2_0.index t (1 : Fin 2) * 512 + 1 * k.val = 512 * (t.val % 32) + k.val; omega

theorem blk1_apply (c : Dev nD) (t : Fin cfg2.N) (k : Fin 512) (q : Fin 32) :
    (blk V c 1 t : S512x32.Idx → EReal) (ix2 k q) = Sn V c (512 * (t.val % 32) + k.val) q := by
  obtain ⟨e00, e01, e10, e11, e20, eo0, eo1⟩ := idx_facts t
  have ht : t.val < 128 := lt_of_lt_of_eq t.isLt N_2
  have hk := k.isLt; have hq := q.isLt
  unfold Sn
  rw [dif_pos (by omega)]
  show (V c main_v18 : S16384x32.Idx → EReal) (((cfg2.win 1).blk t).view.emb (ix2 k q)) = _
  refine congrArg (V c main_v18 : S16384x32.Idx → EReal) (funext fun a => Fin.ext ?_)
  match a with
  | ⟨0, _⟩ => show win2_1.index t (0 : Fin 2) * 512 + 1 * k.val = 512 * (t.val % 32) + k.val; omega
  | ⟨1, _⟩ => show win2_1.index t (1 : Fin 2) * 32 + 1 * q.val = q.val; omega

/-- One step, from the point's blocks. -/
theorem step_blocks (c : Dev nD) (hA : ∀ i, IsReal ((V c main_arg1 : S16384x16384.Idx → EReal) i)) (t : Fin cfg2.N)
    (a : Vec Ideal S4096x32 .f32) (p : Fin 4096) (q : Fin 32) :
    step (F := Ideal) (blk V c 0 t) (blk V c 1 t) a (ix2 p q)
      = a (ix2 p q) + ∑ k : Fin 512, An V c (4096 * (t.val / 32) + p.val) (512 * (t.val % 32) + k.val) * Sn V c (512 * (t.val % 32) + k.val) q := by
  refine (step_apply (blk V c 0 t) (blk V c 1 t) a (fun i => hA (((cfg2.win 0).blk t).view.emb i)) p q).trans ?_
  refine congrArg (a (ix2 p q) + ·) (Finset.sum_congr rfl fun k _ => ?_)
  exact congrArg₂ (· * ·) (blk0_apply V c t p k) (blk1_apply V c t k q)

/-- The sum over the first nb blocks of 512 columns, for row 4096 rb + p. -/
def part (c : Dev nD) (rb nb : ℕ) (p : Fin 4096) (q : Fin 32) : EReal :=
  ∑ kb ∈ Finset.range nb, ∑ k : Fin 512, An V c (4096 * rb + p.val) (512 * kb + k.val) * Sn V c (512 * kb + k.val) q

theorem acc_first (c : Dev nD) (hA : ∀ i, IsReal ((V c main_arg1 : S16384x16384.Idx → EReal) i)) (t : Fin cfg2.N)
    (h0 : t.val % 32 = 0) (p : Fin 4096) (q : Fin 32) :
    (accAt V c t.val t.isLt).2 (ix2 p q)
      = ∑ k : Fin 512, An V c (4096 * (t.val / 32) + p.val) (512 * (t.val % 32) + k.val) * Sn V c (512 * (t.val % 32) + k.val) q := by
  have h1 : ¬t.val % 32 = 31 := by omega
  rw [accAt_A V c t h0 h1, soutA_eq]
  refine (step_blocks V c hA t _ p q).trans ?_
  rw [zero_apply, zero_add]

theorem acc_next (c : Dev nD) (hA : ∀ i, IsReal ((V c main_arg1 : S16384x16384.Idx → EReal) i)) (t : Fin cfg2.N)
    (h0 : ¬t.val % 32 = 0) (p : Fin 4096) (q : Fin 32) :
    (accAt V c t.val t.isLt).2 (ix2 p q)
      = (accAt V c (t.val - 1) (Nat.lt_of_le_of_lt (Nat.sub_le _ _) t.isLt)).2 (ix2 p q)
        + ∑ k : Fin 512, An V c (4096 * (t.val / 32) + p.val) (512 * (t.val % 32) + k.val) * Sn V c (512 * (t.val % 32) + k.val) q := by
  by_cases h1 : t.val % 32 = 31
  · rw [accAt_C V c t h0 h1, soutC_eq]
    exact step_blocks V c hA t _ p q
  · rw [accAt_B V c t h0 h1, soutB_eq]
    exact step_blocks V c hA t _ p q

/-- AFTER STEP n the accumulator holds the sum over the first n % 32 + 1 blocks of columns. -/
theorem acc_inv (c : Dev nD) (hA : ∀ i, IsReal ((V c main_arg1 : S16384x16384.Idx → EReal) i)) :
    ∀ (n : ℕ) (hn : n < cfg2.N) (p : Fin 4096) (q : Fin 32),
      (accAt V c n hn).2 (ix2 p q) = part V c (n / 32) (n % 32 + 1) p q := by
  intro n
  induction n with
  | zero =>
    intro hn p q
    refine (acc_first V c hA ⟨0, hn⟩ rfl p q).trans ?_
    show _ = part V c 0 1 p q
    unfold part
    rw [Finset.sum_range_one]
    show ∑ k : Fin 512, An V c (4096 * (0 / 32) + p.val) (512 * (0 % 32) + k.val) * Sn V c (512 * (0 % 32) + k.val) q = _
    rw [Nat.zero_div, Nat.zero_mod]
  | succ n ih =>
    intro hn p q
    by_cases h0 : (n + 1) % 32 = 0
    · refine (acc_first V c hA ⟨n + 1, hn⟩ h0 p q).trans ?_
      have e1 : (n + 1) % 32 + 1 = 1 := by omega
      rw [e1]
      unfold part
      rw [Finset.sum_range_one]
      show ∑ k : Fin 512, An V c (4096 * ((n + 1) / 32) + p.val) (512 * ((n + 1) % 32) + k.val) * Sn V c (512 * ((n + 1) % 32) + k.val) q = _
      rw [h0]
    · refine (acc_next V c hA ⟨n + 1, hn⟩ h0 p q).trans ?_
      have ed : (n + 1) / 32 = n / 32 := by omega
      have em : (n + 1) % 32 = n % 32 + 1 := by omega
      show (accAt V c n _).2 (ix2 p q) + ∑ k : Fin 512, An V c (4096 * ((n + 1) / 32) + p.val) (512 * ((n + 1) % 32) + k.val) * Sn V c (512 * ((n + 1) % 32) + k.val) q = _
      rw [ih (Nat.lt_of_succ_lt hn) p q, ed, em]
      unfold part
      rw [Finset.sum_range_succ (n := n % 32 + 1)]

/-- All 32 blocks of columns are the whole row of the adjacency matrix. -/
theorem part_full (c : Dev nD) (rb : ℕ) (hrb : rb < 4) (p : Fin 4096) (q : Fin 32) :
    part V c rb 32 p q
      = ∑ k : Fin 16384, Af V c (ix2 ⟨4096 * rb + p.val, by have := p.isLt; omega⟩ k) * Sf V c (ix2 k q) := by
  have hp := p.isLt
  unfold part
  rw [Finset.sum_range (fun kb => ∑ k : Fin 512, An V c (4096 * rb + p.val) (512 * kb + k.val) * Sn V c (512 * kb + k.val) q)]
  refine (Cert.sum_fin_blocks 32 512 (fun k => An V c (4096 * rb + p.val) k * Sn V c k q)).symm.trans ?_
  show ∑ i : Fin 16384, An V c (4096 * rb + p.val) i.val * Sn V c i.val q = _
  refine Finset.sum_congr rfl fun k _ => ?_
  unfold An Sn
  rw [dif_pos ⟨by omega, k.isLt⟩, dif_pos k.isLt]

/-- At a last step the output block is the epilogue of the finished accumulator. -/
theorem out_of_acc (c : Dev nD) (t : Fin cfg2.N) (h0 : ¬t.val % 32 = 0) (h1 : t.val % 32 = 31) :
    (accAt V c t.val t.isLt).1 = k2_pay5 (F := Ideal) (accAt V c t.val t.isLt).2 (blk V c 2 t) := by
  rw [accAt_C V c t h0 h1, outC_eq, soutC_eq]

/-- The bias block is the whole array. -/
theorem blk2_eq (c : Dev nD) (t : Fin cfg2.N) : (blk V c 2 t : S32.Idx → EReal) = V c main_arg11 := by
  obtain ⟨e00, e01, e10, e11, e20, eo0, eo1⟩ := idx_facts t
  funext y
  show (V c main_arg11 : S32.Idx → EReal) (((cfg2.win 2).blk t).view.emb y) = _
  refine congrArg (V c main_arg11 : S32.Idx → EReal) (funext fun a => Fin.ext ?_)
  match a with
  | ⟨0, _⟩ => show win2_2.index t (0 : Fin 1) * 32 + 1 * (y 0).val = (y 0).val; omega

/-- The epilogue at an entry: the log-softmax of the row a[p, ·] + b, maximum subtracted first. -/
theorem epi_apply (a : Vec Ideal S4096x32 .f32) (b : Vec Ideal S32 .f32) (p : Fin 4096) (q : Fin 32) :
    k2_pay5 (F := Ideal) a b (ix2 p q) = Cert.LibRowKL.logSoftTwice (fun j => a (ix2 p j) + b (ix1 j)) q := by
  unfold k2_pay5
  refine (Cert.LibLogSoftmaxShift.kLogSoftmaxShift_apply (R := 4096) (C := 32) _ _ _ _ _ _ _ p q).trans ?_
  refine congrArg (fun f => Cert.LibRowKL.logSoftTwice f q) (funext fun j => ?_)
  exact congrArg (a (ix2 p j) + ·) (Cert.LibRowOps.bias_rows _ _ _ p j)

/-- What the result array holds after the run. -/
def G (c : Dev nD) : S16384x32.Idx → EReal := fun i =>
  Cert.LibRowKL.logSoftTwice (fun j : Fin 32 => ∑ k : Fin 16384, Af V c (ix2 ⟨(i 0).val, (i 0).isLt⟩ k) * Sf V c (ix2 k j) + (V c main_arg11 : S32.Idx → EReal) (ix1 j))
    ⟨(i 1).val, (i 1).isLt⟩

theorem G_at (c : Dev nD) (i : S16384x32.Idx) (r : Fin 16384) (q : Fin 32) (h0 : (i 0).val = r.val) (h1 : (i 1).val = q.val) :
    G V c i = Cert.LibRowKL.logSoftTwice (fun j : Fin 32 => ∑ k : Fin 16384, Af V c (ix2 r k) * Sf V c (ix2 k j) + (V c main_arg11 : S32.Idx → EReal) (ix1 j)) q := by
  obtain rfl : (⟨(i 0).val, (i 0).isLt⟩ : Fin 16384) = r := Fin.ext h0
  obtain rfl : (⟨(i 1).val, (i 1).isLt⟩ : Fin 32) = q := Fin.ext h1
  rfl

/-- WHAT A LAST STEP WRITES BACK is its row block of `G`. -/
theorem flushed_eq (c : Dev nD) (hA : ∀ i, IsReal ((V c main_arg1 : S16384x16384.Idx → EReal) i)) (t : Fin cfg2.N)
    (hf : (cfg2.win 3).flush t = true) :
    (dat V c).flushed 3 t = ((cfg2.win 3).blk t).view.read (Elt Ideal) (G V c) := by
  have h1 : t.val % 32 = 31 := (flush2_3 t).mp hf
  have h0 : ¬t.val % 32 = 0 := by omega
  have ht : t.val < 128 := lt_of_lt_of_eq t.isLt N_2
  show (cfg2.win 3).cut (grid2.coords t) ((dat V c).after 3 t) = _
  rw [after_3, out_of_acc V c t h0 h1]
  obtain ⟨e00, e01, e10, e11, e20, eo0, eo1⟩ := idx_facts t
  funext j
  obtain ⟨p, q, rfl⟩ : ∃ (p : Fin 4096) (q : Fin 32), j = ix2 p q := ⟨j 0, j 1, eq_ix2 j⟩
  have hp : p.val < 4096 := p.isLt
  show k2_pay5 (F := Ideal) (accAt V c t.val t.isLt).2 (blk V c 2 t) (ix2 p q) = G V c (((cfg2.win 3).blk t).view.emb (ix2 p q))
  rw [G_at V c _ ⟨4096 * (t.val / 32) + p.val, by omega⟩ q
    (by show win2_3.index t (0 : Fin 2) * 4096 + 1 * p.val = 4096 * (t.val / 32) + p.val; omega)
    (by show win2_3.index t (1 : Fin 2) * 32 + 1 * q.val = q.val; omega)]
  refine (epi_apply _ _ p q).trans ?_
  have hacc : ∀ j : Fin 32, (accAt V c t.val t.isLt).2 (ix2 p j)
      = ∑ k : Fin 16384, Af V c (ix2 ⟨4096 * (t.val / 32) + p.val, by omega⟩ k) * Sf V c (ix2 k j) := fun j => by
    rw [acc_inv V c hA t.val t.isLt p j, h1]
    exact part_full V c (t.val / 32) (by omega) p j
  rw [blk2_eq V c t]
  simp only [hacc]

/-- An index of the result array is in point t's block iff each coordinate is in the block's range. -/
theorem mem_blk (t : Fin cfg2.N) (i : S16384x32.Idx) :
    i ∈ ((cfg2.win 3).blk t).view.set ↔ ∀ a : Fin 2, win2_3.index t a * S4096x32.size a ≤ (i a).val ∧ (i a).val < win2_3.index t a * S4096x32.size a + S4096x32.size a := by
  show i ∈ ((View.whole main_v19).slice (win2_3.rect t)).set ↔ _
  rw [View.set_slice_whole, Rect.mem_set_unit]
  exact Iff.rfl

/-- THE RESULT ARRAY after the run: `G`. -/
theorem final (c : Dev nD) (hA : ∀ i, IsReal ((V c main_arg1 : S16384x16384.Idx → EReal) i)) :
    (dat V c).arrAt 3 cfg2.N = G V c := by
  refine (dat V c).arrAt_eq_of_cover 3 (G V c) (fun t hf => flushed_eq V c hA t hf) fun i => ?_
  have hi0 : (i 0).val < 16384 := (i 0).isLt
  have hi1 : (i 1).val < 32 := (i 1).isLt
  have hN : cfg2.N = 128 := N_2
  let t : Fin cfg2.N := ⟨32 * ((i 0).val / 4096) + 31, by rw [hN]; omega⟩
  obtain ⟨e00, e01, e10, e11, e20, eo0, eo1⟩ := idx_facts t
  have htv : t.val = 32 * ((i 0).val / 4096) + 31 := rfl
  refine ⟨t, (flush2_3 t).mpr (by omega), (mem_blk t i).mpr fun a => ?_⟩
  match a with
  | ⟨0, _⟩ => show win2_3.index t (0 : Fin 2) * 4096 ≤ (i 0).val ∧ (i 0).val < win2_3.index t (0 : Fin 2) * 4096 + 4096; omega
  | ⟨1, _⟩ => show win2_3.index t (1 : Fin 2) * 32 ≤ (i 1).val ∧ (i 1).val < win2_3.index t (1 : Fin 2) * 32 + 32; omega

end Values

end Cert.KernelIdeal.Conv2

end
-- ==== Proof.Spec.lean ====
/-
  What the network computes, as plain functions of the twelve argument arrays over the extended reals.

  Every node r has a row of 5000 features in three groups of 2000, 2000 and 1000 columns; each group goes through its own
  linear layer with a floor at zero, and the three results of 256 lanes are laid side by side: the hidden row of 768 lanes.
  A graph convolution multiplies the hidden rows by a weight matrix, mixes the rows through the adjacency matrix and adds
  a bias: Σ_k adj[r, k] · s[k, c] + b[c]. The first convolution is floored at zero, the second one is followed by the
  row-wise log-softmax, with the row's maximum subtracted first and the logarithm of the sum of exponentials afterwards.

  The block-diagonal arrangement of the three weight matrices as one [5000, 768] matrix, and the three biases joined as
  one vector of 768, are stated here too: a row of x against the block-diagonal matrix is the hidden row's linear part.
-/
import Mathlib
import Idealize.ShloMosaic.PureOps.Ideal
import Idealize.ShloMosaic.Lib.ValueIdx
import proofs.«138483_j40407052320948_2_alg».proof.Proof.LibRowKL

noncomputable section

namespace Cert.Spec

open Idealize.ShloMosaic Idealize.ShloMosaic.ValueIdx Cert.LibRowKL
open scoped BigOperators

/-- A matrix [R, C] and a vector [N] of extended reals, indexed as the programs' arrays are. -/
abbrev Mat (R C : ℕ) : Type := (⟨2, ![R, C]⟩ : Shape).Idx → EReal
abbrev Vct (N : ℕ) : Type := (⟨1, ![N]⟩ : Shape).Idx → EReal

/-- A linear layer with a floor, at lane c: max(Σ_k x k · w[k, c] + b[c], 0). -/
def floorLin {K N : ℕ} (x : Fin K → EReal) (w : Mat K N) (b : Vct N) (c : Fin N) : EReal :=
  max (∑ k, x k * w (ix2 k c) + b (ix1 c)) 0

/-- Columns off … off + K - 1 of row r of x. -/
def cols {R C : ℕ} (x : Mat R C) (r : Fin R) (off K : ℕ) (h : off + K ≤ C) (k : Fin K) : EReal :=
  x (ix2 r ⟨off + k.val, by omega⟩)

section
variable (x : Mat 16384 5000) (adj : Mat 16384 16384) (W1 : Mat 2000 256) (b1 : Vct 256) (W2 : Mat 2000 256) (b2 : Vct 256)
  (W3 : Mat 1000 256) (b3 : Vct 256) (gw1 : Mat 768 256) (gb1 : Vct 256) (gw2 : Mat 256 32) (gb2 : Vct 32)

/-- The hidden row of node r at lane j: the three groups' layers side by side. -/
def hidden (r : Fin 16384) (j : Fin 768) : EReal :=
  if h1 : j.val < 256 then floorLin (cols x r 0 2000 (by decide)) W1 b1 ⟨j.val, h1⟩
  else if h2 : j.val < 512 then floorLin (cols x r 2000 2000 (by decide)) W2 b2 ⟨j.val - 256, by omega⟩
  else floorLin (cols x r 4000 1000 (by decide)) W3 b3 ⟨j.val - 512, by omega⟩

/-- The hidden rows times the first convolution's weights. -/
def support1 (r : Fin 16384) (c : Fin 256) : EReal := ∑ j : Fin 768, hidden x W1 b1 W2 b2 W3 b3 r j * gw1 (ix2 j c)

/-- Rows mixed through the adjacency matrix, plus a bias: Σ_k adj[r, k] · s k c + b[c]. -/
def conv {N : ℕ} (s : Fin 16384 → Fin N → EReal) (b : Vct N) (r : Fin 16384) (c : Fin N) : EReal :=
  ∑ k : Fin 16384, adj (ix2 r k) * s k c + b (ix1 c)

/-- The first convolution, floored at zero. -/
def hidden2 (r : Fin 16384) (j : Fin 256) : EReal := max (conv adj (support1 x W1 b1 W2 b2 W3 b3 gw1) gb1 r j) 0

/-- Its rows times the second convolution's weights. -/
def support2 (r : Fin 16384) (c : Fin 32) : EReal := ∑ j : Fin 256, hidden2 x adj W1 b1 W2 b2 W3 b3 gw1 gb1 r j * gw2 (ix2 j c)

/-- The second convolution: the logits. -/
def logits (r : Fin 16384) (c : Fin 32) : EReal := conv adj (support2 x adj W1 b1 W2 b2 W3 b3 gw1 gb1 gw2) gb2 r c

/-- THE RESULT: the row-wise log-softmax of the logits, maximum subtracted first. -/
def out (r : Fin 16384) (c : Fin 32) : EReal := logSoftTwice (fun j => logits x adj W1 b1 W2 b2 W3 b3 gw1 gb1 gw2 gb2 r j) c

/-- The three weight matrices on the diagonal of one [5000, 768] matrix, zero elsewhere. -/
def blockDiag (k : Fin 5000) (j : Fin 768) : EReal :=
  if h : k.val < 2000 ∧ j.val < 256 then W1 (ix2 ⟨k.val, h.1⟩ ⟨j.val, h.2⟩)
  else if h : (2000 ≤ k.val ∧ k.val < 4000) ∧ (256 ≤ j.val ∧ j.val < 512) then W2 (ix2 ⟨k.val - 2000, by omega⟩ ⟨j.val - 256, by omega⟩)
  else if h : 4000 ≤ k.val ∧ 512 ≤ j.val then W3 (ix2 ⟨k.val - 4000, by omega⟩ ⟨j.val - 512, by omega⟩)
  else 0

/-- The three biases joined as one vector of 768. -/
def joined (j : Fin 768) : EReal :=
  if h1 : j.val < 256 then b1 (ix1 ⟨j.val, h1⟩)
  else if h2 : j.val < 512 then b2 (ix1 ⟨j.val - 256, by omega⟩)
  else b3 (ix1 ⟨j.val - 512, by omega⟩)

end

end Cert.Spec

end
-- ==== Proof.Glue.lean ====
/-
  A row of x against the block-diagonal arrangement of the three weight matrices is the hidden row's linear part:
  at lane j only the rows of the diagonal block of j's group carry a nonzero entry, and x · 0 = 0 on the extended reals.
-/
import Mathlib
import proofs.«138483_j40407052320948_2_alg».proof.Proof.Spec

noncomputable section

namespace Cert.Glue

open Idealize.ShloMosaic Idealize.ShloMosaic.ValueIdx
open scoped BigOperators

/-- A sum over Fin n whose terms vanish outside off … off + K - 1 is the sum over those K indices. -/
theorem sum_block {n : ℕ} (f : Fin n → EReal) (off K : ℕ) (h : off + K ≤ n)
    (hz : ∀ k : Fin n, ¬ (off ≤ k.val ∧ k.val < off + K) → f k = 0) :
    ∑ k, f k = ∑ i : Fin K, f ⟨off + i.val, by omega⟩ := by
  classical
  let e : Fin K ↪ Fin n :=
    ⟨fun i => ⟨off + i.val, by omega⟩, by
      intro a b hab
      have := congrArg Fin.val hab
      dsimp only at this
      exact Fin.ext (by omega)⟩
  have hmap : ∑ i : Fin K, f ⟨off + i.val, by omega⟩ = ∑ k ∈ Finset.univ.map e, f k := by
    rw [Finset.sum_map]; rfl
  rw [hmap]
  symm
  apply Finset.sum_subset (Finset.subset_univ _)
  intro k _ hk
  apply hz
  rintro ⟨h1, h2⟩
  apply hk
  simp only [Finset.mem_map, Finset.mem_univ, true_and]
  exact ⟨⟨k.val - off, by omega⟩, Fin.ext (by show off + (k.val - off) = k.val; omega)⟩

section
variable (W1 : Spec.Mat 2000 256) (W2 : Spec.Mat 2000 256) (W3 : Spec.Mat 1000 256)

theorem blockDiag_one (i : Fin 2000) (j : Fin 768) (hj : j.val < 256) :
    Spec.blockDiag W1 W2 W3 ⟨0 + i.val, by omega⟩ j = W1 (ix2 i ⟨j.val, hj⟩) := by
  unfold Spec.blockDiag
  rw [dif_pos ⟨by dsimp only; omega, hj⟩]
  congr 2
  exact Fin.ext (by dsimp only; omega)

theorem blockDiag_two (i : Fin 2000) (j : Fin 768) (hj : 256 ≤ j.val ∧ j.val < 512) :
    Spec.blockDiag W1 W2 W3 ⟨2000 + i.val, by omega⟩ j = W2 (ix2 i ⟨j.val - 256, by omega⟩) := by
  unfold Spec.blockDiag
  rw [dif_neg (by dsimp only; omega), dif_pos ⟨by dsimp only; omega, hj⟩]
  congr 2
  exact Fin.ext (by dsimp only; omega)

theorem blockDiag_three (i : Fin 1000) (j : Fin 768) (hj : 512 ≤ j.val) :
    Spec.blockDiag W1 W2 W3 ⟨4000 + i.val, by omega⟩ j = W3 (ix2 i ⟨j.val - 512, by omega⟩) := by
  unfold Spec.blockDiag
  rw [dif_neg (by dsimp only; omega), dif_neg (by dsimp only; omega), dif_pos ⟨by dsimp only; omega, hj⟩]
  congr 2
  exact Fin.ext (by dsimp only; omega)

theorem blockDiag_off (k : Fin 5000) (j : Fin 768)
    (h1 : ¬ (k.val < 2000 ∧ j.val < 256))
    (h2 : ¬ ((2000 ≤ k.val ∧ k.val < 4000) ∧ (256 ≤ j.val ∧ j.val < 512)))
    (h3 : ¬ (4000 ≤ k.val ∧ 512 ≤ j.val)) :
    Spec.blockDiag W1 W2 W3 k j = 0 := by
  unfold Spec.blockDiag
  rw [dif_neg h1, dif_neg h2, dif_neg h3]

end

/-- The hidden row, as one row of x against the block-diagonal matrix plus the joined bias, floored at zero. -/
theorem hidden_eq (x : Spec.Mat 16384 5000) (W1 : Spec.Mat 2000 256) (b1 : Spec.Vct 256) (W2 : Spec.Mat 2000 256)
    (b2 : Spec.Vct 256) (W3 : Spec.Mat 1000 256) (b3 : Spec.Vct 256) (r : Fin 16384) (j : Fin 768) :
    max (∑ k : Fin 5000, x (ix2 r k) * Spec.blockDiag W1 W2 W3 k j + Spec.joined b1 b2 b3 j) 0
      = Spec.hidden x W1 b1 W2 b2 W3 b3 r j := by
  unfold Spec.hidden Spec.joined
  by_cases h1 : j.val < 256
  · rw [dif_pos h1, dif_pos h1]
    unfold Spec.floorLin Spec.cols
    rw [sum_block (fun k : Fin 5000 => x (ix2 r k) * Spec.blockDiag W1 W2 W3 k j) 0 2000 (by decide)
      (fun k hk => by
        show x (ix2 r k) * Spec.blockDiag W1 W2 W3 k j = 0
        rw [blockDiag_off W1 W2 W3 k j (by omega) (by omega) (by omega), mul_zero])]
    congr 2
    apply Finset.sum_congr rfl
    intro i _
    rw [blockDiag_one W1 W2 W3 i j h1]
  · rw [dif_neg h1, dif_neg h1]
    by_cases h2 : j.val < 512
    · rw [dif_pos h2, dif_pos h2]
      unfold Spec.floorLin Spec.cols
      rw [sum_block (fun k : Fin 5000 => x (ix2 r k) * Spec.blockDiag W1 W2 W3 k j) 2000 2000 (by decide)
        (fun k hk => by
          show x (ix2 r k) * Spec.blockDiag W1 W2 W3 k j = 0
          rw [blockDiag_off W1 W2 W3 k j (by omega) (by omega) (by omega), mul_zero])]
      congr 2
      apply Finset.sum_congr rfl
      intro i _
      rw [blockDiag_two W1 W2 W3 i j ⟨by omega, h2⟩]
    · rw [dif_neg h2, dif_neg h2]
      unfold Spec.floorLin Spec.cols
      rw [sum_block (fun k : Fin 5000 => x (ix2 r k) * Spec.blockDiag W1 W2 W3 k j) 4000 1000 (by decide)
        (fun k hk => by
          show x (ix2 r k) * Spec.blockDiag W1 W2 W3 k j = 0
          rw [blockDiag_off W1 W2 W3 k j (by omega) (by omega) (by omega), mul_zero])]
      congr 2
      apply Finset.sum_congr rfl
      intro i _
      rw [blockDiag_three W1 W2 W3 i j (by omega)]

end Cert.Glue

end
-- ==== Proof.LibScatterSet.lean ====
/-
  A scatter whose body keeps the update ("set"), read at one index.

  `Host.scatter d f x idx upd` is a left fold over the update indices in row-major order: update index `j`
  lands at the operand index `d.resultIdx? j idx` when that is inside the operand, and is dropped otherwise.
  Two readings of the fold at an operand index `i`:

    * `scatter_apply_of_miss`: when no update index lands at `i`, the result at `i` is the operand's element,
      whatever the body `f`;
    * `scatter_set_apply_of_hit`: when the body returns the update (`f = fun _ b => b`) and `j` is the ONLY update
      index that lands at `i`, the result at `i` is the update's element at `j`.

  Both come from two facts about a left fold over a list (`foldl_of_miss`, `foldl_of_hit`), proved by induction on
  the list for any step function that leaves index `i` alone unless the step lands there, and sets it when it does;
  the second uses that the list of positions has no repeats.
-/
import Mathlib
import Idealize.ShloMosaic.PureOps.ShapeOps

namespace Cert.Lib.ScatterSet

open Idealize.ShloMosaic

section Fold

variable {ι α N : Type}

/-- A fold of steps, each of which leaves index `i` alone unless it lands at `i`, leaves `i` alone when no step of the
    list lands there. -/
theorem foldl_of_miss (g : N → Option ι) (step : (ι → α) → N → ι → α) (i : ι)
    (hkeep : ∀ r n, g n ≠ some i → step r n i = r i) :
    ∀ (l : List N) (r : ι → α), (∀ n ∈ l, g n ≠ some i) → l.foldl step r i = r i
  | [], _, _ => rfl
  | a :: t, r, h => by
      rw [List.foldl_cons, foldl_of_miss g step i hkeep t _ fun n hn => h n (List.mem_cons_of_mem _ hn)]
      exact hkeep r a (h a List.mem_cons_self)

/-- A fold of steps, each of which sets index `i` to its own value when it lands at `i` and leaves it alone otherwise,
    holds at `i` the value of the one step `n` of the list that lands there (the list without repeats, so that nothing
    after `n` touches `i` again). -/
theorem foldl_of_hit (g : N → Option ι) (step : (ι → α) → N → ι → α) (v : N → α) (i : ι)
    (hkeep : ∀ r n, g n ≠ some i → step r n i = r i) (hset : ∀ r n, g n = some i → step r n i = v n)
    (n : N) (hn : g n = some i) :
    ∀ (l : List N) (r : ι → α), l.Nodup → n ∈ l → (∀ n' ∈ l, g n' = some i → n' = n) → l.foldl step r i = v n
  | [], _, _, hmem, _ => absurd hmem List.not_mem_nil
  | a :: t, r, hnd, hmem, huniq => by
      rw [List.foldl_cons]
      rw [List.nodup_cons] at hnd
      by_cases hat : a = n
      · subst hat
        rw [foldl_of_miss g step i hkeep t _ fun n' hn' e =>
          hnd.1 (huniq n' (List.mem_cons_of_mem _ hn') e ▸ hn')]
        exact hset r a hn
      · have hmem' : n ∈ t := by
          rcases List.mem_cons.1 hmem with e | e
          · exact absurd e.symm hat
          · exact e
        exact foldl_of_hit g step v i hkeep hset n hn t _ hnd.2 hmem' fun n' hn' e =>
          huniq n' (List.mem_cons_of_mem _ hn') e

end Fold

variable {α : Type} {s si u : Shape} {w : Nat}

/-- One step of a scatter leaves index `i` alone unless its update index lands at `i`. -/
theorem step_keep (d : ScatterDims s si u) (f : α → α → α) (idx : IVec si w) (upd : u.Idx → α) (i : s.Idx)
    (r : s.Idx → α) (n : Fin u.numel) (h : d.resultIdx? (u.rowMajor.symm n) idx ≠ some i) :
    (match d.resultIdx? (u.rowMajor.symm n) idx with
      | some k => fun i' => if i' = k then f (r k) (upd (u.rowMajor.symm n)) else r i'
      | none => r) i = r i := by
  cases hg : d.resultIdx? (u.rowMajor.symm n) idx with
  | none => rfl
  | some k =>
    show (if i = k then f (r k) (upd (u.rowMajor.symm n)) else r i) = r i
    rw [if_neg]
    intro e
    exact h (by rw [hg, e])

/-- One step of a scatter whose body returns the update sets the index its update index lands at to the update's element. -/
theorem step_set (d : ScatterDims s si u) (idx : IVec si w) (upd : u.Idx → α) (i : s.Idx)
    (r : s.Idx → α) (n : Fin u.numel) (h : d.resultIdx? (u.rowMajor.symm n) idx = some i) :
    (match d.resultIdx? (u.rowMajor.symm n) idx with
      | some k => fun i' => if i' = k then (fun (_ b : α) => b) (r k) (upd (u.rowMajor.symm n)) else r i'
      | none => r) i = upd (u.rowMajor.symm n) := by
  rw [h]
  show (if i = i then upd (u.rowMajor.symm n) else r i) = _
  rw [if_pos rfl]

/-- Where no update index lands, a scatter leaves the operand's element. -/
theorem scatter_apply_of_miss (d : ScatterDims s si u) (f : α → α → α) (x : s.Idx → α) (idx : IVec si w) (upd : u.Idx → α)
    (i : s.Idx) (h : ∀ j, d.resultIdx? j idx ≠ some i) : Host.scatter d f x idx upd i = x i := by
  unfold Host.scatter
  exact foldl_of_miss (fun n => d.resultIdx? (u.rowMajor.symm n) idx) _ i
    (fun r n hn => step_keep d f idx upd i r n hn) _ x fun n _ => h _

/-- Where exactly one update index `j` lands, a scatter whose body returns the update holds the update's element at `j`. -/
theorem scatter_set_apply_of_hit (d : ScatterDims s si u) (x : s.Idx → α) (idx : IVec si w) (upd : u.Idx → α)
    (i : s.Idx) (j : u.Idx) (hj : d.resultIdx? j idx = some i) (huniq : ∀ j', d.resultIdx? j' idx = some i → j' = j) :
    Host.scatter d (fun _ b => b) x idx upd i = upd j := by
  unfold Host.scatter
  have h := foldl_of_hit (fun n => d.resultIdx? (u.rowMajor.symm n) idx) _ (fun n => upd (u.rowMajor.symm n)) i
    (fun r n hn => step_keep d (fun _ b => b) idx upd i r n hn) (fun r n hn => step_set d idx upd i r n hn)
    (u.rowMajor j) (by rw [Equiv.symm_apply_apply]; exact hj) (List.finRange u.numel) x (List.nodup_finRange _)
    (List.mem_finRange _) fun n' _ e => by
      have := huniq _ e
      rw [← this, Equiv.apply_symm_apply]
  rw [Equiv.symm_apply_apply] at h
  exact h

end Cert.Lib.ScatterSet
-- ==== Proof.GlueHost.lean ====
/-
  What the host operations before the first kernel leave in the arrays the kernels read, at an index.

  The host program writes a [5000, 768] matrix of zeros, sets three windows of it — the [2000, 256] matrix at (0, 0), the
  [2000, 256] matrix at (2000, 256) and the [1000, 256] matrix at (4000, 512) —, joins the three bias vectors of 256 into one of
  768, and changes the format of three arrays, which on the extended reals is the identity. Read at an index (k, j) the
  matrix is the block-diagonal arrangement of the three weight matrices, the joined vector at j is the bias of j's group,
  and the two convolution weight matrices are unchanged.

  A "set" scatter with one start index (o0, o1) and both axes window axes sends update index (a, b) to (o0 + a, o1 + b): inside
  the window the result holds the update's element, outside it the operand's.
-/
import Mathlib
import Idealize.ShloMosaic.Lib.Pipeline.Value
import proofs.«138483_j40407052320948_2_alg».proof.Proof.Spec
import proofs.«138483_j40407052320948_2_alg».proof.Proof.Gen.KernelIdeal.Launch
import proofs.«138483_j40407052320948_2_alg».proof.Proof.LibScatterSet

noncomputable section

namespace Cert.Glue

open Idealize.ShloMosaic Idealize.ShloMosaic.ValueIdx
open Cert.KernelIdeal Cert.KernelIdeal.Gen

/-! ## An operation over a literal family of three operands -/

section
variable {τ : Topo} {sig : RefSig} {Val : EltTy → Type}
theorem nary3_result {x a b y : Ref sig .tc}
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl
end

macro "results_rest" : tactic =>
  `(tactic| repeat (first
      | rw [StableHlo.nullary_result] | rw [StableHlo.unary_result] | rw [StableHlo.binary_result] | rw [StableHlo.ternary_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)))

/-! ## Three vectors joined -/

/-- Three vectors of 256 joined along their one axis, read at lane j. -/
theorem concat3_256_apply (a b c : S256.Idx → EReal)
    (h : Shape.Concatenates ([(⟨S256, a⟩ : (s : Shape) × (s.Idx → EReal)), ⟨S256, b⟩, ⟨S256, c⟩].map (·.1)) S768 (0 : Fin 1))
    (j : Fin 768) :
    concatenate S768 (0 : Fin 1) [⟨S256, a⟩, ⟨S256, b⟩, ⟨S256, c⟩] h (ix1 j) = Spec.joined a b c j := by
  unfold Spec.joined
  have hoff : ∀ (i : S256.Idx) (bb : Fin S256.rank), bb.cast (rfl : S256.rank = S768.rank) ≠ (0 : Fin 1) →
      (i bb).val = ((ix1 j : S768.Idx) (bb.cast rfl)).val := by
    intro i bb hbb
    exact absurd (Subsingleton.elim _ _) hbb
  by_cases h0 : j.val < 256
  · rw [dif_pos h0]
    exact concatenate_apply_piece (0 : Fin 1) _ h (ix1 j) 0 (by simp) S256 a rfl rfl 0 rfl
      (ix1 ⟨j.val, h0⟩) (hoff _) (by show 0 + j.val = j.val; omega)
  · rw [dif_neg h0]
    by_cases h1 : j.val < 512
    · rw [dif_pos h1]
      exact concatenate_apply_piece (0 : Fin 1) _ h (ix1 j) 1 (by simp) S256 b rfl rfl 256 (by simp)
        (ix1 ⟨j.val - 256, by omega⟩) (hoff _) (by show 256 + (j.val - 256) = j.val; omega)
    · rw [dif_neg h1]
      exact concatenate_apply_piece (0 : Fin 1) _ h (ix1 j) 2 (by simp) S256 c rfl rfl 512 (by simp)
        (ix1 ⟨j.val - 512, by have := j.isLt; omega⟩) (hoff _) (by show 512 + (j.val - 512) = j.val; omega)

/-! ## A window set into the [5000, 768] matrix -/

/-- A scatter of an [R, 256] window into the [5000, 768] matrix, both axes window axes, one start index of two words. -/
def dR (R : ℕ) (wf : ScatterDims.WF S5000x768 S2 ⟨2, ![R, 256]⟩ [0, 1] [] [0, 1] 0) : ScatterDims S5000x768 S2 ⟨2, ![R, 256]⟩ where
  updateWindowDims := [0, 1]
  insertedWindowDims := []
  scatterDimsToOperandDims := [0, 1]
  indexVectorDim := 0
  wf := wf

section
variable {R : ℕ} (wf : ScatterDims.WF S5000x768 S2 ⟨2, ![R, 256]⟩ [0, 1] [] [0, 1] 0)

theorem siIdx_dR (j : (⟨2, ![R, 256]⟩ : Shape).Idx) (c : Fin (dR R wf).scatterDimsToOperandDims.length) :
    (dR R wf).siIdx j c = (ix1 (⟨c.val, c.isLt⟩ : Fin 2) : S2.Idx) := by
  funext b
  match b with
  | ⟨0, _⟩ =>
    unfold ScatterDims.siIdx
    exact dif_pos rfl

theorem start_dR_0 (j : (⟨2, ![R, 256]⟩ : Shape).Idx) (idx : IVec S2 32) :
    (dR R wf).start j idx 0 = (idx (ix1 0)).toInt := by
  have h : (0 : Fin 2) ∈ (dR R wf).scatterDimsToOperandDims := List.mem_cons_self
  unfold ScatterDims.start
  rw [dif_pos h, siIdx_dR]
  rfl

theorem start_dR_1 (j : (⟨2, ![R, 256]⟩ : Shape).Idx) (idx : IVec S2 32) :
    (dR R wf).start j idx 1 = (idx (ix1 1)).toInt := by
  have h : (1 : Fin 2) ∈ (dR R wf).scatterDimsToOperandDims := List.mem_cons_of_mem _ List.mem_cons_self
  unfold ScatterDims.start
  rw [dif_pos h, siIdx_dR]
  rfl

theorem start_dR (j : (⟨2, ![R, 256]⟩ : Shape).Idx) (idx : IVec S2 32) (a : Fin 2) :
    (dR R wf).start j idx a = (idx (ix1 a)).toInt := by
  match a with
  | ⟨0, _⟩ => exact start_dR_0 wf j idx
  | ⟨1, _⟩ => exact start_dR_1 wf j idx

theorem window_dR_0 (j : (⟨2, ![R, 256]⟩ : Shape).Idx) : (dR R wf).window j 0 = (j 0).val := by
  have h : (0 : Fin 2) ∈ (dR R wf).sKept := by
    show (0 : Fin 2) ∈ S5000x768.kept ([] : List (Fin 2))
    decide
  unfold ScatterDims.window
  rw [dif_pos h]
  rfl

theorem window_dR_1 (j : (⟨2, ![R, 256]⟩ : Shape).Idx) : (dR R wf).window j 1 = (j 1).val := by
  have h : (1 : Fin 2) ∈ (dR R wf).sKept := by
    show (1 : Fin 2) ∈ S5000x768.kept ([] : List (Fin 2))
    decide
  unfold ScatterDims.window
  rw [dif_pos h]
  rfl

theorem window_dR (j : (⟨2, ![R, 256]⟩ : Shape).Idx) (a : Fin 2) : (dR R wf).window j a = (j a).val := by
  match a with
  | ⟨0, _⟩ => exact window_dR_0 wf j
  | ⟨1, _⟩ => exact window_dR_1 wf j

/-- Update index j lands at operand index i exactly when i is the start plus j on both axes. -/
theorem resultIdx_dR (idx : IVec S2 32) (off : Fin 2 → ℕ) (hidx : ∀ a : Fin 2, (idx (ix1 a)).toInt = off a)
    (hb : ∀ a : Fin 2, off a + (⟨2, ![R, 256]⟩ : Shape).size a ≤ S5000x768.size a)
    (j : (⟨2, ![R, 256]⟩ : Shape).Idx) (i : S5000x768.Idx) :
    (dR R wf).resultIdx? j idx = some i ↔ ∀ a : Fin 2, (i a).val = off a + (j a).val := by
  have hin : ∀ a : Fin 2, 0 ≤ (dR R wf).start j idx a + (dR R wf).window j a ∧
      (dR R wf).start j idx a + (dR R wf).window j a < S5000x768.size a := by
    intro a
    rw [start_dR, window_dR, hidx]
    have h1 := (j a).isLt
    have h2 := hb a
    constructor <;> omega
  unfold ScatterDims.resultIdx?
  rw [dif_pos hin]
  constructor
  · intro h a
    have h' := Option.some.inj h
    rw [← h']
    show ((dR R wf).start j idx a + (dR R wf).window j a).toNat = _
    rw [start_dR, window_dR, hidx]
    omega
  · intro h
    congr 1
    funext a
    apply Fin.ext
    show ((dR R wf).start j idx a + (dR R wf).window j a).toNat = (i a).val
    rw [start_dR, window_dR, hidx, h a]
    omega

/-- The scatter read at (k, c): inside the window at (o0, o1) the update's element, outside it the operand's. -/
theorem scatter_dR_apply {α : Type} (d : ScatterDims S5000x768 S2 ⟨2, ![R, 256]⟩) (hd : d = dR R wf)
    (x : S5000x768.Idx → α) (idx : IVec S2 32) (o0 o1 : ℕ)
    (h0 : (idx (ix1 0)).toInt = o0) (h1 : (idx (ix1 1)).toInt = o1) (hb0 : o0 + R ≤ 5000) (hb1 : o1 + 256 ≤ 768)
    (upd : (⟨2, ![R, 256]⟩ : Shape).Idx → α) (k : Fin 5000) (c : Fin 768) :
    Host.scatter d (fun _ b => b) x idx upd (ix2 k c) =
      if h : (o0 ≤ k.val ∧ k.val < o0 + R) ∧ (o1 ≤ c.val ∧ c.val < o1 + 256) then
        upd (ix2 ⟨k.val - o0, by omega⟩ ⟨c.val - o1, by omega⟩)
      else x (ix2 k c) := by
  subst hd
  have hidx : ∀ a : Fin 2, (idx (ix1 a)).toInt = (![o0, o1] : Fin 2 → ℕ) a := by
    intro a
    match a with
    | ⟨0, _⟩ => exact h0
    | ⟨1, _⟩ => exact h1
  have hb : ∀ a : Fin 2, (![o0, o1] : Fin 2 → ℕ) a + (⟨2, ![R, 256]⟩ : Shape).size a ≤ S5000x768.size a := by
    intro a
    match a with
    | ⟨0, _⟩ => exact hb0
    | ⟨1, _⟩ => exact hb1
  by_cases h : (o0 ≤ k.val ∧ k.val < o0 + R) ∧ (o1 ≤ c.val ∧ c.val < o1 + 256)
  · rw [dif_pos h]
    refine Cert.Lib.ScatterSet.scatter_set_apply_of_hit (dR R wf) x idx upd (ix2 k c)
      (ix2 ⟨k.val - o0, by omega⟩ ⟨c.val - o1, by omega⟩) ?_ ?_
    · rw [resultIdx_dR wf idx _ hidx hb]
      intro a
      match a with
      | ⟨0, _⟩ => show k.val = o0 + (k.val - o0); omega
      | ⟨1, _⟩ => show c.val = o1 + (c.val - o1); omega
    · intro j' hj'
      rw [resultIdx_dR wf idx _ hidx hb] at hj'
      have e0 : k.val = o0 + (j' 0).val := hj' 0
      have e1 : c.val = o1 + (j' 1).val := hj' 1
      funext a
      apply Fin.ext
      match a with
      | ⟨0, _⟩ => show (j' 0).val = k.val - o0; omega
      | ⟨1, _⟩ => show (j' 1).val = c.val - o1; omega
  · rw [dif_neg h]
    refine Cert.Lib.ScatterSet.scatter_apply_of_miss (dR R wf) _ x idx upd (ix2 k c) ?_
    intro j' hj'
    rw [resultIdx_dR wf idx _ hidx hb] at hj'
    have e0 : k.val = o0 + (j' 0).val := hj' 0
    have e1 : c.val = o1 + (j' 1).val := hj' 1
    have l0 := idx2_lt0 j'
    have l1 := idx2_lt1 j'
    exact h ⟨⟨by omega, by omega⟩, ⟨by omega, by omega⟩⟩

end

/-! ## The host operations' results -/

/-- The matrix the first kernel multiplies by, as the operations' composed term. -/
theorem wbig_eq (V0 : Valuation τ sig (Elt Ideal)) :
    (StableHlo.after (hostOps0 (F := Ideal)) V0 (Proc.devRef .tc main_v14) : S5000x768.Idx → EReal)
      = truncf .bf16
          (Host.scatter scatter_S5000x768_S2_S1000x256_01_n_01_0 (fun _ b => b)
            (Host.scatter scatter_S5000x768_S2_S2000x256_01_n_01_0 (fun _ b => b)
              (Host.scatter scatter_S5000x768_S2_S2000x256_01_n_01_0 (fun _ b => b)
                (broadcastInDim S5000x768 ![] bcast_S_S5000x768 (constant (F := Ideal) S_ .f32 0x00000000#32))
                (concatenate S2 0 [⟨S1, broadcastInDim S1 ![] bcast_S_S1 (constantI S_ 32 0#32)⟩,
                  ⟨S1, broadcastInDim S1 ![] bcast_S_S1 (constantI S_ 32 0#32)⟩] concatenates_S1_S1_S2_d0)
                (V0 (Proc.devRef .tc main_arg2) : S2000x256.Idx → EReal))
              (concatenate S2 0 [⟨S1, broadcastInDim S1 ![] bcast_S_S1 (constantI S_ 32 2000#32)⟩,
                ⟨S1, broadcastInDim S1 ![] bcast_S_S1 (constantI S_ 32 256#32)⟩] concatenates_S1_S1_S2_d0)
              (V0 (Proc.devRef .tc main_arg4) : S2000x256.Idx → EReal))
            (concatenate S2 0 [⟨S1, broadcastInDim S1 ![] bcast_S_S1 (constantI S_ 32 4000#32)⟩,
              ⟨S1, broadcastInDim S1 ![] bcast_S_S1 (constantI S_ 32 512#32)⟩] concatenates_S1_S1_S2_d0)
            (V0 (Proc.devRef .tc main_arg6) : S1000x256.Idx → EReal))
          bitsLt_bf16_f32 := by
  simp only [hostOps0]
  after_results

/-- The joined bias vector, as the operations' composed term. -/
theorem bbig_eq (V0 : Valuation τ sig (Elt Ideal)) :
    (StableHlo.after (hostOps0 (F := Ideal)) V0 (Proc.devRef .tc main_v13) : S768.Idx → EReal)
      = concatenate S768 0 [⟨S256, (V0 (Proc.devRef .tc main_arg3) : S256.Idx → EReal)⟩, ⟨S256, (V0 (Proc.devRef .tc main_arg5) : S256.Idx → EReal)⟩,
          ⟨S256, (V0 (Proc.devRef .tc main_arg7) : S256.Idx → EReal)⟩] concatenates_S256_S256_S256_S768_d0 := by
  simp only [hostOps0]
  simp only [StableHlo.after_cons, StableHlo.after_nil]
  rw [StableHlo.unary_result_ne]; rotate_left; decide
  rw [StableHlo.unary_result_ne]; rotate_left; decide
  rw [StableHlo.unary_result_ne]; rotate_left; decide
  rw [nary3_result]
  results_rest
  rfl

/-- Two one-word vectors joined: the words of the pair. -/
theorem concat2_words (a b : S1.Idx → BitVec 32) :
    (concatenate S2 0 [⟨S1, a⟩, ⟨S1, b⟩] concatenates_S1_S1_S2_d0 : IVec S2 32) (ix1 0) = a (ix1 0) ∧
    (concatenate S2 0 [⟨S1, a⟩, ⟨S1, b⟩] concatenates_S1_S1_S2_d0 : IVec S2 32) (ix1 1) = b (ix1 0) := by
  have hoff : ∀ (q : Fin 2) (i : S1.Idx) (bb : Fin S1.rank), bb.cast (rfl : S1.rank = S2.rank) ≠ (0 : Fin 1) →
      (i bb).val = ((ix1 q : S2.Idx) (bb.cast rfl)).val := by
    intro q i bb hbb
    exact absurd (Subsingleton.elim _ _) hbb
  have hc : Shape.Concatenates ([(⟨S1, a⟩ : (s : Shape) × (s.Idx → BitVec 32)), ⟨S1, b⟩].map (·.1)) S2 (0 : Fin 1) :=
    concatenates_S1_S1_S2_d0
  constructor
  · exact concatenate_apply_piece (0 : Fin 1) [⟨S1, a⟩, ⟨S1, b⟩] hc (ix1 (0 : Fin 2)) 0 (by simp)
      S1 a rfl rfl 0 rfl (ix1 (0 : Fin 1)) (hoff 0 _) rfl
  · exact concatenate_apply_piece (0 : Fin 1) [⟨S1, a⟩, ⟨S1, b⟩] hc (ix1 (1 : Fin 2)) 1 (by simp)
      S1 b rfl rfl 1 (by simp) (ix1 (0 : Fin 1)) (hoff 1 _) rfl

/-- The start index of a scatter: two constants joined, read signed. -/
theorem startIdx_words (p q : BitVec 32) :
    ((concatenate S2 0 [⟨S1, broadcastInDim S1 ![] bcast_S_S1 (constantI S_ 32 p)⟩,
        ⟨S1, broadcastInDim S1 ![] bcast_S_S1 (constantI S_ 32 q)⟩] concatenates_S1_S1_S2_d0 : IVec S2 32) (ix1 0)).toInt = p.toInt ∧
    ((concatenate S2 0 [⟨S1, broadcastInDim S1 ![] bcast_S_S1 (constantI S_ 32 p)⟩,
        ⟨S1, broadcastInDim S1 ![] bcast_S_S1 (constantI S_ 32 q)⟩] concatenates_S1_S1_S2_d0 : IVec S2 32) (ix1 1)).toInt = q.toInt := by
  constructor
  · rw [(concat2_words _ _).1]; rfl
  · rw [(concat2_words _ _).2]; rfl

/-- **The matrix the first kernel multiplies by is the block-diagonal arrangement of the three weight matrices.** -/
theorem wbig_apply (V0 : Valuation τ sig (Elt Ideal)) (k : Fin 5000) (j : Fin 768) :
    (StableHlo.after (hostOps0 (F := Ideal)) V0 (Proc.devRef .tc main_v14) : S5000x768.Idx → EReal) (ix2 k j)
      = Spec.blockDiag (V0 (Proc.devRef .tc main_arg2)) (V0 (Proc.devRef .tc main_arg4)) (V0 (Proc.devRef .tc main_arg6)) k j := by
  rw [wbig_eq, truncf_apply]
  rw [scatter_dR_apply (R := 1000) Facts₀.scatter_S5000x768_S2_S1000x256_01_n_01_0_wf
    scatter_S5000x768_S2_S1000x256_01_n_01_0 rfl _ _ 4000 512
    ((startIdx_words _ _).1.trans (by decide)) ((startIdx_words _ _).2.trans (by decide)) (by decide) (by decide)]
  rw [scatter_dR_apply (R := 2000) Facts₀.scatter_S5000x768_S2_S2000x256_01_n_01_0_wf
    scatter_S5000x768_S2_S2000x256_01_n_01_0 rfl _ _ 2000 256
    ((startIdx_words _ _).1.trans (by decide)) ((startIdx_words _ _).2.trans (by decide)) (by decide) (by decide)]
  rw [scatter_dR_apply (R := 2000) Facts₀.scatter_S5000x768_S2_S2000x256_01_n_01_0_wf
    scatter_S5000x768_S2_S2000x256_01_n_01_0 rfl _ _ 0 0
    ((startIdx_words _ _).1.trans (by decide)) ((startIdx_words _ _).2.trans (by decide)) (by decide) (by decide)]
  unfold Spec.blockDiag
  have hk := k.isLt
  have hj := j.isLt
  have hz : broadcastInDim S5000x768 ![] bcast_S_S5000x768 (constant (F := Ideal) S_ .f32 0x00000000#32) (ix2 k j)
      = (0 : EReal) := by
    show Ideal.ofBits .f32 0x00000000#32 = 0
    simp [Ideal.ofBits, Ideal.ieee]
  rw [hz]
  split_ifs <;> first | rfl | (exfalso; omega)

/-- **The joined bias vector at lane j is the bias of j's group.** -/
theorem bbig_apply (V0 : Valuation τ sig (Elt Ideal)) (j : Fin 768) :
    (StableHlo.after (hostOps0 (F := Ideal)) V0 (Proc.devRef .tc main_v13) : S768.Idx → EReal) (ix1 j)
      = Spec.joined (V0 (Proc.devRef .tc main_arg3)) (V0 (Proc.devRef .tc main_arg5)) (V0 (Proc.devRef .tc main_arg7)) j := by
  rw [bbig_eq]
  exact concat3_256_apply _ _ _ _ j

/-- The first convolution's weight matrix is unchanged by the format change. -/
theorem gw1_keep (V0 : Valuation τ sig (Elt Ideal)) :
    (StableHlo.after (hostOps0 (F := Ideal)) V0 (Proc.devRef .tc main_v15) : S768x256.Idx → EReal)
      = V0 (Proc.devRef .tc main_arg8) := by
  simp only [hostOps0]
  after_results
  rfl

/-- The second convolution's weight matrix is unchanged by the format change. -/
theorem gw2_keep (V0 : Valuation τ sig (Elt Ideal)) :
    (StableHlo.after (hostOps0 (F := Ideal)) V0 (Proc.devRef .tc main_v16) : S256x32.Idx → EReal)
      = V0 (Proc.devRef .tc main_arg10) := by
  simp only [hostOps0]
  after_results
  rfl

end Cert.Glue

end
-- ==== Proof.Assemble.lean ====
/-
  The idealized kernel's result, stage by stage, is the network of the specification. After the host operations the
  wide weight matrix is the block-diagonal arrangement and the wide bias the three biases joined, so the first
  pipeline's array is the hidden rows times the first convolution's weights; the second pipeline's array is the floored
  first convolution times the second's weights; the third pipeline's array is the log-softmax of the second convolution.
  The adjacency matrix's entries are real numbers by the precondition, which the accumulations use.
-/
import proofs.«138483_j40407052320948_2_alg».proof.Proof.Whole
import proofs.«138483_j40407052320948_2_alg».proof.Proof.BranchValue
import proofs.«138483_j40407052320948_2_alg».proof.Proof.Conv1Value
import proofs.«138483_j40407052320948_2_alg».proof.Proof.Conv2Value
import proofs.«138483_j40407052320948_2_alg».proof.Proof.Glue
import proofs.«138483_j40407052320948_2_alg».proof.Proof.GlueHost
import proofs.«138483_j40407052320948_2_alg».proof.Proof.Spec

set_option maxRecDepth 16384

noncomputable section

namespace Cert.KernelIdeal.Whole

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

open Cert.LibRealSum (IsReal)

variable (m : (ℓ : Loc nD τ sig) → Buf (Elt Ideal) ℓ) (ρ : Dev nD → PrngReg) (c : Dev nD)

/-- The twelve argument arrays at launch. -/
abbrev a0 : Spec.Mat 16384 5000 := m ((c : Thread nD τ).loc main_arg0)
abbrev a1 : Spec.Mat 16384 16384 := m ((c : Thread nD τ).loc main_arg1)
abbrev a2 : Spec.Mat 2000 256 := m ((c : Thread nD τ).loc main_arg2)
abbrev a3 : Spec.Vct 256 := m ((c : Thread nD τ).loc main_arg3)
abbrev a4 : Spec.Mat 2000 256 := m ((c : Thread nD τ).loc main_arg4)
abbrev a5 : Spec.Vct 256 := m ((c : Thread nD τ).loc main_arg5)
abbrev a6 : Spec.Mat 1000 256 := m ((c : Thread nD τ).loc main_arg6)
abbrev a7 : Spec.Vct 256 := m ((c : Thread nD τ).loc main_arg7)
abbrev a8 : Spec.Mat 768 256 := m ((c : Thread nD τ).loc main_arg8)
abbrev a9 : Spec.Vct 256 := m ((c : Thread nD τ).loc main_arg9)
abbrev a10 : Spec.Mat 256 32 := m ((c : Thread nD τ).loc main_arg10)
abbrev a11 : Spec.Vct 32 := m ((c : Thread nD τ).loc main_arg11)

/-! ## The buffers the pipelines read, stage by stage -/

theorem w1_arg (b : Ref sig .tc) (h : b ∉ hostOps0_W) : W1 m ρ c (Proc.devRef .tc b) = m ((c : Thread nD τ).loc b) :=
  StableHlo.after_of_writes_sub hostOps0 _ hostOps0_writes h

theorem v1_arg0 : (V1 m ρ c main_arg0 : S16384x5000.Idx → EReal) = a0 m c := w1_arg m ρ c main_arg0 (by decide)
theorem v1_wide (k : Fin 5000) (j : Fin 768) :
    (V1 m ρ c main_v14 : S5000x768.Idx → EReal) (ix2 k j) = Spec.blockDiag (a2 m c) (a4 m c) (a6 m c) k j :=
  Cert.Glue.wbig_apply (W0 m ρ c) k j
theorem v1_bias (j : Fin 768) :
    (V1 m ρ c main_v13 : S768.Idx → EReal) (ix1 j) = Spec.joined (a3 m c) (a5 m c) (a7 m c) j :=
  Cert.Glue.bbig_apply (W0 m ρ c) j
theorem v1_gw1 : (V1 m ρ c main_v15 : S768x256.Idx → EReal) = a8 m c := Cert.Glue.gw1_keep (W0 m ρ c)

theorem v2_adj : (V2 m ρ c main_arg1 : S16384x16384.Idx → EReal) = a1 m c :=
  (W2_of_ne m ρ c main_arg1 (by decide)).trans (w1_arg m ρ c main_arg1 (by decide))
theorem v2_feat : (V2 m ρ c main_v17 : S16384x256.Idx → EReal) = Branch.G (V1 m ρ) c :=
  (W2_arr m ρ c 4).trans (Branch.final (V1 m ρ) c)
theorem v2_bias : (V2 m ρ c main_arg9 : S256.Idx → EReal) = a9 m c :=
  (W2_of_ne m ρ c main_arg9 (by decide)).trans (w1_arg m ρ c main_arg9 (by decide))
theorem v2_gw2 : (V2 m ρ c main_v16 : S256x32.Idx → EReal) = a10 m c :=
  (W2_of_ne m ρ c main_v16 (by decide)).trans (Cert.Glue.gw2_keep (W0 m ρ c))

theorem v3_adj : (V3 m ρ c main_arg1 : S16384x16384.Idx → EReal) = a1 m c :=
  ((W3_arr m ρ c 0).trans (((Conv1.dat (V2 m ρ) c).arrAt_in 0 rfl _).trans (Conv1.A_eq (V2 m ρ) c 0))).trans (v2_adj m ρ c)
theorem v3_bias : (V3 m ρ c main_arg11 : S32.Idx → EReal) = a11 m c :=
  (W3_of_ne m ρ c main_arg11 (by decide)).trans ((W2_of_ne m ρ c main_arg11 (by decide)).trans (w1_arg m ρ c main_arg11 (by decide)))

/-! ## The three arrays are the specification's -/

/-- The first pipeline's array: the hidden rows times the first convolution's weights. -/
theorem stage1 (k : Fin 16384) (j : Fin 256) :
    Branch.G (V1 m ρ) c (ix2 k j) = Spec.support1 (a0 m c) (a2 m c) (a3 m c) (a4 m c) (a5 m c) (a6 m c) (a7 m c) (a8 m c) k j := by
  rw [Branch.G_at (V1 m ρ) c _ k j rfl rfl]
  unfold Branch.layer Spec.support1
  refine Finset.sum_congr rfl fun j' _ => ?_
  refine congrArg₂ (· * ·) ?_ (congrFun (v1_gw1 m ρ c) _)
  refine Eq.trans ?_ (Cert.Glue.hidden_eq (a0 m c) (a2 m c) (a3 m c) (a4 m c) (a5 m c) (a6 m c) (a7 m c) k j')
  refine congrArg (max · 0) (congrArg₂ (· + ·) (Finset.sum_congr rfl fun k' _ => ?_) (v1_bias m ρ c j'))
  exact congrArg₂ (· * ·) (congrFun (v1_arg0 m ρ c) _) (v1_wide m ρ c k' j')

/-- The second pipeline's array: the floored first convolution times the second's weights. -/
theorem stage2 (k : Fin 16384) (j : Fin 32) :
    Conv1.G (V2 m ρ) c (ix2 k j)
      = Spec.support2 (a0 m c) (a1 m c) (a2 m c) (a3 m c) (a4 m c) (a5 m c) (a6 m c) (a7 m c) (a8 m c) (a9 m c) (a10 m c) k j := by
  rw [Conv1.G_at (V2 m ρ) c _ k j rfl rfl]
  unfold Spec.support2 Spec.hidden2 Spec.conv
  refine Finset.sum_congr rfl fun j' _ => ?_
  refine congrArg₂ (· * ·) ?_ (congrFun (v2_gw2 m ρ c) _)
  refine congrArg (max · 0) (congrArg₂ (· + ·) (Finset.sum_congr rfl fun k' _ => ?_) (congrFun (v2_bias m ρ c) _))
  refine congrArg₂ (· * ·) (congrFun (v2_adj m ρ c) _) ?_
  exact (congrFun (v2_feat m ρ c) _).trans (stage1 m ρ c k' j')

theorem v3_feat (hpre : ∀ i, IsReal (a1 m c i)) : (V3 m ρ c main_v18 : S16384x32.Idx → EReal) = Conv1.G (V2 m ρ) c :=
  (W3_arr m ρ c 4).trans (Conv1.final (V2 m ρ) c (fun i => (congrFun (v2_adj m ρ c) i).symm ▸ hpre i))

/-- The third pipeline's array: the specification's result. -/
theorem stage3 (hpre : ∀ i, IsReal (a1 m c i)) (r : Fin 16384) (q : Fin 32) :
    Conv2.G (V3 m ρ) c (ix2 r q) = Spec.out (a0 m c) (a1 m c) (a2 m c) (a3 m c) (a4 m c) (a5 m c) (a6 m c) (a7 m c) (a8 m c) (a9 m c) (a10 m c) (a11 m c) r q := by
  rw [Conv2.G_at (V3 m ρ) c _ r q rfl rfl]
  unfold Spec.out Spec.logits Spec.conv
  refine congrArg (fun f => Cert.LibRowKL.logSoftTwice f q) (funext fun j => ?_)
  refine congrArg₂ (· + ·) (Finset.sum_congr rfl fun k _ => ?_) (congrFun (v3_bias m ρ c) _)
  refine congrArg₂ (· * ·) (congrFun (v3_adj m ρ c) _) ?_
  exact (congrFun (v3_feat m ρ c hpre) _).trans (stage2 m ρ c k j)

/-- THE KERNEL'S RESULT: what the result buffer holds after the last stage. -/
theorem result_eq (hpre : ∀ i, IsReal (a1 m c i)) : (W4 m ρ c (Proc.devRef .tc main_v19) : S16384x32.Idx → EReal)
    = fun i => Spec.out (a0 m c) (a1 m c) (a2 m c) (a3 m c) (a4 m c) (a5 m c) (a6 m c) (a7 m c) (a8 m c) (a9 m c) (a10 m c) (a11 m c) ⟨(i 0).val, (i 0).isLt⟩ ⟨(i 1).val, (i 1).isLt⟩ := by
  refine ((W4_arr m ρ c 3).trans (Conv2.final (V3 m ρ) c (fun i => (congrFun (v3_adj m ρ c) i).symm ▸ hpre i))).trans ?_
  funext i
  obtain ⟨r, q, rfl⟩ : ∃ (r : Fin 16384) (q : Fin 32), i = ix2 r q := ⟨i 0, i 1, eq_ix2 i⟩
  exact stage3 m ρ c hpre r q

end Cert.KernelIdeal.Whole

end
-- ==== Proof.LibFiniteAll.lean ====
/-
  An array every entry of which passes the test |x| < +∞ consists of real numbers.

  On the extended reals the absolute value is max x (−x), the pattern 0x7F800000 of the 32-bit format denotes
  +∞, and the comparison "less than" is the order's. An extended real x with max x (−x) < +∞ is neither +∞ nor
  −∞ (at either infinity the maximum is +∞), so it is a real number. A conjunction over a whole array of such
  tests, computed as a reduction by "and" from the constant 1 down to a single word, equals 1 only if every
  test does; hence every entry of the array is a real number.
-/
import Mathlib
import Idealize.ShloMosaic.PureOps.Ideal
import Idealize.ShloMosaic.PureOps.Ideal.Laws
import Idealize.ShloMosaic.Lib.ReduceAll
import Idealize.ShloMosaic.Lib.ValueIdx
import proofs.«138483_j40407052320948_2_alg».proof.Proof.LibRealSum

noncomputable section

open Idealize.ShloMosaic
open Cert.LibRealSum

namespace Cert.Lib.FiniteAll

/-- The pattern of the positive infinity denotes +∞. -/
theorem ofBits_inf_f32 : Ideal.ofBits .f32 0x7F800000#32 = ⊤ := by simp [Ideal.ofBits, Ideal.ieee]

/-- An extended real whose absolute value is below +∞ is a real number. -/
theorem isReal_of_abs_lt_top (x : EReal) (h : max x (-x) < ⊤) : IsReal x := by
  induction x using EReal.rec with
  | bot => simp at h
  | coe a => exact ⟨a, rfl⟩
  | top => simp at h

/-- The same, with the test as the comparison word it is computed as. -/
theorem isReal_of_cmp (x : EReal)
    (h : Ideal.cmp .olt (max x (-x)) (Ideal.ofBits .f32 0x7F800000#32) = 1#1) : IsReal x := by
  rw [ofBits_inf_f32] at h
  refine isReal_of_abs_lt_top x ?_
  by_contra hn
  simp [Ideal.cmp, hn] at h

/-- The shape with no axes has one index. -/
instance subsingleton_scalarIdx : Subsingleton (⟨0, ![]⟩ : Shape).Idx := ⟨fun a b => funext fun d => d.elim0⟩

/-- If the conjunction over the whole array of the tests |x i| < +∞ is 1, every entry is a real number. -/
theorem all_real {s : Shape} {axes : List (Fin s.rank)} (x : FVec Ideal s .f32) (init : IVec ⟨0, ![]⟩ 1)
    (hr : s.ReducesTo axes ⟨0, ![]⟩) (hu : 0 < (⟨0, ![]⟩ : Shape).numel)
    (hb : (⟨0, ![]⟩ : Shape).BroadcastsInDim s (![] : Fin 0 → Fin s.rank))
    (e : Host.reduce IntOp.andi
          (cmpf .olt (Host.absf x) (broadcastInDim s ![] hb (constant (F := Ideal) ⟨0, ![]⟩ .f32 0x7F800000#32)))
          init hr hu ValueIdx.ix0 = 1#1)
    (i : s.Idx) : IsReal (x i) := by
  have h := Host.reduce_andi_all _ init hr hu ValueIdx.ix0 e i
  exact isReal_of_cmp (x i) h

end Cert.Lib.FiniteAll

end
-- ==== Proof.GlueFin.lean ====
/-
  Under the precondition every entry of the adjacency matrix is a real number.

  The precondition is the conjunction, over the twelve argument arrays, of "every entry x has |x| < +∞", each computed
  as a reduction by "and" of the elementwise tests down to one word, and the twelve words joined by "and" from the left.
  A conjunction of words that is 1 has both its words 1; peeling the ten outer conjunctions leaves the first two arrays'
  words, the second of which is the adjacency matrix's; and an array whose test word is 1 consists of real numbers.
-/
import Mathlib
import proofs.«138483_j40407052320948_2_alg».proof.Defs
import proofs.«138483_j40407052320948_2_alg».proof.Proof.Gen.Pre_finite_inputs
import proofs.«138483_j40407052320948_2_alg».proof.Proof.LibFiniteAll

noncomputable section

namespace Cert.Glue

open Idealize.ShloMosaic Idealize.ShloMosaic.ValueIdx

/-- **Every entry of the adjacency matrix is a real number.** -/
theorem adj_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m)
    (c : Dev Cert.KernelIdeal.nD) (i : Cert.KernelIdeal.S16384x16384.Idx) :
    Cert.LibRealSum.IsReal ((m ((c.tc : Thread Cert.KernelIdeal.nD Cert.KernelIdeal.τ).loc Cert.KernelIdeal.main_arg1) :
      Cert.KernelIdeal.S16384x16384.Idx → EReal) i) := by
  have h0 := congrFun (h c) ValueIdx.ix0
  dsimp only [Cert.Pre_finite_inputs.fn, Cert.Pre_finite_inputs.fn_part1, Cert.Pre_finite_inputs.fn_part2,
    Cert.Pre_finite_inputs.fn_part3] at h0
  have e11 := (IntOp.andi_eq_one.1 h0).1
  have e10 := (IntOp.andi_eq_one.1 e11).1
  have e9 := (IntOp.andi_eq_one.1 e10).1
  have e8 := (IntOp.andi_eq_one.1 e9).1
  have e7 := (IntOp.andi_eq_one.1 e8).1
  have e6 := (IntOp.andi_eq_one.1 e7).1
  have e5 := (IntOp.andi_eq_one.1 e6).1
  have e4 := (IntOp.andi_eq_one.1 e5).1
  have e3 := (IntOp.andi_eq_one.1 e4).1
  have e2 := (IntOp.andi_eq_one.1 e3).1
  have e1 := (IntOp.andi_eq_one.1 e2).2
  exact Cert.Lib.FiniteAll.all_real _ _ _ _ _ e1 i

end Cert.Glue

end
-- ==== Proof.LibConcat3.lean ====
/-
  Three arrays of one shape [R, n] laid side by side along the lanes, read at an index.

  The concatenation of three [R, n] arrays along axis 1 is an [R, w] array with w = n + n + n. Its entry in row r
  and lane l comes from the piece whose span of lanes holds l: the first at lane l when l < n, the second at lane
  l - n when n ≤ l < n + n, the third at lane l - (n + n) otherwise; the row is the same in every case.
-/
import Idealize.ShloMosaic.Lib.Pipeline.Value
import Idealize.ShloMosaic.Lib.ValueIdx

namespace Cert.LibConcat3

open Idealize.ShloMosaic Idealize.ShloMosaic.ValueIdx

/-- Row `r`, lane `l` of three [R, n] arrays laid side by side: the piece whose lanes hold `l`, at `l` less the
    lanes of the pieces before it. -/
def side3 {α : Type} {R n w : Nat} (hw : w = n + n + n) (a b c : (⟨2, ![R, n]⟩ : Shape).Idx → α)
    (r : Fin R) (l : Fin w) : α :=
  if h0 : l.val < n then a (ix2 r ⟨l.val, h0⟩)
  else if h1 : l.val < n + n then b (ix2 r ⟨l.val - n, by omega⟩)
  else c (ix2 r ⟨l.val - (n + n), by have := l.isLt; omega⟩)

/-- `side3` reads one row of each piece: pieces that agree on the rows read give the same row of 3 n lanes. -/
theorem side3_congr {α : Type} {R R' n w : Nat} (hw : w = n + n + n)
    {a b c : (⟨2, ![R, n]⟩ : Shape).Idx → α} {a' b' c' : (⟨2, ![R', n]⟩ : Shape).Idx → α} {r : Fin R} {r' : Fin R'}
    (ha : ∀ q : Fin n, a (ix2 r q) = a' (ix2 r' q)) (hb : ∀ q : Fin n, b (ix2 r q) = b' (ix2 r' q))
    (hc : ∀ q : Fin n, c (ix2 r q) = c' (ix2 r' q)) :
    side3 hw a b c r = side3 hw a' b' c' r' := by
  funext l
  unfold side3
  by_cases h0 : l.val < n
  · rw [dif_pos h0, dif_pos h0]; exact ha _
  · rw [dif_neg h0, dif_neg h0]
    by_cases h1 : l.val < n + n
    · rw [dif_pos h1, dif_pos h1]; exact hb _
    · rw [dif_neg h1, dif_neg h1]; exact hc _

/-- **The concatenation of three [R, n] arrays along the lanes, read at row `r` and lane `l`**, is `side3`. -/
theorem concatenate3_lanes_apply {α : Type} {R n w : Nat} (hw : w = n + n + n)
    (a b c : (⟨2, ![R, n]⟩ : Shape).Idx → α)
    (h : Shape.Concatenates ([(⟨⟨2, ![R, n]⟩, a⟩ : (s : Shape) × (s.Idx → α)), ⟨⟨2, ![R, n]⟩, b⟩, ⟨⟨2, ![R, n]⟩, c⟩].map (·.1))
      ⟨2, ![R, w]⟩ (1 : Fin 2))
    (r : Fin R) (l : Fin w) :
    concatenate ⟨2, ![R, w]⟩ (1 : Fin 2) [⟨⟨2, ![R, n]⟩, a⟩, ⟨⟨2, ![R, n]⟩, b⟩, ⟨⟨2, ![R, n]⟩, c⟩] h (ix2 r l)
      = side3 hw a b c r l := by
  unfold side3
  have hoff : ∀ (i : (⟨2, ![R, n]⟩ : Shape).Idx), (i 0).val = r.val →
      ∀ bb : Fin (⟨2, ![R, n]⟩ : Shape).rank, bb.cast (rfl : (⟨2, ![R, n]⟩ : Shape).rank = (⟨2, ![R, w]⟩ : Shape).rank) ≠ (1 : Fin 2) →
        (i bb).val = ((ix2 r l : (⟨2, ![R, w]⟩ : Shape).Idx) (bb.cast rfl)).val := by
    intro i hi bb hbb
    match bb with
    | ⟨0, _⟩ => exact hi
    | ⟨1, _⟩ => exact absurd rfl hbb
  by_cases h0 : l.val < n
  · rw [dif_pos h0]
    exact concatenate_apply_piece (1 : Fin 2) _ h (ix2 r l) 0 (by simp) ⟨2, ![R, n]⟩ a rfl rfl 0 rfl
      (ix2 r ⟨l.val, h0⟩) (hoff _ rfl) (by show 0 + l.val = l.val; omega)
  · rw [dif_neg h0]
    by_cases h1 : l.val < n + n
    · rw [dif_pos h1]
      exact concatenate_apply_piece (1 : Fin 2) _ h (ix2 r l) 1 (by simp) ⟨2, ![R, n]⟩ b rfl rfl n (by simp)
        (ix2 r ⟨l.val - n, by omega⟩) (hoff _ rfl) (by show n + (l.val - n) = l.val; omega)
    · rw [dif_neg h1]
      exact concatenate_apply_piece (1 : Fin 2) _ h (ix2 r l) 2 (by simp) ⟨2, ![R, n]⟩ c rfl rfl (n + n) (by simp)
        (ix2 r ⟨l.val - (n + n), by have := l.isLt; omega⟩) (hoff _ rfl)
        (by show n + n + (l.val - (n + n)) = l.val; omega)

end Cert.LibConcat3
-- ==== Proof.RefRead.lean ====
/-
  The reference program, read operation by operation, computes the specification's result.

  Each of the three groups of columns of a row goes through a linear layer and a floor at zero; the three results are laid
  side by side (the hidden row); the hidden rows are multiplied by a weight matrix, mixed through the adjacency matrix,
  shifted by a bias and floored; the same once more without the floor gives the logits; and the row-wise log-softmax,
  with the row's maximum subtracted first, gives the result. Every stage is identified, entry by entry, with the
  specification's function of the same name. No finiteness is needed: both sides are the same function of the twelve
  arrays over all extended reals.
-/
import Mathlib
import Idealize.ShloMosaic.PureOps.Ideal
import Idealize.ShloMosaic.PureOps.Ideal.Laws
import Idealize.ShloMosaic.Lib.ValueIdx
import proofs.«138483_j40407052320948_2_alg».proof.Proof.RefReadP
import proofs.«138483_j40407052320948_2_alg».proof.Proof.Spec
import proofs.«138483_j40407052320948_2_alg».proof.Proof.LibConcat3
import proofs.«138483_j40407052320948_2_alg».proof.Proof.LibLogSoftmaxRows

noncomputable section

namespace Cert.RefRead

open Cert.ReferenceIdeal Cert.ReferenceIdeal.Gen Cert.ReferenceIdeal.ReadP
open Idealize.ShloMosaic Idealize.ShloMosaic.ValueIdx Idealize.ShloMosaic.StableHlo
open scoped BigOperators

variable (x0 : (⟨S16384x5000, .f32⟩ : BufTy).Contents (Elt Ideal)) (x1 : (⟨S16384x16384, .f32⟩ : BufTy).Contents (Elt Ideal)) (x2 : (⟨S2000x256, .f32⟩ : BufTy).Contents (Elt Ideal)) (x3 : (⟨S256, .f32⟩ : BufTy).Contents (Elt Ideal)) (x4 : (⟨S2000x256, .f32⟩ : BufTy).Contents (Elt Ideal)) (x5 : (⟨S256, .f32⟩ : BufTy).Contents (Elt Ideal)) (x6 : (⟨S1000x256, .f32⟩ : BufTy).Contents (Elt Ideal)) (x7 : (⟨S256, .f32⟩ : BufTy).Contents (Elt Ideal)) (x8 : (⟨S768x256, .f32⟩ : BufTy).Contents (Elt Ideal)) (x9 : (⟨S256, .f32⟩ : BufTy).Contents (Elt Ideal)) (x10 : (⟨S256x32, .f32⟩ : BufTy).Contents (Elt Ideal)) (x11 : (⟨S32, .f32⟩ : BufTy).Contents (Elt Ideal))

/-! ## The three groups' layers -/

/-- Group 1: columns 0 … 1999 of a row through their linear layer with a floor at zero. -/
theorem branch1_apply (r : Fin 16384) (j : Fin 256) :
    val_main_v5 (F := Ideal) x0 x2 x3 (ix2 r j) = Spec.floorLin (Spec.cols x0 r 0 2000 (by decide)) x2 x3 j := by
  rw [val_main_v5_apply, val_main_v4_apply, val_main_v1_apply, val_main_v3_apply, val_main_v2_apply,
    val_main_call0_v0_apply, val_main_call0_cst_apply]
  simp only [Ideal.maximumf_def, Ideal.addf_def, Ideal.ofBits_def, Ideal.ofBits_zero_f32]
  unfold Spec.floorLin Spec.cols
  refine congrArg₂ max (congrArg₂ (· + ·) (Finset.sum_congr rfl fun k _ => ?_) (congrArg x3 ?_)) rfl
  · rw [val_main_v0_apply]
    refine congrArg₂ (· * ·) (congrArg x0 ?_) (congrArg x2 ?_)
    · funext a
      match a with
      | ⟨0, _⟩ => rfl
      | ⟨1, _⟩ => exact Fin.ext (Nat.zero_add k.val).symm
    · funext a
      match a with
      | ⟨0, _⟩ => rfl
      | ⟨1, _⟩ => rfl
  · funext a
    match a with
    | ⟨0, _⟩ => rfl

/-- Group 2: columns 2000 … 3999 of a row through their linear layer with a floor at zero. -/
theorem branch2_apply (r : Fin 16384) (j : Fin 256) :
    val_main_v11 (F := Ideal) x0 x4 x5 (ix2 r j) = Spec.floorLin (Spec.cols x0 r 2000 2000 (by decide)) x4 x5 j := by
  rw [val_main_v11_apply, val_main_v10_apply, val_main_v7_apply, val_main_v9_apply, val_main_v8_apply,
    val_main_call1_v0_apply, val_main_call1_cst_apply]
  simp only [Ideal.maximumf_def, Ideal.addf_def, Ideal.ofBits_def, Ideal.ofBits_zero_f32]
  unfold Spec.floorLin Spec.cols
  refine congrArg₂ max (congrArg₂ (· + ·) (Finset.sum_congr rfl fun k _ => ?_) (congrArg x5 ?_)) rfl
  · rw [val_main_v6_apply]
    refine congrArg₂ (· * ·) (congrArg x0 ?_) (congrArg x4 ?_)
    · funext a
      match a with
      | ⟨0, _⟩ => rfl
      | ⟨1, _⟩ => rfl
    · funext a
      match a with
      | ⟨0, _⟩ => rfl
      | ⟨1, _⟩ => rfl
  · funext a
    match a with
    | ⟨0, _⟩ => rfl

/-- Group 3: columns 4000 … 4999 of a row through their linear layer with a floor at zero. -/
theorem branch3_apply (r : Fin 16384) (j : Fin 256) :
    val_main_v17 (F := Ideal) x0 x6 x7 (ix2 r j) = Spec.floorLin (Spec.cols x0 r 4000 1000 (by decide)) x6 x7 j := by
  rw [val_main_v17_apply, val_main_v16_apply, val_main_v13_apply, val_main_v15_apply, val_main_v14_apply,
    val_main_call2_v0_apply, val_main_call2_cst_apply]
  simp only [Ideal.maximumf_def, Ideal.addf_def, Ideal.ofBits_def, Ideal.ofBits_zero_f32]
  unfold Spec.floorLin Spec.cols
  refine congrArg₂ max (congrArg₂ (· + ·) (Finset.sum_congr rfl fun k _ => ?_) (congrArg x7 ?_)) rfl
  · rw [val_main_v12_apply]
    refine congrArg₂ (· * ·) (congrArg x0 ?_) (congrArg x6 ?_)
    · funext a
      match a with
      | ⟨0, _⟩ => rfl
      | ⟨1, _⟩ => rfl
    · funext a
      match a with
      | ⟨0, _⟩ => rfl
      | ⟨1, _⟩ => rfl
  · funext a
    match a with
    | ⟨0, _⟩ => rfl

/-! ## The hidden row: the three layers side by side -/

/-- The concatenation of the three layers along the lanes is the specification's hidden row. -/
theorem hidden_apply (r : Fin 16384) (j : Fin 768) :
    val_main_v18 (F := Ideal) x0 x2 x3 x4 x5 x6 x7 (ix2 r j) = Spec.hidden x0 x2 x3 x4 x5 x6 x7 r j := by
  unfold val_main_v18
  refine (Cert.LibConcat3.concatenate3_lanes_apply (R := 16384) (n := 256) (w := 768) (by decide)
    (val_main_v5 (F := Ideal) x0 x2 x3) (val_main_v11 (F := Ideal) x0 x4 x5) (val_main_v17 (F := Ideal) x0 x6 x7)
    concatenates_S16384x256_S16384x256_S16384x256_S16384x768_d1 r j).trans ?_
  unfold Cert.LibConcat3.side3 Spec.hidden
  by_cases h1 : j.val < 256
  · rw [dif_pos h1, dif_pos h1]
    exact branch1_apply x0 x2 x3 r ⟨j.val, h1⟩
  · rw [dif_neg h1, dif_neg h1]
    by_cases h2 : j.val < 512
    · have h2' : j.val < 256 + 256 := h2
      rw [dif_pos h2', dif_pos h2]
      exact branch2_apply x0 x4 x5 r ⟨j.val - 256, by omega⟩
    · have h2' : ¬ j.val < 256 + 256 := h2
      rw [dif_neg h2', dif_neg h2]
      exact branch3_apply x0 x6 x7 r ⟨j.val - 512, by have := j.isLt; omega⟩

/-! ## The first convolution -/

/-- The hidden rows times the first weight matrix. -/
theorem support1_apply (r : Fin 16384) (c : Fin 256) :
    val_main_v19 (F := Ideal) x0 x2 x3 x4 x5 x6 x7 x8 (ix2 r c) = Spec.support1 x0 x2 x3 x4 x5 x6 x7 x8 r c := by
  rw [val_main_v19_apply]
  unfold Spec.support1
  refine Finset.sum_congr rfl fun k _ => congrArg₂ (· * ·) ?_ (congrArg x8 ?_)
  · refine (congrArg (val_main_v18 (F := Ideal) x0 x2 x3 x4 x5 x6 x7) ?_).trans (hidden_apply x0 x2 x3 x4 x5 x6 x7 r k)
    funext a
    match a with
    | ⟨0, _⟩ => rfl
    | ⟨1, _⟩ => rfl
  · funext a
    match a with
    | ⟨0, _⟩ => rfl
    | ⟨1, _⟩ => rfl

/-- Mixed through the adjacency matrix, shifted by the bias and floored at zero. -/
theorem hidden2_apply (r : Fin 16384) (j : Fin 256) :
    val_main_v24 (F := Ideal) x0 x1 x2 x3 x4 x5 x6 x7 x8 x9 (ix2 r j) = Spec.hidden2 x0 x1 x2 x3 x4 x5 x6 x7 x8 x9 r j := by
  rw [val_main_v24_apply, val_main_v23_apply, val_main_v20_apply, val_main_v22_apply, val_main_v21_apply,
    val_main_call3_v0_apply, val_main_call3_cst_apply]
  simp only [Ideal.maximumf_def, Ideal.addf_def, Ideal.ofBits_def, Ideal.ofBits_zero_f32]
  unfold Spec.hidden2 Spec.conv
  refine congrArg₂ max (congrArg₂ (· + ·) (Finset.sum_congr rfl fun k _ => congrArg₂ (· * ·) (congrArg x1 ?_) ?_) (congrArg x9 ?_)) rfl
  · funext a
    match a with
    | ⟨0, _⟩ => rfl
    | ⟨1, _⟩ => rfl
  · refine (congrArg (val_main_v19 (F := Ideal) x0 x2 x3 x4 x5 x6 x7 x8) ?_).trans (support1_apply x0 x2 x3 x4 x5 x6 x7 x8 k j)
    funext a
    match a with
    | ⟨0, _⟩ => rfl
    | ⟨1, _⟩ => rfl
  · funext a
    match a with
    | ⟨0, _⟩ => rfl

/-! ## The second convolution -/

/-- The floored rows times the second weight matrix. -/
theorem support2_apply (r : Fin 16384) (c : Fin 32) :
    val_main_v25 (F := Ideal) x0 x1 x2 x3 x4 x5 x6 x7 x8 x9 x10 (ix2 r c) = Spec.support2 x0 x1 x2 x3 x4 x5 x6 x7 x8 x9 x10 r c := by
  rw [val_main_v25_apply]
  unfold Spec.support2
  refine Finset.sum_congr rfl fun k _ => congrArg₂ (· * ·) ?_ (congrArg x10 ?_)
  · refine (congrArg (val_main_v24 (F := Ideal) x0 x1 x2 x3 x4 x5 x6 x7 x8 x9) ?_).trans (hidden2_apply x0 x1 x2 x3 x4 x5 x6 x7 x8 x9 r k)
    funext a
    match a with
    | ⟨0, _⟩ => rfl
    | ⟨1, _⟩ => rfl
  · funext a
    match a with
    | ⟨0, _⟩ => rfl
    | ⟨1, _⟩ => rfl

/-- Mixed through the adjacency matrix and shifted by the bias: the logits. -/
theorem logits_apply (r : Fin 16384) (c : Fin 32) :
    val_main_v29 (F := Ideal) x0 x1 x2 x3 x4 x5 x6 x7 x8 x9 x10 x11 (ix2 r c) = Spec.logits x0 x1 x2 x3 x4 x5 x6 x7 x8 x9 x10 x11 r c := by
  rw [val_main_v29_apply, val_main_v26_apply, val_main_v28_apply, val_main_v27_apply]
  simp only [Ideal.addf_def]
  unfold Spec.logits Spec.conv
  refine congrArg₂ (· + ·) (Finset.sum_congr rfl fun k _ => congrArg₂ (· * ·) (congrArg x1 ?_) ?_) (congrArg x11 ?_)
  · funext a
    match a with
    | ⟨0, _⟩ => rfl
    | ⟨1, _⟩ => rfl
  · refine (congrArg (val_main_v25 (F := Ideal) x0 x1 x2 x3 x4 x5 x6 x7 x8 x9 x10) ?_).trans (support2_apply x0 x1 x2 x3 x4 x5 x6 x7 x8 x9 x10 k c)
    funext a
    match a with
    | ⟨0, _⟩ => rfl
    | ⟨1, _⟩ => rfl
  · funext a
    match a with
    | ⟨0, _⟩ => rfl

/-! ## The row-wise log-softmax -/

/-- The last twelve operations are the arrangement "maximum subtracted first, logarithm of the sum afterwards" of the logits. -/
theorem v30_eq :
    val_main_v30 (F := Ideal) x0 x1 x2 x3 x4 x5 x6 x7 x8 x9 x10 x11
      = Cert.LibLogSoftmaxRows.hLogSoftmax (R := 16384) (C := 32) (val_main_v29 (F := Ideal) x0 x1 x2 x3 x4 x5 x6 x7 x8 x9 x10 x11)
          reducesTo_S16384x32_S16384_d1 h_S_ bcast_S_S16384 bcast_S16384_S16384x1_0 bcast_S16384x1_S16384x32_0_1 := rfl

/-- **The reference's result at row r and lane c is the specification's.** -/
theorem ref_out (r : Fin 16384) (c : Fin 32) :
    val_main_v30 (F := Ideal) x0 x1 x2 x3 x4 x5 x6 x7 x8 x9 x10 x11 (ix2 r c) = Cert.Spec.out x0 x1 x2 x3 x4 x5 x6 x7 x8 x9 x10 x11 r c := by
  rw [v30_eq, Cert.LibLogSoftmaxRows.hLogSoftmax_apply]
  unfold Spec.out
  exact congrArg (fun f => Cert.LibRowKL.logSoftTwice f c) (funext fun j => logits_apply x0 x1 x2 x3 x4 x5 x6 x7 x8 x9 x10 x11 r j)

end Cert.RefRead

end
-- ==== Proof.RefRun.lean ====
/-
  The reference program's run, read back in four stretches.

  The reference is a straight line of 53 tensor operations. Its first 24 compute the three groups' hidden rows, the 25th lays
  them side by side; the next 13 compute the logits from that array and the remaining arguments; the last 15 are the
  row-wise log-softmax of the logits. The buffer contents after the whole line are the contents after each stretch
  run from the contents after the one before it, and each stretch's result is one
  composed term of what it reads: the stage functions of the reference, one operation at a time, composed.
-/
import proofs.«138483_j40407052320948_2_alg».proof.Proof.Gen.ReferenceIdeal
import Idealize.ShloMosaic.Lib.StableHlo.Run
import proofs.«138483_j40407052320948_2_alg».proof.Proof.RefReadP

noncomputable section

namespace Cert.RefRun

open Cert.ReferenceIdeal Cert.ReferenceIdeal.Gen Idealize.ShloMosaic Idealize.ShloMosaic.TcCoe Idealize.SL.Sem Idealize.ShloMosaic.StableHlo

/-! ## Two facts about a line of operations -/

section Line
variable {τ : Topo} {sig : RefSig} {Val : EltTy → Type}

/-- The contents after two lines run one after the other. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- An operation over a literal family of three operands: the result with each operand's contents at its own reference. -/
theorem nary3_result {x a b y : Ref sig .tc}
    (f : ((k : Fin 3) → ((![x, a, b] : Fin 3 → Ref sig .tc) k).ty.Contents Val) → y.ty.Contents Val) (hxs hy)
    (G : Valuation τ sig Val) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

end Line

/-- Rewrites each operation's result at its own buffer to its function's value and at another buffer to what was there. -/
macro "ref_results" : tactic =>
  `(tactic| repeat (first
      | rw [nullary_result] | rw [unary_result] | rw [binary_result]
      | (rw [nullary_result_ne]; rotate_left; decide)
      | (rw [unary_result_ne]; rotate_left; decide)
      | (rw [binary_result_ne]; rotate_left; decide)
      | (rw [nary_result_ne]; rotate_left; decide)))

variable {F : FTy → Type} [FloatOps F]

/-! ## The operations -/

/-- Operations 1–24: the three groups' hidden rows. -/
abbrev opsA : List (HloOp τ sig (Elt F)) :=
  [ unary main_arg0 main_v0 ((extractStridedSlice S16384x2000 ![0, 0] · slices_S16384x5000_S16384x2000_0_0) : (⟨S16384x5000, .f32⟩ : BufTy).Contents (Elt F) → (⟨S16384x2000, .f32⟩ : BufTy).Contents (Elt F)),
    binary main_v0 main_arg2 main_v1 ((fun l r => Host.dotGeneral dot_S16384x2000_S2000x256_S16384x256_1_0_0_1_n_n none l r) : (⟨S16384x2000, .f32⟩ : BufTy).Contents (Elt F) → (⟨S2000x256, .f32⟩ : BufTy).Contents (Elt F) → (⟨S16384x256, .f32⟩ : BufTy).Contents (Elt F)),
    unary main_arg3 main_v2 (broadcastInDim S1x256 ![1] bcast_S256_S1x256_1 : (⟨S256, .f32⟩ : BufTy).Contents (Elt F) → (⟨S1x256, .f32⟩ : BufTy).Contents (Elt F)),
    unary main_v2 main_v3 (broadcastInDim S16384x256 ![0, 1] bcast_S1x256_S16384x256_0_1 : (⟨S1x256, .f32⟩ : BufTy).Contents (Elt F) → (⟨S16384x256, .f32⟩ : BufTy).Contents (Elt F)),
    binary main_v1 main_v3 main_v4 (addf : (⟨S16384x256, .f32⟩ : BufTy).Contents (Elt F) → (⟨S16384x256, .f32⟩ : BufTy).Contents (Elt F) → (⟨S16384x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S16384x256, .f32⟩) main_call0_v0) (broadcastInDim S16384x256 ![] bcast_S_S16384x256),
    TRef.binary (TRef.of (T := ⟨S16384x256, .f32⟩) main_v4) (TRef.of (T := ⟨S16384x256, .f32⟩) main_call0_v0) (TRef.of (T := ⟨S16384x256, .f32⟩) main_v5) maximumf,
    unary main_arg0 main_v6 ((extractStridedSlice S16384x2000 ![0, 2000] · slices_S16384x5000_S16384x2000_0_2000) : (⟨S16384x5000, .f32⟩ : BufTy).Contents (Elt F) → (⟨S16384x2000, .f32⟩ : BufTy).Contents (Elt F)),
    binary main_v6 main_arg4 main_v7 ((fun l r => Host.dotGeneral dot_S16384x2000_S2000x256_S16384x256_1_0_0_1_n_n none l r) : (⟨S16384x2000, .f32⟩ : BufTy).Contents (Elt F) → (⟨S2000x256, .f32⟩ : BufTy).Contents (Elt F) → (⟨S16384x256, .f32⟩ : BufTy).Contents (Elt F)),
    unary main_arg5 main_v8 (broadcastInDim S1x256 ![1] bcast_S256_S1x256_1 : (⟨S256, .f32⟩ : BufTy).Contents (Elt F) → (⟨S1x256, .f32⟩ : BufTy).Contents (Elt F)),
    unary main_v8 main_v9 (broadcastInDim S16384x256 ![0, 1] bcast_S1x256_S16384x256_0_1 : (⟨S1x256, .f32⟩ : BufTy).Contents (Elt F) → (⟨S16384x256, .f32⟩ : BufTy).Contents (Elt F)),
    binary main_v7 main_v9 main_v10 (addf : (⟨S16384x256, .f32⟩ : BufTy).Contents (Elt F) → (⟨S16384x256, .f32⟩ : BufTy).Contents (Elt F) → (⟨S16384x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S16384x256, .f32⟩) main_call1_v0) (broadcastInDim S16384x256 ![] bcast_S_S16384x256),
    TRef.binary (TRef.of (T := ⟨S16384x256, .f32⟩) main_v10) (TRef.of (T := ⟨S16384x256, .f32⟩) main_call1_v0) (TRef.of (T := ⟨S16384x256, .f32⟩) main_v11) maximumf,
    unary main_arg0 main_v12 ((extractStridedSlice S16384x1000 ![0, 4000] · slices_S16384x5000_S16384x1000_0_4000) : (⟨S16384x5000, .f32⟩ : BufTy).Contents (Elt F) → (⟨S16384x1000, .f32⟩ : BufTy).Contents (Elt F)),
    binary main_v12 main_arg6 main_v13 ((fun l r => Host.dotGeneral dot_S16384x1000_S1000x256_S16384x256_1_0_0_1_n_n none l r) : (⟨S16384x1000, .f32⟩ : BufTy).Contents (Elt F) → (⟨S1000x256, .f32⟩ : BufTy).Contents (Elt F) → (⟨S16384x256, .f32⟩ : BufTy).Contents (Elt F)),
    unary main_arg7 main_v14 (broadcastInDim S1x256 ![1] bcast_S256_S1x256_1 : (⟨S256, .f32⟩ : BufTy).Contents (Elt F) → (⟨S1x256, .f32⟩ : BufTy).Contents (Elt F)),
    unary main_v14 main_v15 (broadcastInDim S16384x256 ![0, 1] bcast_S1x256_S16384x256_0_1 : (⟨S1x256, .f32⟩ : BufTy).Contents (Elt F) → (⟨S16384x256, .f32⟩ : BufTy).Contents (Elt F)),
    binary main_v13 main_v15 main_v16 (addf : (⟨S16384x256, .f32⟩ : BufTy).Contents (Elt F) → (⟨S16384x256, .f32⟩ : BufTy).Contents (Elt F) → (⟨S16384x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S16384x256, .f32⟩) main_call2_v0) (broadcastInDim S16384x256 ![] bcast_S_S16384x256),
    TRef.binary (TRef.of (T := ⟨S16384x256, .f32⟩) main_v16) (TRef.of (T := ⟨S16384x256, .f32⟩) main_call2_v0) (TRef.of (T := ⟨S16384x256, .f32⟩) main_v17) maximumf ]

/-- Operation 25: the three laid side by side. -/
abbrev opsN : List (HloOp τ sig (Elt F)) :=
  [ nary ![main_v5, main_v11, main_v17] main_v18 (fun u => concatenate S16384x768 1 [⟨S16384x256, u 0⟩, ⟨S16384x256, u 1⟩, ⟨S16384x256, u 2⟩] concatenates_S16384x256_S16384x256_S16384x256_S16384x768_d1) ]

/-- Operations 26–38: the logits. -/
abbrev opsB : List (HloOp τ sig (Elt F)) :=
  [ binary main_v18 main_arg8 main_v19 ((fun l r => Host.dotGeneral dot_S16384x768_S768x256_S16384x256_1_0_0_1_n_n none l r) : (⟨S16384x768, .f32⟩ : BufTy).Contents (Elt F) → (⟨S768x256, .f32⟩ : BufTy).Contents (Elt F) → (⟨S16384x256, .f32⟩ : BufTy).Contents (Elt F)),
    binary main_arg1 main_v19 main_v20 ((fun l r => Host.dotGeneral dot_S16384x16384_S16384x256_S16384x256_1_0_0_1_n_n none l r) : (⟨S16384x16384, .f32⟩ : BufTy).Contents (Elt F) → (⟨S16384x256, .f32⟩ : BufTy).Contents (Elt F) → (⟨S16384x256, .f32⟩ : BufTy).Contents (Elt F)),
    unary main_arg9 main_v21 (broadcastInDim S1x256 ![1] bcast_S256_S1x256_1 : (⟨S256, .f32⟩ : BufTy).Contents (Elt F) → (⟨S1x256, .f32⟩ : BufTy).Contents (Elt F)),
    unary main_v21 main_v22 (broadcastInDim S16384x256 ![0, 1] bcast_S1x256_S16384x256_0_1 : (⟨S1x256, .f32⟩ : BufTy).Contents (Elt F) → (⟨S16384x256, .f32⟩ : BufTy).Contents (Elt F)),
    binary main_v20 main_v22 main_v23 (addf : (⟨S16384x256, .f32⟩ : BufTy).Contents (Elt F) → (⟨S16384x256, .f32⟩ : BufTy).Contents (Elt F) → (⟨S16384x256, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S16384x256, .f32⟩) main_call3_v0) (broadcastInDim S16384x256 ![] bcast_S_S16384x256),
    TRef.binary (TRef.of (T := ⟨S16384x256, .f32⟩) main_v23) (TRef.of (T := ⟨S16384x256, .f32⟩) main_call3_v0) (TRef.of (T := ⟨S16384x256, .f32⟩) main_v24) maximumf,
    binary main_v24 main_arg10 main_v25 ((fun l r => Host.dotGeneral dot_S16384x256_S256x32_S16384x32_1_0_0_1_n_n none l r) : (⟨S16384x256, .f32⟩ : BufTy).Contents (Elt F) → (⟨S256x32, .f32⟩ : BufTy).Contents (Elt F) → (⟨S16384x32, .f32⟩ : BufTy).Contents (Elt F)),
    binary main_arg1 main_v25 main_v26 ((fun l r => Host.dotGeneral dot_S16384x16384_S16384x32_S16384x32_1_0_0_1_n_n none l r) : (⟨S16384x16384, .f32⟩ : BufTy).Contents (Elt F) → (⟨S16384x32, .f32⟩ : BufTy).Contents (Elt F) → (⟨S16384x32, .f32⟩ : BufTy).Contents (Elt F)),
    unary main_arg11 main_v27 (broadcastInDim S1x32 ![1] bcast_S32_S1x32_1 : (⟨S32, .f32⟩ : BufTy).Contents (Elt F) → (⟨S1x32, .f32⟩ : BufTy).Contents (Elt F)),
    unary main_v27 main_v28 (broadcastInDim S16384x32 ![0, 1] bcast_S1x32_S16384x32_0_1 : (⟨S1x32, .f32⟩ : BufTy).Contents (Elt F) → (⟨S16384x32, .f32⟩ : BufTy).Contents (Elt F)),
    binary main_v26 main_v28 main_v29 (addf : (⟨S16384x32, .f32⟩ : BufTy).Contents (Elt F) → (⟨S16384x32, .f32⟩ : BufTy).Contents (Elt F) → (⟨S16384x32, .f32⟩ : BufTy).Contents (Elt F)) ]

/-- Operations 39–53: the row-wise log-softmax. -/
abbrev opsC : List (HloOp τ sig (Elt F)) :=
  [ TRef.nullary (TRef.of (T := ⟨S_, .f32⟩) main_call4_cst) (constant S_ .f32 0xFF800000#32),
    TRef.binary (TRef.of (T := ⟨S16384x32, .f32⟩) main_v29) (TRef.of (T := ⟨S_, .f32⟩) main_call4_cst) (TRef.of (T := ⟨S16384, .f32⟩) main_call4_v0) (fun x v => Host.reduce FloatOps.maximumf x v reducesTo_S16384x32_S16384_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S16384, .f32⟩) main_call4_v1) (broadcastInDim S16384 ![] bcast_S_S16384),
    TRef.binary (TRef.of (T := ⟨S16384, .f32⟩) main_call4_v1) (TRef.of (T := ⟨S16384, .f32⟩) main_call4_v0) (TRef.of (T := ⟨S16384, .f32⟩) main_call4_v2) maximumf,
    TRef.unary (TRef.of (T := ⟨S16384, .f32⟩) main_call4_v2) (TRef.of (T := ⟨S16384x1, .f32⟩) main_call4_v3) (broadcastInDim S16384x1 ![0] bcast_S16384_S16384x1_0),
    TRef.unary (TRef.of (T := ⟨S16384x1, .f32⟩) main_call4_v3) (TRef.of (T := ⟨S16384x32, .f32⟩) main_call4_v4) (broadcastInDim S16384x32 ![0, 1] bcast_S16384x1_S16384x32_0_1),
    TRef.binary (TRef.of (T := ⟨S16384x32, .f32⟩) main_v29) (TRef.of (T := ⟨S16384x32, .f32⟩) main_call4_v4) (TRef.of (T := ⟨S16384x32, .f32⟩) main_call4_v5) subf,
    TRef.unary (TRef.of (T := ⟨S16384x32, .f32⟩) main_call4_v5) (TRef.of (T := ⟨S16384x32, .f32⟩) main_call4_v6) Host.exp,
    TRef.nullary (TRef.of (T := ⟨S_, .f32⟩) main_call4_cst_1) (constant S_ .f32 0x00000000#32),
    TRef.binary (TRef.of (T := ⟨S16384x32, .f32⟩) main_call4_v6) (TRef.of (T := ⟨S_, .f32⟩) main_call4_cst_1) (TRef.of (T := ⟨S16384, .f32⟩) main_call4_v7) (fun x v => Host.reduceAdd x v reducesTo_S16384x32_S16384_d1 h_S_),
    TRef.unary (TRef.of (T := ⟨S16384, .f32⟩) main_call4_v7) (TRef.of (T := ⟨S16384x1, .f32⟩) main_call4_v8) (broadcastInDim S16384x1 ![0] bcast_S16384_S16384x1_0),
    TRef.unary (TRef.of (T := ⟨S16384x1, .f32⟩) main_call4_v8) (TRef.of (T := ⟨S16384x1, .f32⟩) main_call4_v9) Host.log,
    TRef.unary (TRef.of (T := ⟨S16384x1, .f32⟩) main_call4_v9) (TRef.of (T := ⟨S16384x32, .f32⟩) main_call4_v10) (broadcastInDim S16384x32 ![0, 1] bcast_S16384x1_S16384x32_0_1),
    TRef.binary (TRef.of (T := ⟨S16384x32, .f32⟩) main_call4_v5) (TRef.of (T := ⟨S16384x32, .f32⟩) main_call4_v10) (TRef.of (T := ⟨S16384x32, .f32⟩) main_v30) subf ]

/-- @main's 53 operations, in order. -/
abbrev ops : List (HloOp τ sig (Elt F)) :=
  [ unary main_arg0 main_v0 ((extractStridedSlice S16384x2000 ![0, 0] · slices_S16384x5000_S16384x2000_0_0) : (⟨S16384x5000, .f32⟩ : BufTy).Contents (Elt F) → (⟨S16384x2000, .f32⟩ : BufTy).Contents (Elt F)),
    binary main_v0 main_arg2 main_v1 ((fun l r => Host.dotGeneral dot_S16384x2000_S2000x256_S16384x256_1_0_0_1_n_n none l r) : (⟨S16384x2000, .f32⟩ : BufTy).Contents (Elt F) → (⟨S2000x256, .f32⟩ : BufTy).Contents (Elt F) → (⟨S16384x256, .f32⟩ : BufTy).Contents (Elt F)),
    unary main_arg3 main_v2 (broadcastInDim S1x256 ![1] bcast_S256_S1x256_1 : (⟨S256, .f32⟩ : BufTy).Contents (Elt F) → (⟨S1x256, .f32⟩ : BufTy).Contents (Elt F)),
    unary main_v2 main_v3 (broadcastInDim S16384x256 ![0, 1] bcast_S1x256_S16384x256_0_1 : (⟨S1x256, .f32⟩ : BufTy).Contents (Elt F) → (⟨S16384x256, .f32⟩ : BufTy).Contents (Elt F)),
    binary main_v1 main_v3 main_v4 (addf : (⟨S16384x256, .f32⟩ : BufTy).Contents (Elt F) → (⟨S16384x256, .f32⟩ : BufTy).Contents (Elt F) → (⟨S16384x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S16384x256, .f32⟩) main_call0_v0) (broadcastInDim S16384x256 ![] bcast_S_S16384x256),
    TRef.binary (TRef.of (T := ⟨S16384x256, .f32⟩) main_v4) (TRef.of (T := ⟨S16384x256, .f32⟩) main_call0_v0) (TRef.of (T := ⟨S16384x256, .f32⟩) main_v5) maximumf,
    unary main_arg0 main_v6 ((extractStridedSlice S16384x2000 ![0, 2000] · slices_S16384x5000_S16384x2000_0_2000) : (⟨S16384x5000, .f32⟩ : BufTy).Contents (Elt F) → (⟨S16384x2000, .f32⟩ : BufTy).Contents (Elt F)),
    binary main_v6 main_arg4 main_v7 ((fun l r => Host.dotGeneral dot_S16384x2000_S2000x256_S16384x256_1_0_0_1_n_n none l r) : (⟨S16384x2000, .f32⟩ : BufTy).Contents (Elt F) → (⟨S2000x256, .f32⟩ : BufTy).Contents (Elt F) → (⟨S16384x256, .f32⟩ : BufTy).Contents (Elt F)),
    unary main_arg5 main_v8 (broadcastInDim S1x256 ![1] bcast_S256_S1x256_1 : (⟨S256, .f32⟩ : BufTy).Contents (Elt F) → (⟨S1x256, .f32⟩ : BufTy).Contents (Elt F)),
    unary main_v8 main_v9 (broadcastInDim S16384x256 ![0, 1] bcast_S1x256_S16384x256_0_1 : (⟨S1x256, .f32⟩ : BufTy).Contents (Elt F) → (⟨S16384x256, .f32⟩ : BufTy).Contents (Elt F)),
    binary main_v7 main_v9 main_v10 (addf : (⟨S16384x256, .f32⟩ : BufTy).Contents (Elt F) → (⟨S16384x256, .f32⟩ : BufTy).Contents (Elt F) → (⟨S16384x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S16384x256, .f32⟩) main_call1_v0) (broadcastInDim S16384x256 ![] bcast_S_S16384x256),
    TRef.binary (TRef.of (T := ⟨S16384x256, .f32⟩) main_v10) (TRef.of (T := ⟨S16384x256, .f32⟩) main_call1_v0) (TRef.of (T := ⟨S16384x256, .f32⟩) main_v11) maximumf,
    unary main_arg0 main_v12 ((extractStridedSlice S16384x1000 ![0, 4000] · slices_S16384x5000_S16384x1000_0_4000) : (⟨S16384x5000, .f32⟩ : BufTy).Contents (Elt F) → (⟨S16384x1000, .f32⟩ : BufTy).Contents (Elt F)),
    binary main_v12 main_arg6 main_v13 ((fun l r => Host.dotGeneral dot_S16384x1000_S1000x256_S16384x256_1_0_0_1_n_n none l r) : (⟨S16384x1000, .f32⟩ : BufTy).Contents (Elt F) → (⟨S1000x256, .f32⟩ : BufTy).Contents (Elt F) → (⟨S16384x256, .f32⟩ : BufTy).Contents (Elt F)),
    unary main_arg7 main_v14 (broadcastInDim S1x256 ![1] bcast_S256_S1x256_1 : (⟨S256, .f32⟩ : BufTy).Contents (Elt F) → (⟨S1x256, .f32⟩ : BufTy).Contents (Elt F)),
    unary main_v14 main_v15 (broadcastInDim S16384x256 ![0, 1] bcast_S1x256_S16384x256_0_1 : (⟨S1x256, .f32⟩ : BufTy).Contents (Elt F) → (⟨S16384x256, .f32⟩ : BufTy).Contents (Elt F)),
    binary main_v13 main_v15 main_v16 (addf : (⟨S16384x256, .f32⟩ : BufTy).Contents (Elt F) → (⟨S16384x256, .f32⟩ : BufTy).Contents (Elt F) → (⟨S16384x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S16384x256, .f32⟩) main_call2_v0) (broadcastInDim S16384x256 ![] bcast_S_S16384x256),
    TRef.binary (TRef.of (T := ⟨S16384x256, .f32⟩) main_v16) (TRef.of (T := ⟨S16384x256, .f32⟩) main_call2_v0) (TRef.of (T := ⟨S16384x256, .f32⟩) main_v17) maximumf,
    nary ![main_v5, main_v11, main_v17] main_v18 (fun u => concatenate S16384x768 1 [⟨S16384x256, u 0⟩, ⟨S16384x256, u 1⟩, ⟨S16384x256, u 2⟩] concatenates_S16384x256_S16384x256_S16384x256_S16384x768_d1),
    binary main_v18 main_arg8 main_v19 ((fun l r => Host.dotGeneral dot_S16384x768_S768x256_S16384x256_1_0_0_1_n_n none l r) : (⟨S16384x768, .f32⟩ : BufTy).Contents (Elt F) → (⟨S768x256, .f32⟩ : BufTy).Contents (Elt F) → (⟨S16384x256, .f32⟩ : BufTy).Contents (Elt F)),
    binary main_arg1 main_v19 main_v20 ((fun l r => Host.dotGeneral dot_S16384x16384_S16384x256_S16384x256_1_0_0_1_n_n none l r) : (⟨S16384x16384, .f32⟩ : BufTy).Contents (Elt F) → (⟨S16384x256, .f32⟩ : BufTy).Contents (Elt F) → (⟨S16384x256, .f32⟩ : BufTy).Contents (Elt F)),
    unary main_arg9 main_v21 (broadcastInDim S1x256 ![1] bcast_S256_S1x256_1 : (⟨S256, .f32⟩ : BufTy).Contents (Elt F) → (⟨S1x256, .f32⟩ : BufTy).Contents (Elt F)),
    unary main_v21 main_v22 (broadcastInDim S16384x256 ![0, 1] bcast_S1x256_S16384x256_0_1 : (⟨S1x256, .f32⟩ : BufTy).Contents (Elt F) → (⟨S16384x256, .f32⟩ : BufTy).Contents (Elt F)),
    binary main_v20 main_v22 main_v23 (addf : (⟨S16384x256, .f32⟩ : BufTy).Contents (Elt F) → (⟨S16384x256, .f32⟩ : BufTy).Contents (Elt F) → (⟨S16384x256, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S16384x256, .f32⟩) main_call3_v0) (broadcastInDim S16384x256 ![] bcast_S_S16384x256),
    TRef.binary (TRef.of (T := ⟨S16384x256, .f32⟩) main_v23) (TRef.of (T := ⟨S16384x256, .f32⟩) main_call3_v0) (TRef.of (T := ⟨S16384x256, .f32⟩) main_v24) maximumf,
    binary main_v24 main_arg10 main_v25 ((fun l r => Host.dotGeneral dot_S16384x256_S256x32_S16384x32_1_0_0_1_n_n none l r) : (⟨S16384x256, .f32⟩ : BufTy).Contents (Elt F) → (⟨S256x32, .f32⟩ : BufTy).Contents (Elt F) → (⟨S16384x32, .f32⟩ : BufTy).Contents (Elt F)),
    binary main_arg1 main_v25 main_v26 ((fun l r => Host.dotGeneral dot_S16384x16384_S16384x32_S16384x32_1_0_0_1_n_n none l r) : (⟨S16384x16384, .f32⟩ : BufTy).Contents (Elt F) → (⟨S16384x32, .f32⟩ : BufTy).Contents (Elt F) → (⟨S16384x32, .f32⟩ : BufTy).Contents (Elt F)),
    unary main_arg11 main_v27 (broadcastInDim S1x32 ![1] bcast_S32_S1x32_1 : (⟨S32, .f32⟩ : BufTy).Contents (Elt F) → (⟨S1x32, .f32⟩ : BufTy).Contents (Elt F)),
    unary main_v27 main_v28 (broadcastInDim S16384x32 ![0, 1] bcast_S1x32_S16384x32_0_1 : (⟨S1x32, .f32⟩ : BufTy).Contents (Elt F) → (⟨S16384x32, .f32⟩ : BufTy).Contents (Elt F)),
    binary main_v26 main_v28 main_v29 (addf : (⟨S16384x32, .f32⟩ : BufTy).Contents (Elt F) → (⟨S16384x32, .f32⟩ : BufTy).Contents (Elt F) → (⟨S16384x32, .f32⟩ : BufTy).Contents (Elt F)),
    TRef.nullary (TRef.of (T := ⟨S_, .f32⟩) main_call4_cst) (constant S_ .f32 0xFF800000#32),
    TRef.binary (TRef.of (T := ⟨S16384x32, .f32⟩) main_v29) (TRef.of (T := ⟨S_, .f32⟩) main_call4_cst) (TRef.of (T := ⟨S16384, .f32⟩) main_call4_v0) (fun x v => Host.reduce FloatOps.maximumf x v reducesTo_S16384x32_S16384_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S16384, .f32⟩) main_call4_v1) (broadcastInDim S16384 ![] bcast_S_S16384),
    TRef.binary (TRef.of (T := ⟨S16384, .f32⟩) main_call4_v1) (TRef.of (T := ⟨S16384, .f32⟩) main_call4_v0) (TRef.of (T := ⟨S16384, .f32⟩) main_call4_v2) maximumf,
    TRef.unary (TRef.of (T := ⟨S16384, .f32⟩) main_call4_v2) (TRef.of (T := ⟨S16384x1, .f32⟩) main_call4_v3) (broadcastInDim S16384x1 ![0] bcast_S16384_S16384x1_0),
    TRef.unary (TRef.of (T := ⟨S16384x1, .f32⟩) main_call4_v3) (TRef.of (T := ⟨S16384x32, .f32⟩) main_call4_v4) (broadcastInDim S16384x32 ![0, 1] bcast_S16384x1_S16384x32_0_1),
    TRef.binary (TRef.of (T := ⟨S16384x32, .f32⟩) main_v29) (TRef.of (T := ⟨S16384x32, .f32⟩) main_call4_v4) (TRef.of (T := ⟨S16384x32, .f32⟩) main_call4_v5) subf,
    TRef.unary (TRef.of (T := ⟨S16384x32, .f32⟩) main_call4_v5) (TRef.of (T := ⟨S16384x32, .f32⟩) main_call4_v6) Host.exp,
    TRef.nullary (TRef.of (T := ⟨S_, .f32⟩) main_call4_cst_1) (constant S_ .f32 0x00000000#32),
    TRef.binary (TRef.of (T := ⟨S16384x32, .f32⟩) main_call4_v6) (TRef.of (T := ⟨S_, .f32⟩) main_call4_cst_1) (TRef.of (T := ⟨S16384, .f32⟩) main_call4_v7) (fun x v => Host.reduceAdd x v reducesTo_S16384x32_S16384_d1 h_S_),
    TRef.unary (TRef.of (T := ⟨S16384, .f32⟩) main_call4_v7) (TRef.of (T := ⟨S16384x1, .f32⟩) main_call4_v8) (broadcastInDim S16384x1 ![0] bcast_S16384_S16384x1_0),
    TRef.unary (TRef.of (T := ⟨S16384x1, .f32⟩) main_call4_v8) (TRef.of (T := ⟨S16384x1, .f32⟩) main_call4_v9) Host.log,
    TRef.unary (TRef.of (T := ⟨S16384x1, .f32⟩) main_call4_v9) (TRef.of (T := ⟨S16384x32, .f32⟩) main_call4_v10) (broadcastInDim S16384x32 ![0, 1] bcast_S16384x1_S16384x32_0_1),
    TRef.binary (TRef.of (T := ⟨S16384x32, .f32⟩) main_call4_v5) (TRef.of (T := ⟨S16384x32, .f32⟩) main_call4_v10) (TRef.of (T := ⟨S16384x32, .f32⟩) main_v30) subf ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., nary_bufs_sub .., binary_bufs_sub .., binary_bufs_sub .., unary_bufs_sub .., unary_bufs_sub .., binary_bufs_sub .., nullary_bufs_sub .., unary_bufs_sub .., binary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

set_option maxRecDepth 8192 in
/-- The line is its three stretches. -/
theorem ops_split : (ops : List (HloOp τ sig (Elt F))) = opsA ++ (opsN ++ (opsB ++ opsC)) := rfl

/-! ## The stretches' results -/

/-- The logits from the hidden rows `z`, the adjacency matrix, the two convolutions' weights and biases. -/
def stB (z : (⟨S16384x768, .f32⟩ : BufTy).Contents (Elt F)) (x1 : (⟨S16384x16384, .f32⟩ : BufTy).Contents (Elt F)) (x8 : (⟨S768x256, .f32⟩ : BufTy).Contents (Elt F)) (x9 : (⟨S256, .f32⟩ : BufTy).Contents (Elt F))
    (x10 : (⟨S256x32, .f32⟩ : BufTy).Contents (Elt F)) (x11 : (⟨S32, .f32⟩ : BufTy).Contents (Elt F)) : (⟨S16384x32, .f32⟩ : BufTy).Contents (Elt F) :=
  (addf (Host.dotGeneral dot_S16384x16384_S16384x32_S16384x32_1_0_0_1_n_n none x1 (Host.dotGeneral dot_S16384x256_S256x32_S16384x32_1_0_0_1_n_n none (maximumf (addf (Host.dotGeneral dot_S16384x16384_S16384x256_S16384x256_1_0_0_1_n_n none x1 (Host.dotGeneral dot_S16384x768_S768x256_S16384x256_1_0_0_1_n_n none z x8)) (broadcastInDim S16384x256 ![0, 1] bcast_S1x256_S16384x256_0_1 (broadcastInDim S1x256 ![1] bcast_S256_S1x256_1 x9))) (broadcastInDim S16384x256 ![] bcast_S_S16384x256 (constant S_ .f32 0x00000000#32))) x10)) (broadcastInDim S16384x32 ![0, 1] bcast_S1x32_S16384x32_0_1 (broadcastInDim S1x32 ![1] bcast_S32_S1x32_1 x11)))

/-- The row-wise log-softmax of the logits `y`. -/
def stC (y : (⟨S16384x32, .f32⟩ : BufTy).Contents (Elt F)) : (⟨S16384x32, .f32⟩ : BufTy).Contents (Elt F) :=
  subf (subf y (broadcastInDim S16384x32 ![0, 1] bcast_S16384x1_S16384x32_0_1 (broadcastInDim S16384x1 ![0] bcast_S16384_S16384x1_0 (maximumf (broadcastInDim S16384 ![] bcast_S_S16384 (constant S_ .f32 0xFF800000#32)) (Host.reduce FloatOps.maximumf y (constant S_ .f32 0xFF800000#32) reducesTo_S16384x32_S16384_d1 h_S_))))) (broadcastInDim S16384x32 ![0, 1] bcast_S16384x1_S16384x32_0_1 (Host.log (broadcastInDim S16384x1 ![0] bcast_S16384_S16384x1_0 (Host.reduceAdd (Host.exp (subf y (broadcastInDim S16384x32 ![0, 1] bcast_S16384x1_S16384x32_0_1 (broadcastInDim S16384x1 ![0] bcast_S16384_S16384x1_0 (maximumf (broadcastInDim S16384 ![] bcast_S_S16384 (constant S_ .f32 0xFF800000#32)) (Host.reduce FloatOps.maximumf y (constant S_ .f32 0xFF800000#32) reducesTo_S16384x32_S16384_d1 h_S_)))))) (constant S_ .f32 0x00000000#32) reducesTo_S16384x32_S16384_d1 h_S_))))

/-- After the first stretch each group's buffer holds the reference's stage for it. -/
theorem afterA_v5 (V : Valuation τ sig (Elt F)) :
    after opsA V (Proc.devRef .tc main_v5) = ReadP.val_main_v5 (F := F) (V (Proc.devRef .tc main_arg0)) (V (Proc.devRef .tc main_arg2)) (V (Proc.devRef .tc main_arg3)) := by
  after_results_simp <;> rfl

theorem afterA_v11 (V : Valuation τ sig (Elt F)) :
    after opsA V (Proc.devRef .tc main_v11) = ReadP.val_main_v11 (F := F) (V (Proc.devRef .tc main_arg0)) (V (Proc.devRef .tc main_arg4)) (V (Proc.devRef .tc main_arg5)) := by
  after_results_simp <;> rfl

theorem afterA_v17 (V : Valuation τ sig (Elt F)) :
    after opsA V (Proc.devRef .tc main_v17) = ReadP.val_main_v17 (F := F) (V (Proc.devRef .tc main_arg0)) (V (Proc.devRef .tc main_arg6)) (V (Proc.devRef .tc main_arg7)) := by
  after_results_simp <;> rfl

theorem afterA_arg1 (V : Valuation τ sig (Elt F)) :
    after opsA V (Proc.devRef .tc main_arg1) = V (Proc.devRef .tc main_arg1) := by
  after_results_simp <;> rfl

theorem afterA_arg8 (V : Valuation τ sig (Elt F)) :
    after opsA V (Proc.devRef .tc main_arg8) = V (Proc.devRef .tc main_arg8) := by
  after_results_simp <;> rfl

theorem afterA_arg9 (V : Valuation τ sig (Elt F)) :
    after opsA V (Proc.devRef .tc main_arg9) = V (Proc.devRef .tc main_arg9) := by
  after_results_simp <;> rfl

theorem afterA_arg10 (V : Valuation τ sig (Elt F)) :
    after opsA V (Proc.devRef .tc main_arg10) = V (Proc.devRef .tc main_arg10) := by
  after_results_simp <;> rfl

theorem afterA_arg11 (V : Valuation τ sig (Elt F)) :
    after opsA V (Proc.devRef .tc main_arg11) = V (Proc.devRef .tc main_arg11) := by
  after_results_simp <;> rfl

/-- The joining operation, from any contents. -/
theorem afterN_v18 (W : Valuation τ sig (Elt F)) :
    after opsN W (Proc.devRef .tc main_v18)
      = concatenate S16384x768 1 [⟨S16384x256, (W (Proc.devRef .tc main_v5) : (⟨S16384x256, .f32⟩ : BufTy).Contents (Elt F))⟩,
          ⟨S16384x256, (W (Proc.devRef .tc main_v11) : (⟨S16384x256, .f32⟩ : BufTy).Contents (Elt F))⟩,
          ⟨S16384x256, (W (Proc.devRef .tc main_v17) : (⟨S16384x256, .f32⟩ : BufTy).Contents (Elt F))⟩]
          concatenates_S16384x256_S16384x256_S16384x256_S16384x768_d1 := by
  simp only [after_cons, after_nil]
  rw [nary3_result]
  rfl

theorem afterN_arg1 (W : Valuation τ sig (Elt F)) :
    after opsN W (Proc.devRef .tc main_arg1) = W (Proc.devRef .tc main_arg1) := by
  after_results_simp <;> rfl

theorem afterN_arg8 (W : Valuation τ sig (Elt F)) :
    after opsN W (Proc.devRef .tc main_arg8) = W (Proc.devRef .tc main_arg8) := by
  after_results_simp <;> rfl

theorem afterN_arg9 (W : Valuation τ sig (Elt F)) :
    after opsN W (Proc.devRef .tc main_arg9) = W (Proc.devRef .tc main_arg9) := by
  after_results_simp <;> rfl

theorem afterN_arg10 (W : Valuation τ sig (Elt F)) :
    after opsN W (Proc.devRef .tc main_arg10) = W (Proc.devRef .tc main_arg10) := by
  after_results_simp <;> rfl

theorem afterN_arg11 (W : Valuation τ sig (Elt F)) :
    after opsN W (Proc.devRef .tc main_arg11) = W (Proc.devRef .tc main_arg11) := by
  after_results_simp <;> rfl

set_option maxRecDepth 8192 in
/-- The second stretch, from any contents. -/
theorem afterB_v29 (W : Valuation τ sig (Elt F)) :
    after opsB W (Proc.devRef .tc main_v29)
      = stB (W (Proc.devRef .tc main_v18)) (W (Proc.devRef .tc main_arg1)) (W (Proc.devRef .tc main_arg8))
          (W (Proc.devRef .tc main_arg9)) (W (Proc.devRef .tc main_arg10)) (W (Proc.devRef .tc main_arg11)) := by
  after_results_simp <;> rfl

set_option maxRecDepth 8192 in
/-- The third stretch, from any contents. -/
theorem afterC_v30 (W : Valuation τ sig (Elt F)) :
    after opsC W (Proc.devRef .tc main_v30) = stC (W (Proc.devRef .tc main_v29)) := by
  after_results_simp
  simp only [cast_eq]
  rfl

set_option maxRecDepth 8192 in
/-- The stages composed are the reference's last stage. -/
theorem st_eq (x0) (x1) (x2) (x3) (x4) (x5) (x6) (x7) (x8) (x9) (x10) (x11) :
    stC (stB (concatenate S16384x768 1 [⟨S16384x256, ReadP.val_main_v5 (F := F) x0 x2 x3⟩,
        ⟨S16384x256, ReadP.val_main_v11 (F := F) x0 x4 x5⟩, ⟨S16384x256, ReadP.val_main_v17 (F := F) x0 x6 x7⟩]
        concatenates_S16384x256_S16384x256_S16384x256_S16384x768_d1) x1 x8 x9 x10 x11)
      = ReadP.val_main_v30 (F := F) x0 x1 x2 x3 x4 x5 x6 x7 x8 x9 x10 x11 := rfl

/-- **After the whole line the result buffer holds the reference's last stage of the arguments.** -/
theorem after_v30 (V : Valuation τ sig (Elt F)) :
    after ops V (Proc.devRef .tc main_v30)
      = ReadP.val_main_v30 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [ops_split, after_append, after_append, after_append, afterC_v30, afterB_v29, afterN_v18, afterN_arg1, afterN_arg8,
    afterN_arg9, afterN_arg10, afterN_arg11, afterA_v5, afterA_v11, afterA_v17, afterA_arg1, afterA_arg8, afterA_arg9,
    afterA_arg10, afterA_arg11]
  exact st_eq ..

/-! ## The run -/

set_option maxRecDepth 8192 in
set_option maxHeartbeats 2000000 in
/-- On every device, from any memory with zero counters: every weakly fair execution of @main terminates with the result
    at the reference's last stage of the arguments and the arguments unchanged. -/
theorem ref_run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v30) = ReadP.val_main_v30 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v30).trans (after_v30 _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl)⟩)
    (run_seq scopedRefs_eq scopedSems_eq defs main (fun _ => ops) main_eq (fun _ => ops_sub) m ρ)

end Cert.RefRun

end
-- ==== Proof.lean ====
/-
  The five claims. The word-level kernel and its idealization are the same three pipelines after the same host
  operations; each runs to the end and leaves every argument as launched (the run of the whole program, stage by stage).
  The idealized kernel replaces, in the two graph convolutions, "narrow the adjacency block and widen it again" by the
  block itself: over the extended reals that is the identity, over words the rounding through the narrow format.
  Over the extended reals, with real adjacency entries, the kernel's three arrays are the specification's hidden rows
  times weights, floored first convolution times weights, and log-softmax of the second convolution; the reference's
  operations, read one at a time, are the same functions.
-/
import proofs.«138483_j40407052320948_2_alg».proof.Defs
import proofs.«138483_j40407052320948_2_alg».proof.Proof.Gen.Kernel
import proofs.«138483_j40407052320948_2_alg».proof.Proof.Gen.KernelIdeal
import proofs.«138483_j40407052320948_2_alg».proof.Proof.Gen.ReferenceIdeal
import proofs.«138483_j40407052320948_2_alg».proof.Proof.Gen.Pre_finite_inputs
import proofs.«138483_j40407052320948_2_alg».proof.Proof.WholeW
import proofs.«138483_j40407052320948_2_alg».proof.Proof.Assemble
import proofs.«138483_j40407052320948_2_alg».proof.Proof.GlueFin
import proofs.«138483_j40407052320948_2_alg».proof.Proof.RefRead
import proofs.«138483_j40407052320948_2_alg».proof.Proof.RefRun
import Idealize.ShloMosaic.Adequacy
import Idealize.ShloMosaic.Init

noncomputable section

namespace Cert.Proof

open Idealize.ShloMosaic Idealize.ShloMosaic.ValueIdx Idealize.SL.Sem

theorem frame_k : Cert.frame_Kernel (hKernel := Cert.Kernel.Gen.facts) (hPre_finite_inputs := Cert.Pre_finite_inputs.Gen.facts) :=
  fun m ρ _ => Cert.Kernel.Whole.frame m ρ
theorem frame_ki : Cert.frame_KernelIdeal (hKernelIdeal := Cert.KernelIdeal.Gen.facts) (hPre_finite_inputs := Cert.Pre_finite_inputs.Gen.facts) :=
  fun m ρ _ => Cert.KernelIdeal.Whole.frame m ρ
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.RefRun.ref_run m ρ)

/-- The two rewrites of the idealization: widening a narrowed block back is the identity on extended reals. -/
theorem preserves : Cert.preserves_Kernel_KernelIdeal :=
  ⟨IdealRules.truncf_extf.statement Cert.KernelIdeal.S4096x512 .f32 .bf16, IdealRules.truncf_extf.statement Cert.KernelIdeal.S4096x512 .f32 .bf16⟩

/-- The common result: the specification's network of the kernel's argument arrays. -/
def res (m : (ℓ : Loc Cert.KernelIdeal.nD Cert.KernelIdeal.τ Cert.KernelIdeal.sig) → Buf (Elt Ideal) ℓ) (c : Dev Cert.KernelIdeal.nD) :
    Cert.KernelIdeal.S16384x32.Idx → EReal := fun i =>
  Cert.Spec.out (Cert.KernelIdeal.Whole.a0 m c) (Cert.KernelIdeal.Whole.a1 m c) (Cert.KernelIdeal.Whole.a2 m c) (Cert.KernelIdeal.Whole.a3 m c) (Cert.KernelIdeal.Whole.a4 m c) (Cert.KernelIdeal.Whole.a5 m c) (Cert.KernelIdeal.Whole.a6 m c) (Cert.KernelIdeal.Whole.a7 m c) (Cert.KernelIdeal.Whole.a8 m c) (Cert.KernelIdeal.Whole.a9 m c) (Cert.KernelIdeal.Whole.a10 m c) (Cert.KernelIdeal.Whole.a11 m c) ⟨(i 0).val, (i 0).isLt⟩ ⟨(i 1).val, (i 1).isLt⟩

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => res m c, ?_, ?_⟩
  · refine (θ_run Cert.KernelIdeal.defs _ _).mono (fun r h c => ⟨?_, (h c _ (Cert.KernelIdeal.Whole.mem_uc Cert.KernelIdeal.main_arg0 (by decide))).trans (Cert.KernelIdeal.Whole.W4_main_arg0 m ρ c),
      (h c _ (Cert.KernelIdeal.Whole.mem_uc Cert.KernelIdeal.main_arg1 (by decide))).trans (Cert.KernelIdeal.Whole.W4_main_arg1 m ρ c),
      (h c _ (Cert.KernelIdeal.Whole.mem_uc Cert.KernelIdeal.main_arg2 (by decide))).trans (Cert.KernelIdeal.Whole.W4_main_arg2 m ρ c),
      (h c _ (Cert.KernelIdeal.Whole.mem_uc Cert.KernelIdeal.main_arg3 (by decide))).trans (Cert.KernelIdeal.Whole.W4_main_arg3 m ρ c),
      (h c _ (Cert.KernelIdeal.Whole.mem_uc Cert.KernelIdeal.main_arg4 (by decide))).trans (Cert.KernelIdeal.Whole.W4_main_arg4 m ρ c),
      (h c _ (Cert.KernelIdeal.Whole.mem_uc Cert.KernelIdeal.main_arg5 (by decide))).trans (Cert.KernelIdeal.Whole.W4_main_arg5 m ρ c),
      (h c _ (Cert.KernelIdeal.Whole.mem_uc Cert.KernelIdeal.main_arg6 (by decide))).trans (Cert.KernelIdeal.Whole.W4_main_arg6 m ρ c),
      (h c _ (Cert.KernelIdeal.Whole.mem_uc Cert.KernelIdeal.main_arg7 (by decide))).trans (Cert.KernelIdeal.Whole.W4_main_arg7 m ρ c),
      (h c _ (Cert.KernelIdeal.Whole.mem_uc Cert.KernelIdeal.main_arg8 (by decide))).trans (Cert.KernelIdeal.Whole.W4_main_arg8 m ρ c),
      (h c _ (Cert.KernelIdeal.Whole.mem_uc Cert.KernelIdeal.main_arg9 (by decide))).trans (Cert.KernelIdeal.Whole.W4_main_arg9 m ρ c),
      (h c _ (Cert.KernelIdeal.Whole.mem_uc Cert.KernelIdeal.main_arg10 (by decide))).trans (Cert.KernelIdeal.Whole.W4_main_arg10 m ρ c),
      (h c _ (Cert.KernelIdeal.Whole.mem_uc Cert.KernelIdeal.main_arg11 (by decide))).trans (Cert.KernelIdeal.Whole.W4_main_arg11 m ρ c)⟩) (Cert.KernelIdeal.Whole.run_all m ρ)
    exact (h c _ (Cert.KernelIdeal.Whole.mem_uc Cert.KernelIdeal.main_v19 (by decide))).trans
      (Cert.KernelIdeal.Whole.result_eq m ρ c (fun i => Cert.Glue.adj_real m hpre c i))
  · refine (θ_run Cert.ReferenceIdeal.defs _ _).mono (fun r h c => ⟨(h c).1.trans ?_, (h c).2⟩) (Cert.RefRun.ref_run m' ρ')
    obtain ⟨e0, e1, e2, e3, e4, e5, e6, e7, e8, e9, e10, e11⟩ := hagree c
    rw [e0, e1, e2, e3, e4, e5, e6, e7, e8, e9, e10, e11]
    funext i
    obtain ⟨r', q, rfl⟩ : ∃ (r' : Fin 16384) (q : Fin 32), i = ix2 r' q := ⟨i 0, i 1, eq_ix2 i⟩
    exact Cert.RefRead.ref_out _ _ _ _ _ _ _ _ _ _ _ _ r' q

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
